-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v225)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v225) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v270) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2 : Shape := ⟨2, ![50000, 2]⟩
abbrev S2x600000 : Shape := ⟨2, ![2, 600000]⟩
abbrev S600000x2 : Shape := ⟨2, ![600000, 2]⟩
abbrev S118x128 : Shape := ⟨2, ![118, 128]⟩
abbrev S4x128 : Shape := ⟨2, ![4, 128]⟩
abbrev S3x128 : Shape := ⟨2, ![3, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S5x128 : Shape := ⟨2, ![5, 128]⟩
abbrev S_ : Shape := ⟨0, ![]⟩

class Facts : Prop where
  bcast_S_S118x128 : S_.BroadcastsInDim S118x128 (![] : Fin 0 → Fin S118x128.rank)
  reducesTo_S118x128_S_d0_1 : S118x128.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S3x128 : S_.BroadcastsInDim S3x128 (![] : Fin 0 → Fin S3x128.rank)
  reducesTo_S3x128_S_d0_1 : S3x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S5x128 : S_.BroadcastsInDim S5x128 (![] : Fin 0 → Fin S5x128.rank)
  reducesTo_S5x128_S_d0_1 : S5x128.ReducesTo [0, 1] S_

variable [Facts]

def fn_part2 {F : FTy → Type} [FloatOps F] (main_arg10 : FVec F S128 .f32) (main_arg11 : FVec F S5x128 .f32) (main_arg12 : FVec F S5x128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S5x128 .f32 := Host.absf main_arg11
  let main_cst_14 : FVec F S_ .f32 := constant S_ .f32 0x7F800000#32
  let main_v40 : FVec F S5x128 .f32 := broadcastInDim S5x128 ![] bcast_S_S5x128 main_cst_14
  let main_v41 : IVec S5x128 1 := cmpf .olt main_v39 main_v40
  let main_c_15 : IVec S_ 1 := constantI S_ 1 1#1
  let main_v42 : IVec S_ 1 := (fun x v => Host.reduce IntOp.andi x v reducesTo_S5x128_S_d0_1 h_S_) main_v41 main_c_15
  let main_v43 : IVec S_ 1 := andi main_v38 main_v42
  let main_v44 : FVec F S5x128 .f32 := Host.absf main_arg12
  let main_cst_16 : FVec F S_ .f32 := constant S_ .f32 0x7F800000#32
  let main_v45 : FVec F S5x128 .f32 := broadcastInDim S5x128 ![] bcast_S_S5x128 main_cst_16
  let main_v46 : IVec S5x128 1 := cmpf .olt main_v44 main_v45
  let main_c_17 : IVec S_ 1 := constantI S_ 1 1#1
  let main_v47 : IVec S_ 1 := (fun x v => Host.reduce IntOp.andi x v reducesTo_S5x128_S_d0_1 h_S_) main_v46 main_c_17
  let main_v48 : IVec S_ 1 := andi main_v43 main_v47
  main_v48

def fn_part1 {F : FTy → Type} [FloatOps F] (main_arg7 : FVec F S128x256 .f32) (main_arg8 : FVec F S256 .f32) (main_arg9 : FVec F S256x128 .f32) (main_arg10 : FVec F S128 .f32) (main_arg11 : FVec F S5x128 .f32) (main_arg12 : FVec F S5x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S128x256 .f32 := Host.absf main_arg7
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg8
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg9
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg10 main_arg11 main_arg12 main_v33

def fn {F : FTy → Type} [FloatOps F] (main_arg0 : IVec S50000x2 32) (main_arg1 : IVec S2x600000 32) (main_arg2 : IVec S600000x2 32) (main_arg3 : FVec F S118x128 .f32) (main_arg4 : FVec F S4x128 .f32) (main_arg5 : FVec F S4x128 .f32) (main_arg6 : FVec F S3x128 .f32) (main_arg7 : FVec F S128x256 .f32) (main_arg8 : FVec F S256 .f32) (main_arg9 : FVec F S256x128 .f32) (main_arg10 : FVec F S128 .f32) (main_arg11 : FVec F S5x128 .f32) (main_arg12 : FVec F S5x128 .f32) : IVec S_ 1 :=
  let main_v0 : FVec F S118x128 .f32 := Host.absf main_arg3
  let main_cst : FVec F S_ .f32 := constant S_ .f32 0x7F800000#32
  let main_v1 : FVec F S118x128 .f32 := broadcastInDim S118x128 ![] bcast_S_S118x128 main_cst
  let main_v2 : IVec S118x128 1 := cmpf .olt main_v0 main_v1
  let main_c : IVec S_ 1 := constantI S_ 1 1#1
  let main_v3 : IVec S_ 1 := (fun x v => Host.reduce IntOp.andi x v reducesTo_S118x128_S_d0_1 h_S_) main_v2 main_c
  let main_v4 : FVec F S4x128 .f32 := Host.absf main_arg4
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S4x128 .f32 := Host.absf main_arg5
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S3x128 .f32 := Host.absf main_arg6
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg7 main_arg8 main_arg9 main_arg10 main_arg11 main_arg12 main_v13 main_v16
-- ==== Kernel.lean ====
abbrev S50000x2 : Shape := ⟨2, ![50000, 2]⟩
abbrev S2x600000 : Shape := ⟨2, ![2, 600000]⟩
abbrev S600000x2 : Shape := ⟨2, ![600000, 2]⟩
abbrev S118x128 : Shape := ⟨2, ![118, 128]⟩
abbrev S4x128 : Shape := ⟨2, ![4, 128]⟩
abbrev S3x128 : Shape := ⟨2, ![3, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S5x128 : Shape := ⟨2, ![5, 128]⟩
abbrev S50000x1 : Shape := ⟨2, ![50000, 1]⟩
abbrev S50000 : Shape := ⟨1, ![50000]⟩
abbrev S_ : Shape := ⟨0, ![]⟩
abbrev S50000x128 : Shape := ⟨2, ![50000, 128]⟩
abbrev S600000x1 : Shape := ⟨2, ![600000, 1]⟩
abbrev S600000 : Shape := ⟨1, ![600000]⟩
abbrev S600000x128 : Shape := ⟨2, ![600000, 128]⟩
abbrev S1x600000 : Shape := ⟨2, ![1, 600000]⟩
abbrev S5000x128 : Shape := ⟨2, ![5000, 128]⟩
abbrev S5000x256 : Shape := ⟨2, ![5000, 256]⟩
abbrev S1x256 : Shape := ⟨2, ![1, 256]⟩
abbrev S1x128 : Shape := ⟨2, ![1, 128]⟩

abbrev nBuf : Space → Nat
  | .hbm => 405
  | .vmem => 50
  | .smem => 0
  | _ => 0

abbrev hbmTy0_0 (i : Nat) : BufTy := match i % 128 with
  | 0 => ⟨S50000x2, .i32⟩
  | 1 => ⟨S2x600000, .i32⟩
  | 2 => ⟨S600000x2, .i32⟩
  | 3 => ⟨S118x128, .f32⟩
  | 4 => ⟨S4x128, .f32⟩
  | 5 => ⟨S4x128, .f32⟩
  | 6 => ⟨S3x128, .f32⟩
  | 7 => ⟨S128x256, .f32⟩
  | 8 => ⟨S256, .f32⟩
  | 9 => ⟨S256x128, .f32⟩
  | 10 => ⟨S128, .f32⟩
  | 11 => ⟨S5x128, .f32⟩
  | 12 => ⟨S5x128, .f32⟩
  | 13 => ⟨S50000x1, .i32⟩
  | 14 => ⟨S50000, .i32⟩
  | 15 => ⟨S50000x1, .i32⟩
  | 16 => ⟨S50000, .i32⟩
  | 17 => ⟨S_, .i32⟩
  | 18 => ⟨S50000, .i32⟩
  | 19 => ⟨S50000, .i1⟩
  | 20 => ⟨S_, .i32⟩
  | 21 => ⟨S50000, .i32⟩
  | 22 => ⟨S50000, .i32⟩
  | 23 => ⟨S50000, .i32⟩
  | 24 => ⟨S50000x1, .i32⟩
  | 25 => ⟨S50000x128, .f32⟩
  | 26 => ⟨S_, .i32⟩
  | 27 => ⟨S50000, .i32⟩
  | 28 => ⟨S50000, .i1⟩
  | 29 => ⟨S_, .i32⟩
  | 30 => ⟨S50000, .i32⟩
  | 31 => ⟨S50000, .i32⟩
  | 32 => ⟨S50000, .i32⟩
  | 33 => ⟨S50000x1, .i32⟩
  | 34 => ⟨S50000x128, .f32⟩
  | 35 => ⟨S50000x128, .f32⟩
  | 36 => ⟨S600000x1, .i32⟩
  | 37 => ⟨S600000, .i32⟩
  | 38 => ⟨S600000x1, .i32⟩
  | 39 => ⟨S600000, .i32⟩
  | 40 => ⟨S_, .i32⟩
  | 41 => ⟨S600000, .i32⟩
  | 42 => ⟨S600000, .i1⟩
  | 43 => ⟨S_, .i32⟩
  | 44 => ⟨S600000, .i32⟩
  | 45 => ⟨S600000, .i32⟩
  | 46 => ⟨S600000, .i32⟩
  | 47 => ⟨S600000x1, .i32⟩
  | 48 => ⟨S600000x128, .f32⟩
  | 49 => ⟨S_, .i32⟩
  | 50 => ⟨S600000, .i32⟩
  | 51 => ⟨S600000, .i1⟩
  | 52 => ⟨S_, .i32⟩
  | 53 => ⟨S600000, .i32⟩
  | 54 => ⟨S600000, .i32⟩
  | 55 => ⟨S600000, .i32⟩
  | 56 => ⟨S600000x1, .i32⟩
  | 57 => ⟨S600000x128, .f32⟩
  | 58 => ⟨S600000x128, .f32⟩
  | 59 => ⟨S1x600000, .i32⟩
  | 60 => ⟨S600000, .i32⟩
  | 61 => ⟨S1x600000, .i32⟩
  | 62 => ⟨S600000, .i32⟩
  | 63 => ⟨S_, .i32⟩
  | 64 => ⟨S600000, .i32⟩
  | 65 => ⟨S600000, .i1⟩
  | 66 => ⟨S_, .i32⟩
  | 67 => ⟨S600000, .i32⟩
  | 68 => ⟨S600000, .i32⟩
  | 69 => ⟨S600000, .i32⟩
  | 70 => ⟨S600000x1, .i32⟩
  | 71 => ⟨S600000x128, .f32⟩
  | 72 => ⟨S600000x128, .f32⟩
  | 73 => ⟨S_, .f32⟩
  | 74 => ⟨S600000x128, .f32⟩
  | 75 => ⟨S600000x128, .f32⟩
  | 76 => ⟨S_, .f32⟩
  | 77 => ⟨S50000x128, .f32⟩
  | 78 => ⟨S600000x1, .i32⟩
  | 79 => ⟨S50000x128, .f32⟩
  | 80 => ⟨S50000x128, .f32⟩
  | 81 => ⟨S_, .f32⟩
  | 82 => ⟨S128, .f32⟩
  | 83 => ⟨S_, .f32⟩
  | 84 => ⟨S128, .f32⟩
  | 85 => ⟨S128, .f32⟩
  | 86 => ⟨S_, .i32⟩
  | 87 => ⟨S_, .f32⟩
  | 88 => ⟨S128, .f32⟩
  | 89 => ⟨S1x128, .f32⟩
  | 90 => ⟨S_, .f32⟩
  | 91 => ⟨S1x128, .f32⟩
  | 92 => ⟨S1x128, .f32⟩
  | 93 => ⟨S50000x128, .f32⟩
  | 94 => ⟨S50000x128, .f32⟩
  | 95 => ⟨S50000x128, .f32⟩
  | 96 => ⟨S_, .f32⟩
  | 97 => ⟨S_, .f32⟩
  | 98 => ⟨S_, .f32⟩
  | 99 => ⟨S_, .f32⟩
  | 100 => ⟨S128, .f32⟩
  | 101 => ⟨S128, .f32⟩
  | 102 => ⟨S128, .f32⟩
  | 103 => ⟨S_, .f32⟩
  | 104 => ⟨S_, .i1⟩
  | 105 => ⟨S_, .f32⟩
  | 106 => ⟨S_, .f32⟩
  | 107 => ⟨S128, .f32⟩
  | 108 => ⟨S128, .f32⟩
  | 109 => ⟨S1x128, .f32⟩
  | 110 => ⟨S50000x128, .f32⟩
  | 111 => ⟨S50000x128, .f32⟩
  | 112 => ⟨S_, .f32⟩
  | 113 => ⟨S128, .f32⟩
  | 114 => ⟨S128, .f32⟩
  | 115 => ⟨S128, .f32⟩
  | 116 => ⟨S1x128, .f32⟩
  | 117 => ⟨S50000x128, .f32⟩
  | 118 => ⟨S50000x128, .f32⟩
  | 119 => ⟨S1x128, .f32⟩
  | 120 => ⟨S128, .f32⟩
  | 121 => ⟨S1x128, .f32⟩
  | 122 => ⟨S50000x128, .f32⟩
  | 123 => ⟨S50000x128, .f32⟩
  | 124 => ⟨S1x128, .f32⟩
  | 125 => ⟨S128, .f32⟩
  | 126 => ⟨S1x128, .f32⟩
  | 127 => ⟨S50000x128, .f32⟩
  | _ => ⟨S50000x2, .i32⟩

abbrev hbmTy0_1 (i : Nat) : BufTy := match i % 128 with
  | 0 => ⟨S50000x128, .f32⟩
  | 1 => ⟨S_, .f32⟩
  | 2 => ⟨S50000x128, .f32⟩
  | 3 => ⟨S50000x128, .f32⟩
  | 4 => ⟨S_, .i32⟩
  | 5 => ⟨S600000, .i32⟩
  | 6 => ⟨S600000, .i1⟩
  | 7 => ⟨S_, .i32⟩
  | 8 => ⟨S600000, .i32⟩
  | 9 => ⟨S600000, .i32⟩
  | 10 => ⟨S600000, .i32⟩
  | 11 => ⟨S600000x1, .i32⟩
  | 12 => ⟨S600000x128, .f32⟩
  | 13 => ⟨S600000x128, .f32⟩
  | 14 => ⟨S_, .f32⟩
  | 15 => ⟨S600000x128, .f32⟩
  | 16 => ⟨S600000x128, .f32⟩
  | 17 => ⟨S_, .f32⟩
  | 18 => ⟨S50000x128, .f32⟩
  | 19 => ⟨S600000x1, .i32⟩
  | 20 => ⟨S50000x128, .f32⟩
  | 21 => ⟨S50000x128, .f32⟩
  | 22 => ⟨S_, .f32⟩
  | 23 => ⟨S128, .f32⟩
  | 24 => ⟨S_, .f32⟩
  | 25 => ⟨S128, .f32⟩
  | 26 => ⟨S128, .f32⟩
  | 27 => ⟨S_, .i32⟩
  | 28 => ⟨S_, .f32⟩
  | 29 => ⟨S128, .f32⟩
  | 30 => ⟨S1x128, .f32⟩
  | 31 => ⟨S_, .f32⟩
  | 32 => ⟨S1x128, .f32⟩
  | 33 => ⟨S1x128, .f32⟩
  | 34 => ⟨S50000x128, .f32⟩
  | 35 => ⟨S50000x128, .f32⟩
  | 36 => ⟨S50000x128, .f32⟩
  | 37 => ⟨S_, .f32⟩
  | 38 => ⟨S_, .f32⟩
  | 39 => ⟨S_, .f32⟩
  | 40 => ⟨S_, .f32⟩
  | 41 => ⟨S128, .f32⟩
  | 42 => ⟨S128, .f32⟩
  | 43 => ⟨S128, .f32⟩
  | 44 => ⟨S_, .f32⟩
  | 45 => ⟨S_, .i1⟩
  | 46 => ⟨S_, .f32⟩
  | 47 => ⟨S_, .f32⟩
  | 48 => ⟨S128, .f32⟩
  | 49 => ⟨S128, .f32⟩
  | 50 => ⟨S1x128, .f32⟩
  | 51 => ⟨S50000x128, .f32⟩
  | 52 => ⟨S50000x128, .f32⟩
  | 53 => ⟨S_, .f32⟩
  | 54 => ⟨S128, .f32⟩
  | 55 => ⟨S128, .f32⟩
  | 56 => ⟨S128, .f32⟩
  | 57 => ⟨S1x128, .f32⟩
  | 58 => ⟨S50000x128, .f32⟩
  | 59 => ⟨S50000x128, .f32⟩
  | 60 => ⟨S1x128, .f32⟩
  | 61 => ⟨S128, .f32⟩
  | 62 => ⟨S1x128, .f32⟩
  | 63 => ⟨S50000x128, .f32⟩
  | 64 => ⟨S50000x128, .f32⟩
  | 65 => ⟨S1x128, .f32⟩
  | 66 => ⟨S128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S_, .i32⟩
  | 74 => ⟨S600000, .i32⟩
  | 75 => ⟨S600000, .i1⟩
  | 76 => ⟨S_, .i32⟩
  | 77 => ⟨S600000, .i32⟩
  | 78 => ⟨S600000, .i32⟩
  | 79 => ⟨S600000, .i32⟩
  | 80 => ⟨S600000x1, .i32⟩
  | 81 => ⟨S600000x128, .f32⟩
  | 82 => ⟨S600000x128, .f32⟩
  | 83 => ⟨S_, .f32⟩
  | 84 => ⟨S600000x128, .f32⟩
  | 85 => ⟨S600000x128, .f32⟩
  | 86 => ⟨S_, .f32⟩
  | 87 => ⟨S50000x128, .f32⟩
  | 88 => ⟨S600000x1, .i32⟩
  | 89 => ⟨S50000x128, .f32⟩
  | 90 => ⟨S50000x128, .f32⟩
  | 91 => ⟨S_, .f32⟩
  | 92 => ⟨S128, .f32⟩
  | 93 => ⟨S_, .f32⟩
  | 94 => ⟨S128, .f32⟩
  | 95 => ⟨S128, .f32⟩
  | 96 => ⟨S_, .i32⟩
  | 97 => ⟨S_, .f32⟩
  | 98 => ⟨S128, .f32⟩
  | 99 => ⟨S1x128, .f32⟩
  | 100 => ⟨S_, .f32⟩
  | 101 => ⟨S1x128, .f32⟩
  | 102 => ⟨S1x128, .f32⟩
  | 103 => ⟨S50000x128, .f32⟩
  | 104 => ⟨S50000x128, .f32⟩
  | 105 => ⟨S50000x128, .f32⟩
  | 106 => ⟨S_, .f32⟩
  | 107 => ⟨S_, .f32⟩
  | 108 => ⟨S_, .f32⟩
  | 109 => ⟨S_, .f32⟩
  | 110 => ⟨S128, .f32⟩
  | 111 => ⟨S128, .f32⟩
  | 112 => ⟨S128, .f32⟩
  | 113 => ⟨S_, .f32⟩
  | 114 => ⟨S_, .i1⟩
  | 115 => ⟨S_, .f32⟩
  | 116 => ⟨S_, .f32⟩
  | 117 => ⟨S128, .f32⟩
  | 118 => ⟨S128, .f32⟩
  | 119 => ⟨S1x128, .f32⟩
  | 120 => ⟨S50000x128, .f32⟩
  | 121 => ⟨S50000x128, .f32⟩
  | 122 => ⟨S_, .f32⟩
  | 123 => ⟨S128, .f32⟩
  | 124 => ⟨S128, .f32⟩
  | 125 => ⟨S128, .f32⟩
  | 126 => ⟨S1x128, .f32⟩
  | 127 => ⟨S50000x128, .f32⟩
  | _ => ⟨S50000x2, .i32⟩

abbrev hbmTy0_2 (i : Nat) : BufTy := match i % 128 with
  | 0 => ⟨S50000x128, .f32⟩
  | 1 => ⟨S1x128, .f32⟩
  | 2 => ⟨S128, .f32⟩
  | 3 => ⟨S1x128, .f32⟩
  | 4 => ⟨S50000x128, .f32⟩
  | 5 => ⟨S50000x128, .f32⟩
  | 6 => ⟨S1x128, .f32⟩
  | 7 => ⟨S128, .f32⟩
  | 8 => ⟨S1x128, .f32⟩
  | 9 => ⟨S50000x128, .f32⟩
  | 10 => ⟨S50000x128, .f32⟩
  | 11 => ⟨S_, .f32⟩
  | 12 => ⟨S50000x128, .f32⟩
  | 13 => ⟨S50000x128, .f32⟩
  | 14 => ⟨S_, .i32⟩
  | 15 => ⟨S600000, .i32⟩
  | 16 => ⟨S600000, .i1⟩
  | 17 => ⟨S_, .i32⟩
  | 18 => ⟨S600000, .i32⟩
  | 19 => ⟨S600000, .i32⟩
  | 20 => ⟨S600000, .i32⟩
  | 21 => ⟨S600000x1, .i32⟩
  | 22 => ⟨S600000x128, .f32⟩
  | 23 => ⟨S600000x128, .f32⟩
  | 24 => ⟨S_, .f32⟩
  | 25 => ⟨S600000x128, .f32⟩
  | 26 => ⟨S600000x128, .f32⟩
  | 27 => ⟨S_, .f32⟩
  | 28 => ⟨S50000x128, .f32⟩
  | 29 => ⟨S600000x1, .i32⟩
  | 30 => ⟨S50000x128, .f32⟩
  | 31 => ⟨S50000x128, .f32⟩
  | 32 => ⟨S_, .f32⟩
  | 33 => ⟨S128, .f32⟩
  | 34 => ⟨S_, .f32⟩
  | 35 => ⟨S128, .f32⟩
  | 36 => ⟨S128, .f32⟩
  | 37 => ⟨S_, .i32⟩
  | 38 => ⟨S_, .f32⟩
  | 39 => ⟨S128, .f32⟩
  | 40 => ⟨S1x128, .f32⟩
  | 41 => ⟨S_, .f32⟩
  | 42 => ⟨S1x128, .f32⟩
  | 43 => ⟨S1x128, .f32⟩
  | 44 => ⟨S50000x128, .f32⟩
  | 45 => ⟨S50000x128, .f32⟩
  | 46 => ⟨S50000x128, .f32⟩
  | 47 => ⟨S_, .f32⟩
  | 48 => ⟨S_, .f32⟩
  | 49 => ⟨S_, .f32⟩
  | 50 => ⟨S_, .f32⟩
  | 51 => ⟨S128, .f32⟩
  | 52 => ⟨S128, .f32⟩
  | 53 => ⟨S128, .f32⟩
  | 54 => ⟨S_, .f32⟩
  | 55 => ⟨S_, .i1⟩
  | 56 => ⟨S_, .f32⟩
  | 57 => ⟨S_, .f32⟩
  | 58 => ⟨S128, .f32⟩
  | 59 => ⟨S128, .f32⟩
  | 60 => ⟨S1x128, .f32⟩
  | 61 => ⟨S50000x128, .f32⟩
  | 62 => ⟨S50000x128, .f32⟩
  | 63 => ⟨S_, .f32⟩
  | 64 => ⟨S128, .f32⟩
  | 65 => ⟨S128, .f32⟩
  | 66 => ⟨S128, .f32⟩
  | 67 => ⟨S1x128, .f32⟩
  | 68 => ⟨S50000x128, .f32⟩
  | 69 => ⟨S50000x128, .f32⟩
  | 70 => ⟨S1x128, .f32⟩
  | 71 => ⟨S128, .f32⟩
  | 72 => ⟨S1x128, .f32⟩
  | 73 => ⟨S50000x128, .f32⟩
  | 74 => ⟨S50000x128, .f32⟩
  | 75 => ⟨S1x128, .f32⟩
  | 76 => ⟨S128, .f32⟩
  | 77 => ⟨S1x128, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S_, .i32⟩
  | 84 => ⟨S600000, .i32⟩
  | 85 => ⟨S600000, .i1⟩
  | 86 => ⟨S_, .i32⟩
  | 87 => ⟨S600000, .i32⟩
  | 88 => ⟨S600000, .i32⟩
  | 89 => ⟨S600000, .i32⟩
  | 90 => ⟨S600000x1, .i32⟩
  | 91 => ⟨S600000x128, .f32⟩
  | 92 => ⟨S600000x128, .f32⟩
  | 93 => ⟨S_, .f32⟩
  | 94 => ⟨S600000x128, .f32⟩
  | 95 => ⟨S600000x128, .f32⟩
  | 96 => ⟨S_, .f32⟩
  | 97 => ⟨S50000x128, .f32⟩
  | 98 => ⟨S600000x1, .i32⟩
  | 99 => ⟨S50000x128, .f32⟩
  | 100 => ⟨S50000x128, .f32⟩
  | 101 => ⟨S_, .f32⟩
  | 102 => ⟨S128, .f32⟩
  | 103 => ⟨S_, .f32⟩
  | 104 => ⟨S128, .f32⟩
  | 105 => ⟨S128, .f32⟩
  | 106 => ⟨S_, .i32⟩
  | 107 => ⟨S_, .f32⟩
  | 108 => ⟨S128, .f32⟩
  | 109 => ⟨S1x128, .f32⟩
  | 110 => ⟨S_, .f32⟩
  | 111 => ⟨S1x128, .f32⟩
  | 112 => ⟨S1x128, .f32⟩
  | 113 => ⟨S50000x128, .f32⟩
  | 114 => ⟨S50000x128, .f32⟩
  | 115 => ⟨S50000x128, .f32⟩
  | 116 => ⟨S_, .f32⟩
  | 117 => ⟨S_, .f32⟩
  | 118 => ⟨S_, .f32⟩
  | 119 => ⟨S_, .f32⟩
  | 120 => ⟨S128, .f32⟩
  | 121 => ⟨S128, .f32⟩
  | 122 => ⟨S128, .f32⟩
  | 123 => ⟨S_, .f32⟩
  | 124 => ⟨S_, .i1⟩
  | 125 => ⟨S_, .f32⟩
  | 126 => ⟨S_, .f32⟩
  | 127 => ⟨S128, .f32⟩
  | _ => ⟨S50000x2, .i32⟩

abbrev hbmTy0_3 (i : Nat) : BufTy := match i % 128 with
  | 0 => ⟨S128, .f32⟩
  | 1 => ⟨S1x128, .f32⟩
  | 2 => ⟨S50000x128, .f32⟩
  | 3 => ⟨S50000x128, .f32⟩
  | 4 => ⟨S_, .f32⟩
  | 5 => ⟨S128, .f32⟩
  | 6 => ⟨S128, .f32⟩
  | 7 => ⟨S128, .f32⟩
  | 8 => ⟨S1x128, .f32⟩
  | 9 => ⟨S50000x128, .f32⟩
  | 10 => ⟨S50000x128, .f32⟩
  | 11 => ⟨S1x128, .f32⟩
  | 12 => ⟨S128, .f32⟩
  | 13 => ⟨S1x128, .f32⟩
  | 14 => ⟨S50000x128, .f32⟩
  | 15 => ⟨S50000x128, .f32⟩
  | 16 => ⟨S1x128, .f32⟩
  | 17 => ⟨S128, .f32⟩
  | 18 => ⟨S1x128, .f32⟩
  | 19 => ⟨S50000x128, .f32⟩
  | 20 => ⟨S50000x128, .f32⟩
  | _ => ⟨S50000x2, .i32⟩

abbrev hbmTy (i : Nat) : BufTy := match i / 128 with
  | 0 => hbmTy0_0 i
  | 1 => hbmTy0_1 i
  | 2 => hbmTy0_2 i
  | 3 => hbmTy0_3 i
  | _ => ⟨S50000x2, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .f32⟩
  | .local _ .vmem, ⟨5, _⟩ => ⟨S256, .f32⟩
  | .local _ .vmem, ⟨6, _⟩ => ⟨S256x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x256, .f32⟩
  | .local _ .vmem, ⟨15, _⟩ => ⟨S256, .f32⟩
  | .local _ .vmem, ⟨16, _⟩ => ⟨S256x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x256, .f32⟩
  | .local _ .vmem, ⟨25, _⟩ => ⟨S256, .f32⟩
  | .local _ .vmem, ⟨26, _⟩ => ⟨S256x128, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x256, .f32⟩
  | .local _ .vmem, ⟨35, _⟩ => ⟨S256, .f32⟩
  | .local _ .vmem, ⟨36, _⟩ => ⟨S256x128, .f32⟩
  | .local _ .vmem, ⟨37, _⟩ => ⟨S128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x256, .f32⟩
  | .local _ .vmem, ⟨45, _⟩ => ⟨S256, .f32⟩
  | .local _ .vmem, ⟨46, _⟩ => ⟨S256x128, .f32⟩
  | .local _ .vmem, ⟨47, _⟩ => ⟨S128, .f32⟩
  | .local _ .vmem, ⟨48, _⟩ => ⟨S5000x128, .f32⟩
  | .local _ .vmem, ⟨49, _⟩ => ⟨S5000x128, .f32⟩
  | _, _ => ⟨S50000x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_7 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call0_cst : Ref sig .tc := ⟨.hbm, 73, rfl⟩
abbrev main_call0_v0 : Ref sig .tc := ⟨.hbm, 74, rfl⟩
abbrev main_v50 : Ref sig .tc := ⟨.hbm, 75, rfl⟩
abbrev main_cst : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_9 : Ref sig .tc := ⟨.hbm, 81, rfl⟩
abbrev main_v55 : Ref sig .tc := ⟨.hbm, 82, rfl⟩
abbrev main_cst_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_call1_cst : Ref sig .tc := ⟨.hbm, 87, rfl⟩
abbrev main_call1_v0 : Ref sig .tc := ⟨.hbm, 88, rfl⟩
abbrev main_call1_v1 : Ref sig .tc := ⟨.hbm, 89, rfl⟩
abbrev main_call1_cst_0 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_call1_v5 : Ref sig .tc := ⟨.hbm, 94, rfl⟩
abbrev main_call1_v6 : Ref sig .tc := ⟨.hbm, 95, rfl⟩
abbrev main_call1_v7 : Ref sig .tc := ⟨.hbm, 96, rfl⟩
abbrev main_call1_cst_1 : Ref sig .tc := ⟨.hbm, 97, rfl⟩
abbrev main_call1_v8 : Ref sig .tc := ⟨.hbm, 98, rfl⟩
abbrev main_call1_cst_2 : Ref sig .tc := ⟨.hbm, 99, rfl⟩
abbrev main_call1_v9 : Ref sig .tc := ⟨.hbm, 100, rfl⟩
abbrev main_call1_v10 : Ref sig .tc := ⟨.hbm, 101, rfl⟩
abbrev main_call1_v11 : Ref sig .tc := ⟨.hbm, 102, rfl⟩
abbrev main_call1_cst_3 : Ref sig .tc := ⟨.hbm, 103, rfl⟩
abbrev main_call1_v12 : Ref sig .tc := ⟨.hbm, 104, rfl⟩
abbrev main_call1_cst_4 : Ref sig .tc := ⟨.hbm, 105, rfl⟩
abbrev main_call1_call0_v0 : Ref sig .tc := ⟨.hbm, 106, rfl⟩
abbrev main_call1_call0_v1 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_cst_12 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_call2_cst : Ref sig .tc := ⟨.hbm, 129, rfl⟩
abbrev main_call2_v0 : Ref sig .tc := ⟨.hbm, 130, rfl⟩
abbrev main_v78 : Ref sig .tc := ⟨.hbm, 131, rfl⟩
abbrev main_c_13 : Ref sig .tc := ⟨.hbm, 132, rfl⟩
abbrev main_v79 : Ref sig .tc := ⟨.hbm, 133, rfl⟩
abbrev main_v80 : Ref sig .tc := ⟨.hbm, 134, rfl⟩
abbrev main_c_14 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_call3_cst : Ref sig .tc := ⟨.hbm, 142, rfl⟩
abbrev main_call3_v0 : Ref sig .tc := ⟨.hbm, 143, rfl⟩
abbrev main_v87 : Ref sig .tc := ⟨.hbm, 144, rfl⟩
abbrev main_cst_15 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_cst_16 : Ref sig .tc := ⟨.hbm, 150, rfl⟩
abbrev main_v92 : Ref sig .tc := ⟨.hbm, 151, rfl⟩
abbrev main_cst_17 : Ref sig .tc := ⟨.hbm, 152, rfl⟩
abbrev main_v93 : Ref sig .tc := ⟨.hbm, 153, rfl⟩
abbrev main_v94 : Ref sig .tc := ⟨.hbm, 154, rfl⟩
abbrev main_c_18 : Ref sig .tc := ⟨.hbm, 155, rfl⟩
abbrev main_call4_cst : Ref sig .tc := ⟨.hbm, 156, rfl⟩
abbrev main_call4_v0 : Ref sig .tc := ⟨.hbm, 157, rfl⟩
abbrev main_call4_v1 : Ref sig .tc := ⟨.hbm, 158, rfl⟩
abbrev main_call4_cst_0 : Ref sig .tc := ⟨.hbm, 159, rfl⟩
abbrev main_call4_v2 : Ref sig .tc := ⟨.hbm, 160, rfl⟩
abbrev main_call4_v3 : Ref sig .tc := ⟨.hbm, 161, rfl⟩
abbrev main_call4_v4 : Ref sig .tc := ⟨.hbm, 162, rfl⟩
abbrev main_call4_v5 : Ref sig .tc := ⟨.hbm, 163, rfl⟩
abbrev main_call4_v6 : Ref sig .tc := ⟨.hbm, 164, rfl⟩
abbrev main_call4_v7 : Ref sig .tc := ⟨.hbm, 165, rfl⟩
abbrev main_call4_cst_1 : Ref sig .tc := ⟨.hbm, 166, rfl⟩
abbrev main_call4_v8 : Ref sig .tc := ⟨.hbm, 167, rfl⟩
abbrev main_call4_cst_2 : Ref sig .tc := ⟨.hbm, 168, rfl⟩
abbrev main_call4_v9 : Ref sig .tc := ⟨.hbm, 169, rfl⟩
abbrev main_call4_v10 : Ref sig .tc := ⟨.hbm, 170, rfl⟩
abbrev main_call4_v11 : Ref sig .tc := ⟨.hbm, 171, rfl⟩
abbrev main_call4_cst_3 : Ref sig .tc := ⟨.hbm, 172, rfl⟩
abbrev main_call4_v12 : Ref sig .tc := ⟨.hbm, 173, rfl⟩
abbrev main_call4_cst_4 : Ref sig .tc := ⟨.hbm, 174, rfl⟩
abbrev main_call4_call0_v0 : Ref sig .tc := ⟨.hbm, 175, rfl⟩
abbrev main_call4_call0_v1 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_cst_19 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_call5_cst : Ref sig .tc := ⟨.hbm, 198, rfl⟩
abbrev main_call5_v0 : Ref sig .tc := ⟨.hbm, 199, rfl⟩
abbrev main_v115 : Ref sig .tc := ⟨.hbm, 200, rfl⟩
abbrev main_c_20 : Ref sig .tc := ⟨.hbm, 201, rfl⟩
abbrev main_v116 : Ref sig .tc := ⟨.hbm, 202, rfl⟩
abbrev main_v117 : Ref sig .tc := ⟨.hbm, 203, rfl⟩
abbrev main_c_21 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_call6_cst : Ref sig .tc := ⟨.hbm, 211, rfl⟩
abbrev main_call6_v0 : Ref sig .tc := ⟨.hbm, 212, rfl⟩
abbrev main_v124 : Ref sig .tc := ⟨.hbm, 213, rfl⟩
abbrev main_cst_22 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_cst_23 : Ref sig .tc := ⟨.hbm, 219, rfl⟩
abbrev main_v129 : Ref sig .tc := ⟨.hbm, 220, rfl⟩
abbrev main_cst_24 : Ref sig .tc := ⟨.hbm, 221, rfl⟩
abbrev main_v130 : Ref sig .tc := ⟨.hbm, 222, rfl⟩
abbrev main_v131 : Ref sig .tc := ⟨.hbm, 223, rfl⟩
abbrev main_c_25 : Ref sig .tc := ⟨.hbm, 224, rfl⟩
abbrev main_call7_cst : Ref sig .tc := ⟨.hbm, 225, rfl⟩
abbrev main_call7_v0 : Ref sig .tc := ⟨.hbm, 226, rfl⟩
abbrev main_call7_v1 : Ref sig .tc := ⟨.hbm, 227, rfl⟩
abbrev main_call7_cst_0 : Ref sig .tc := ⟨.hbm, 228, rfl⟩
abbrev main_call7_v2 : Ref sig .tc := ⟨.hbm, 229, rfl⟩
abbrev main_call7_v3 : Ref sig .tc := ⟨.hbm, 230, rfl⟩
abbrev main_call7_v4 : Ref sig .tc := ⟨.hbm, 231, rfl⟩
abbrev main_call7_v5 : Ref sig .tc := ⟨.hbm, 232, rfl⟩
abbrev main_call7_v6 : Ref sig .tc := ⟨.hbm, 233, rfl⟩
abbrev main_call7_v7 : Ref sig .tc := ⟨.hbm, 234, rfl⟩
abbrev main_call7_cst_1 : Ref sig .tc := ⟨.hbm, 235, rfl⟩
abbrev main_call7_v8 : Ref sig .tc := ⟨.hbm, 236, rfl⟩
abbrev main_call7_cst_2 : Ref sig .tc := ⟨.hbm, 237, rfl⟩
abbrev main_call7_v9 : Ref sig .tc := ⟨.hbm, 238, rfl⟩
abbrev main_call7_v10 : Ref sig .tc := ⟨.hbm, 239, rfl⟩
abbrev main_call7_v11 : Ref sig .tc := ⟨.hbm, 240, rfl⟩
abbrev main_call7_cst_3 : Ref sig .tc := ⟨.hbm, 241, rfl⟩
abbrev main_call7_v12 : Ref sig .tc := ⟨.hbm, 242, rfl⟩
abbrev main_call7_cst_4 : Ref sig .tc := ⟨.hbm, 243, rfl⟩
abbrev main_call7_call0_v0 : Ref sig .tc := ⟨.hbm, 244, rfl⟩
abbrev main_call7_call0_v1 : Ref sig .tc := ⟨.hbm, 245, rfl⟩
abbrev main_v132 : Ref sig .tc := ⟨.hbm, 246, rfl⟩
abbrev main_v133 : Ref sig .tc := ⟨.hbm, 247, rfl⟩
abbrev main_v134 : Ref sig .tc := ⟨.hbm, 248, rfl⟩
abbrev main_v135 : Ref sig .tc := ⟨.hbm, 249, rfl⟩
abbrev main_cst_26 : Ref sig .tc := ⟨.hbm, 250, rfl⟩
abbrev main_v136 : Ref sig .tc := ⟨.hbm, 251, rfl⟩
abbrev main_v137 : Ref sig .tc := ⟨.hbm, 252, rfl⟩
abbrev main_v138 : Ref sig .tc := ⟨.hbm, 253, rfl⟩
abbrev main_v139 : Ref sig .tc := ⟨.hbm, 254, rfl⟩
abbrev main_v140 : Ref sig .tc := ⟨.hbm, 255, rfl⟩
abbrev main_v141 : Ref sig .tc := ⟨.hbm, 256, rfl⟩
abbrev main_v142 : Ref sig .tc := ⟨.hbm, 257, rfl⟩
abbrev main_v143 : Ref sig .tc := ⟨.hbm, 258, rfl⟩
abbrev main_v144 : Ref sig .tc := ⟨.hbm, 259, rfl⟩
abbrev main_v145 : Ref sig .tc := ⟨.hbm, 260, rfl⟩
abbrev main_v146 : Ref sig .tc := ⟨.hbm, 261, rfl⟩
abbrev main_v147 : Ref sig .tc := ⟨.hbm, 262, rfl⟩
abbrev main_v148 : Ref sig .tc := ⟨.hbm, 263, rfl⟩
abbrev main_v149 : Ref sig .tc := ⟨.hbm, 264, rfl⟩
abbrev main_v150 : Ref sig .tc := ⟨.hbm, 265, rfl⟩
abbrev main_v151 : Ref sig .tc := ⟨.hbm, 266, rfl⟩
abbrev main_call8_cst : Ref sig .tc := ⟨.hbm, 267, rfl⟩
abbrev main_call8_v0 : Ref sig .tc := ⟨.hbm, 268, rfl⟩
abbrev main_v152 : Ref sig .tc := ⟨.hbm, 269, rfl⟩
abbrev main_c_27 : Ref sig .tc := ⟨.hbm, 270, rfl⟩
abbrev main_v153 : Ref sig .tc := ⟨.hbm, 271, rfl⟩
abbrev main_v154 : Ref sig .tc := ⟨.hbm, 272, rfl⟩
abbrev main_c_28 : Ref sig .tc := ⟨.hbm, 273, rfl⟩
abbrev main_v155 : Ref sig .tc := ⟨.hbm, 274, rfl⟩
abbrev main_v156 : Ref sig .tc := ⟨.hbm, 275, rfl⟩
abbrev main_v157 : Ref sig .tc := ⟨.hbm, 276, rfl⟩
abbrev main_v158 : Ref sig .tc := ⟨.hbm, 277, rfl⟩
abbrev main_v159 : Ref sig .tc := ⟨.hbm, 278, rfl⟩
abbrev main_v160 : Ref sig .tc := ⟨.hbm, 279, rfl⟩
abbrev main_call9_cst : Ref sig .tc := ⟨.hbm, 280, rfl⟩
abbrev main_call9_v0 : Ref sig .tc := ⟨.hbm, 281, rfl⟩
abbrev main_v161 : Ref sig .tc := ⟨.hbm, 282, rfl⟩
abbrev main_cst_29 : Ref sig .tc := ⟨.hbm, 283, rfl⟩
abbrev main_v162 : Ref sig .tc := ⟨.hbm, 284, rfl⟩
abbrev main_v163 : Ref sig .tc := ⟨.hbm, 285, rfl⟩
abbrev main_v164 : Ref sig .tc := ⟨.hbm, 286, rfl⟩
abbrev main_v165 : Ref sig .tc := ⟨.hbm, 287, rfl⟩
abbrev main_cst_30 : Ref sig .tc := ⟨.hbm, 288, rfl⟩
abbrev main_v166 : Ref sig .tc := ⟨.hbm, 289, rfl⟩
abbrev main_cst_31 : Ref sig .tc := ⟨.hbm, 290, rfl⟩
abbrev main_v167 : Ref sig .tc := ⟨.hbm, 291, rfl⟩
abbrev main_v168 : Ref sig .tc := ⟨.hbm, 292, rfl⟩
abbrev main_c_32 : Ref sig .tc := ⟨.hbm, 293, rfl⟩
abbrev main_call10_cst : Ref sig .tc := ⟨.hbm, 294, rfl⟩
abbrev main_call10_v0 : Ref sig .tc := ⟨.hbm, 295, rfl⟩
abbrev main_call10_v1 : Ref sig .tc := ⟨.hbm, 296, rfl⟩
abbrev main_call10_cst_0 : Ref sig .tc := ⟨.hbm, 297, rfl⟩
abbrev main_call10_v2 : Ref sig .tc := ⟨.hbm, 298, rfl⟩
abbrev main_call10_v3 : Ref sig .tc := ⟨.hbm, 299, rfl⟩
abbrev main_call10_v4 : Ref sig .tc := ⟨.hbm, 300, rfl⟩
abbrev main_call10_v5 : Ref sig .tc := ⟨.hbm, 301, rfl⟩
abbrev main_call10_v6 : Ref sig .tc := ⟨.hbm, 302, rfl⟩
abbrev main_call10_v7 : Ref sig .tc := ⟨.hbm, 303, rfl⟩
abbrev main_call10_cst_1 : Ref sig .tc := ⟨.hbm, 304, rfl⟩
abbrev main_call10_v8 : Ref sig .tc := ⟨.hbm, 305, rfl⟩
abbrev main_call10_cst_2 : Ref sig .tc := ⟨.hbm, 306, rfl⟩
abbrev main_call10_v9 : Ref sig .tc := ⟨.hbm, 307, rfl⟩
abbrev main_call10_v10 : Ref sig .tc := ⟨.hbm, 308, rfl⟩
abbrev main_call10_v11 : Ref sig .tc := ⟨.hbm, 309, rfl⟩
abbrev main_call10_cst_3 : Ref sig .tc := ⟨.hbm, 310, rfl⟩
abbrev main_call10_v12 : Ref sig .tc := ⟨.hbm, 311, rfl⟩
abbrev main_call10_cst_4 : Ref sig .tc := ⟨.hbm, 312, rfl⟩
abbrev main_call10_call0_v0 : Ref sig .tc := ⟨.hbm, 313, rfl⟩
abbrev main_call10_call0_v1 : Ref sig .tc := ⟨.hbm, 314, rfl⟩
abbrev main_v169 : Ref sig .tc := ⟨.hbm, 315, rfl⟩
abbrev main_v170 : Ref sig .tc := ⟨.hbm, 316, rfl⟩
abbrev main_v171 : Ref sig .tc := ⟨.hbm, 317, rfl⟩
abbrev main_v172 : Ref sig .tc := ⟨.hbm, 318, rfl⟩
abbrev main_cst_33 : Ref sig .tc := ⟨.hbm, 319, rfl⟩
abbrev main_v173 : Ref sig .tc := ⟨.hbm, 320, rfl⟩
abbrev main_v174 : Ref sig .tc := ⟨.hbm, 321, rfl⟩
abbrev main_v175 : Ref sig .tc := ⟨.hbm, 322, rfl⟩
abbrev main_v176 : Ref sig .tc := ⟨.hbm, 323, rfl⟩
abbrev main_v177 : Ref sig .tc := ⟨.hbm, 324, rfl⟩
abbrev main_v178 : Ref sig .tc := ⟨.hbm, 325, rfl⟩
abbrev main_v179 : Ref sig .tc := ⟨.hbm, 326, rfl⟩
abbrev main_v180 : Ref sig .tc := ⟨.hbm, 327, rfl⟩
abbrev main_v181 : Ref sig .tc := ⟨.hbm, 328, rfl⟩
abbrev main_v182 : Ref sig .tc := ⟨.hbm, 329, rfl⟩
abbrev main_v183 : Ref sig .tc := ⟨.hbm, 330, rfl⟩
abbrev main_v184 : Ref sig .tc := ⟨.hbm, 331, rfl⟩
abbrev main_v185 : Ref sig .tc := ⟨.hbm, 332, rfl⟩
abbrev main_v186 : Ref sig .tc := ⟨.hbm, 333, rfl⟩
abbrev main_v187 : Ref sig .tc := ⟨.hbm, 334, rfl⟩
abbrev main_v188 : Ref sig .tc := ⟨.hbm, 335, rfl⟩
abbrev main_call11_cst : Ref sig .tc := ⟨.hbm, 336, rfl⟩
abbrev main_call11_v0 : Ref sig .tc := ⟨.hbm, 337, rfl⟩
abbrev main_v189 : Ref sig .tc := ⟨.hbm, 338, rfl⟩
abbrev main_c_34 : Ref sig .tc := ⟨.hbm, 339, rfl⟩
abbrev main_v190 : Ref sig .tc := ⟨.hbm, 340, rfl⟩
abbrev main_v191 : Ref sig .tc := ⟨.hbm, 341, rfl⟩
abbrev main_c_35 : Ref sig .tc := ⟨.hbm, 342, rfl⟩
abbrev main_v192 : Ref sig .tc := ⟨.hbm, 343, rfl⟩
abbrev main_v193 : Ref sig .tc := ⟨.hbm, 344, rfl⟩
abbrev main_v194 : Ref sig .tc := ⟨.hbm, 345, rfl⟩
abbrev main_v195 : Ref sig .tc := ⟨.hbm, 346, rfl⟩
abbrev main_v196 : Ref sig .tc := ⟨.hbm, 347, rfl⟩
abbrev main_v197 : Ref sig .tc := ⟨.hbm, 348, rfl⟩
abbrev main_call12_cst : Ref sig .tc := ⟨.hbm, 349, rfl⟩
abbrev main_call12_v0 : Ref sig .tc := ⟨.hbm, 350, rfl⟩
abbrev main_v198 : Ref sig .tc := ⟨.hbm, 351, rfl⟩
abbrev main_cst_36 : Ref sig .tc := ⟨.hbm, 352, rfl⟩
abbrev main_v199 : Ref sig .tc := ⟨.hbm, 353, rfl⟩
abbrev main_v200 : Ref sig .tc := ⟨.hbm, 354, rfl⟩
abbrev main_v201 : Ref sig .tc := ⟨.hbm, 355, rfl⟩
abbrev main_v202 : Ref sig .tc := ⟨.hbm, 356, rfl⟩
abbrev main_cst_37 : Ref sig .tc := ⟨.hbm, 357, rfl⟩
abbrev main_v203 : Ref sig .tc := ⟨.hbm, 358, rfl⟩
abbrev main_cst_38 : Ref sig .tc := ⟨.hbm, 359, rfl⟩
abbrev main_v204 : Ref sig .tc := ⟨.hbm, 360, rfl⟩
abbrev main_v205 : Ref sig .tc := ⟨.hbm, 361, rfl⟩
abbrev main_c_39 : Ref sig .tc := ⟨.hbm, 362, rfl⟩
abbrev main_call13_cst : Ref sig .tc := ⟨.hbm, 363, rfl⟩
abbrev main_call13_v0 : Ref sig .tc := ⟨.hbm, 364, rfl⟩
abbrev main_call13_v1 : Ref sig .tc := ⟨.hbm, 365, rfl⟩
abbrev main_call13_cst_0 : Ref sig .tc := ⟨.hbm, 366, rfl⟩
abbrev main_call13_v2 : Ref sig .tc := ⟨.hbm, 367, rfl⟩
abbrev main_call13_v3 : Ref sig .tc := ⟨.hbm, 368, rfl⟩
abbrev main_call13_v4 : Ref sig .tc := ⟨.hbm, 369, rfl⟩
abbrev main_call13_v5 : Ref sig .tc := ⟨.hbm, 370, rfl⟩
abbrev main_call13_v6 : Ref sig .tc := ⟨.hbm, 371, rfl⟩
abbrev main_call13_v7 : Ref sig .tc := ⟨.hbm, 372, rfl⟩
abbrev main_call13_cst_1 : Ref sig .tc := ⟨.hbm, 373, rfl⟩
abbrev main_call13_v8 : Ref sig .tc := ⟨.hbm, 374, rfl⟩
abbrev main_call13_cst_2 : Ref sig .tc := ⟨.hbm, 375, rfl⟩
abbrev main_call13_v9 : Ref sig .tc := ⟨.hbm, 376, rfl⟩
abbrev main_call13_v10 : Ref sig .tc := ⟨.hbm, 377, rfl⟩
abbrev main_call13_v11 : Ref sig .tc := ⟨.hbm, 378, rfl⟩
abbrev main_call13_cst_3 : Ref sig .tc := ⟨.hbm, 379, rfl⟩
abbrev main_call13_v12 : Ref sig .tc := ⟨.hbm, 380, rfl⟩
abbrev main_call13_cst_4 : Ref sig .tc := ⟨.hbm, 381, rfl⟩
abbrev main_call13_call0_v0 : Ref sig .tc := ⟨.hbm, 382, rfl⟩
abbrev main_call13_call0_v1 : Ref sig .tc := ⟨.hbm, 383, rfl⟩
abbrev main_v206 : Ref sig .tc := ⟨.hbm, 384, rfl⟩
abbrev main_v207 : Ref sig .tc := ⟨.hbm, 385, rfl⟩
abbrev main_v208 : Ref sig .tc := ⟨.hbm, 386, rfl⟩
abbrev main_v209 : Ref sig .tc := ⟨.hbm, 387, rfl⟩
abbrev main_cst_40 : Ref sig .tc := ⟨.hbm, 388, rfl⟩
abbrev main_v210 : Ref sig .tc := ⟨.hbm, 389, rfl⟩
abbrev main_v211 : Ref sig .tc := ⟨.hbm, 390, rfl⟩
abbrev main_v212 : Ref sig .tc := ⟨.hbm, 391, rfl⟩
abbrev main_v213 : Ref sig .tc := ⟨.hbm, 392, rfl⟩
abbrev main_v214 : Ref sig .tc := ⟨.hbm, 393, rfl⟩
abbrev main_v215 : Ref sig .tc := ⟨.hbm, 394, rfl⟩
abbrev main_v216 : Ref sig .tc := ⟨.hbm, 395, rfl⟩
abbrev main_v217 : Ref sig .tc := ⟨.hbm, 396, rfl⟩
abbrev main_v218 : Ref sig .tc := ⟨.hbm, 397, rfl⟩
abbrev main_v219 : Ref sig .tc := ⟨.hbm, 398, rfl⟩
abbrev main_v220 : Ref sig .tc := ⟨.hbm, 399, rfl⟩
abbrev main_v221 : Ref sig .tc := ⟨.hbm, 400, rfl⟩
abbrev main_v222 : Ref sig .tc := ⟨.hbm, 401, rfl⟩
abbrev main_v223 : Ref sig .tc := ⟨.hbm, 402, rfl⟩
abbrev main_v224 : Ref sig .tc := ⟨.hbm, 403, rfl⟩
abbrev main_v225 : Ref sig .tc := ⟨.hbm, 404, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S50000x2_S50000x1_0_0 : S50000x2.Slices ![0, 0] S50000x1
  shapeCasts_S50000x1_S50000 : S50000x1.ShapeCasts S50000
  slices_S50000x2_S50000x1_0_1 : S50000x2.Slices ![0, 1] S50000x1
  bcast_S_S50000 : S_.BroadcastsInDim S50000 (![] : Fin 0 → Fin S50000.rank)
  bcast_S50000_S50000x1_0 : S50000.BroadcastsInDim S50000x1 (![0] : Fin 1 → Fin S50000x1.rank)
  slices_S600000x2_S600000x1_0_0 : S600000x2.Slices ![0, 0] S600000x1
  shapeCasts_S600000x1_S600000 : S600000x1.ShapeCasts S600000
  slices_S600000x2_S600000x1_0_1 : S600000x2.Slices ![0, 1] S600000x1
  bcast_S_S600000 : S_.BroadcastsInDim S600000 (![] : Fin 0 → Fin S600000.rank)
  bcast_S600000_S600000x1_0 : S600000.BroadcastsInDim S600000x1 (![0] : Fin 1 → Fin S600000x1.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000x128 : S_.BroadcastsInDim S600000x128 (![] : Fin 0 → Fin S600000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  slices_S5x128_S1x128_0_0 : S5x128.Slices ![0, 0] S1x128
  shapeCasts_S1x128_S128 : S1x128.ShapeCasts S128
  slices_S5x128_S1x128_1_0 : S5x128.Slices ![1, 0] S1x128
  slices_S5x128_S1x128_2_0 : S5x128.Slices ![2, 0] S1x128
  slices_S5x128_S1x128_3_0 : S5x128.Slices ![3, 0] S1x128
  slices_S5x128_S1x128_4_0 : S5x128.Slices ![4, 0] S1x128
  gather_S118x128_S50000x1_S50000x128_1_0_n_n_0_1_1128_wf : GatherDims.WF S118x128 S50000x1 S50000x128 [1] [0] [] [0] [] 1 ![1, 128]
  gather_S4x128_S50000x1_S50000x128_1_0_n_n_0_1_1128_wf : GatherDims.WF S4x128 S50000x1 S50000x128 [1] [0] [] [0] [] 1 ![1, 128]
  gather_S4x128_S600000x1_S600000x128_1_0_n_n_0_1_1128_wf : GatherDims.WF S4x128 S600000x1 S600000x128 [1] [0] [] [0] [] 1 ![1, 128]
  gather_S3x128_S600000x1_S600000x128_1_0_n_n_0_1_1128_wf : GatherDims.WF S3x128 S600000x1 S600000x128 [1] [0] [] [0] [] 1 ![1, 128]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .f32 = 32 ∨ (Rect.block (s := S128x256) S128x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S256x128.size a
  hwx2_4 : ∀ i : grid2.Coords, EltTy.bits .f32 = 32 ∨ (Rect.block (s := S256x128) S256x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x256.size a ≤ S128x256.size a
  hwx3_2 : ∀ i : grid3.Coords, EltTy.bits .f32 = 32 ∨ (Rect.block (s := S128x256) S128x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256.size a ≤ S256.size a
  hwx3_3 : ∀ i : grid3.Coords, EltTy.bits .f32 = 32 ∨ (Rect.block (s := S256) S256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x128.size a ≤ S256x128.size a
  hwx3_4 : ∀ i : grid3.Coords, EltTy.bits .f32 = 32 ∨ (Rect.block (s := S256x128) S256x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x256.size a ≤ S128x256.size a
  hwx4_2 : ∀ i : grid4.Coords, EltTy.bits .f32 = 32 ∨ (Rect.block (s := S128x256) S128x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256.size a ≤ S256.size a
  hwx4_3 : ∀ i : grid4.Coords, EltTy.bits .f32 = 32 ∨ (Rect.block (s := S256) S256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x128.size a ≤ S256x128.size a
  hwx4_4 : ∀ i : grid4.Coords, EltTy.bits .f32 = 32 ∨ (Rect.block (s := S256x128) S256x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128.size a ≤ S128.size a
  hwx4_5 : ∀ i : grid4.Coords, EltTy.bits .f32 = 32 ∨ (Rect.block (s := S128) S128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)

variable [Facts₀]

def gather_S118x128_S50000x1_S50000x128_1_0_n_n_0_1_1128 : GatherDims S118x128 S50000x1 S50000x128 where
  offsetDims := [1]
  collapsedSliceDims := [0]
  operandBatchingDims := []
  startIndicesBatchingDims := []
  startIndexMap := [0]
  indexVectorDim := 1
  sliceSizes := ![1, 128]
  wf := gather_S118x128_S50000x1_S50000x128_1_0_n_n_0_1_1128_wf
def gather_S4x128_S50000x1_S50000x128_1_0_n_n_0_1_1128 : GatherDims S4x128 S50000x1 S50000x128 where
  offsetDims := [1]
  collapsedSliceDims := [0]
  operandBatchingDims := []
  startIndicesBatchingDims := []
  startIndexMap := [0]
  indexVectorDim := 1
  sliceSizes := ![1, 128]
  wf := gather_S4x128_S50000x1_S50000x128_1_0_n_n_0_1_1128_wf
def gather_S4x128_S600000x1_S600000x128_1_0_n_n_0_1_1128 : GatherDims S4x128 S600000x1 S600000x128 where
  offsetDims := [1]
  collapsedSliceDims := [0]
  operandBatchingDims := []
  startIndicesBatchingDims := []
  startIndexMap := [0]
  indexVectorDim := 1
  sliceSizes := ![1, 128]
  wf := gather_S4x128_S600000x1_S600000x128_1_0_n_n_0_1_1128_wf
def gather_S3x128_S600000x1_S600000x128_1_0_n_n_0_1_1128 : GatherDims S3x128 S600000x1 S600000x128 where
  offsetDims := [1]
  collapsedSliceDims := [0]
  operandBatchingDims := []
  startIndicesBatchingDims := []
  startIndexMap := [0]
  indexVectorDim := 1
  sliceSizes := ![1, 128]
  wf := gather_S3x128_S600000x1_S600000x128_1_0_n_n_0_1_1128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v53) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v54) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v78) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v90) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v91) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v115) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v127) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S256x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v128) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v152) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v164) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S128x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S256x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg10) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v165) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v189) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v201) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S128x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg8) S256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg9) S256x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg10) S128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v202) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x2 : Shape := ⟨2, ![50000, 2]⟩
abbrev S2x600000 : Shape := ⟨2, ![2, 600000]⟩
abbrev S600000x2 : Shape := ⟨2, ![600000, 2]⟩
abbrev S118x128 : Shape := ⟨2, ![118, 128]⟩
abbrev S4x128 : Shape := ⟨2, ![4, 128]⟩
abbrev S3x128 : Shape := ⟨2, ![3, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S5x128 : Shape := ⟨2, ![5, 128]⟩
abbrev S50000x1 : Shape := ⟨2, ![50000, 1]⟩
abbrev S50000 : Shape := ⟨1, ![50000]⟩
abbrev S_ : Shape := ⟨0, ![]⟩
abbrev S50000x128 : Shape := ⟨2, ![50000, 128]⟩
abbrev S600000x1 : Shape := ⟨2, ![600000, 1]⟩
abbrev S600000 : Shape := ⟨1, ![600000]⟩
abbrev S600000x128 : Shape := ⟨2, ![600000, 128]⟩
abbrev S1x600000 : Shape := ⟨2, ![1, 600000]⟩
abbrev S50000x256 : Shape := ⟨2, ![50000, 256]⟩
abbrev S1x256 : Shape := ⟨2, ![1, 256]⟩
abbrev S1x128 : Shape := ⟨2, ![1, 128]⟩

abbrev nBuf : Space → Nat
  | .hbm => 460
  | .vmem => 0
  | .smem => 0
  | _ => 0

abbrev hbmTy0_0 (i : Nat) : BufTy := match i % 128 with
  | 0 => ⟨S50000x2, .i32⟩
  | 1 => ⟨S2x600000, .i32⟩
  | 2 => ⟨S600000x2, .i32⟩
  | 3 => ⟨S118x128, .f32⟩
  | 4 => ⟨S4x128, .f32⟩
  | 5 => ⟨S4x128, .f32⟩
  | 6 => ⟨S3x128, .f32⟩
  | 7 => ⟨S128x256, .f32⟩
  | 8 => ⟨S256, .f32⟩
  | 9 => ⟨S256x128, .f32⟩
  | 10 => ⟨S128, .f32⟩
  | 11 => ⟨S5x128, .f32⟩
  | 12 => ⟨S5x128, .f32⟩
  | 13 => ⟨S50000x1, .i32⟩
  | 14 => ⟨S50000, .i32⟩
  | 15 => ⟨S_, .i32⟩
  | 16 => ⟨S50000, .i32⟩
  | 17 => ⟨S50000, .i1⟩
  | 18 => ⟨S_, .i32⟩
  | 19 => ⟨S50000, .i32⟩
  | 20 => ⟨S50000, .i32⟩
  | 21 => ⟨S50000, .i32⟩
  | 22 => ⟨S50000x1, .i32⟩
  | 23 => ⟨S50000x128, .f32⟩
  | 24 => ⟨S50000x1, .i32⟩
  | 25 => ⟨S50000, .i32⟩
  | 26 => ⟨S_, .i32⟩
  | 27 => ⟨S50000, .i32⟩
  | 28 => ⟨S50000, .i1⟩
  | 29 => ⟨S_, .i32⟩
  | 30 => ⟨S50000, .i32⟩
  | 31 => ⟨S50000, .i32⟩
  | 32 => ⟨S50000, .i32⟩
  | 33 => ⟨S50000x1, .i32⟩
  | 34 => ⟨S50000x128, .f32⟩
  | 35 => ⟨S50000x128, .f32⟩
  | 36 => ⟨S600000x1, .i32⟩
  | 37 => ⟨S600000, .i32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000x128, .f32⟩
  | 47 => ⟨S600000x1, .i32⟩
  | 48 => ⟨S600000, .i32⟩
  | 49 => ⟨S_, .i32⟩
  | 50 => ⟨S600000, .i32⟩
  | 51 => ⟨S600000, .i1⟩
  | 52 => ⟨S_, .i32⟩
  | 53 => ⟨S600000, .i32⟩
  | 54 => ⟨S600000, .i32⟩
  | 55 => ⟨S600000, .i32⟩
  | 56 => ⟨S600000x1, .i32⟩
  | 57 => ⟨S600000x128, .f32⟩
  | 58 => ⟨S600000x128, .f32⟩
  | 59 => ⟨S1x600000, .i32⟩
  | 60 => ⟨S600000, .i32⟩
  | 61 => ⟨S1x600000, .i32⟩
  | 62 => ⟨S600000, .i32⟩
  | 63 => ⟨S_, .i32⟩
  | 64 => ⟨S600000, .i32⟩
  | 65 => ⟨S600000, .i1⟩
  | 66 => ⟨S_, .i32⟩
  | 67 => ⟨S600000, .i32⟩
  | 68 => ⟨S600000, .i32⟩
  | 69 => ⟨S600000, .i32⟩
  | 70 => ⟨S600000x1, .i32⟩
  | 71 => ⟨S600000x128, .f32⟩
  | 72 => ⟨S600000x128, .f32⟩
  | 73 => ⟨S_, .f32⟩
  | 74 => ⟨S600000x128, .f32⟩
  | 75 => ⟨S600000x128, .f32⟩
  | 76 => ⟨S_, .f32⟩
  | 77 => ⟨S50000x128, .f32⟩
  | 78 => ⟨S600000x1, .i32⟩
  | 79 => ⟨S50000x128, .f32⟩
  | 80 => ⟨S50000x128, .f32⟩
  | 81 => ⟨S50000x256, .f32⟩
  | 82 => ⟨S1x256, .f32⟩
  | 83 => ⟨S50000x256, .f32⟩
  | 84 => ⟨S50000x256, .f32⟩
  | 85 => ⟨S_, .f32⟩
  | 86 => ⟨S50000x256, .f32⟩
  | 87 => ⟨S50000x256, .f32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S128, .f32⟩
  | 94 => ⟨S_, .f32⟩
  | 95 => ⟨S128, .f32⟩
  | 96 => ⟨S128, .f32⟩
  | 97 => ⟨S_, .i32⟩
  | 98 => ⟨S_, .f32⟩
  | 99 => ⟨S128, .f32⟩
  | 100 => ⟨S1x128, .f32⟩
  | 101 => ⟨S_, .f32⟩
  | 102 => ⟨S1x128, .f32⟩
  | 103 => ⟨S1x128, .f32⟩
  | 104 => ⟨S50000x128, .f32⟩
  | 105 => ⟨S50000x128, .f32⟩
  | 106 => ⟨S50000x128, .f32⟩
  | 107 => ⟨S_, .f32⟩
  | 108 => ⟨S_, .f32⟩
  | 109 => ⟨S_, .f32⟩
  | 110 => ⟨S_, .f32⟩
  | 111 => ⟨S128, .f32⟩
  | 112 => ⟨S128, .f32⟩
  | 113 => ⟨S128, .f32⟩
  | 114 => ⟨S_, .f32⟩
  | 115 => ⟨S_, .i1⟩
  | 116 => ⟨S_, .f32⟩
  | 117 => ⟨S_, .f32⟩
  | 118 => ⟨S128, .f32⟩
  | 119 => ⟨S128, .f32⟩
  | 120 => ⟨S1x128, .f32⟩
  | 121 => ⟨S50000x128, .f32⟩
  | 122 => ⟨S50000x128, .f32⟩
  | 123 => ⟨S_, .f32⟩
  | 124 => ⟨S128, .f32⟩
  | 125 => ⟨S128, .f32⟩
  | 126 => ⟨S128, .f32⟩
  | 127 => ⟨S1x128, .f32⟩
  | _ => ⟨S50000x2, .i32⟩

abbrev hbmTy0_1 (i : Nat) : BufTy := match i % 128 with
  | 0 => ⟨S50000x128, .f32⟩
  | 1 => ⟨S50000x128, .f32⟩
  | 2 => ⟨S1x128, .f32⟩
  | 3 => ⟨S128, .f32⟩
  | 4 => ⟨S1x128, .f32⟩
  | 5 => ⟨S50000x128, .f32⟩
  | 6 => ⟨S50000x128, .f32⟩
  | 7 => ⟨S1x128, .f32⟩
  | 8 => ⟨S128, .f32⟩
  | 9 => ⟨S1x128, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S_, .i32⟩
  | 16 => ⟨S600000, .i32⟩
  | 17 => ⟨S600000, .i1⟩
  | 18 => ⟨S_, .i32⟩
  | 19 => ⟨S600000, .i32⟩
  | 20 => ⟨S600000, .i32⟩
  | 21 => ⟨S600000, .i32⟩
  | 22 => ⟨S600000x1, .i32⟩
  | 23 => ⟨S600000x128, .f32⟩
  | 24 => ⟨S600000x128, .f32⟩
  | 25 => ⟨S_, .f32⟩
  | 26 => ⟨S600000x128, .f32⟩
  | 27 => ⟨S600000x128, .f32⟩
  | 28 => ⟨S_, .f32⟩
  | 29 => ⟨S50000x128, .f32⟩
  | 30 => ⟨S600000x1, .i32⟩
  | 31 => ⟨S50000x128, .f32⟩
  | 32 => ⟨S50000x128, .f32⟩
  | 33 => ⟨S50000x256, .f32⟩
  | 34 => ⟨S1x256, .f32⟩
  | 35 => ⟨S50000x256, .f32⟩
  | 36 => ⟨S50000x256, .f32⟩
  | 37 => ⟨S_, .f32⟩
  | 38 => ⟨S50000x256, .f32⟩
  | 39 => ⟨S50000x256, .f32⟩
  | 40 => ⟨S50000x128, .f32⟩
  | 41 => ⟨S1x128, .f32⟩
  | 42 => ⟨S50000x128, .f32⟩
  | 43 => ⟨S50000x128, .f32⟩
  | 44 => ⟨S_, .f32⟩
  | 45 => ⟨S128, .f32⟩
  | 46 => ⟨S_, .f32⟩
  | 47 => ⟨S128, .f32⟩
  | 48 => ⟨S128, .f32⟩
  | 49 => ⟨S_, .i32⟩
  | 50 => ⟨S_, .f32⟩
  | 51 => ⟨S128, .f32⟩
  | 52 => ⟨S1x128, .f32⟩
  | 53 => ⟨S_, .f32⟩
  | 54 => ⟨S1x128, .f32⟩
  | 55 => ⟨S1x128, .f32⟩
  | 56 => ⟨S50000x128, .f32⟩
  | 57 => ⟨S50000x128, .f32⟩
  | 58 => ⟨S50000x128, .f32⟩
  | 59 => ⟨S_, .f32⟩
  | 60 => ⟨S_, .f32⟩
  | 61 => ⟨S_, .f32⟩
  | 62 => ⟨S_, .f32⟩
  | 63 => ⟨S128, .f32⟩
  | 64 => ⟨S128, .f32⟩
  | 65 => ⟨S128, .f32⟩
  | 66 => ⟨S_, .f32⟩
  | 67 => ⟨S_, .i1⟩
  | 68 => ⟨S_, .f32⟩
  | 69 => ⟨S_, .f32⟩
  | 70 => ⟨S128, .f32⟩
  | 71 => ⟨S128, .f32⟩
  | 72 => ⟨S1x128, .f32⟩
  | 73 => ⟨S50000x128, .f32⟩
  | 74 => ⟨S50000x128, .f32⟩
  | 75 => ⟨S_, .f32⟩
  | 76 => ⟨S128, .f32⟩
  | 77 => ⟨S128, .f32⟩
  | 78 => ⟨S128, .f32⟩
  | 79 => ⟨S1x128, .f32⟩
  | 80 => ⟨S50000x128, .f32⟩
  | 81 => ⟨S50000x128, .f32⟩
  | 82 => ⟨S1x128, .f32⟩
  | 83 => ⟨S128, .f32⟩
  | 84 => ⟨S1x128, .f32⟩
  | 85 => ⟨S50000x128, .f32⟩
  | 86 => ⟨S50000x128, .f32⟩
  | 87 => ⟨S1x128, .f32⟩
  | 88 => ⟨S128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S_, .i32⟩
  | 96 => ⟨S600000, .i32⟩
  | 97 => ⟨S600000, .i1⟩
  | 98 => ⟨S_, .i32⟩
  | 99 => ⟨S600000, .i32⟩
  | 100 => ⟨S600000, .i32⟩
  | 101 => ⟨S600000, .i32⟩
  | 102 => ⟨S600000x1, .i32⟩
  | 103 => ⟨S600000x128, .f32⟩
  | 104 => ⟨S600000x128, .f32⟩
  | 105 => ⟨S_, .f32⟩
  | 106 => ⟨S600000x128, .f32⟩
  | 107 => ⟨S600000x128, .f32⟩
  | 108 => ⟨S_, .f32⟩
  | 109 => ⟨S50000x128, .f32⟩
  | 110 => ⟨S600000x1, .i32⟩
  | 111 => ⟨S50000x128, .f32⟩
  | 112 => ⟨S50000x128, .f32⟩
  | 113 => ⟨S50000x256, .f32⟩
  | 114 => ⟨S1x256, .f32⟩
  | 115 => ⟨S50000x256, .f32⟩
  | 116 => ⟨S50000x256, .f32⟩
  | 117 => ⟨S_, .f32⟩
  | 118 => ⟨S50000x256, .f32⟩
  | 119 => ⟨S50000x256, .f32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S128, .f32⟩
  | 126 => ⟨S_, .f32⟩
  | 127 => ⟨S128, .f32⟩
  | _ => ⟨S50000x2, .i32⟩

abbrev hbmTy0_2 (i : Nat) : BufTy := match i % 128 with
  | 0 => ⟨S128, .f32⟩
  | 1 => ⟨S_, .i32⟩
  | 2 => ⟨S_, .f32⟩
  | 3 => ⟨S128, .f32⟩
  | 4 => ⟨S1x128, .f32⟩
  | 5 => ⟨S_, .f32⟩
  | 6 => ⟨S1x128, .f32⟩
  | 7 => ⟨S1x128, .f32⟩
  | 8 => ⟨S50000x128, .f32⟩
  | 9 => ⟨S50000x128, .f32⟩
  | 10 => ⟨S50000x128, .f32⟩
  | 11 => ⟨S_, .f32⟩
  | 12 => ⟨S_, .f32⟩
  | 13 => ⟨S_, .f32⟩
  | 14 => ⟨S_, .f32⟩
  | 15 => ⟨S128, .f32⟩
  | 16 => ⟨S128, .f32⟩
  | 17 => ⟨S128, .f32⟩
  | 18 => ⟨S_, .f32⟩
  | 19 => ⟨S_, .i1⟩
  | 20 => ⟨S_, .f32⟩
  | 21 => ⟨S_, .f32⟩
  | 22 => ⟨S128, .f32⟩
  | 23 => ⟨S128, .f32⟩
  | 24 => ⟨S1x128, .f32⟩
  | 25 => ⟨S50000x128, .f32⟩
  | 26 => ⟨S50000x128, .f32⟩
  | 27 => ⟨S_, .f32⟩
  | 28 => ⟨S128, .f32⟩
  | 29 => ⟨S128, .f32⟩
  | 30 => ⟨S128, .f32⟩
  | 31 => ⟨S1x128, .f32⟩
  | 32 => ⟨S50000x128, .f32⟩
  | 33 => ⟨S50000x128, .f32⟩
  | 34 => ⟨S1x128, .f32⟩
  | 35 => ⟨S128, .f32⟩
  | 36 => ⟨S1x128, .f32⟩
  | 37 => ⟨S50000x128, .f32⟩
  | 38 => ⟨S50000x128, .f32⟩
  | 39 => ⟨S1x128, .f32⟩
  | 40 => ⟨S128, .f32⟩
  | 41 => ⟨S1x128, .f32⟩
  | 42 => ⟨S50000x128, .f32⟩
  | 43 => ⟨S50000x128, .f32⟩
  | 44 => ⟨S_, .f32⟩
  | 45 => ⟨S50000x128, .f32⟩
  | 46 => ⟨S50000x128, .f32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S600000x1, .i32⟩
  | 55 => ⟨S600000x128, .f32⟩
  | 56 => ⟨S600000x128, .f32⟩
  | 57 => ⟨S_, .f32⟩
  | 58 => ⟨S600000x128, .f32⟩
  | 59 => ⟨S600000x128, .f32⟩
  | 60 => ⟨S_, .f32⟩
  | 61 => ⟨S50000x128, .f32⟩
  | 62 => ⟨S600000x1, .i32⟩
  | 63 => ⟨S50000x128, .f32⟩
  | 64 => ⟨S50000x128, .f32⟩
  | 65 => ⟨S50000x256, .f32⟩
  | 66 => ⟨S1x256, .f32⟩
  | 67 => ⟨S50000x256, .f32⟩
  | 68 => ⟨S50000x256, .f32⟩
  | 69 => ⟨S_, .f32⟩
  | 70 => ⟨S50000x256, .f32⟩
  | 71 => ⟨S50000x256, .f32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S128, .f32⟩
  | 78 => ⟨S_, .f32⟩
  | 79 => ⟨S128, .f32⟩
  | 80 => ⟨S128, .f32⟩
  | 81 => ⟨S_, .i32⟩
  | 82 => ⟨S_, .f32⟩
  | 83 => ⟨S128, .f32⟩
  | 84 => ⟨S1x128, .f32⟩
  | 85 => ⟨S_, .f32⟩
  | 86 => ⟨S1x128, .f32⟩
  | 87 => ⟨S1x128, .f32⟩
  | 88 => ⟨S50000x128, .f32⟩
  | 89 => ⟨S50000x128, .f32⟩
  | 90 => ⟨S50000x128, .f32⟩
  | 91 => ⟨S_, .f32⟩
  | 92 => ⟨S_, .f32⟩
  | 93 => ⟨S_, .f32⟩
  | 94 => ⟨S_, .f32⟩
  | 95 => ⟨S128, .f32⟩
  | 96 => ⟨S128, .f32⟩
  | 97 => ⟨S128, .f32⟩
  | 98 => ⟨S_, .f32⟩
  | 99 => ⟨S_, .i1⟩
  | 100 => ⟨S_, .f32⟩
  | 101 => ⟨S_, .f32⟩
  | 102 => ⟨S128, .f32⟩
  | 103 => ⟨S128, .f32⟩
  | 104 => ⟨S1x128, .f32⟩
  | 105 => ⟨S50000x128, .f32⟩
  | 106 => ⟨S50000x128, .f32⟩
  | 107 => ⟨S_, .f32⟩
  | 108 => ⟨S128, .f32⟩
  | 109 => ⟨S128, .f32⟩
  | 110 => ⟨S128, .f32⟩
  | 111 => ⟨S1x128, .f32⟩
  | 112 => ⟨S50000x128, .f32⟩
  | 113 => ⟨S50000x128, .f32⟩
  | 114 => ⟨S1x128, .f32⟩
  | 115 => ⟨S128, .f32⟩
  | 116 => ⟨S1x128, .f32⟩
  | 117 => ⟨S50000x128, .f32⟩
  | 118 => ⟨S50000x128, .f32⟩
  | 119 => ⟨S1x128, .f32⟩
  | 120 => ⟨S128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S_, .i32⟩
  | _ => ⟨S50000x2, .i32⟩

abbrev hbmTy0_3 (i : Nat) : BufTy := match i % 128 with
  | 0 => ⟨S600000, .i32⟩
  | 1 => ⟨S600000, .i1⟩
  | 2 => ⟨S_, .i32⟩
  | 3 => ⟨S600000, .i32⟩
  | 4 => ⟨S600000, .i32⟩
  | 5 => ⟨S600000, .i32⟩
  | 6 => ⟨S600000x1, .i32⟩
  | 7 => ⟨S600000x128, .f32⟩
  | 8 => ⟨S600000x128, .f32⟩
  | 9 => ⟨S_, .f32⟩
  | 10 => ⟨S600000x128, .f32⟩
  | 11 => ⟨S600000x128, .f32⟩
  | 12 => ⟨S_, .f32⟩
  | 13 => ⟨S50000x128, .f32⟩
  | 14 => ⟨S600000x1, .i32⟩
  | 15 => ⟨S50000x128, .f32⟩
  | 16 => ⟨S50000x128, .f32⟩
  | 17 => ⟨S50000x256, .f32⟩
  | 18 => ⟨S1x256, .f32⟩
  | 19 => ⟨S50000x256, .f32⟩
  | 20 => ⟨S50000x256, .f32⟩
  | 21 => ⟨S_, .f32⟩
  | 22 => ⟨S50000x256, .f32⟩
  | 23 => ⟨S50000x256, .f32⟩
  | 24 => ⟨S50000x128, .f32⟩
  | 25 => ⟨S1x128, .f32⟩
  | 26 => ⟨S50000x128, .f32⟩
  | 27 => ⟨S50000x128, .f32⟩
  | 28 => ⟨S_, .f32⟩
  | 29 => ⟨S128, .f32⟩
  | 30 => ⟨S_, .f32⟩
  | 31 => ⟨S128, .f32⟩
  | 32 => ⟨S128, .f32⟩
  | 33 => ⟨S_, .i32⟩
  | 34 => ⟨S_, .f32⟩
  | 35 => ⟨S128, .f32⟩
  | 36 => ⟨S1x128, .f32⟩
  | 37 => ⟨S_, .f32⟩
  | 38 => ⟨S1x128, .f32⟩
  | 39 => ⟨S1x128, .f32⟩
  | 40 => ⟨S50000x128, .f32⟩
  | 41 => ⟨S50000x128, .f32⟩
  | 42 => ⟨S50000x128, .f32⟩
  | 43 => ⟨S_, .f32⟩
  | 44 => ⟨S_, .f32⟩
  | 45 => ⟨S_, .f32⟩
  | 46 => ⟨S_, .f32⟩
  | 47 => ⟨S128, .f32⟩
  | 48 => ⟨S128, .f32⟩
  | 49 => ⟨S128, .f32⟩
  | 50 => ⟨S_, .f32⟩
  | 51 => ⟨S_, .i1⟩
  | 52 => ⟨S_, .f32⟩
  | 53 => ⟨S_, .f32⟩
  | 54 => ⟨S128, .f32⟩
  | 55 => ⟨S128, .f32⟩
  | 56 => ⟨S1x128, .f32⟩
  | 57 => ⟨S50000x128, .f32⟩
  | 58 => ⟨S50000x128, .f32⟩
  | 59 => ⟨S_, .f32⟩
  | 60 => ⟨S128, .f32⟩
  | 61 => ⟨S128, .f32⟩
  | 62 => ⟨S128, .f32⟩
  | 63 => ⟨S1x128, .f32⟩
  | 64 => ⟨S50000x128, .f32⟩
  | 65 => ⟨S50000x128, .f32⟩
  | 66 => ⟨S1x128, .f32⟩
  | 67 => ⟨S128, .f32⟩
  | 68 => ⟨S1x128, .f32⟩
  | 69 => ⟨S50000x128, .f32⟩
  | 70 => ⟨S50000x128, .f32⟩
  | 71 => ⟨S1x128, .f32⟩
  | 72 => ⟨S128, .f32⟩
  | 73 => ⟨S1x128, .f32⟩
  | 74 => ⟨S50000x128, .f32⟩
  | 75 => ⟨S50000x128, .f32⟩
  | _ => ⟨S50000x2, .i32⟩

abbrev hbmTy (i : Nat) : BufTy := match i / 128 with
  | 0 => hbmTy0_0 i
  | 1 => hbmTy0_1 i
  | 2 => hbmTy0_2 i
  | 3 => hbmTy0_3 i
  | _ => ⟨S50000x2, .i32⟩

abbrev bufTy : (tb : Table) → Fin (tcTables nBuf tb) → BufTy
  | .hbm, ⟨i, _⟩ => hbmTy i
  | _, _ => ⟨S50000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_7 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call0_cst : Ref sig .tc := ⟨.hbm, 73, rfl⟩
abbrev main_call0_v0 : Ref sig .tc := ⟨.hbm, 74, rfl⟩
abbrev main_v50 : Ref sig .tc := ⟨.hbm, 75, rfl⟩
abbrev main_cst : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_cst : Ref sig .tc := ⟨.hbm, 85, rfl⟩
abbrev main_call1_v0 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_9 : Ref sig .tc := ⟨.hbm, 92, rfl⟩
abbrev main_v64 : Ref sig .tc := ⟨.hbm, 93, rfl⟩
abbrev main_cst_10 : Ref sig .tc := ⟨.hbm, 94, rfl⟩
abbrev main_v65 : Ref sig .tc := ⟨.hbm, 95, rfl⟩
abbrev main_v66 : Ref sig .tc := ⟨.hbm, 96, rfl⟩
abbrev main_c_11 : Ref sig .tc := ⟨.hbm, 97, rfl⟩
abbrev main_call2_cst : Ref sig .tc := ⟨.hbm, 98, rfl⟩
abbrev main_call2_v0 : Ref sig .tc := ⟨.hbm, 99, rfl⟩
abbrev main_call2_v1 : Ref sig .tc := ⟨.hbm, 100, rfl⟩
abbrev main_call2_cst_0 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_v6 : Ref sig .tc := ⟨.hbm, 106, rfl⟩
abbrev main_call2_v7 : Ref sig .tc := ⟨.hbm, 107, rfl⟩
abbrev main_call2_cst_1 : Ref sig .tc := ⟨.hbm, 108, rfl⟩
abbrev main_call2_v8 : Ref sig .tc := ⟨.hbm, 109, rfl⟩
abbrev main_call2_cst_2 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_cst_3 : Ref sig .tc := ⟨.hbm, 114, rfl⟩
abbrev main_call2_v12 : Ref sig .tc := ⟨.hbm, 115, rfl⟩
abbrev main_call2_cst_4 : Ref sig .tc := ⟨.hbm, 116, rfl⟩
abbrev main_call2_call0_v0 : Ref sig .tc := ⟨.hbm, 117, rfl⟩
abbrev main_call2_call0_v1 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_cst_12 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_call3_cst : Ref sig .tc := ⟨.hbm, 140, rfl⟩
abbrev main_call3_v0 : Ref sig .tc := ⟨.hbm, 141, rfl⟩
abbrev main_v87 : Ref sig .tc := ⟨.hbm, 142, rfl⟩
abbrev main_c_13 : Ref sig .tc := ⟨.hbm, 143, rfl⟩
abbrev main_v88 : Ref sig .tc := ⟨.hbm, 144, rfl⟩
abbrev main_v89 : Ref sig .tc := ⟨.hbm, 145, rfl⟩
abbrev main_c_14 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_call4_cst : Ref sig .tc := ⟨.hbm, 153, rfl⟩
abbrev main_call4_v0 : Ref sig .tc := ⟨.hbm, 154, rfl⟩
abbrev main_v96 : Ref sig .tc := ⟨.hbm, 155, rfl⟩
abbrev main_cst_15 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_call5_cst : Ref sig .tc := ⟨.hbm, 165, rfl⟩
abbrev main_call5_v0 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_cst_16 : Ref sig .tc := ⟨.hbm, 172, rfl⟩
abbrev main_v110 : Ref sig .tc := ⟨.hbm, 173, rfl⟩
abbrev main_cst_17 : Ref sig .tc := ⟨.hbm, 174, rfl⟩
abbrev main_v111 : Ref sig .tc := ⟨.hbm, 175, rfl⟩
abbrev main_v112 : Ref sig .tc := ⟨.hbm, 176, rfl⟩
abbrev main_c_18 : Ref sig .tc := ⟨.hbm, 177, rfl⟩
abbrev main_call6_cst : Ref sig .tc := ⟨.hbm, 178, rfl⟩
abbrev main_call6_v0 : Ref sig .tc := ⟨.hbm, 179, rfl⟩
abbrev main_call6_v1 : Ref sig .tc := ⟨.hbm, 180, rfl⟩
abbrev main_call6_cst_0 : Ref sig .tc := ⟨.hbm, 181, rfl⟩
abbrev main_call6_v2 : Ref sig .tc := ⟨.hbm, 182, rfl⟩
abbrev main_call6_v3 : Ref sig .tc := ⟨.hbm, 183, rfl⟩
abbrev main_call6_v4 : Ref sig .tc := ⟨.hbm, 184, rfl⟩
abbrev main_call6_v5 : Ref sig .tc := ⟨.hbm, 185, rfl⟩
abbrev main_call6_v6 : Ref sig .tc := ⟨.hbm, 186, rfl⟩
abbrev main_call6_v7 : Ref sig .tc := ⟨.hbm, 187, rfl⟩
abbrev main_call6_cst_1 : Ref sig .tc := ⟨.hbm, 188, rfl⟩
abbrev main_call6_v8 : Ref sig .tc := ⟨.hbm, 189, rfl⟩
abbrev main_call6_cst_2 : Ref sig .tc := ⟨.hbm, 190, rfl⟩
abbrev main_call6_v9 : Ref sig .tc := ⟨.hbm, 191, rfl⟩
abbrev main_call6_v10 : Ref sig .tc := ⟨.hbm, 192, rfl⟩
abbrev main_call6_v11 : Ref sig .tc := ⟨.hbm, 193, rfl⟩
abbrev main_call6_cst_3 : Ref sig .tc := ⟨.hbm, 194, rfl⟩
abbrev main_call6_v12 : Ref sig .tc := ⟨.hbm, 195, rfl⟩
abbrev main_call6_cst_4 : Ref sig .tc := ⟨.hbm, 196, rfl⟩
abbrev main_call6_call0_v0 : Ref sig .tc := ⟨.hbm, 197, rfl⟩
abbrev main_call6_call0_v1 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_cst_19 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_call7_cst : Ref sig .tc := ⟨.hbm, 220, rfl⟩
abbrev main_call7_v0 : Ref sig .tc := ⟨.hbm, 221, rfl⟩
abbrev main_v133 : Ref sig .tc := ⟨.hbm, 222, rfl⟩
abbrev main_c_20 : Ref sig .tc := ⟨.hbm, 223, rfl⟩
abbrev main_v134 : Ref sig .tc := ⟨.hbm, 224, rfl⟩
abbrev main_v135 : Ref sig .tc := ⟨.hbm, 225, rfl⟩
abbrev main_c_21 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_v141 : Ref sig .tc := ⟨.hbm, 232, rfl⟩
abbrev main_call8_cst : Ref sig .tc := ⟨.hbm, 233, rfl⟩
abbrev main_call8_v0 : Ref sig .tc := ⟨.hbm, 234, rfl⟩
abbrev main_v142 : Ref sig .tc := ⟨.hbm, 235, rfl⟩
abbrev main_cst_22 : Ref sig .tc := ⟨.hbm, 236, rfl⟩
abbrev main_v143 : Ref sig .tc := ⟨.hbm, 237, rfl⟩
abbrev main_v144 : Ref sig .tc := ⟨.hbm, 238, rfl⟩
abbrev main_v145 : Ref sig .tc := ⟨.hbm, 239, rfl⟩
abbrev main_v146 : Ref sig .tc := ⟨.hbm, 240, rfl⟩
abbrev main_v147 : Ref sig .tc := ⟨.hbm, 241, rfl⟩
abbrev main_v148 : Ref sig .tc := ⟨.hbm, 242, rfl⟩
abbrev main_v149 : Ref sig .tc := ⟨.hbm, 243, rfl⟩
abbrev main_v150 : Ref sig .tc := ⟨.hbm, 244, rfl⟩
abbrev main_call9_cst : Ref sig .tc := ⟨.hbm, 245, rfl⟩
abbrev main_call9_v0 : Ref sig .tc := ⟨.hbm, 246, rfl⟩
abbrev main_v151 : Ref sig .tc := ⟨.hbm, 247, rfl⟩
abbrev main_v152 : Ref sig .tc := ⟨.hbm, 248, rfl⟩
abbrev main_v153 : Ref sig .tc := ⟨.hbm, 249, rfl⟩
abbrev main_v154 : Ref sig .tc := ⟨.hbm, 250, rfl⟩
abbrev main_v155 : Ref sig .tc := ⟨.hbm, 251, rfl⟩
abbrev main_cst_23 : Ref sig .tc := ⟨.hbm, 252, rfl⟩
abbrev main_v156 : Ref sig .tc := ⟨.hbm, 253, rfl⟩
abbrev main_cst_24 : Ref sig .tc := ⟨.hbm, 254, rfl⟩
abbrev main_v157 : Ref sig .tc := ⟨.hbm, 255, rfl⟩
abbrev main_v158 : Ref sig .tc := ⟨.hbm, 256, rfl⟩
abbrev main_c_25 : Ref sig .tc := ⟨.hbm, 257, rfl⟩
abbrev main_call10_cst : Ref sig .tc := ⟨.hbm, 258, rfl⟩
abbrev main_call10_v0 : Ref sig .tc := ⟨.hbm, 259, rfl⟩
abbrev main_call10_v1 : Ref sig .tc := ⟨.hbm, 260, rfl⟩
abbrev main_call10_cst_0 : Ref sig .tc := ⟨.hbm, 261, rfl⟩
abbrev main_call10_v2 : Ref sig .tc := ⟨.hbm, 262, rfl⟩
abbrev main_call10_v3 : Ref sig .tc := ⟨.hbm, 263, rfl⟩
abbrev main_call10_v4 : Ref sig .tc := ⟨.hbm, 264, rfl⟩
abbrev main_call10_v5 : Ref sig .tc := ⟨.hbm, 265, rfl⟩
abbrev main_call10_v6 : Ref sig .tc := ⟨.hbm, 266, rfl⟩
abbrev main_call10_v7 : Ref sig .tc := ⟨.hbm, 267, rfl⟩
abbrev main_call10_cst_1 : Ref sig .tc := ⟨.hbm, 268, rfl⟩
abbrev main_call10_v8 : Ref sig .tc := ⟨.hbm, 269, rfl⟩
abbrev main_call10_cst_2 : Ref sig .tc := ⟨.hbm, 270, rfl⟩
abbrev main_call10_v9 : Ref sig .tc := ⟨.hbm, 271, rfl⟩
abbrev main_call10_v10 : Ref sig .tc := ⟨.hbm, 272, rfl⟩
abbrev main_call10_v11 : Ref sig .tc := ⟨.hbm, 273, rfl⟩
abbrev main_call10_cst_3 : Ref sig .tc := ⟨.hbm, 274, rfl⟩
abbrev main_call10_v12 : Ref sig .tc := ⟨.hbm, 275, rfl⟩
abbrev main_call10_cst_4 : Ref sig .tc := ⟨.hbm, 276, rfl⟩
abbrev main_call10_call0_v0 : Ref sig .tc := ⟨.hbm, 277, rfl⟩
abbrev main_call10_call0_v1 : Ref sig .tc := ⟨.hbm, 278, rfl⟩
abbrev main_v159 : Ref sig .tc := ⟨.hbm, 279, rfl⟩
abbrev main_v160 : Ref sig .tc := ⟨.hbm, 280, rfl⟩
abbrev main_v161 : Ref sig .tc := ⟨.hbm, 281, rfl⟩
abbrev main_v162 : Ref sig .tc := ⟨.hbm, 282, rfl⟩
abbrev main_cst_26 : Ref sig .tc := ⟨.hbm, 283, rfl⟩
abbrev main_v163 : Ref sig .tc := ⟨.hbm, 284, rfl⟩
abbrev main_v164 : Ref sig .tc := ⟨.hbm, 285, rfl⟩
abbrev main_v165 : Ref sig .tc := ⟨.hbm, 286, rfl⟩
abbrev main_v166 : Ref sig .tc := ⟨.hbm, 287, rfl⟩
abbrev main_v167 : Ref sig .tc := ⟨.hbm, 288, rfl⟩
abbrev main_v168 : Ref sig .tc := ⟨.hbm, 289, rfl⟩
abbrev main_v169 : Ref sig .tc := ⟨.hbm, 290, rfl⟩
abbrev main_v170 : Ref sig .tc := ⟨.hbm, 291, rfl⟩
abbrev main_v171 : Ref sig .tc := ⟨.hbm, 292, rfl⟩
abbrev main_v172 : Ref sig .tc := ⟨.hbm, 293, rfl⟩
abbrev main_v173 : Ref sig .tc := ⟨.hbm, 294, rfl⟩
abbrev main_v174 : Ref sig .tc := ⟨.hbm, 295, rfl⟩
abbrev main_v175 : Ref sig .tc := ⟨.hbm, 296, rfl⟩
abbrev main_v176 : Ref sig .tc := ⟨.hbm, 297, rfl⟩
abbrev main_v177 : Ref sig .tc := ⟨.hbm, 298, rfl⟩
abbrev main_v178 : Ref sig .tc := ⟨.hbm, 299, rfl⟩
abbrev main_call11_cst : Ref sig .tc := ⟨.hbm, 300, rfl⟩
abbrev main_call11_v0 : Ref sig .tc := ⟨.hbm, 301, rfl⟩
abbrev main_v179 : Ref sig .tc := ⟨.hbm, 302, rfl⟩
abbrev main_c_27 : Ref sig .tc := ⟨.hbm, 303, rfl⟩
abbrev main_v180 : Ref sig .tc := ⟨.hbm, 304, rfl⟩
abbrev main_v181 : Ref sig .tc := ⟨.hbm, 305, rfl⟩
abbrev main_c_28 : Ref sig .tc := ⟨.hbm, 306, rfl⟩
abbrev main_v182 : Ref sig .tc := ⟨.hbm, 307, rfl⟩
abbrev main_v183 : Ref sig .tc := ⟨.hbm, 308, rfl⟩
abbrev main_v184 : Ref sig .tc := ⟨.hbm, 309, rfl⟩
abbrev main_v185 : Ref sig .tc := ⟨.hbm, 310, rfl⟩
abbrev main_v186 : Ref sig .tc := ⟨.hbm, 311, rfl⟩
abbrev main_v187 : Ref sig .tc := ⟨.hbm, 312, rfl⟩
abbrev main_call12_cst : Ref sig .tc := ⟨.hbm, 313, rfl⟩
abbrev main_call12_v0 : Ref sig .tc := ⟨.hbm, 314, rfl⟩
abbrev main_v188 : Ref sig .tc := ⟨.hbm, 315, rfl⟩
abbrev main_cst_29 : Ref sig .tc := ⟨.hbm, 316, rfl⟩
abbrev main_v189 : Ref sig .tc := ⟨.hbm, 317, rfl⟩
abbrev main_v190 : Ref sig .tc := ⟨.hbm, 318, rfl⟩
abbrev main_v191 : Ref sig .tc := ⟨.hbm, 319, rfl⟩
abbrev main_v192 : Ref sig .tc := ⟨.hbm, 320, rfl⟩
abbrev main_v193 : Ref sig .tc := ⟨.hbm, 321, rfl⟩
abbrev main_v194 : Ref sig .tc := ⟨.hbm, 322, rfl⟩
abbrev main_v195 : Ref sig .tc := ⟨.hbm, 323, rfl⟩
abbrev main_v196 : Ref sig .tc := ⟨.hbm, 324, rfl⟩
abbrev main_call13_cst : Ref sig .tc := ⟨.hbm, 325, rfl⟩
abbrev main_call13_v0 : Ref sig .tc := ⟨.hbm, 326, rfl⟩
abbrev main_v197 : Ref sig .tc := ⟨.hbm, 327, rfl⟩
abbrev main_v198 : Ref sig .tc := ⟨.hbm, 328, rfl⟩
abbrev main_v199 : Ref sig .tc := ⟨.hbm, 329, rfl⟩
abbrev main_v200 : Ref sig .tc := ⟨.hbm, 330, rfl⟩
abbrev main_v201 : Ref sig .tc := ⟨.hbm, 331, rfl⟩
abbrev main_cst_30 : Ref sig .tc := ⟨.hbm, 332, rfl⟩
abbrev main_v202 : Ref sig .tc := ⟨.hbm, 333, rfl⟩
abbrev main_cst_31 : Ref sig .tc := ⟨.hbm, 334, rfl⟩
abbrev main_v203 : Ref sig .tc := ⟨.hbm, 335, rfl⟩
abbrev main_v204 : Ref sig .tc := ⟨.hbm, 336, rfl⟩
abbrev main_c_32 : Ref sig .tc := ⟨.hbm, 337, rfl⟩
abbrev main_call14_cst : Ref sig .tc := ⟨.hbm, 338, rfl⟩
abbrev main_call14_v0 : Ref sig .tc := ⟨.hbm, 339, rfl⟩
abbrev main_call14_v1 : Ref sig .tc := ⟨.hbm, 340, rfl⟩
abbrev main_call14_cst_0 : Ref sig .tc := ⟨.hbm, 341, rfl⟩
abbrev main_call14_v2 : Ref sig .tc := ⟨.hbm, 342, rfl⟩
abbrev main_call14_v3 : Ref sig .tc := ⟨.hbm, 343, rfl⟩
abbrev main_call14_v4 : Ref sig .tc := ⟨.hbm, 344, rfl⟩
abbrev main_call14_v5 : Ref sig .tc := ⟨.hbm, 345, rfl⟩
abbrev main_call14_v6 : Ref sig .tc := ⟨.hbm, 346, rfl⟩
abbrev main_call14_v7 : Ref sig .tc := ⟨.hbm, 347, rfl⟩
abbrev main_call14_cst_1 : Ref sig .tc := ⟨.hbm, 348, rfl⟩
abbrev main_call14_v8 : Ref sig .tc := ⟨.hbm, 349, rfl⟩
abbrev main_call14_cst_2 : Ref sig .tc := ⟨.hbm, 350, rfl⟩
abbrev main_call14_v9 : Ref sig .tc := ⟨.hbm, 351, rfl⟩
abbrev main_call14_v10 : Ref sig .tc := ⟨.hbm, 352, rfl⟩
abbrev main_call14_v11 : Ref sig .tc := ⟨.hbm, 353, rfl⟩
abbrev main_call14_cst_3 : Ref sig .tc := ⟨.hbm, 354, rfl⟩
abbrev main_call14_v12 : Ref sig .tc := ⟨.hbm, 355, rfl⟩
abbrev main_call14_cst_4 : Ref sig .tc := ⟨.hbm, 356, rfl⟩
abbrev main_call14_call0_v0 : Ref sig .tc := ⟨.hbm, 357, rfl⟩
abbrev main_call14_call0_v1 : Ref sig .tc := ⟨.hbm, 358, rfl⟩
abbrev main_v205 : Ref sig .tc := ⟨.hbm, 359, rfl⟩
abbrev main_v206 : Ref sig .tc := ⟨.hbm, 360, rfl⟩
abbrev main_v207 : Ref sig .tc := ⟨.hbm, 361, rfl⟩
abbrev main_v208 : Ref sig .tc := ⟨.hbm, 362, rfl⟩
abbrev main_cst_33 : Ref sig .tc := ⟨.hbm, 363, rfl⟩
abbrev main_v209 : Ref sig .tc := ⟨.hbm, 364, rfl⟩
abbrev main_v210 : Ref sig .tc := ⟨.hbm, 365, rfl⟩
abbrev main_v211 : Ref sig .tc := ⟨.hbm, 366, rfl⟩
abbrev main_v212 : Ref sig .tc := ⟨.hbm, 367, rfl⟩
abbrev main_v213 : Ref sig .tc := ⟨.hbm, 368, rfl⟩
abbrev main_v214 : Ref sig .tc := ⟨.hbm, 369, rfl⟩
abbrev main_v215 : Ref sig .tc := ⟨.hbm, 370, rfl⟩
abbrev main_v216 : Ref sig .tc := ⟨.hbm, 371, rfl⟩
abbrev main_v217 : Ref sig .tc := ⟨.hbm, 372, rfl⟩
abbrev main_v218 : Ref sig .tc := ⟨.hbm, 373, rfl⟩
abbrev main_v219 : Ref sig .tc := ⟨.hbm, 374, rfl⟩
abbrev main_v220 : Ref sig .tc := ⟨.hbm, 375, rfl⟩
abbrev main_v221 : Ref sig .tc := ⟨.hbm, 376, rfl⟩
abbrev main_v222 : Ref sig .tc := ⟨.hbm, 377, rfl⟩
abbrev main_v223 : Ref sig .tc := ⟨.hbm, 378, rfl⟩
abbrev main_v224 : Ref sig .tc := ⟨.hbm, 379, rfl⟩
abbrev main_call15_cst : Ref sig .tc := ⟨.hbm, 380, rfl⟩
abbrev main_call15_v0 : Ref sig .tc := ⟨.hbm, 381, rfl⟩
abbrev main_v225 : Ref sig .tc := ⟨.hbm, 382, rfl⟩
abbrev main_c_34 : Ref sig .tc := ⟨.hbm, 383, rfl⟩
abbrev main_v226 : Ref sig .tc := ⟨.hbm, 384, rfl⟩
abbrev main_v227 : Ref sig .tc := ⟨.hbm, 385, rfl⟩
abbrev main_c_35 : Ref sig .tc := ⟨.hbm, 386, rfl⟩
abbrev main_v228 : Ref sig .tc := ⟨.hbm, 387, rfl⟩
abbrev main_v229 : Ref sig .tc := ⟨.hbm, 388, rfl⟩
abbrev main_v230 : Ref sig .tc := ⟨.hbm, 389, rfl⟩
abbrev main_v231 : Ref sig .tc := ⟨.hbm, 390, rfl⟩
abbrev main_v232 : Ref sig .tc := ⟨.hbm, 391, rfl⟩
abbrev main_v233 : Ref sig .tc := ⟨.hbm, 392, rfl⟩
abbrev main_call16_cst : Ref sig .tc := ⟨.hbm, 393, rfl⟩
abbrev main_call16_v0 : Ref sig .tc := ⟨.hbm, 394, rfl⟩
abbrev main_v234 : Ref sig .tc := ⟨.hbm, 395, rfl⟩
abbrev main_cst_36 : Ref sig .tc := ⟨.hbm, 396, rfl⟩
abbrev main_v235 : Ref sig .tc := ⟨.hbm, 397, rfl⟩
abbrev main_v236 : Ref sig .tc := ⟨.hbm, 398, rfl⟩
abbrev main_v237 : Ref sig .tc := ⟨.hbm, 399, rfl⟩
abbrev main_v238 : Ref sig .tc := ⟨.hbm, 400, rfl⟩
abbrev main_v239 : Ref sig .tc := ⟨.hbm, 401, rfl⟩
abbrev main_v240 : Ref sig .tc := ⟨.hbm, 402, rfl⟩
abbrev main_v241 : Ref sig .tc := ⟨.hbm, 403, rfl⟩
abbrev main_v242 : Ref sig .tc := ⟨.hbm, 404, rfl⟩
abbrev main_call17_cst : Ref sig .tc := ⟨.hbm, 405, rfl⟩
abbrev main_call17_v0 : Ref sig .tc := ⟨.hbm, 406, rfl⟩
abbrev main_v243 : Ref sig .tc := ⟨.hbm, 407, rfl⟩
abbrev main_v244 : Ref sig .tc := ⟨.hbm, 408, rfl⟩
abbrev main_v245 : Ref sig .tc := ⟨.hbm, 409, rfl⟩
abbrev main_v246 : Ref sig .tc := ⟨.hbm, 410, rfl⟩
abbrev main_v247 : Ref sig .tc := ⟨.hbm, 411, rfl⟩
abbrev main_cst_37 : Ref sig .tc := ⟨.hbm, 412, rfl⟩
abbrev main_v248 : Ref sig .tc := ⟨.hbm, 413, rfl⟩
abbrev main_cst_38 : Ref sig .tc := ⟨.hbm, 414, rfl⟩
abbrev main_v249 : Ref sig .tc := ⟨.hbm, 415, rfl⟩
abbrev main_v250 : Ref sig .tc := ⟨.hbm, 416, rfl⟩
abbrev main_c_39 : Ref sig .tc := ⟨.hbm, 417, rfl⟩
abbrev main_call18_cst : Ref sig .tc := ⟨.hbm, 418, rfl⟩
abbrev main_call18_v0 : Ref sig .tc := ⟨.hbm, 419, rfl⟩
abbrev main_call18_v1 : Ref sig .tc := ⟨.hbm, 420, rfl⟩
abbrev main_call18_cst_0 : Ref sig .tc := ⟨.hbm, 421, rfl⟩
abbrev main_call18_v2 : Ref sig .tc := ⟨.hbm, 422, rfl⟩
abbrev main_call18_v3 : Ref sig .tc := ⟨.hbm, 423, rfl⟩
abbrev main_call18_v4 : Ref sig .tc := ⟨.hbm, 424, rfl⟩
abbrev main_call18_v5 : Ref sig .tc := ⟨.hbm, 425, rfl⟩
abbrev main_call18_v6 : Ref sig .tc := ⟨.hbm, 426, rfl⟩
abbrev main_call18_v7 : Ref sig .tc := ⟨.hbm, 427, rfl⟩
abbrev main_call18_cst_1 : Ref sig .tc := ⟨.hbm, 428, rfl⟩
abbrev main_call18_v8 : Ref sig .tc := ⟨.hbm, 429, rfl⟩
abbrev main_call18_cst_2 : Ref sig .tc := ⟨.hbm, 430, rfl⟩
abbrev main_call18_v9 : Ref sig .tc := ⟨.hbm, 431, rfl⟩
abbrev main_call18_v10 : Ref sig .tc := ⟨.hbm, 432, rfl⟩
abbrev main_call18_v11 : Ref sig .tc := ⟨.hbm, 433, rfl⟩
abbrev main_call18_cst_3 : Ref sig .tc := ⟨.hbm, 434, rfl⟩
abbrev main_call18_v12 : Ref sig .tc := ⟨.hbm, 435, rfl⟩
abbrev main_call18_cst_4 : Ref sig .tc := ⟨.hbm, 436, rfl⟩
abbrev main_call18_call0_v0 : Ref sig .tc := ⟨.hbm, 437, rfl⟩
abbrev main_call18_call0_v1 : Ref sig .tc := ⟨.hbm, 438, rfl⟩
abbrev main_v251 : Ref sig .tc := ⟨.hbm, 439, rfl⟩
abbrev main_v252 : Ref sig .tc := ⟨.hbm, 440, rfl⟩
abbrev main_v253 : Ref sig .tc := ⟨.hbm, 441, rfl⟩
abbrev main_v254 : Ref sig .tc := ⟨.hbm, 442, rfl⟩
abbrev main_cst_40 : Ref sig .tc := ⟨.hbm, 443, rfl⟩
abbrev main_v255 : Ref sig .tc := ⟨.hbm, 444, rfl⟩
abbrev main_v256 : Ref sig .tc := ⟨.hbm, 445, rfl⟩
abbrev main_v257 : Ref sig .tc := ⟨.hbm, 446, rfl⟩
abbrev main_v258 : Ref sig .tc := ⟨.hbm, 447, rfl⟩
abbrev main_v259 : Ref sig .tc := ⟨.hbm, 448, rfl⟩
abbrev main_v260 : Ref sig .tc := ⟨.hbm, 449, rfl⟩
abbrev main_v261 : Ref sig .tc := ⟨.hbm, 450, rfl⟩
abbrev main_v262 : Ref sig .tc := ⟨.hbm, 451, rfl⟩
abbrev main_v263 : Ref sig .tc := ⟨.hbm, 452, rfl⟩
abbrev main_v264 : Ref sig .tc := ⟨.hbm, 453, rfl⟩
abbrev main_v265 : Ref sig .tc := ⟨.hbm, 454, rfl⟩
abbrev main_v266 : Ref sig .tc := ⟨.hbm, 455, rfl⟩
abbrev main_v267 : Ref sig .tc := ⟨.hbm, 456, rfl⟩
abbrev main_v268 : Ref sig .tc := ⟨.hbm, 457, rfl⟩
abbrev main_v269 : Ref sig .tc := ⟨.hbm, 458, rfl⟩
abbrev main_v270 : Ref sig .tc := ⟨.hbm, 459, rfl⟩

abbrev nD : Nat := 1
abbrev τ : Topo := Topo.v7x

variable {F : FTy → Type} [FloatOps F]

class Facts₀ : Prop where
  slices_S50000x2_S50000x1_0_0 : S50000x2.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S50000x2_S50000x1_0_1 : S50000x2.Slices ![0, 1] S50000x1
  slices_S600000x2_S600000x1_0_0 : S600000x2.Slices ![0, 0] S600000x1
  shapeCasts_S600000x1_S600000 : S600000x1.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S600000x2_S600000x1_0_1 : S600000x2.Slices ![0, 1] S600000x1
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000x128 : S_.BroadcastsInDim S600000x128 (![] : Fin 0 → Fin S600000x128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S5x128_S1x128_0_0 : S5x128.Slices ![0, 0] S1x128
  shapeCasts_S1x128_S128 : S1x128.ShapeCasts S128
  slices_S5x128_S1x128_1_0 : S5x128.Slices ![1, 0] S1x128
  slices_S5x128_S1x128_2_0 : S5x128.Slices ![2, 0] S1x128
  slices_S5x128_S1x128_3_0 : S5x128.Slices ![3, 0] S1x128
  slices_S5x128_S1x128_4_0 : S5x128.Slices ![4, 0] S1x128
  gather_S118x128_S50000x1_S50000x128_1_0_n_n_0_1_1128_wf : GatherDims.WF S118x128 S50000x1 S50000x128 [1] [0] [] [0] [] 1 ![1, 128]
  gather_S4x128_S50000x1_S50000x128_1_0_n_n_0_1_1128_wf : GatherDims.WF S4x128 S50000x1 S50000x128 [1] [0] [] [0] [] 1 ![1, 128]
  gather_S4x128_S600000x1_S600000x128_1_0_n_n_0_1_1128_wf : GatherDims.WF S4x128 S600000x1 S600000x128 [1] [0] [] [0] [] 1 ![1, 128]
  gather_S3x128_S600000x1_S600000x128_1_0_n_n_0_1_1128_wf : GatherDims.WF S3x128 S600000x1 S600000x128 [1] [0] [] [0] [] 1 ![1, 128]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []

variable [Facts₀]

def gather_S118x128_S50000x1_S50000x128_1_0_n_n_0_1_1128 : GatherDims S118x128 S50000x1 S50000x128 where
  offsetDims := [1]
  collapsedSliceDims := [0]
  operandBatchingDims := []
  startIndicesBatchingDims := []
  startIndexMap := [0]
  indexVectorDim := 1
  sliceSizes := ![1, 128]
  wf := gather_S118x128_S50000x1_S50000x128_1_0_n_n_0_1_1128_wf
def gather_S4x128_S50000x1_S50000x128_1_0_n_n_0_1_1128 : GatherDims S4x128 S50000x1 S50000x128 where
  offsetDims := [1]
  collapsedSliceDims := [0]
  operandBatchingDims := []
  startIndicesBatchingDims := []
  startIndexMap := [0]
  indexVectorDim := 1
  sliceSizes := ![1, 128]
  wf := gather_S4x128_S50000x1_S50000x128_1_0_n_n_0_1_1128_wf
def gather_S4x128_S600000x1_S600000x128_1_0_n_n_0_1_1128 : GatherDims S4x128 S600000x1 S600000x128 where
  offsetDims := [1]
  collapsedSliceDims := [0]
  operandBatchingDims := []
  startIndicesBatchingDims := []
  startIndexMap := [0]
  indexVectorDim := 1
  sliceSizes := ![1, 128]
  wf := gather_S4x128_S600000x1_S600000x128_1_0_n_n_0_1_1128_wf
def gather_S3x128_S600000x1_S600000x128_1_0_n_n_0_1_1128 : GatherDims S3x128 S600000x1 S600000x128 where
  offsetDims := [1]
  collapsedSliceDims := [0]
  operandBatchingDims := []
  startIndicesBatchingDims := []
  startIndexMap := [0]
  indexVectorDim := 1
  sliceSizes := ![1, 128]
  wf := gather_S3x128_S600000x1_S600000x128_1_0_n_n_0_1_1128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  The message-passing network both programs compute, as pure functions of whole arrays.

  Nodes carry a row of 128 channels. One round: every edge (s, d) sends max(h[s] + e, 0) to node d and the
  messages arriving at a node are summed (`agg`); the node's row h + agg goes through two dense layers
  with a rectifier between them (`mlp`); the result is normalised per channel over all 50000 nodes with the
  batch's own mean and biased variance, scaled and shifted by one row of the affine tables (`bn`), and, except
  after the last round, rectified. Five rounds share the dense weights; the affine row is the round's number.
  Every function below is the composition of array operations, in the order the straight-line programs apply
  them, so that each program's stretch of operations reads back as one of these functions applied to the
  contents it started from.
-/
import proofs.«178875_j64725157151179_1_alg».proof.ReferenceIdeal

noncomputable section

namespace Cert.GnnSpec

open Idealize.ShloMosaic Cert.ReferenceIdeal Cert.ReferenceIdeal.Facts₀ Cert.ReferenceIdeal.Facts

variable {F : FTy → Type} [FloatOps F] [Cert.ReferenceIdeal.Facts]

/-- A vector of 50000 row numbers made safe for indexing: a negative entry counts from the end of an axis of
    extent `n`; the result is a column. -/
def wrap50k (n : BitVec 32) (i : (⟨S50000, .i32⟩ : BufTy).Contents (Elt F)) : (⟨S50000x1, .i32⟩ : BufTy).Contents (Elt F) :=
  broadcastInDim S50000x1 ![0] bcast_S50000_S50000x1_0
    (select (cmpi .slt i (broadcastInDim S50000 ![] bcast_S_S50000 (constantI S_ 32 0#32)))
      (addi i (broadcastInDim S50000 ![] bcast_S_S50000 (constantI S_ 32 n))) i)

/-- The same for a vector of 600000 row numbers. -/
def wrap600k (n : BitVec 32) (i : (⟨S600000, .i32⟩ : BufTy).Contents (Elt F)) : (⟨S600000x1, .i32⟩ : BufTy).Contents (Elt F) :=
  broadcastInDim S600000x1 ![0] bcast_S600000_S600000x1_0
    (select (cmpi .slt i (broadcastInDim S600000 ![] bcast_S_S600000 (constantI S_ 32 0#32)))
      (addi i (broadcastInDim S600000 ![] bcast_S_S600000 (constantI S_ 32 n))) i)

/-- The nodes' first rows: the element table's row plus the chirality table's row, chosen by the two columns of `x`. -/
def nodeEmb (x : (⟨S50000x2, .i32⟩ : BufTy).Contents (Elt F)) (E : (⟨S118x128, .f32⟩ : BufTy).Contents (Elt F)) (C : (⟨S4x128, .f32⟩ : BufTy).Contents (Elt F)) : (⟨S50000x128, .f32⟩ : BufTy).Contents (Elt F) :=
  addf
    (Host.gather gather_S118x128_S50000x1_S50000x128_1_0_n_n_0_1_1128 E
      (wrap50k 118#32 (shapeCast S50000 (extractStridedSlice S50000x1 ![0, 0] x slices_S50000x2_S50000x1_0_0) shapeCasts_S50000x1_S50000)))
    (Host.gather gather_S4x128_S50000x1_S50000x128_1_0_n_n_0_1_1128 C
      (wrap50k 4#32 (shapeCast S50000 (extractStridedSlice S50000x1 ![0, 1] x slices_S50000x2_S50000x1_0_1) shapeCasts_S50000x1_S50000)))

/-- The edges' rows: the bond-type table's row plus the bond-direction table's row, chosen by the two columns of `ea`. -/
def edgeEmb (ea : (⟨S600000x2, .i32⟩ : BufTy).Contents (Elt F)) (B : (⟨S4x128, .f32⟩ : BufTy).Contents (Elt F)) (D : (⟨S3x128, .f32⟩ : BufTy).Contents (Elt F)) : (⟨S600000x128, .f32⟩ : BufTy).Contents (Elt F) :=
  addf
    (Host.gather gather_S4x128_S600000x1_S600000x128_1_0_n_n_0_1_1128 B
      (wrap600k 4#32 (shapeCast S600000 (extractStridedSlice S600000x1 ![0, 0] ea slices_S600000x2_S600000x1_0_0) shapeCasts_S600000x1_S600000)))
    (Host.gather gather_S3x128_S600000x1_S600000x128_1_0_n_n_0_1_1128 D
      (wrap600k 3#32 (shapeCast S600000 (extractStridedSlice S600000x1 ![0, 1] ea slices_S600000x2_S600000x1_0_1) shapeCasts_S600000x1_S600000)))

/-- Every edge's source node: row 0 of the edge list. -/
def srcOf (ei : (⟨S2x600000, .i32⟩ : BufTy).Contents (Elt F)) : (⟨S600000, .i32⟩ : BufTy).Contents (Elt F) :=
  shapeCast S600000 (extractStridedSlice S1x600000 ![0, 0] ei slices_S2x600000_S1x600000_0_0) shapeCasts_S1x600000_S600000

/-- Every edge's destination node: row 1 of the edge list. -/
def dstOf (ei : (⟨S2x600000, .i32⟩ : BufTy).Contents (Elt F)) : (⟨S600000, .i32⟩ : BufTy).Contents (Elt F) :=
  shapeCast S600000 (extractStridedSlice S1x600000 ![1, 0] ei slices_S2x600000_S1x600000_1_0) shapeCasts_S1x600000_S600000

/-- One round's aggregation: node d receives the sum over the edges (s, d) of max(h[s] + e, 0). -/
def agg (h : (⟨S50000x128, .f32⟩ : BufTy).Contents (Elt F)) (e : (⟨S600000x128, .f32⟩ : BufTy).Contents (Elt F)) (src dst : (⟨S600000, .i32⟩ : BufTy).Contents (Elt F)) : (⟨S50000x128, .f32⟩ : BufTy).Contents (Elt F) :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst)
    (maximumf
      (addf (Host.gather gather_S50000x128_S600000x1_S600000x128_1_0_n_n_0_1_1128 h (wrap600k 50000#32 src)) e)
      (broadcastInDim S600000x128 ![] bcast_S_S600000x128 (constant S_ .f32 0x00000000#32)))

/-- The node update: (h + a)·W1 + b1, rectified, then ·W2 + b2; the biases are added to every row. -/
def mlp (h a : (⟨S50000x128, .f32⟩ : BufTy).Contents (Elt F)) (W1 : (⟨S128x256, .f32⟩ : BufTy).Contents (Elt F)) (b1 : (⟨S256, .f32⟩ : BufTy).Contents (Elt F))
    (W2 : (⟨S256x128, .f32⟩ : BufTy).Contents (Elt F)) (b2 : (⟨S128, .f32⟩ : BufTy).Contents (Elt F)) : (⟨S50000x128, .f32⟩ : BufTy).Contents (Elt F) :=
  addf
    (Host.dotGeneral dot_S50000x256_S256x128_S50000x128_1_0_0_1_n_n none
      (maximumf
        (addf (Host.dotGeneral dot_S50000x128_S128x256_S50000x256_1_0_0_1_n_n none (addf h a) W1)
          (broadcastInDim S50000x256 ![0, 1] bcast_S1x256_S50000x256_0_1 (broadcastInDim S1x256 ![1] bcast_S256_S1x256_1 b1)))
        (broadcastInDim S50000x256 ![] bcast_S_S50000x256 (constant S_ .f32 0x00000000#32)))
      W2)
    (broadcastInDim S50000x128 ![0, 1] bcast_S1x128_S50000x128_0_1 (broadcastInDim S1x128 ![1] bcast_S128_S1x128_1 b2))

/-- A row of 128 channel values repeated down the 50000 nodes. -/
def rows (v : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 v)

/-- Per channel, the mean over the 50000 nodes. -/
def chanMean (o : (⟨S50000x128, .f32⟩ : BufTy).Contents (Elt F)) : (⟨S128, .f32⟩ : BufTy).Contents (Elt F) :=
  Host.divf (Host.reduceAdd o (constant S_ .f32 0x00000000#32) reducesTo_S50000x128_S128_d0 h_S_)
    (broadcastInDim S128 ![] bcast_S_S128 (constant S_ .f32 0x47435000#32))

/-- Per channel, the biased variance over the 50000 nodes, as the array library computes it: the mean of the squared
    deviations from a mean taken with the axis kept, divided by 50000 − 0, with its guard for a non-positive divisor. -/
def chanVar (o : (⟨S50000x128, .f32⟩ : BufTy).Contents (Elt F)) : (⟨S128, .f32⟩ : BufTy).Contents (Elt F) :=
  select
    (broadcastInDim S128 ![] bcast_S_S128
      (cmpf .ogt (subf (constant S_ .f32 0x47435000#32) ((sitofp .f32 (constantI S_ 32 0#32 : (⟨S_, .i32⟩ : BufTy).Contents (Elt F))) : (⟨S_, .f32⟩ : BufTy).Contents (Elt F))) (constant S_ .f32 0x00000000#32)))
    (Host.divf
      (Host.reduceAdd
        (mulf
          (subf o (broadcastInDim S50000x128 ![0, 1] bcast_S1x128_S50000x128_0_1
            (Host.divf (broadcastInDim S1x128 ![1] bcast_S128_S1x128_1 (Host.reduceAdd o (constant S_ .f32 0x00000000#32) reducesTo_S50000x128_S128_d0 h_S_))
              (broadcastInDim S1x128 ![] bcast_S_S1x128 (constant S_ .f32 0x47435000#32)))))
          (subf o (broadcastInDim S50000x128 ![0, 1] bcast_S1x128_S50000x128_0_1
            (Host.divf (broadcastInDim S1x128 ![1] bcast_S128_S1x128_1 (Host.reduceAdd o (constant S_ .f32 0x00000000#32) reducesTo_S50000x128_S128_d0 h_S_))
              (broadcastInDim S1x128 ![] bcast_S_S1x128 (constant S_ .f32 0x47435000#32))))))
        (constant S_ .f32 0x00000000#32) reducesTo_S50000x128_S128_d0 h_S_)
      (broadcastInDim S128 ![] bcast_S_S128 (subf (constant S_ .f32 0x47435000#32) ((sitofp .f32 (constantI S_ 32 0#32 : (⟨S_, .i32⟩ : BufTy).Contents (Elt F))) : (⟨S_, .f32⟩ : BufTy).Contents (Elt F)))))
    (broadcastInDim S128 ![] bcast_S_S128 (id (constant S_ .f32 0x7FC00000#32)))

/-- Normalisation of `o` per channel with the scale row `g` and the shift row `b`:
    (o − mean) · rsqrt(var + ε) · g + b. -/
def bn (o : (⟨S50000x128, .f32⟩ : BufTy).Contents (Elt F)) (g b : (⟨S128, .f32⟩ : BufTy).Contents (Elt F)) : (⟨S50000x128, .f32⟩ : BufTy).Contents (Elt F) :=
  addf
    (mulf
      (mulf (subf o (rows (chanMean o)))
        (rows (Host.rsqrt (addf (chanVar o) (broadcastInDim S128 ![] bcast_S_S128 (constant S_ .f32 0x3727C5AC#32))))))
      (rows g))
    (rows b)

/-- The rectifier on a node array. -/
def relu (x : (⟨S50000x128, .f32⟩ : BufTy).Contents (Elt F)) : (⟨S50000x128, .f32⟩ : BufTy).Contents (Elt F) :=
  maximumf x (broadcastInDim S50000x128 ![] bcast_S_S50000x128 (constant S_ .f32 0x00000000#32))

/-- Row `l` of a 5-row affine table. -/
def row0 (t : (⟨S5x128, .f32⟩ : BufTy).Contents (Elt F)) : (⟨S128, .f32⟩ : BufTy).Contents (Elt F) := shapeCast S128 (extractStridedSlice S1x128 ![0, 0] t slices_S5x128_S1x128_0_0) shapeCasts_S1x128_S128
def row1 (t : (⟨S5x128, .f32⟩ : BufTy).Contents (Elt F)) : (⟨S128, .f32⟩ : BufTy).Contents (Elt F) := shapeCast S128 (extractStridedSlice S1x128 ![1, 0] t slices_S5x128_S1x128_1_0) shapeCasts_S1x128_S128
def row2 (t : (⟨S5x128, .f32⟩ : BufTy).Contents (Elt F)) : (⟨S128, .f32⟩ : BufTy).Contents (Elt F) := shapeCast S128 (extractStridedSlice S1x128 ![2, 0] t slices_S5x128_S1x128_2_0) shapeCasts_S1x128_S128
def row3 (t : (⟨S5x128, .f32⟩ : BufTy).Contents (Elt F)) : (⟨S128, .f32⟩ : BufTy).Contents (Elt F) := shapeCast S128 (extractStridedSlice S1x128 ![3, 0] t slices_S5x128_S1x128_3_0) shapeCasts_S1x128_S128
def row4 (t : (⟨S5x128, .f32⟩ : BufTy).Contents (Elt F)) : (⟨S128, .f32⟩ : BufTy).Contents (Elt F) := shapeCast S128 (extractStridedSlice S1x128 ![4, 0] t slices_S5x128_S1x128_4_0) shapeCasts_S1x128_S128

/-- The network: five rounds from the nodes' first rows; the last round is not rectified. -/
def net (x : (⟨S50000x2, .i32⟩ : BufTy).Contents (Elt F)) (ei : (⟨S2x600000, .i32⟩ : BufTy).Contents (Elt F)) (ea : (⟨S600000x2, .i32⟩ : BufTy).Contents (Elt F))
    (E : (⟨S118x128, .f32⟩ : BufTy).Contents (Elt F)) (C : (⟨S4x128, .f32⟩ : BufTy).Contents (Elt F)) (B : (⟨S4x128, .f32⟩ : BufTy).Contents (Elt F)) (D : (⟨S3x128, .f32⟩ : BufTy).Contents (Elt F))
    (W1 : (⟨S128x256, .f32⟩ : BufTy).Contents (Elt F)) (b1 : (⟨S256, .f32⟩ : BufTy).Contents (Elt F)) (W2 : (⟨S256x128, .f32⟩ : BufTy).Contents (Elt F)) (b2 : (⟨S128, .f32⟩ : BufTy).Contents (Elt F))
    (G : (⟨S5x128, .f32⟩ : BufTy).Contents (Elt F)) (Bt : (⟨S5x128, .f32⟩ : BufTy).Contents (Elt F)) : (⟨S50000x128, .f32⟩ : BufTy).Contents (Elt F) :=
  let e := edgeEmb ea B D
  let s := srcOf ei
  let d := dstOf ei
  let upd := fun (h : (⟨S50000x128, .f32⟩ : BufTy).Contents (Elt F)) => mlp h (agg h e s d) W1 b1 W2 b2
  let h0 := nodeEmb x E C
  let h1 := relu (bn (upd h0) (row0 G) (row0 Bt))
  let h2 := relu (bn (upd h1) (row1 G) (row1 Bt))
  let h3 := relu (bn (upd h2) (row2 G) (row2 Bt))
  let h4 := relu (bn (upd h3) (row3 G) (row3 Bt))
  bn (upd h4) (row4 G) (row4 Bt)

end Cert.GnnSpec

end
-- ==== Proof.KernelRun.lean ====
/-
  The kernel program's run with its result kept.

  @main is 39 segments: stretches of array operations on the host side and five launches of the dense-update
  kernel. Every weakly fair execution from a memory with zero counters terminates without a fault, and in the
  final state every unscoped buffer of a core holds the last boundary's contents of the fold through the segments
  (each stretch applied to what it found; each launch replacing its output array by what its ten blocks wrote
  back). Read at the result buffer this gives the program's value as that fold; read at the thirteen argument
  buffers it gives the launch contents, since no segment writes them.
-/
import proofs.«178875_j64725157151179_1_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Cert.KernelIdeal.Facts]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last
    boundary's contents and the thirteen argument buffers as launched. -/
theorem run : θ_run defs (onTc (τ := τ) (main (F := F))) ⟨m, fun _ => 0, ρ⟩ (fun r => ∀ c : Dev nD,
      r.2.mem ((c.tc : Thread nD τ).loc main_v225) = W39 m ρ c (Proc.devRef .tc main_v225)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W39 m ρ c b)
    (hfin := fun c s' => by
      iintro ⟨⟨Hh, -⟩, HSI⟩
      unfold StableHlo.held
      imodintro
      iapply (pointsTo_read_all (Pipeline.ucRefs τ sig) (fun b => (((c : Thread nD τ)).1, b)) (W39 m ρ c) s')
      isplitl [Hh] <;> iassumption)
    (hQ := fun s h c =>
      ⟨h c _ (mem_uc main_v225 (by decide)),
       (h c _ (mem_uc main_arg0 (by decide))).trans (W39_main_arg0 m ρ c),
       (h c _ (mem_uc main_arg1 (by decide))).trans (W39_main_arg1 m ρ c),
       (h c _ (mem_uc main_arg2 (by decide))).trans (W39_main_arg2 m ρ c),
       (h c _ (mem_uc main_arg3 (by decide))).trans (W39_main_arg3 m ρ c),
       (h c _ (mem_uc main_arg4 (by decide))).trans (W39_main_arg4 m ρ c),
       (h c _ (mem_uc main_arg5 (by decide))).trans (W39_main_arg5 m ρ c),
       (h c _ (mem_uc main_arg6 (by decide))).trans (W39_main_arg6 m ρ c),
       (h c _ (mem_uc main_arg7 (by decide))).trans (W39_main_arg7 m ρ c),
       (h c _ (mem_uc main_arg8 (by decide))).trans (W39_main_arg8 m ρ c),
       (h c _ (mem_uc main_arg9 (by decide))).trans (W39_main_arg9 m ρ c),
       (h c _ (mem_uc main_arg10 (by decide))).trans (W39_main_arg10 m ρ c),
       (h c _ (mem_uc main_arg11 (by decide))).trans (W39_main_arg11 m ρ c),
       (h c _ (mem_uc main_arg12 (by decide))).trans (W39_main_arg12 m ρ c)⟩)

end Cert.KernelIdeal.KernelRun

end
-- ==== Proof.ChainBase.lean ====
/-
  What the five rounds of the message-passing network share. After the opening stretch of array operations
  has computed the edges' rows and the two vectors of edge endpoints, no later operation writes them, nor the
  dense weights, the biases or the two affine tables: every round reads the same nine arrays. This module names
  that invariant of a valuation of the program's buffers.
-/
import proofs.«178875_j64725157151179_1_alg».proof.KernelIdeal

noncomputable section

namespace Cert.KernelIdeal.Chain

open Idealize.ShloMosaic Idealize.ShloMosaic.TcCoe Cert.KernelIdeal

variable {F : FTy → Type} [FloatOps F]

/-- The valuation `Y` holds the edge rows `e`, the source and destination vectors `s`, `d`, the dense layers'
    weights and biases and the two affine tables in the buffers every round reads them from. -/
structure Carried
    (e : (⟨S600000x128, .f32⟩ : BufTy).Contents (Elt F)) (s d : (⟨S600000, .i32⟩ : BufTy).Contents (Elt F))
    (W1 : (⟨S128x256, .f32⟩ : BufTy).Contents (Elt F)) (b1 : (⟨S256, .f32⟩ : BufTy).Contents (Elt F))
    (W2 : (⟨S256x128, .f32⟩ : BufTy).Contents (Elt F)) (b2 : (⟨S128, .f32⟩ : BufTy).Contents (Elt F))
    (G Bt : (⟨S5x128, .f32⟩ : BufTy).Contents (Elt F)) (Y : Valuation τ sig (Elt F)) : Prop where
  hE : Y (Proc.devRef .tc main_v37) = e
  hS : Y (Proc.devRef .tc main_v39) = s
  hD : Y (Proc.devRef .tc main_v41) = d
  hW1 : Y (Proc.devRef .tc main_arg7) = W1
  hb1 : Y (Proc.devRef .tc main_arg8) = b1
  hW2 : Y (Proc.devRef .tc main_arg9) = W2
  hb2 : Y (Proc.devRef .tc main_arg10) = b2
  hG : Y (Proc.devRef .tc main_arg11) = G
  hB : Y (Proc.devRef .tc main_arg12) = Bt

end Cert.KernelIdeal.Chain

end
-- ==== Proof.ChainOpening.lean ====
/-
  The opening stretch of array operations of the message-passing network, up to the first dense-layer call.
  From the launch arguments it gathers the nodes' first rows (element row + chirality row) and the edges' rows
  (bond-type row + bond-direction row), splits the edge list into the vectors of sources and destinations, and
  forms the first aggregate: every edge sends max(h[source] + e, 0) to its destination, the arrivals summed. Read
  back as functions of the contents the stretch starts from, these are the specification's `nodeEmb`, `edgeEmb`,
  `srcOf`, `dstOf` and `agg`; the dense weights, the biases and the affine tables are not written.
-/
import proofs.«178875_j64725157151179_1_alg».proof.Proof.Gen.KernelIdeal.Launch
import proofs.«178875_j64725157151179_1_alg».proof.Proof.Gen.ReferenceIdeal
import proofs.«178875_j64725157151179_1_alg».proof.Proof.Spec
import proofs.«178875_j64725157151179_1_alg».proof.Proof.ChainBase

noncomputable section

namespace Cert.KernelIdeal.Chain

open Idealize.ShloMosaic Idealize.ShloMosaic.TcCoe Cert.KernelIdeal Cert.KernelIdeal.Gen

variable {F : FTy → Type} [FloatOps F]

/-- The valuation `Y` holds the thirteen launch arguments in the argument buffers. -/
structure AtLaunch (x : (⟨S50000x2, .i32⟩ : BufTy).Contents (Elt F)) (ei : (⟨S2x600000, .i32⟩ : BufTy).Contents (Elt F)) (ea : (⟨S600000x2, .i32⟩ : BufTy).Contents (Elt F)) (E : (⟨S118x128, .f32⟩ : BufTy).Contents (Elt F)) (C : (⟨S4x128, .f32⟩ : BufTy).Contents (Elt F)) (B : (⟨S4x128, .f32⟩ : BufTy).Contents (Elt F)) (D : (⟨S3x128, .f32⟩ : BufTy).Contents (Elt F)) (W1 : (⟨S128x256, .f32⟩ : BufTy).Contents (Elt F)) (b1 : (⟨S256, .f32⟩ : BufTy).Contents (Elt F)) (W2 : (⟨S256x128, .f32⟩ : BufTy).Contents (Elt F)) (b2 : (⟨S128, .f32⟩ : BufTy).Contents (Elt F)) (G : (⟨S5x128, .f32⟩ : BufTy).Contents (Elt F)) (Bt : (⟨S5x128, .f32⟩ : BufTy).Contents (Elt F))
    (Y : Valuation τ sig (Elt F)) : Prop where
  a0 : Y (Proc.devRef .tc main_arg0) = x
  a1 : Y (Proc.devRef .tc main_arg1) = ei
  a2 : Y (Proc.devRef .tc main_arg2) = ea
  a3 : Y (Proc.devRef .tc main_arg3) = E
  a4 : Y (Proc.devRef .tc main_arg4) = C
  a5 : Y (Proc.devRef .tc main_arg5) = B
  a6 : Y (Proc.devRef .tc main_arg6) = D
  a7 : Y (Proc.devRef .tc main_arg7) = W1
  a8 : Y (Proc.devRef .tc main_arg8) = b1
  a9 : Y (Proc.devRef .tc main_arg9) = W2
  a10 : Y (Proc.devRef .tc main_arg10) = b2
  a11 : Y (Proc.devRef .tc main_arg11) = G
  a12 : Y (Proc.devRef .tc main_arg12) = Bt

/-- The buffers' contents after the opening stretch, from contents `X`. -/
abbrev opening (X : Valuation τ sig (Elt F)) : Valuation τ sig (Elt F) :=
  StableHlo.after hostOps0_2 (StableHlo.after hostOps0_1 (StableHlo.after hostOps0 X))

/-- The nodes' first rows. -/
theorem opening_node (X : Valuation τ sig (Elt F)) :
    opening X (Proc.devRef .tc main_v18) = Cert.GnnSpec.nodeEmb (X (Proc.devRef .tc main_arg0)) (X (Proc.devRef .tc main_arg3)) (X (Proc.devRef .tc main_arg4)) := by
  dsimp only [opening, hostOps0, hostOps0_1, hostOps0_2]
  after_results_simp
  rfl

/-- The edges' rows. -/
theorem opening_edge (X : Valuation τ sig (Elt F)) :
    opening X (Proc.devRef .tc main_v37) = Cert.GnnSpec.edgeEmb (X (Proc.devRef .tc main_arg2)) (X (Proc.devRef .tc main_arg5)) (X (Proc.devRef .tc main_arg6)) := by
  dsimp only [opening, hostOps0, hostOps0_1, hostOps0_2]
  after_results_simp
  rfl

/-- The edges' sources. -/
theorem opening_src (X : Valuation τ sig (Elt F)) :
    opening X (Proc.devRef .tc main_v39) = Cert.GnnSpec.srcOf (X (Proc.devRef .tc main_arg1)) := by
  dsimp only [opening, hostOps0, hostOps0_1, hostOps0_2]
  after_results_simp
  rfl

/-- The edges' destinations. -/
theorem opening_dst (X : Valuation τ sig (Elt F)) :
    opening X (Proc.devRef .tc main_v41) = Cert.GnnSpec.dstOf (X (Proc.devRef .tc main_arg1)) := by
  dsimp only [opening, hostOps0, hostOps0_1, hostOps0_2]
  after_results_simp
  rfl

/-- The first aggregate. -/
theorem opening_agg (X : Valuation τ sig (Elt F)) :
    opening X (Proc.devRef .tc main_v53)
      = Cert.GnnSpec.agg (Cert.GnnSpec.nodeEmb (X (Proc.devRef .tc main_arg0)) (X (Proc.devRef .tc main_arg3)) (X (Proc.devRef .tc main_arg4)))
          (Cert.GnnSpec.edgeEmb (X (Proc.devRef .tc main_arg2)) (X (Proc.devRef .tc main_arg5)) (X (Proc.devRef .tc main_arg6)))
          (Cert.GnnSpec.srcOf (X (Proc.devRef .tc main_arg1))) (Cert.GnnSpec.dstOf (X (Proc.devRef .tc main_arg1))) := by
  dsimp only [opening, hostOps0, hostOps0_1, hostOps0_2]
  after_results_simp
  rfl

variable {x : (⟨S50000x2, .i32⟩ : BufTy).Contents (Elt F)} {ei : (⟨S2x600000, .i32⟩ : BufTy).Contents (Elt F)} {ea : (⟨S600000x2, .i32⟩ : BufTy).Contents (Elt F)} {E : (⟨S118x128, .f32⟩ : BufTy).Contents (Elt F)} {C : (⟨S4x128, .f32⟩ : BufTy).Contents (Elt F)} {B : (⟨S4x128, .f32⟩ : BufTy).Contents (Elt F)} {D : (⟨S3x128, .f32⟩ : BufTy).Contents (Elt F)} {W1 : (⟨S128x256, .f32⟩ : BufTy).Contents (Elt F)} {b1 : (⟨S256, .f32⟩ : BufTy).Contents (Elt F)} {W2 : (⟨S256x128, .f32⟩ : BufTy).Contents (Elt F)} {b2 : (⟨S128, .f32⟩ : BufTy).Contents (Elt F)} {G : (⟨S5x128, .f32⟩ : BufTy).Contents (Elt F)} {Bt : (⟨S5x128, .f32⟩ : BufTy).Contents (Elt F)}
  {X : Valuation τ sig (Elt F)}

/-- From the launch arguments the stretch leaves the nine arrays every round shares. -/
theorem opening_carried (h : AtLaunch x ei ea E C B D W1 b1 W2 b2 G Bt X) :
    Carried (Cert.GnnSpec.edgeEmb ea B D) (Cert.GnnSpec.srcOf ei) (Cert.GnnSpec.dstOf ei) W1 b1 W2 b2 G Bt (opening X) := by
  obtain ⟨h0, h1, h2, h3, h4, h5, h6, h7, h8, h9, h10, h11, h12⟩ := h
  refine ⟨?_, ?_, ?_, ?_, ?_, ?_, ?_, ?_, ?_⟩
  · rw [opening_edge, h2, h5, h6]
  · rw [opening_src, h1]
  · rw [opening_dst, h1]
  · dsimp only [opening, hostOps0, hostOps0_1, hostOps0_2]; after_results_simp; exact h7
  · dsimp only [opening, hostOps0, hostOps0_1, hostOps0_2]; after_results_simp; exact h8
  · dsimp only [opening, hostOps0, hostOps0_1, hostOps0_2]; after_results_simp; exact h9
  · dsimp only [opening, hostOps0, hostOps0_1, hostOps0_2]; after_results_simp; exact h10
  · dsimp only [opening, hostOps0, hostOps0_1, hostOps0_2]; after_results_simp; exact h11
  · dsimp only [opening, hostOps0, hostOps0_1, hostOps0_2]; after_results_simp; exact h12

/-- The nodes' first rows and the first aggregate from the launch arguments. -/
theorem opening_node_of (h : AtLaunch x ei ea E C B D W1 b1 W2 b2 G Bt X) :
    opening X (Proc.devRef .tc main_v18) = Cert.GnnSpec.nodeEmb x E C := by
  rw [opening_node, h.a0, h.a3, h.a4]

theorem opening_agg_of (h : AtLaunch x ei ea E C B D W1 b1 W2 b2 G Bt X) :
    opening X (Proc.devRef .tc main_v53)
      = Cert.GnnSpec.agg (Cert.GnnSpec.nodeEmb x E C) (Cert.GnnSpec.edgeEmb ea B D) (Cert.GnnSpec.srcOf ei) (Cert.GnnSpec.dstOf ei) := by
  rw [opening_agg, h.a0, h.a3, h.a4, h.a2, h.a5, h.a6, h.a1]

end Cert.KernelIdeal.Chain

end
-- ==== Proof.ChainRound1.lean ====
/-
  The stretch of array operations between the first and the second dense-layer call of the message-passing
  network. It normalises the dense layers' output per channel over the 50000 nodes (mean, biased variance,
  reciprocal root of variance + ε), scales and shifts by row 0 of the two affine tables and rectifies: these are
  the nodes' next rows. Then every edge sends max(h[source] + e, 0) to its destination and the arrivals are summed:
  the next aggregate. Read back as functions of the contents the stretch starts from, these are the
  specification's `relu ∘ bn` at row 0 and `agg`; the nine arrays every round shares are not written.
-/
import proofs.«178875_j64725157151179_1_alg».proof.Proof.Gen.KernelIdeal.Launch
import proofs.«178875_j64725157151179_1_alg».proof.Proof.Gen.ReferenceIdeal
import proofs.«178875_j64725157151179_1_alg».proof.Proof.Spec
import proofs.«178875_j64725157151179_1_alg».proof.Proof.ChainBase

noncomputable section

namespace Cert.KernelIdeal.Chain

open Idealize.ShloMosaic Idealize.ShloMosaic.TcCoe Cert.KernelIdeal Cert.KernelIdeal.Gen

variable {F : FTy → Type} [FloatOps F]

/-- The buffers' contents after the stretch, from contents `X`. -/
abbrev stretch1 (X : Valuation τ sig (Elt F)) : Valuation τ sig (Elt F) :=
  StableHlo.after hostOps1_6 (StableHlo.after hostOps1_5 (StableHlo.after hostOps1_4 (StableHlo.after hostOps1_3 (StableHlo.after hostOps1_2 (StableHlo.after hostOps1_1 (StableHlo.after hostOps1 X))))))

/-- The nodes' next rows: the normalised, rectified dense-layer output. -/
theorem stretch1_node (X : Valuation τ sig (Elt F)) :
    stretch1 X (Proc.devRef .tc main_v78)
      = Cert.GnnSpec.relu (Cert.GnnSpec.bn (X (Proc.devRef .tc main_v54))
          (Cert.GnnSpec.row0 (X (Proc.devRef .tc main_arg11))) (Cert.GnnSpec.row0 (X (Proc.devRef .tc main_arg12)))) := by
  dsimp only [stretch1, hostOps1, hostOps1_1, hostOps1_2, hostOps1_3, hostOps1_4, hostOps1_5, hostOps1_6]
  after_results_simp
  rfl

/-- The next aggregate: the messages of the nodes' next rows summed at their destinations. -/
theorem stretch1_agg (X : Valuation τ sig (Elt F)) :
    stretch1 X (Proc.devRef .tc main_v90)
      = Cert.GnnSpec.agg
          (Cert.GnnSpec.relu (Cert.GnnSpec.bn (X (Proc.devRef .tc main_v54))
            (Cert.GnnSpec.row0 (X (Proc.devRef .tc main_arg11))) (Cert.GnnSpec.row0 (X (Proc.devRef .tc main_arg12)))))
          (X (Proc.devRef .tc main_v37)) (X (Proc.devRef .tc main_v39)) (X (Proc.devRef .tc main_v41)) := by
  dsimp only [stretch1, hostOps1, hostOps1_1, hostOps1_2, hostOps1_3, hostOps1_4, hostOps1_5, hostOps1_6]
  after_results_simp
  rfl

variable {e : (⟨S600000x128, .f32⟩ : BufTy).Contents (Elt F)} {s d : (⟨S600000, .i32⟩ : BufTy).Contents (Elt F)}
  {W1 : (⟨S128x256, .f32⟩ : BufTy).Contents (Elt F)} {b1 : (⟨S256, .f32⟩ : BufTy).Contents (Elt F)}
  {W2 : (⟨S256x128, .f32⟩ : BufTy).Contents (Elt F)} {b2 : (⟨S128, .f32⟩ : BufTy).Contents (Elt F)}
  {G Bt : (⟨S5x128, .f32⟩ : BufTy).Contents (Elt F)} {X : Valuation τ sig (Elt F)}

set_option maxHeartbeats 2000000 in
/-- The stretch writes none of the nine shared arrays. -/
theorem stretch1_carried (h : Carried e s d W1 b1 W2 b2 G Bt X) : Carried e s d W1 b1 W2 b2 G Bt (stretch1 X) := by
  obtain ⟨h1, h2, h3, h4, h5, h6, h7, h8, h9⟩ := h
  refine ⟨?_, ?_, ?_, ?_, ?_, ?_, ?_, ?_, ?_⟩
  · dsimp only [stretch1, hostOps1, hostOps1_1, hostOps1_2, hostOps1_3, hostOps1_4, hostOps1_5, hostOps1_6]; after_results_simp; exact h1
  · dsimp only [stretch1, hostOps1, hostOps1_1, hostOps1_2, hostOps1_3, hostOps1_4, hostOps1_5, hostOps1_6]; after_results_simp; exact h2
  · dsimp only [stretch1, hostOps1, hostOps1_1, hostOps1_2, hostOps1_3, hostOps1_4, hostOps1_5, hostOps1_6]; after_results_simp; exact h3
  · dsimp only [stretch1, hostOps1, hostOps1_1, hostOps1_2, hostOps1_3, hostOps1_4, hostOps1_5, hostOps1_6]; after_results_simp; exact h4
  · dsimp only [stretch1, hostOps1, hostOps1_1, hostOps1_2, hostOps1_3, hostOps1_4, hostOps1_5, hostOps1_6]; after_results_simp; exact h5
  · dsimp only [stretch1, hostOps1, hostOps1_1, hostOps1_2, hostOps1_3, hostOps1_4, hostOps1_5, hostOps1_6]; after_results_simp; exact h6
  · dsimp only [stretch1, hostOps1, hostOps1_1, hostOps1_2, hostOps1_3, hostOps1_4, hostOps1_5, hostOps1_6]; after_results_simp; exact h7
  · dsimp only [stretch1, hostOps1, hostOps1_1, hostOps1_2, hostOps1_3, hostOps1_4, hostOps1_5, hostOps1_6]; after_results_simp; exact h8
  · dsimp only [stretch1, hostOps1, hostOps1_1, hostOps1_2, hostOps1_3, hostOps1_4, hostOps1_5, hostOps1_6]; after_results_simp; exact h9

/-- The two results in terms of what the shared arrays and the dense-layer output are known to be. -/
theorem stretch1_node_of (h : Carried e s d W1 b1 W2 b2 G Bt X)
    {o : (⟨S50000x128, .f32⟩ : BufTy).Contents (Elt F)} (ho : X (Proc.devRef .tc main_v54) = o) :
    stretch1 X (Proc.devRef .tc main_v78) = Cert.GnnSpec.relu (Cert.GnnSpec.bn o (Cert.GnnSpec.row0 G) (Cert.GnnSpec.row0 Bt)) := by
  rw [stretch1_node, ho, h.hG, h.hB]

theorem stretch1_agg_of (h : Carried e s d W1 b1 W2 b2 G Bt X)
    {o : (⟨S50000x128, .f32⟩ : BufTy).Contents (Elt F)} (ho : X (Proc.devRef .tc main_v54) = o) :
    stretch1 X (Proc.devRef .tc main_v90)
      = Cert.GnnSpec.agg (Cert.GnnSpec.relu (Cert.GnnSpec.bn o (Cert.GnnSpec.row0 G) (Cert.GnnSpec.row0 Bt))) e s d := by
  rw [stretch1_agg, ho, h.hG, h.hB, h.hE, h.hS, h.hD]

end Cert.KernelIdeal.Chain

end
-- ==== Proof.ChainRound2.lean ====
/-
  The stretch of array operations between the second and the third dense-layer call of the message-passing
  network. It normalises the dense layers' output per channel over the 50000 nodes (mean, biased variance,
  reciprocal root of variance + ε), scales and shifts by row 1 of the two affine tables and rectifies: these are
  the nodes' next rows. Then every edge sends max(h[source] + e, 0) to its destination and the arrivals are summed:
  the next aggregate. Read back as functions of the contents the stretch starts from, these are the
  specification's `relu ∘ bn` at row 1 and `agg`; the nine arrays every round shares are not written.
-/
import proofs.«178875_j64725157151179_1_alg».proof.Proof.Gen.KernelIdeal.Launch
import proofs.«178875_j64725157151179_1_alg».proof.Proof.Gen.ReferenceIdeal
import proofs.«178875_j64725157151179_1_alg».proof.Proof.Spec
import proofs.«178875_j64725157151179_1_alg».proof.Proof.ChainBase

noncomputable section

namespace Cert.KernelIdeal.Chain

open Idealize.ShloMosaic Idealize.ShloMosaic.TcCoe Cert.KernelIdeal Cert.KernelIdeal.Gen

variable {F : FTy → Type} [FloatOps F]

/-- The buffers' contents after the stretch, from contents `X`. -/
abbrev stretch2 (X : Valuation τ sig (Elt F)) : Valuation τ sig (Elt F) :=
  StableHlo.after hostOps2_6 (StableHlo.after hostOps2_5 (StableHlo.after hostOps2_4 (StableHlo.after hostOps2_3 (StableHlo.after hostOps2_2 (StableHlo.after hostOps2_1 (StableHlo.after hostOps2 X))))))

/-- The nodes' next rows: the normalised, rectified dense-layer output. -/
theorem stretch2_node (X : Valuation τ sig (Elt F)) :
    stretch2 X (Proc.devRef .tc main_v115)
      = Cert.GnnSpec.relu (Cert.GnnSpec.bn (X (Proc.devRef .tc main_v91))
          (Cert.GnnSpec.row1 (X (Proc.devRef .tc main_arg11))) (Cert.GnnSpec.row1 (X (Proc.devRef .tc main_arg12)))) := by
  dsimp only [stretch2, hostOps2, hostOps2_1, hostOps2_2, hostOps2_3, hostOps2_4, hostOps2_5, hostOps2_6]
  after_results_simp
  rfl

/-- The next aggregate: the messages of the nodes' next rows summed at their destinations. -/
theorem stretch2_agg (X : Valuation τ sig (Elt F)) :
    stretch2 X (Proc.devRef .tc main_v127)
      = Cert.GnnSpec.agg
          (Cert.GnnSpec.relu (Cert.GnnSpec.bn (X (Proc.devRef .tc main_v91))
            (Cert.GnnSpec.row1 (X (Proc.devRef .tc main_arg11))) (Cert.GnnSpec.row1 (X (Proc.devRef .tc main_arg12)))))
          (X (Proc.devRef .tc main_v37)) (X (Proc.devRef .tc main_v39)) (X (Proc.devRef .tc main_v41)) := by
  dsimp only [stretch2, hostOps2, hostOps2_1, hostOps2_2, hostOps2_3, hostOps2_4, hostOps2_5, hostOps2_6]
  after_results_simp
  rfl

variable {e : (⟨S600000x128, .f32⟩ : BufTy).Contents (Elt F)} {s d : (⟨S600000, .i32⟩ : BufTy).Contents (Elt F)}
  {W1 : (⟨S128x256, .f32⟩ : BufTy).Contents (Elt F)} {b1 : (⟨S256, .f32⟩ : BufTy).Contents (Elt F)}
  {W2 : (⟨S256x128, .f32⟩ : BufTy).Contents (Elt F)} {b2 : (⟨S128, .f32⟩ : BufTy).Contents (Elt F)}
  {G Bt : (⟨S5x128, .f32⟩ : BufTy).Contents (Elt F)} {X : Valuation τ sig (Elt F)}

set_option maxHeartbeats 2000000 in
/-- The stretch writes none of the nine shared arrays. -/
theorem stretch2_carried (h : Carried e s d W1 b1 W2 b2 G Bt X) : Carried e s d W1 b1 W2 b2 G Bt (stretch2 X) := by
  obtain ⟨h1, h2, h3, h4, h5, h6, h7, h8, h9⟩ := h
  refine ⟨?_, ?_, ?_, ?_, ?_, ?_, ?_, ?_, ?_⟩
  · dsimp only [stretch2, hostOps2, hostOps2_1, hostOps2_2, hostOps2_3, hostOps2_4, hostOps2_5, hostOps2_6]; after_results_simp; exact h1
  · dsimp only [stretch2, hostOps2, hostOps2_1, hostOps2_2, hostOps2_3, hostOps2_4, hostOps2_5, hostOps2_6]; after_results_simp; exact h2
  · dsimp only [stretch2, hostOps2, hostOps2_1, hostOps2_2, hostOps2_3, hostOps2_4, hostOps2_5, hostOps2_6]; after_results_simp; exact h3
  · dsimp only [stretch2, hostOps2, hostOps2_1, hostOps2_2, hostOps2_3, hostOps2_4, hostOps2_5, hostOps2_6]; after_results_simp; exact h4
  · dsimp only [stretch2, hostOps2, hostOps2_1, hostOps2_2, hostOps2_3, hostOps2_4, hostOps2_5, hostOps2_6]; after_results_simp; exact h5
  · dsimp only [stretch2, hostOps2, hostOps2_1, hostOps2_2, hostOps2_3, hostOps2_4, hostOps2_5, hostOps2_6]; after_results_simp; exact h6
  · dsimp only [stretch2, hostOps2, hostOps2_1, hostOps2_2, hostOps2_3, hostOps2_4, hostOps2_5, hostOps2_6]; after_results_simp; exact h7
  · dsimp only [stretch2, hostOps2, hostOps2_1, hostOps2_2, hostOps2_3, hostOps2_4, hostOps2_5, hostOps2_6]; after_results_simp; exact h8
  · dsimp only [stretch2, hostOps2, hostOps2_1, hostOps2_2, hostOps2_3, hostOps2_4, hostOps2_5, hostOps2_6]; after_results_simp; exact h9

/-- The two results in terms of what the shared arrays and the dense-layer output are known to be. -/
theorem stretch2_node_of (h : Carried e s d W1 b1 W2 b2 G Bt X)
    {o : (⟨S50000x128, .f32⟩ : BufTy).Contents (Elt F)} (ho : X (Proc.devRef .tc main_v91) = o) :
    stretch2 X (Proc.devRef .tc main_v115) = Cert.GnnSpec.relu (Cert.GnnSpec.bn o (Cert.GnnSpec.row1 G) (Cert.GnnSpec.row1 Bt)) := by
  rw [stretch2_node, ho, h.hG, h.hB]

theorem stretch2_agg_of (h : Carried e s d W1 b1 W2 b2 G Bt X)
    {o : (⟨S50000x128, .f32⟩ : BufTy).Contents (Elt F)} (ho : X (Proc.devRef .tc main_v91) = o) :
    stretch2 X (Proc.devRef .tc main_v127)
      = Cert.GnnSpec.agg (Cert.GnnSpec.relu (Cert.GnnSpec.bn o (Cert.GnnSpec.row1 G) (Cert.GnnSpec.row1 Bt))) e s d := by
  rw [stretch2_agg, ho, h.hG, h.hB, h.hE, h.hS, h.hD]

end Cert.KernelIdeal.Chain

end
-- ==== Proof.ChainRound3.lean ====
/-
  The stretch of array operations between the third and the fourth dense-layer call of the message-passing
  network. It normalises the dense layers' output per channel over the 50000 nodes (mean, biased variance,
  reciprocal root of variance + ε), scales and shifts by row 2 of the two affine tables and rectifies: these are
  the nodes' next rows. Then every edge sends max(h[source] + e, 0) to its destination and the arrivals are summed:
  the next aggregate. Read back as functions of the contents the stretch starts from, these are the
  specification's `relu ∘ bn` at row 2 and `agg`; the nine arrays every round shares are not written.
-/
import proofs.«178875_j64725157151179_1_alg».proof.Proof.Gen.KernelIdeal.Launch
import proofs.«178875_j64725157151179_1_alg».proof.Proof.Gen.ReferenceIdeal
import proofs.«178875_j64725157151179_1_alg».proof.Proof.Spec
import proofs.«178875_j64725157151179_1_alg».proof.Proof.ChainBase

noncomputable section

namespace Cert.KernelIdeal.Chain

open Idealize.ShloMosaic Idealize.ShloMosaic.TcCoe Cert.KernelIdeal Cert.KernelIdeal.Gen

variable {F : FTy → Type} [FloatOps F]

/-- The buffers' contents after the stretch, from contents `X`. -/
abbrev stretch3 (X : Valuation τ sig (Elt F)) : Valuation τ sig (Elt F) :=
  StableHlo.after hostOps3_6 (StableHlo.after hostOps3_5 (StableHlo.after hostOps3_4 (StableHlo.after hostOps3_3 (StableHlo.after hostOps3_2 (StableHlo.after hostOps3_1 (StableHlo.after hostOps3 X))))))

/-- The nodes' next rows: the normalised, rectified dense-layer output. -/
theorem stretch3_node (X : Valuation τ sig (Elt F)) :
    stretch3 X (Proc.devRef .tc main_v152)
      = Cert.GnnSpec.relu (Cert.GnnSpec.bn (X (Proc.devRef .tc main_v128))
          (Cert.GnnSpec.row2 (X (Proc.devRef .tc main_arg11))) (Cert.GnnSpec.row2 (X (Proc.devRef .tc main_arg12)))) := by
  dsimp only [stretch3, hostOps3, hostOps3_1, hostOps3_2, hostOps3_3, hostOps3_4, hostOps3_5, hostOps3_6]
  after_results_simp
  rfl

/-- The next aggregate: the messages of the nodes' next rows summed at their destinations. -/
theorem stretch3_agg (X : Valuation τ sig (Elt F)) :
    stretch3 X (Proc.devRef .tc main_v164)
      = Cert.GnnSpec.agg
          (Cert.GnnSpec.relu (Cert.GnnSpec.bn (X (Proc.devRef .tc main_v128))
            (Cert.GnnSpec.row2 (X (Proc.devRef .tc main_arg11))) (Cert.GnnSpec.row2 (X (Proc.devRef .tc main_arg12)))))
          (X (Proc.devRef .tc main_v37)) (X (Proc.devRef .tc main_v39)) (X (Proc.devRef .tc main_v41)) := by
  dsimp only [stretch3, hostOps3, hostOps3_1, hostOps3_2, hostOps3_3, hostOps3_4, hostOps3_5, hostOps3_6]
  after_results_simp
  rfl

variable {e : (⟨S600000x128, .f32⟩ : BufTy).Contents (Elt F)} {s d : (⟨S600000, .i32⟩ : BufTy).Contents (Elt F)}
  {W1 : (⟨S128x256, .f32⟩ : BufTy).Contents (Elt F)} {b1 : (⟨S256, .f32⟩ : BufTy).Contents (Elt F)}
  {W2 : (⟨S256x128, .f32⟩ : BufTy).Contents (Elt F)} {b2 : (⟨S128, .f32⟩ : BufTy).Contents (Elt F)}
  {G Bt : (⟨S5x128, .f32⟩ : BufTy).Contents (Elt F)} {X : Valuation τ sig (Elt F)}

set_option maxHeartbeats 2000000 in
/-- The stretch writes none of the nine shared arrays. -/
theorem stretch3_carried (h : Carried e s d W1 b1 W2 b2 G Bt X) : Carried e s d W1 b1 W2 b2 G Bt (stretch3 X) := by
  obtain ⟨h1, h2, h3, h4, h5, h6, h7, h8, h9⟩ := h
  refine ⟨?_, ?_, ?_, ?_, ?_, ?_, ?_, ?_, ?_⟩
  · dsimp only [stretch3, hostOps3, hostOps3_1, hostOps3_2, hostOps3_3, hostOps3_4, hostOps3_5, hostOps3_6]; after_results_simp; exact h1
  · dsimp only [stretch3, hostOps3, hostOps3_1, hostOps3_2, hostOps3_3, hostOps3_4, hostOps3_5, hostOps3_6]; after_results_simp; exact h2
  · dsimp only [stretch3, hostOps3, hostOps3_1, hostOps3_2, hostOps3_3, hostOps3_4, hostOps3_5, hostOps3_6]; after_results_simp; exact h3
  · dsimp only [stretch3, hostOps3, hostOps3_1, hostOps3_2, hostOps3_3, hostOps3_4, hostOps3_5, hostOps3_6]; after_results_simp; exact h4
  · dsimp only [stretch3, hostOps3, hostOps3_1, hostOps3_2, hostOps3_3, hostOps3_4, hostOps3_5, hostOps3_6]; after_results_simp; exact h5
  · dsimp only [stretch3, hostOps3, hostOps3_1, hostOps3_2, hostOps3_3, hostOps3_4, hostOps3_5, hostOps3_6]; after_results_simp; exact h6
  · dsimp only [stretch3, hostOps3, hostOps3_1, hostOps3_2, hostOps3_3, hostOps3_4, hostOps3_5, hostOps3_6]; after_results_simp; exact h7
  · dsimp only [stretch3, hostOps3, hostOps3_1, hostOps3_2, hostOps3_3, hostOps3_4, hostOps3_5, hostOps3_6]; after_results_simp; exact h8
  · dsimp only [stretch3, hostOps3, hostOps3_1, hostOps3_2, hostOps3_3, hostOps3_4, hostOps3_5, hostOps3_6]; after_results_simp; exact h9

/-- The two results in terms of what the shared arrays and the dense-layer output are known to be. -/
theorem stretch3_node_of (h : Carried e s d W1 b1 W2 b2 G Bt X)
    {o : (⟨S50000x128, .f32⟩ : BufTy).Contents (Elt F)} (ho : X (Proc.devRef .tc main_v128) = o) :
    stretch3 X (Proc.devRef .tc main_v152) = Cert.GnnSpec.relu (Cert.GnnSpec.bn o (Cert.GnnSpec.row2 G) (Cert.GnnSpec.row2 Bt)) := by
  rw [stretch3_node, ho, h.hG, h.hB]

theorem stretch3_agg_of (h : Carried e s d W1 b1 W2 b2 G Bt X)
    {o : (⟨S50000x128, .f32⟩ : BufTy).Contents (Elt F)} (ho : X (Proc.devRef .tc main_v128) = o) :
    stretch3 X (Proc.devRef .tc main_v164)
      = Cert.GnnSpec.agg (Cert.GnnSpec.relu (Cert.GnnSpec.bn o (Cert.GnnSpec.row2 G) (Cert.GnnSpec.row2 Bt))) e s d := by
  rw [stretch3_agg, ho, h.hG, h.hB, h.hE, h.hS, h.hD]

end Cert.KernelIdeal.Chain

end
-- ==== Proof.ChainRound4.lean ====
/-
  The stretch of array operations between the fourth and the fifth dense-layer call of the message-passing
  network. It normalises the dense layers' output per channel over the 50000 nodes (mean, biased variance,
  reciprocal root of variance + ε), scales and shifts by row 3 of the two affine tables and rectifies: these are
  the nodes' next rows. Then every edge sends max(h[source] + e, 0) to its destination and the arrivals are summed:
  the next aggregate. Read back as functions of the contents the stretch starts from, these are the
  specification's `relu ∘ bn` at row 3 and `agg`; the nine arrays every round shares are not written.
-/
import proofs.«178875_j64725157151179_1_alg».proof.Proof.Gen.KernelIdeal.Launch
import proofs.«178875_j64725157151179_1_alg».proof.Proof.Gen.ReferenceIdeal
import proofs.«178875_j64725157151179_1_alg».proof.Proof.Spec
import proofs.«178875_j64725157151179_1_alg».proof.Proof.ChainBase

noncomputable section

namespace Cert.KernelIdeal.Chain

open Idealize.ShloMosaic Idealize.ShloMosaic.TcCoe Cert.KernelIdeal Cert.KernelIdeal.Gen

variable {F : FTy → Type} [FloatOps F]

/-- The buffers' contents after the stretch, from contents `X`. -/
abbrev stretch4 (X : Valuation τ sig (Elt F)) : Valuation τ sig (Elt F) :=
  StableHlo.after hostOps4_6 (StableHlo.after hostOps4_5 (StableHlo.after hostOps4_4 (StableHlo.after hostOps4_3 (StableHlo.after hostOps4_2 (StableHlo.after hostOps4_1 (StableHlo.after hostOps4 X))))))

/-- The nodes' next rows: the normalised, rectified dense-layer output. -/
theorem stretch4_node (X : Valuation τ sig (Elt F)) :
    stretch4 X (Proc.devRef .tc main_v189)
      = Cert.GnnSpec.relu (Cert.GnnSpec.bn (X (Proc.devRef .tc main_v165))
          (Cert.GnnSpec.row3 (X (Proc.devRef .tc main_arg11))) (Cert.GnnSpec.row3 (X (Proc.devRef .tc main_arg12)))) := by
  dsimp only [stretch4, hostOps4, hostOps4_1, hostOps4_2, hostOps4_3, hostOps4_4, hostOps4_5, hostOps4_6]
  after_results_simp
  rfl

/-- The next aggregate: the messages of the nodes' next rows summed at their destinations. -/
theorem stretch4_agg (X : Valuation τ sig (Elt F)) :
    stretch4 X (Proc.devRef .tc main_v201)
      = Cert.GnnSpec.agg
          (Cert.GnnSpec.relu (Cert.GnnSpec.bn (X (Proc.devRef .tc main_v165))
            (Cert.GnnSpec.row3 (X (Proc.devRef .tc main_arg11))) (Cert.GnnSpec.row3 (X (Proc.devRef .tc main_arg12)))))
          (X (Proc.devRef .tc main_v37)) (X (Proc.devRef .tc main_v39)) (X (Proc.devRef .tc main_v41)) := by
  dsimp only [stretch4, hostOps4, hostOps4_1, hostOps4_2, hostOps4_3, hostOps4_4, hostOps4_5, hostOps4_6]
  after_results_simp
  rfl

variable {e : (⟨S600000x128, .f32⟩ : BufTy).Contents (Elt F)} {s d : (⟨S600000, .i32⟩ : BufTy).Contents (Elt F)}
  {W1 : (⟨S128x256, .f32⟩ : BufTy).Contents (Elt F)} {b1 : (⟨S256, .f32⟩ : BufTy).Contents (Elt F)}
  {W2 : (⟨S256x128, .f32⟩ : BufTy).Contents (Elt F)} {b2 : (⟨S128, .f32⟩ : BufTy).Contents (Elt F)}
  {G Bt : (⟨S5x128, .f32⟩ : BufTy).Contents (Elt F)} {X : Valuation τ sig (Elt F)}

set_option maxHeartbeats 2000000 in
/-- The stretch writes none of the nine shared arrays. -/
theorem stretch4_carried (h : Carried e s d W1 b1 W2 b2 G Bt X) : Carried e s d W1 b1 W2 b2 G Bt (stretch4 X) := by
  obtain ⟨h1, h2, h3, h4, h5, h6, h7, h8, h9⟩ := h
  refine ⟨?_, ?_, ?_, ?_, ?_, ?_, ?_, ?_, ?_⟩
  · dsimp only [stretch4, hostOps4, hostOps4_1, hostOps4_2, hostOps4_3, hostOps4_4, hostOps4_5, hostOps4_6]; after_results_simp; exact h1
  · dsimp only [stretch4, hostOps4, hostOps4_1, hostOps4_2, hostOps4_3, hostOps4_4, hostOps4_5, hostOps4_6]; after_results_simp; exact h2
  · dsimp only [stretch4, hostOps4, hostOps4_1, hostOps4_2, hostOps4_3, hostOps4_4, hostOps4_5, hostOps4_6]; after_results_simp; exact h3
  · dsimp only [stretch4, hostOps4, hostOps4_1, hostOps4_2, hostOps4_3, hostOps4_4, hostOps4_5, hostOps4_6]; after_results_simp; exact h4
  · dsimp only [stretch4, hostOps4, hostOps4_1, hostOps4_2, hostOps4_3, hostOps4_4, hostOps4_5, hostOps4_6]; after_results_simp; exact h5
  · dsimp only [stretch4, hostOps4, hostOps4_1, hostOps4_2, hostOps4_3, hostOps4_4, hostOps4_5, hostOps4_6]; after_results_simp; exact h6
  · dsimp only [stretch4, hostOps4, hostOps4_1, hostOps4_2, hostOps4_3, hostOps4_4, hostOps4_5, hostOps4_6]; after_results_simp; exact h7
  · dsimp only [stretch4, hostOps4, hostOps4_1, hostOps4_2, hostOps4_3, hostOps4_4, hostOps4_5, hostOps4_6]; after_results_simp; exact h8
  · dsimp only [stretch4, hostOps4, hostOps4_1, hostOps4_2, hostOps4_3, hostOps4_4, hostOps4_5, hostOps4_6]; after_results_simp; exact h9

/-- The two results in terms of what the shared arrays and the dense-layer output are known to be. -/
theorem stretch4_node_of (h : Carried e s d W1 b1 W2 b2 G Bt X)
    {o : (⟨S50000x128, .f32⟩ : BufTy).Contents (Elt F)} (ho : X (Proc.devRef .tc main_v165) = o) :
    stretch4 X (Proc.devRef .tc main_v189) = Cert.GnnSpec.relu (Cert.GnnSpec.bn o (Cert.GnnSpec.row3 G) (Cert.GnnSpec.row3 Bt)) := by
  rw [stretch4_node, ho, h.hG, h.hB]

theorem stretch4_agg_of (h : Carried e s d W1 b1 W2 b2 G Bt X)
    {o : (⟨S50000x128, .f32⟩ : BufTy).Contents (Elt F)} (ho : X (Proc.devRef .tc main_v165) = o) :
    stretch4 X (Proc.devRef .tc main_v201)
      = Cert.GnnSpec.agg (Cert.GnnSpec.relu (Cert.GnnSpec.bn o (Cert.GnnSpec.row3 G) (Cert.GnnSpec.row3 Bt))) e s d := by
  rw [stretch4_agg, ho, h.hG, h.hB, h.hE, h.hS, h.hD]

end Cert.KernelIdeal.Chain

end
-- ==== Proof.ChainTail.lean ====
/-
  The closing stretch of array operations of the five-round message-passing network: the last round's
  dense-layer output is normalised per channel over the 50000 nodes (mean, biased variance, reciprocal root of
  variance + ε) and scaled and shifted by row 4 of the two affine tables; no rectifier follows. Read back as one
  function of the contents the stretch starts from, this is the specification's `bn` at row 4.
-/
import proofs.«178875_j64725157151179_1_alg».proof.Proof.Gen.KernelIdeal.Launch
import proofs.«178875_j64725157151179_1_alg».proof.Proof.Gen.ReferenceIdeal
import proofs.«178875_j64725157151179_1_alg».proof.Proof.Spec
import proofs.«178875_j64725157151179_1_alg».proof.Proof.ChainBase

noncomputable section

namespace Cert.KernelIdeal.Chain

open Idealize.ShloMosaic Idealize.ShloMosaic.TcCoe Cert.KernelIdeal Cert.KernelIdeal.Gen

variable {F : FTy → Type} [FloatOps F]

/-- The buffers' contents after the closing stretch, from contents `X`. -/
abbrev closing (X : Valuation τ sig (Elt F)) : Valuation τ sig (Elt F) :=
  StableHlo.after hostOps5_2 (StableHlo.after hostOps5_1 (StableHlo.after hostOps5 X))

/-- From any contents `X`, after the closing stretch the result buffer holds the normalisation of the last
    dense-layer output with the fifth affine rows. -/
theorem closing_result (X : Valuation τ sig (Elt F)) :
    closing X (Proc.devRef .tc main_v225)
      = Cert.GnnSpec.bn (X (Proc.devRef .tc main_v202))
          (Cert.GnnSpec.row4 (X (Proc.devRef .tc main_arg11))) (Cert.GnnSpec.row4 (X (Proc.devRef .tc main_arg12))) := by
  dsimp only [closing, hostOps5, hostOps5_1, hostOps5_2]
  after_results_simp
  rfl

variable {e : (⟨S600000x128, .f32⟩ : BufTy).Contents (Elt F)} {s d : (⟨S600000, .i32⟩ : BufTy).Contents (Elt F)}
  {W1 : (⟨S128x256, .f32⟩ : BufTy).Contents (Elt F)} {b1 : (⟨S256, .f32⟩ : BufTy).Contents (Elt F)}
  {W2 : (⟨S256x128, .f32⟩ : BufTy).Contents (Elt F)} {b2 : (⟨S128, .f32⟩ : BufTy).Contents (Elt F)}
  {G Bt : (⟨S5x128, .f32⟩ : BufTy).Contents (Elt F)} {X : Valuation τ sig (Elt F)}

/-- The result in terms of what the affine tables and the last dense-layer output are known to be. -/
theorem closing_result_of (h : Carried e s d W1 b1 W2 b2 G Bt X)
    {o : (⟨S50000x128, .f32⟩ : BufTy).Contents (Elt F)} (ho : X (Proc.devRef .tc main_v202) = o) :
    closing X (Proc.devRef .tc main_v225) = Cert.GnnSpec.bn o (Cert.GnnSpec.row4 G) (Cert.GnnSpec.row4 Bt) := by
  rw [closing_result, ho, h.hG, h.hB]

end Cert.KernelIdeal.Chain

end
-- ==== Proof.Chain.lean ====
/-
  The value the kernel program returns, as the network of the launch arguments.

  The program is a straight line of array operations cut by five dense-layer calls. Its buffers' contents at the
  boundaries are a fold from the launch memory; this module walks that fold once, front to back. The opening
  stretch leaves the nodes' first rows, the first aggregate and the nine arrays every round shares. Each dense-layer
  call replaces one buffer by the two-layer update of its first two windows' arrays (the hypotheses) and writes
  nothing else that is read later. Each stretch between two calls normalises, rectifies and aggregates; the closing
  stretch normalises only. Composing the ten steps gives the specification's `net`.
-/
import proofs.«178875_j64725157151179_1_alg».proof.Proof.Gen.KernelIdeal.Frame
import proofs.«178875_j64725157151179_1_alg».proof.Proof.Gen.ReferenceIdeal
import proofs.«178875_j64725157151179_1_alg».proof.Proof.Spec
import proofs.«178875_j64725157151179_1_alg».proof.Proof.ChainBase
import proofs.«178875_j64725157151179_1_alg».proof.Proof.ChainOpening
import proofs.«178875_j64725157151179_1_alg».proof.Proof.ChainRound1
import proofs.«178875_j64725157151179_1_alg».proof.Proof.ChainRound2
import proofs.«178875_j64725157151179_1_alg».proof.Proof.ChainRound3
import proofs.«178875_j64725157151179_1_alg».proof.Proof.ChainRound4
import proofs.«178875_j64725157151179_1_alg».proof.Proof.ChainTail
import Idealize.ShloMosaic.PureOps.Ideal

noncomputable section

namespace Cert.KernelIdeal.Chain

open Idealize.ShloMosaic Idealize.ShloMosaic.TcCoe Idealize.SL.Sem Cert.KernelIdeal Cert.KernelIdeal.Gen

section Regions

variable (m : (ℓ : Loc nD τ sig) → Buf (Elt Ideal) ℓ) (ρ : Dev nD → PrngReg) (c : Dev nD)
variable {e : (⟨S600000x128, .f32⟩ : BufTy).Contents (Elt Ideal)} {s d : (⟨S600000, .i32⟩ : BufTy).Contents (Elt Ideal)}
  {W1 : (⟨S128x256, .f32⟩ : BufTy).Contents (Elt Ideal)} {b1 : (⟨S256, .f32⟩ : BufTy).Contents (Elt Ideal)}
  {W2 : (⟨S256x128, .f32⟩ : BufTy).Contents (Elt Ideal)} {b2 : (⟨S128, .f32⟩ : BufTy).Contents (Elt Ideal)}
  {G Bt : (⟨S5x128, .f32⟩ : BufTy).Contents (Elt Ideal)}

/-- Dense-layer call 0 leaves the nine shared arrays: five are not among its windows, and the weights and biases
    are input windows, whose arrays end as they were entered. -/
theorem region0_carried (h : Carried e s d W1 b1 W2 b2 G Bt (W3 (F := Ideal) m ρ c)) :
    Carried e s d W1 b1 W2 b2 G Bt (W4 (F := Ideal) m ρ c) :=
  ⟨(W4_of_ne m ρ c main_v37 (by decide)).trans h.hE,
   (W4_of_ne m ρ c main_v39 (by decide)).trans h.hS,
   (W4_of_ne m ρ c main_v41 (by decide)).trans h.hD,
   ((show W4 (F := Ideal) m ρ c (Proc.devRef .tc main_arg7) = W3 (F := Ideal) m ρ c (Proc.devRef .tc main_arg7) from
      (W4_arr m ρ c 2).trans (((dat0 (V3 m ρ) c).arrAt_in 2 rfl _).trans (A_eq0 (V3 m ρ) c 2))).trans h.hW1),
   ((show W4 (F := Ideal) m ρ c (Proc.devRef .tc main_arg8) = W3 (F := Ideal) m ρ c (Proc.devRef .tc main_arg8) from
      (W4_arr m ρ c 3).trans (((dat0 (V3 m ρ) c).arrAt_in 3 rfl _).trans (A_eq0 (V3 m ρ) c 3))).trans h.hb1),
   ((show W4 (F := Ideal) m ρ c (Proc.devRef .tc main_arg9) = W3 (F := Ideal) m ρ c (Proc.devRef .tc main_arg9) from
      (W4_arr m ρ c 4).trans (((dat0 (V3 m ρ) c).arrAt_in 4 rfl _).trans (A_eq0 (V3 m ρ) c 4))).trans h.hW2),
   ((show W4 (F := Ideal) m ρ c (Proc.devRef .tc main_arg10) = W3 (F := Ideal) m ρ c (Proc.devRef .tc main_arg10) from
      (W4_arr m ρ c 5).trans (((dat0 (V3 m ρ) c).arrAt_in 5 rfl _).trans (A_eq0 (V3 m ρ) c 5))).trans h.hb2),
   (W4_of_ne m ρ c main_arg11 (by decide)).trans h.hG,
   (W4_of_ne m ρ c main_arg12 (by decide)).trans h.hB⟩

set_option maxHeartbeats 2000000 in
/-- Dense-layer call 0's output array, from what its six input windows' arrays hold on entry. -/
theorem region0_out (hv : (∀ (V : (c : Dev nD) → (b : Ref sig .tc) → Buf (Elt Ideal) ((c : Thread nD τ).loc b)) (c : Dev nD),
      (Gen.dat0 (F := Ideal) V c).arrAt 6 cfg0.N = Cert.GnnSpec.mlp (F := Ideal) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))))
    (h : Carried e s d W1 b1 W2 b2 G Bt (W3 (F := Ideal) m ρ c))
    {hn a : (⟨S50000x128, .f32⟩ : BufTy).Contents (Elt Ideal)}
    (hh : W3 (F := Ideal) m ρ c (Proc.devRef .tc main_v18) = hn) (ha : W3 (F := Ideal) m ρ c (Proc.devRef .tc main_v53) = a) :
    W4 (F := Ideal) m ρ c (Proc.devRef .tc main_v54) = Cert.GnnSpec.mlp (F := Ideal) hn a W1 b1 W2 b2 := by
  refine (W4_arr m ρ c 6).trans ((hv (V3 m ρ) c).trans ?_)
  rw [show V3 (F := Ideal) m ρ c (Pipeline.arrRef spec0 0) = hn from hh,
    show V3 (F := Ideal) m ρ c (Pipeline.arrRef spec0 1) = a from ha,
    show V3 (F := Ideal) m ρ c (Pipeline.arrRef spec0 2) = W1 from h.hW1,
    show V3 (F := Ideal) m ρ c (Pipeline.arrRef spec0 3) = b1 from h.hb1,
    show V3 (F := Ideal) m ρ c (Pipeline.arrRef spec0 4) = W2 from h.hW2,
    show V3 (F := Ideal) m ρ c (Pipeline.arrRef spec0 5) = b2 from h.hb2]

/-- Dense-layer call 1 leaves the nine shared arrays: five are not among its windows, and the weights and biases
    are input windows, whose arrays end as they were entered. -/
theorem region1_carried (h : Carried e s d W1 b1 W2 b2 G Bt (W11 (F := Ideal) m ρ c)) :
    Carried e s d W1 b1 W2 b2 G Bt (W12 (F := Ideal) m ρ c) :=
  ⟨(W12_of_ne m ρ c main_v37 (by decide)).trans h.hE,
   (W12_of_ne m ρ c main_v39 (by decide)).trans h.hS,
   (W12_of_ne m ρ c main_v41 (by decide)).trans h.hD,
   ((show W12 (F := Ideal) m ρ c (Proc.devRef .tc main_arg7) = W11 (F := Ideal) m ρ c (Proc.devRef .tc main_arg7) from
      (W12_arr m ρ c 2).trans (((dat1 (V11 m ρ) c).arrAt_in 2 rfl _).trans (A_eq1 (V11 m ρ) c 2))).trans h.hW1),
   ((show W12 (F := Ideal) m ρ c (Proc.devRef .tc main_arg8) = W11 (F := Ideal) m ρ c (Proc.devRef .tc main_arg8) from
      (W12_arr m ρ c 3).trans (((dat1 (V11 m ρ) c).arrAt_in 3 rfl _).trans (A_eq1 (V11 m ρ) c 3))).trans h.hb1),
   ((show W12 (F := Ideal) m ρ c (Proc.devRef .tc main_arg9) = W11 (F := Ideal) m ρ c (Proc.devRef .tc main_arg9) from
      (W12_arr m ρ c 4).trans (((dat1 (V11 m ρ) c).arrAt_in 4 rfl _).trans (A_eq1 (V11 m ρ) c 4))).trans h.hW2),
   ((show W12 (F := Ideal) m ρ c (Proc.devRef .tc main_arg10) = W11 (F := Ideal) m ρ c (Proc.devRef .tc main_arg10) from
      (W12_arr m ρ c 5).trans (((dat1 (V11 m ρ) c).arrAt_in 5 rfl _).trans (A_eq1 (V11 m ρ) c 5))).trans h.hb2),
   (W12_of_ne m ρ c main_arg11 (by decide)).trans h.hG,
   (W12_of_ne m ρ c main_arg12 (by decide)).trans h.hB⟩

set_option maxHeartbeats 2000000 in
/-- Dense-layer call 1's output array, from what its six input windows' arrays hold on entry. -/
theorem region1_out (hv : (∀ (V : (c : Dev nD) → (b : Ref sig .tc) → Buf (Elt Ideal) ((c : Thread nD τ).loc b)) (c : Dev nD),
      (Gen.dat1 (F := Ideal) V c).arrAt 6 cfg1.N = Cert.GnnSpec.mlp (F := Ideal) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))))
    (h : Carried e s d W1 b1 W2 b2 G Bt (W11 (F := Ideal) m ρ c))
    {hn a : (⟨S50000x128, .f32⟩ : BufTy).Contents (Elt Ideal)}
    (hh : W11 (F := Ideal) m ρ c (Proc.devRef .tc main_v78) = hn) (ha : W11 (F := Ideal) m ρ c (Proc.devRef .tc main_v90) = a) :
    W12 (F := Ideal) m ρ c (Proc.devRef .tc main_v91) = Cert.GnnSpec.mlp (F := Ideal) hn a W1 b1 W2 b2 := by
  refine (W12_arr m ρ c 6).trans ((hv (V11 m ρ) c).trans ?_)
  rw [show V11 (F := Ideal) m ρ c (Pipeline.arrRef spec1 0) = hn from hh,
    show V11 (F := Ideal) m ρ c (Pipeline.arrRef spec1 1) = a from ha,
    show V11 (F := Ideal) m ρ c (Pipeline.arrRef spec1 2) = W1 from h.hW1,
    show V11 (F := Ideal) m ρ c (Pipeline.arrRef spec1 3) = b1 from h.hb1,
    show V11 (F := Ideal) m ρ c (Pipeline.arrRef spec1 4) = W2 from h.hW2,
    show V11 (F := Ideal) m ρ c (Pipeline.arrRef spec1 5) = b2 from h.hb2]

/-- Dense-layer call 2 leaves the nine shared arrays: five are not among its windows, and the weights and biases
    are input windows, whose arrays end as they were entered. -/
theorem region2_carried (h : Carried e s d W1 b1 W2 b2 G Bt (W19 (F := Ideal) m ρ c)) :
    Carried e s d W1 b1 W2 b2 G Bt (W20 (F := Ideal) m ρ c) :=
  ⟨(W20_of_ne m ρ c main_v37 (by decide)).trans h.hE,
   (W20_of_ne m ρ c main_v39 (by decide)).trans h.hS,
   (W20_of_ne m ρ c main_v41 (by decide)).trans h.hD,
   ((show W20 (F := Ideal) m ρ c (Proc.devRef .tc main_arg7) = W19 (F := Ideal) m ρ c (Proc.devRef .tc main_arg7) from
      (W20_arr m ρ c 2).trans (((dat2 (V19 m ρ) c).arrAt_in 2 rfl _).trans (A_eq2 (V19 m ρ) c 2))).trans h.hW1),
   ((show W20 (F := Ideal) m ρ c (Proc.devRef .tc main_arg8) = W19 (F := Ideal) m ρ c (Proc.devRef .tc main_arg8) from
      (W20_arr m ρ c 3).trans (((dat2 (V19 m ρ) c).arrAt_in 3 rfl _).trans (A_eq2 (V19 m ρ) c 3))).trans h.hb1),
   ((show W20 (F := Ideal) m ρ c (Proc.devRef .tc main_arg9) = W19 (F := Ideal) m ρ c (Proc.devRef .tc main_arg9) from
      (W20_arr m ρ c 4).trans (((dat2 (V19 m ρ) c).arrAt_in 4 rfl _).trans (A_eq2 (V19 m ρ) c 4))).trans h.hW2),
   ((show W20 (F := Ideal) m ρ c (Proc.devRef .tc main_arg10) = W19 (F := Ideal) m ρ c (Proc.devRef .tc main_arg10) from
      (W20_arr m ρ c 5).trans (((dat2 (V19 m ρ) c).arrAt_in 5 rfl _).trans (A_eq2 (V19 m ρ) c 5))).trans h.hb2),
   (W20_of_ne m ρ c main_arg11 (by decide)).trans h.hG,
   (W20_of_ne m ρ c main_arg12 (by decide)).trans h.hB⟩

set_option maxHeartbeats 2000000 in
/-- Dense-layer call 2's output array, from what its six input windows' arrays hold on entry. -/
theorem region2_out (hv : (∀ (V : (c : Dev nD) → (b : Ref sig .tc) → Buf (Elt Ideal) ((c : Thread nD τ).loc b)) (c : Dev nD),
      (Gen.dat2 (F := Ideal) V c).arrAt 6 cfg2.N = Cert.GnnSpec.mlp (F := Ideal) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))))
    (h : Carried e s d W1 b1 W2 b2 G Bt (W19 (F := Ideal) m ρ c))
    {hn a : (⟨S50000x128, .f32⟩ : BufTy).Contents (Elt Ideal)}
    (hh : W19 (F := Ideal) m ρ c (Proc.devRef .tc main_v115) = hn) (ha : W19 (F := Ideal) m ρ c (Proc.devRef .tc main_v127) = a) :
    W20 (F := Ideal) m ρ c (Proc.devRef .tc main_v128) = Cert.GnnSpec.mlp (F := Ideal) hn a W1 b1 W2 b2 := by
  refine (W20_arr m ρ c 6).trans ((hv (V19 m ρ) c).trans ?_)
  rw [show V19 (F := Ideal) m ρ c (Pipeline.arrRef spec2 0) = hn from hh,
    show V19 (F := Ideal) m ρ c (Pipeline.arrRef spec2 1) = a from ha,
    show V19 (F := Ideal) m ρ c (Pipeline.arrRef spec2 2) = W1 from h.hW1,
    show V19 (F := Ideal) m ρ c (Pipeline.arrRef spec2 3) = b1 from h.hb1,
    show V19 (F := Ideal) m ρ c (Pipeline.arrRef spec2 4) = W2 from h.hW2,
    show V19 (F := Ideal) m ρ c (Pipeline.arrRef spec2 5) = b2 from h.hb2]

/-- Dense-layer call 3 leaves the nine shared arrays: five are not among its windows, and the weights and biases
    are input windows, whose arrays end as they were entered. -/
theorem region3_carried (h : Carried e s d W1 b1 W2 b2 G Bt (W27 (F := Ideal) m ρ c)) :
    Carried e s d W1 b1 W2 b2 G Bt (W28 (F := Ideal) m ρ c) :=
  ⟨(W28_of_ne m ρ c main_v37 (by decide)).trans h.hE,
   (W28_of_ne m ρ c main_v39 (by decide)).trans h.hS,
   (W28_of_ne m ρ c main_v41 (by decide)).trans h.hD,
   ((show W28 (F := Ideal) m ρ c (Proc.devRef .tc main_arg7) = W27 (F := Ideal) m ρ c (Proc.devRef .tc main_arg7) from
      (W28_arr m ρ c 2).trans (((dat3 (V27 m ρ) c).arrAt_in 2 rfl _).trans (A_eq3 (V27 m ρ) c 2))).trans h.hW1),
   ((show W28 (F := Ideal) m ρ c (Proc.devRef .tc main_arg8) = W27 (F := Ideal) m ρ c (Proc.devRef .tc main_arg8) from
      (W28_arr m ρ c 3).trans (((dat3 (V27 m ρ) c).arrAt_in 3 rfl _).trans (A_eq3 (V27 m ρ) c 3))).trans h.hb1),
   ((show W28 (F := Ideal) m ρ c (Proc.devRef .tc main_arg9) = W27 (F := Ideal) m ρ c (Proc.devRef .tc main_arg9) from
      (W28_arr m ρ c 4).trans (((dat3 (V27 m ρ) c).arrAt_in 4 rfl _).trans (A_eq3 (V27 m ρ) c 4))).trans h.hW2),
   ((show W28 (F := Ideal) m ρ c (Proc.devRef .tc main_arg10) = W27 (F := Ideal) m ρ c (Proc.devRef .tc main_arg10) from
      (W28_arr m ρ c 5).trans (((dat3 (V27 m ρ) c).arrAt_in 5 rfl _).trans (A_eq3 (V27 m ρ) c 5))).trans h.hb2),
   (W28_of_ne m ρ c main_arg11 (by decide)).trans h.hG,
   (W28_of_ne m ρ c main_arg12 (by decide)).trans h.hB⟩

set_option maxHeartbeats 2000000 in
/-- Dense-layer call 3's output array, from what its six input windows' arrays hold on entry. -/
theorem region3_out (hv : (∀ (V : (c : Dev nD) → (b : Ref sig .tc) → Buf (Elt Ideal) ((c : Thread nD τ).loc b)) (c : Dev nD),
      (Gen.dat3 (F := Ideal) V c).arrAt 6 cfg3.N = Cert.GnnSpec.mlp (F := Ideal) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))))
    (h : Carried e s d W1 b1 W2 b2 G Bt (W27 (F := Ideal) m ρ c))
    {hn a : (⟨S50000x128, .f32⟩ : BufTy).Contents (Elt Ideal)}
    (hh : W27 (F := Ideal) m ρ c (Proc.devRef .tc main_v152) = hn) (ha : W27 (F := Ideal) m ρ c (Proc.devRef .tc main_v164) = a) :
    W28 (F := Ideal) m ρ c (Proc.devRef .tc main_v165) = Cert.GnnSpec.mlp (F := Ideal) hn a W1 b1 W2 b2 := by
  refine (W28_arr m ρ c 6).trans ((hv (V27 m ρ) c).trans ?_)
  rw [show V27 (F := Ideal) m ρ c (Pipeline.arrRef spec3 0) = hn from hh,
    show V27 (F := Ideal) m ρ c (Pipeline.arrRef spec3 1) = a from ha,
    show V27 (F := Ideal) m ρ c (Pipeline.arrRef spec3 2) = W1 from h.hW1,
    show V27 (F := Ideal) m ρ c (Pipeline.arrRef spec3 3) = b1 from h.hb1,
    show V27 (F := Ideal) m ρ c (Pipeline.arrRef spec3 4) = W2 from h.hW2,
    show V27 (F := Ideal) m ρ c (Pipeline.arrRef spec3 5) = b2 from h.hb2]

/-- Dense-layer call 4 leaves the nine shared arrays: five are not among its windows, and the weights and biases
    are input windows, whose arrays end as they were entered. -/
theorem region4_carried (h : Carried e s d W1 b1 W2 b2 G Bt (W35 (F := Ideal) m ρ c)) :
    Carried e s d W1 b1 W2 b2 G Bt (W36 (F := Ideal) m ρ c) :=
  ⟨(W36_of_ne m ρ c main_v37 (by decide)).trans h.hE,
   (W36_of_ne m ρ c main_v39 (by decide)).trans h.hS,
   (W36_of_ne m ρ c main_v41 (by decide)).trans h.hD,
   ((show W36 (F := Ideal) m ρ c (Proc.devRef .tc main_arg7) = W35 (F := Ideal) m ρ c (Proc.devRef .tc main_arg7) from
      (W36_arr m ρ c 2).trans (((dat4 (V35 m ρ) c).arrAt_in 2 rfl _).trans (A_eq4 (V35 m ρ) c 2))).trans h.hW1),
   ((show W36 (F := Ideal) m ρ c (Proc.devRef .tc main_arg8) = W35 (F := Ideal) m ρ c (Proc.devRef .tc main_arg8) from
      (W36_arr m ρ c 3).trans (((dat4 (V35 m ρ) c).arrAt_in 3 rfl _).trans (A_eq4 (V35 m ρ) c 3))).trans h.hb1),
   ((show W36 (F := Ideal) m ρ c (Proc.devRef .tc main_arg9) = W35 (F := Ideal) m ρ c (Proc.devRef .tc main_arg9) from
      (W36_arr m ρ c 4).trans (((dat4 (V35 m ρ) c).arrAt_in 4 rfl _).trans (A_eq4 (V35 m ρ) c 4))).trans h.hW2),
   ((show W36 (F := Ideal) m ρ c (Proc.devRef .tc main_arg10) = W35 (F := Ideal) m ρ c (Proc.devRef .tc main_arg10) from
      (W36_arr m ρ c 5).trans (((dat4 (V35 m ρ) c).arrAt_in 5 rfl _).trans (A_eq4 (V35 m ρ) c 5))).trans h.hb2),
   (W36_of_ne m ρ c main_arg11 (by decide)).trans h.hG,
   (W36_of_ne m ρ c main_arg12 (by decide)).trans h.hB⟩

set_option maxHeartbeats 2000000 in
/-- Dense-layer call 4's output array, from what its six input windows' arrays hold on entry. -/
theorem region4_out (hv : (∀ (V : (c : Dev nD) → (b : Ref sig .tc) → Buf (Elt Ideal) ((c : Thread nD τ).loc b)) (c : Dev nD),
      (Gen.dat4 (F := Ideal) V c).arrAt 6 cfg4.N = Cert.GnnSpec.mlp (F := Ideal) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))))
    (h : Carried e s d W1 b1 W2 b2 G Bt (W35 (F := Ideal) m ρ c))
    {hn a : (⟨S50000x128, .f32⟩ : BufTy).Contents (Elt Ideal)}
    (hh : W35 (F := Ideal) m ρ c (Proc.devRef .tc main_v189) = hn) (ha : W35 (F := Ideal) m ρ c (Proc.devRef .tc main_v201) = a) :
    W36 (F := Ideal) m ρ c (Proc.devRef .tc main_v202) = Cert.GnnSpec.mlp (F := Ideal) hn a W1 b1 W2 b2 := by
  refine (W36_arr m ρ c 6).trans ((hv (V35 m ρ) c).trans ?_)
  rw [show V35 (F := Ideal) m ρ c (Pipeline.arrRef spec4 0) = hn from hh,
    show V35 (F := Ideal) m ρ c (Pipeline.arrRef spec4 1) = a from ha,
    show V35 (F := Ideal) m ρ c (Pipeline.arrRef spec4 2) = W1 from h.hW1,
    show V35 (F := Ideal) m ρ c (Pipeline.arrRef spec4 3) = b1 from h.hb1,
    show V35 (F := Ideal) m ρ c (Pipeline.arrRef spec4 4) = W2 from h.hW2,
    show V35 (F := Ideal) m ρ c (Pipeline.arrRef spec4 5) = b2 from h.hb2]

end Regions

/-- The contents of the result buffer at the end of the fold are the network of the launch arguments, given that
    each dense-layer call leaves the two-layer update of its windows' arrays in its output array. -/
theorem result (m : (ℓ : Loc nD τ sig) → Buf (Elt Ideal) ℓ) (ρ : Dev nD → PrngReg) (c : Dev nD)
    (h0 : (∀ (V : (c : Dev nD) → (b : Ref sig .tc) → Buf (Elt Ideal) ((c : Thread nD τ).loc b)) (c : Dev nD),
      (Gen.dat0 (F := Ideal) V c).arrAt 6 cfg0.N = Cert.GnnSpec.mlp (F := Ideal) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))))
    (h1 : (∀ (V : (c : Dev nD) → (b : Ref sig .tc) → Buf (Elt Ideal) ((c : Thread nD τ).loc b)) (c : Dev nD),
      (Gen.dat1 (F := Ideal) V c).arrAt 6 cfg1.N = Cert.GnnSpec.mlp (F := Ideal) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))))
    (h2 : (∀ (V : (c : Dev nD) → (b : Ref sig .tc) → Buf (Elt Ideal) ((c : Thread nD τ).loc b)) (c : Dev nD),
      (Gen.dat2 (F := Ideal) V c).arrAt 6 cfg2.N = Cert.GnnSpec.mlp (F := Ideal) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))))
    (h3 : (∀ (V : (c : Dev nD) → (b : Ref sig .tc) → Buf (Elt Ideal) ((c : Thread nD τ).loc b)) (c : Dev nD),
      (Gen.dat3 (F := Ideal) V c).arrAt 6 cfg3.N = Cert.GnnSpec.mlp (F := Ideal) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))))
    (h4 : (∀ (V : (c : Dev nD) → (b : Ref sig .tc) → Buf (Elt Ideal) ((c : Thread nD τ).loc b)) (c : Dev nD),
      (Gen.dat4 (F := Ideal) V c).arrAt 6 cfg4.N = Cert.GnnSpec.mlp (F := Ideal) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)))) :
    Gen.W39 (F := Ideal) m ρ c (Proc.devRef .tc main_v225)
      = Cert.GnnSpec.net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  have L : AtLaunch (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (W0 (F := Ideal) m ρ c) :=
    ⟨rfl, rfl, rfl, rfl, rfl, rfl, rfl, rfl, rfl, rfl, rfl, rfl, rfl⟩
  have C3 := opening_carried L
  have N3 := opening_node_of L
  have A3 := opening_agg_of L
  have C4 := region0_carried m ρ c C3
  have O4 := region0_out m ρ c h0 C3 N3 A3
  have C11 := stretch1_carried C4
  have N11 := stretch1_node_of C4 O4
  have A11 := stretch1_agg_of C4 O4
  have C12 := region1_carried m ρ c C11
  have O12 := region1_out m ρ c h1 C11 N11 A11
  have C19 := stretch2_carried C12
  have N19 := stretch2_node_of C12 O12
  have A19 := stretch2_agg_of C12 O12
  have C20 := region2_carried m ρ c C19
  have O20 := region2_out m ρ c h2 C19 N19 A19
  have C27 := stretch3_carried C20
  have N27 := stretch3_node_of C20 O20
  have A27 := stretch3_agg_of C20 O20
  have C28 := region3_carried m ρ c C27
  have O28 := region3_out m ρ c h3 C27 N27 A27
  have C35 := stretch4_carried C28
  have N35 := stretch4_node_of C28 O28
  have A35 := stretch4_agg_of C28 O28
  have C36 := region4_carried m ρ c C35
  have O36 := region4_out m ρ c h4 C35 N35 A35
  exact closing_result_of C36 O36

end Cert.KernelIdeal.Chain

end
-- ==== Proof.MlpCore.lean ====
/-
  One entry of the dense node update, read the same way on a block of rows and on the whole array.

  A node's new row is ((h + a)·W1 + b1, rectified)·W2 + b2 of its own old row h + a alone: entry q is
  ∑ k max(∑ l (h l + a l)·W1 l k + b1 k, 0)·W2 k q + b2 q. The blocked computation forms exactly this sum for
  row p of a block of 5000 rows, and the whole-array computation forms it for row r of the 50000; when row p of the
  block holds what row r of the arrays holds the two entries are the same term — the sums run over the same
  index sets in the same order, so nothing beyond reading each operation at an index is used (a matrix product
  into a zero accumulator is the sum over the contracted index; a change of float format is the identity on
  extended reals; a bias row repeated down the rows reads its own entry).
-/
import proofs.«178875_j64725157151179_1_alg».proof.KernelIdeal
import proofs.«178875_j64725157151179_1_alg».proof.Proof.Spec
import Idealize.ShloMosaic.PureOps.Ideal.Laws
import Idealize.ShloMosaic.Lib.ValueIdx
import Idealize.ShloMosaic.Lib.ValueLayout

noncomputable section

namespace Cert.KernelIdeal.MlpCore

open Idealize.ShloMosaic Idealize.ShloMosaic.ValueIdx
open Cert.KernelIdeal Cert.KernelIdeal.Facts₀ Cert.KernelIdeal.Facts

variable [Cert.KernelIdeal.Facts] [Cert.ReferenceIdeal.Facts]

/-! ## A product of two matrices read at one entry

Each of the four products met here (two on a block of 5000 rows, two on all 50000 rows) contracts the left operand's
columns against the right operand's rows; read at entry (r, c) it is the sum over l of left (r, l) times right (l, c). -/

theorem k1_l0 (i : S5000x256.Idx) (q : dot_S5000x128_S128x256_S5000x256_1_0_0_1_n_n.contr.Idx) : (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch from List.not_mem_nil), dif_pos (show (0 : Fin S5000x128.rank) ∈ dot_S5000x128_S128x256_S5000x256_1_0_0_1_n_n.lhsNonContracting from List.mem_singleton.mpr rfl)]
  rfl
theorem k1_l1 (i : S5000x256.Idx) (q : dot_S5000x128_S128x256_S5000x256_1_0_0_1_n_n.contr.Idx) : (dot_S5000x128_S128x256_S5000x256_1_0_0_1_n_n.lhsIdx i q 1).val = (q ⟨0, Nat.one_pos⟩).val :=
  dot_S5000x128_S128x256_S5000x256_1_0_0_1_n_n.lhsIdx_val_of_single rfl i q
theorem k1_r0 (i : S5000x256.Idx) (q : dot_S5000x128_S128x256_S5000x256_1_0_0_1_n_n.contr.Idx) : (dot_S5000x128_S128x256_S5000x256_1_0_0_1_n_n.rhsIdx i q 0).val = (q ⟨0, Nat.one_pos⟩).val :=
  dot_S5000x128_S128x256_S5000x256_1_0_0_1_n_n.rhsIdx_val_of_single rfl i q
theorem k1_r1 (i : S5000x256.Idx) (q : dot_S5000x128_S128x256_S5000x256_1_0_0_1_n_n.contr.Idx) : (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch from List.not_mem_nil), dif_pos (show (1 : Fin S128x256.rank) ∈ dot_S5000x128_S128x256_S5000x256_1_0_0_1_n_n.rhsNonContracting from List.mem_singleton.mpr rfl)]
  rfl

theorem k2_l0 (i : S5000x128.Idx) (q : dot_S5000x256_S256x128_S5000x128_1_0_0_1_n_n.contr.Idx) : (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch from List.not_mem_nil), dif_pos (show (0 : Fin S5000x256.rank) ∈ dot_S5000x256_S256x128_S5000x128_1_0_0_1_n_n.lhsNonContracting from List.mem_singleton.mpr rfl)]
  rfl
theorem k2_l1 (i : S5000x128.Idx) (q : dot_S5000x256_S256x128_S5000x128_1_0_0_1_n_n.contr.Idx) : (dot_S5000x256_S256x128_S5000x128_1_0_0_1_n_n.lhsIdx i q 1).val = (q ⟨0, Nat.one_pos⟩).val :=
  dot_S5000x256_S256x128_S5000x128_1_0_0_1_n_n.lhsIdx_val_of_single rfl i q
theorem k2_r0 (i : S5000x128.Idx) (q : dot_S5000x256_S256x128_S5000x128_1_0_0_1_n_n.contr.Idx) : (dot_S5000x256_S256x128_S5000x128_1_0_0_1_n_n.rhsIdx i q 0).val = (q ⟨0, Nat.one_pos⟩).val :=
  dot_S5000x256_S256x128_S5000x128_1_0_0_1_n_n.rhsIdx_val_of_single rfl i q
theorem k2_r1 (i : S5000x128.Idx) (q : dot_S5000x256_S256x128_S5000x128_1_0_0_1_n_n.contr.Idx) : (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch from List.not_mem_nil), dif_pos (show (1 : Fin S256x128.rank) ∈ dot_S5000x256_S256x128_S5000x128_1_0_0_1_n_n.rhsNonContracting from List.mem_singleton.mpr rfl)]
  rfl

theorem r1_l0 (i : Cert.ReferenceIdeal.S50000x256.Idx) (q : Cert.ReferenceIdeal.dot_S50000x128_S128x256_S50000x256_1_0_0_1_n_n.contr.Idx) : (Cert.ReferenceIdeal.dot_S50000x128_S128x256_S50000x256_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x256_S50000x256_1_0_0_1_n_n.lhsBatch from List.not_mem_nil), dif_pos (show (0 : Fin Cert.ReferenceIdeal.S50000x128.rank) ∈ Cert.ReferenceIdeal.dot_S50000x128_S128x256_S50000x256_1_0_0_1_n_n.lhsNonContracting from List.mem_singleton.mpr rfl)]
  rfl
theorem r1_l1 (i : Cert.ReferenceIdeal.S50000x256.Idx) (q : Cert.ReferenceIdeal.dot_S50000x128_S128x256_S50000x256_1_0_0_1_n_n.contr.Idx) : (Cert.ReferenceIdeal.dot_S50000x128_S128x256_S50000x256_1_0_0_1_n_n.lhsIdx i q 1).val = (q ⟨0, Nat.one_pos⟩).val :=
  Cert.ReferenceIdeal.dot_S50000x128_S128x256_S50000x256_1_0_0_1_n_n.lhsIdx_val_of_single rfl i q
theorem r1_r0 (i : Cert.ReferenceIdeal.S50000x256.Idx) (q : Cert.ReferenceIdeal.dot_S50000x128_S128x256_S50000x256_1_0_0_1_n_n.contr.Idx) : (Cert.ReferenceIdeal.dot_S50000x128_S128x256_S50000x256_1_0_0_1_n_n.rhsIdx i q 0).val = (q ⟨0, Nat.one_pos⟩).val :=
  Cert.ReferenceIdeal.dot_S50000x128_S128x256_S50000x256_1_0_0_1_n_n.rhsIdx_val_of_single rfl i q
theorem r1_r1 (i : Cert.ReferenceIdeal.S50000x256.Idx) (q : Cert.ReferenceIdeal.dot_S50000x128_S128x256_S50000x256_1_0_0_1_n_n.contr.Idx) : (Cert.ReferenceIdeal.dot_S50000x128_S128x256_S50000x256_1_0_0_1_n_n.rhsIdx i q 1).val = (i 1).val := by
  unfold DotDims.rhsIdx
  rw [dif_neg (show ¬(1 : Fin Cert.ReferenceIdeal.S128x256.rank) ∈ Cert.ReferenceIdeal.dot_S50000x128_S128x256_S50000x256_1_0_0_1_n_n.rhsBatch from List.not_mem_nil), dif_pos (show (1 : Fin Cert.ReferenceIdeal.S128x256.rank) ∈ Cert.ReferenceIdeal.dot_S50000x128_S128x256_S50000x256_1_0_0_1_n_n.rhsNonContracting from List.mem_singleton.mpr rfl)]
  rfl

theorem r2_l0 (i : Cert.ReferenceIdeal.S50000x128.Idx) (q : Cert.ReferenceIdeal.dot_S50000x256_S256x128_S50000x128_1_0_0_1_n_n.contr.Idx) : (Cert.ReferenceIdeal.dot_S50000x256_S256x128_S50000x128_1_0_0_1_n_n.lhsIdx i q 0).val = (i 0).val := by
  unfold DotDims.lhsIdx
  rw [dif_neg (show ¬(0 : Fin Cert.ReferenceIdeal.S50000x256.rank) ∈ Cert.ReferenceIdeal.dot_S50000x256_S256x128_S50000x128_1_0_0_1_n_n.lhsBatch from List.not_mem_nil), dif_pos (show (0 : Fin Cert.ReferenceIdeal.S50000x256.rank) ∈ Cert.ReferenceIdeal.dot_S50000x256_S256x128_S50000x128_1_0_0_1_n_n.lhsNonContracting from List.mem_singleton.mpr rfl)]
  rfl
theorem r2_l1 (i : Cert.ReferenceIdeal.S50000x128.Idx) (q : Cert.ReferenceIdeal.dot_S50000x256_S256x128_S50000x128_1_0_0_1_n_n.contr.Idx) : (Cert.ReferenceIdeal.dot_S50000x256_S256x128_S50000x128_1_0_0_1_n_n.lhsIdx i q 1).val = (q ⟨0, Nat.one_pos⟩).val :=
  Cert.ReferenceIdeal.dot_S50000x256_S256x128_S50000x128_1_0_0_1_n_n.lhsIdx_val_of_single rfl i q
theorem r2_r0 (i : Cert.ReferenceIdeal.S50000x128.Idx) (q : Cert.ReferenceIdeal.dot_S50000x256_S256x128_S50000x128_1_0_0_1_n_n.contr.Idx) : (Cert.ReferenceIdeal.dot_S50000x256_S256x128_S50000x128_1_0_0_1_n_n.rhsIdx i q 0).val = (q ⟨0, Nat.one_pos⟩).val :=
  Cert.ReferenceIdeal.dot_S50000x256_S256x128_S50000x128_1_0_0_1_n_n.rhsIdx_val_of_single rfl i q
theorem r2_r1 (i : Cert.ReferenceIdeal.S50000x128.Idx) (q : Cert.ReferenceIdeal.dot_S50000x256_S256x128_S50000x128_1_0_0_1_n_n.contr.Idx) : (Cert.ReferenceIdeal.dot_S50000x256_S256x128_S50000x128_1_0_0_1_n_n.rhsIdx i q 1).val = (i 1).val := by
  unfold DotDims.rhsIdx
  rw [dif_neg (show ¬(1 : Fin Cert.ReferenceIdeal.S256x128.rank) ∈ Cert.ReferenceIdeal.dot_S50000x256_S256x128_S50000x128_1_0_0_1_n_n.rhsBatch from List.not_mem_nil), dif_pos (show (1 : Fin Cert.ReferenceIdeal.S256x128.rank) ∈ Cert.ReferenceIdeal.dot_S50000x256_S256x128_S50000x128_1_0_0_1_n_n.rhsNonContracting from List.mem_singleton.mpr rfl)]
  rfl

/-- The first product on a block: 5000 rows of 128 against 128 × 256, into a zero accumulator. -/
theorem k1_apply {φ₁ φ₂ : FTy} (x : FVec Ideal S5000x128 φ₁) (w : FVec Ideal S128x256 φ₂) (p : Fin 5000) (k : Fin 256) :
    matmul dot_S5000x128_S128x256_S5000x256_1_0_0_1_n_n none x w (constant (F := Ideal) S5000x256 .f32 0x00000000#32) (ix2 p k)
      = ∑ l : Fin 128, x (ix2 p l) * w (ix2 l k) := by
  simp only [matmul]
  rw [Ideal.matmul_constant_zero_apply]
  rw [← Equiv.sum_comp (contrEquiv1 dot_S5000x128_S128x256_S5000x256_1_0_0_1_n_n 128 rfl rfl).symm]
  refine Finset.sum_congr rfl fun l _ => ?_
  have hk := contrEquiv1_symm_val dot_S5000x128_S128x256_S5000x256_1_0_0_1_n_n 128 rfl rfl l
  have el : dot_S5000x128_S128x256_S5000x256_1_0_0_1_n_n.lhsIdx (ix2 p k) ((contrEquiv1 dot_S5000x128_S128x256_S5000x256_1_0_0_1_n_n 128 rfl rfl).symm l) = ix2 p l := funext fun a => Fin.ext (by
    match a with
    | ⟨0, _⟩ => exact k1_l0 _ _
    | ⟨1, _⟩ => exact (k1_l1 _ _).trans hk)
  have er : dot_S5000x128_S128x256_S5000x256_1_0_0_1_n_n.rhsIdx (ix2 p k) ((contrEquiv1 dot_S5000x128_S128x256_S5000x256_1_0_0_1_n_n 128 rfl rfl).symm l) = ix2 l k := funext fun a => Fin.ext (by
    match a with
    | ⟨0, _⟩ => exact (k1_r0 _ _).trans hk
    | ⟨1, _⟩ => exact k1_r1 _ _)
  rw [el, er]

/-- The second product on a block: 5000 rows of 256 against 256 × 128, into a zero accumulator. -/
theorem k2_apply {φ₁ φ₂ : FTy} (x : FVec Ideal S5000x256 φ₁) (w : FVec Ideal S256x128 φ₂) (p : Fin 5000) (q : Fin 128) :
    matmul dot_S5000x256_S256x128_S5000x128_1_0_0_1_n_n none x w (constant (F := Ideal) S5000x128 .f32 0x00000000#32) (ix2 p q)
      = ∑ l : Fin 256, x (ix2 p l) * w (ix2 l q) := by
  simp only [matmul]
  rw [Ideal.matmul_constant_zero_apply]
  rw [← Equiv.sum_comp (contrEquiv1 dot_S5000x256_S256x128_S5000x128_1_0_0_1_n_n 256 rfl rfl).symm]
  refine Finset.sum_congr rfl fun l _ => ?_
  have hk := contrEquiv1_symm_val dot_S5000x256_S256x128_S5000x128_1_0_0_1_n_n 256 rfl rfl l
  have el : dot_S5000x256_S256x128_S5000x128_1_0_0_1_n_n.lhsIdx (ix2 p q) ((contrEquiv1 dot_S5000x256_S256x128_S5000x128_1_0_0_1_n_n 256 rfl rfl).symm l) = ix2 p l := funext fun a => Fin.ext (by
    match a with
    | ⟨0, _⟩ => exact k2_l0 _ _
    | ⟨1, _⟩ => exact (k2_l1 _ _).trans hk)
  have er : dot_S5000x256_S256x128_S5000x128_1_0_0_1_n_n.rhsIdx (ix2 p q) ((contrEquiv1 dot_S5000x256_S256x128_S5000x128_1_0_0_1_n_n 256 rfl rfl).symm l) = ix2 l q := funext fun a => Fin.ext (by
    match a with
    | ⟨0, _⟩ => exact (k2_r0 _ _).trans hk
    | ⟨1, _⟩ => exact k2_r1 _ _)
  rw [el, er]

/-- The first product on the whole array: 50000 rows of 128 against 128 × 256. -/
theorem r1_apply {φ₁ φ₂ : FTy} (x : FVec Ideal Cert.ReferenceIdeal.S50000x128 φ₁) (w : FVec Ideal Cert.ReferenceIdeal.S128x256 φ₂) (r : Fin 50000) (k : Fin 256) :
    Host.dotGeneral Cert.ReferenceIdeal.dot_S50000x128_S128x256_S50000x256_1_0_0_1_n_n none x w (ix2 r k) = ∑ l : Fin 128, x (ix2 r l) * w (ix2 l k) := by
  simp only [Host.dotGeneral]
  rw [Ideal.dotGeneral_apply]
  rw [← Equiv.sum_comp (contrEquiv1 Cert.ReferenceIdeal.dot_S50000x128_S128x256_S50000x256_1_0_0_1_n_n 128 rfl rfl).symm]
  refine Finset.sum_congr rfl fun l _ => ?_
  have hk := contrEquiv1_symm_val Cert.ReferenceIdeal.dot_S50000x128_S128x256_S50000x256_1_0_0_1_n_n 128 rfl rfl l
  have el : Cert.ReferenceIdeal.dot_S50000x128_S128x256_S50000x256_1_0_0_1_n_n.lhsIdx (ix2 r k) ((contrEquiv1 Cert.ReferenceIdeal.dot_S50000x128_S128x256_S50000x256_1_0_0_1_n_n 128 rfl rfl).symm l) = ix2 r l := funext fun a => Fin.ext (by
    match a with
    | ⟨0, _⟩ => exact r1_l0 _ _
    | ⟨1, _⟩ => exact (r1_l1 _ _).trans hk)
  have er : Cert.ReferenceIdeal.dot_S50000x128_S128x256_S50000x256_1_0_0_1_n_n.rhsIdx (ix2 r k) ((contrEquiv1 Cert.ReferenceIdeal.dot_S50000x128_S128x256_S50000x256_1_0_0_1_n_n 128 rfl rfl).symm l) = ix2 l k := funext fun a => Fin.ext (by
    match a with
    | ⟨0, _⟩ => exact (r1_r0 _ _).trans hk
    | ⟨1, _⟩ => exact r1_r1 _ _)
  rw [el, er]

/-- The second product on the whole array: 50000 rows of 256 against 256 × 128. -/
theorem r2_apply {φ₁ φ₂ : FTy} (x : FVec Ideal Cert.ReferenceIdeal.S50000x256 φ₁) (w : FVec Ideal Cert.ReferenceIdeal.S256x128 φ₂) (r : Fin 50000) (q : Fin 128) :
    Host.dotGeneral Cert.ReferenceIdeal.dot_S50000x256_S256x128_S50000x128_1_0_0_1_n_n none x w (ix2 r q) = ∑ l : Fin 256, x (ix2 r l) * w (ix2 l q) := by
  simp only [Host.dotGeneral]
  rw [Ideal.dotGeneral_apply]
  rw [← Equiv.sum_comp (contrEquiv1 Cert.ReferenceIdeal.dot_S50000x256_S256x128_S50000x128_1_0_0_1_n_n 256 rfl rfl).symm]
  refine Finset.sum_congr rfl fun l _ => ?_
  have hk := contrEquiv1_symm_val Cert.ReferenceIdeal.dot_S50000x256_S256x128_S50000x128_1_0_0_1_n_n 256 rfl rfl l
  have el : Cert.ReferenceIdeal.dot_S50000x256_S256x128_S50000x128_1_0_0_1_n_n.lhsIdx (ix2 r q) ((contrEquiv1 Cert.ReferenceIdeal.dot_S50000x256_S256x128_S50000x128_1_0_0_1_n_n 256 rfl rfl).symm l) = ix2 r l := funext fun a => Fin.ext (by
    match a with
    | ⟨0, _⟩ => exact r2_l0 _ _
    | ⟨1, _⟩ => exact (r2_l1 _ _).trans hk)
  have er : Cert.ReferenceIdeal.dot_S50000x256_S256x128_S50000x128_1_0_0_1_n_n.rhsIdx (ix2 r q) ((contrEquiv1 Cert.ReferenceIdeal.dot_S50000x256_S256x128_S50000x128_1_0_0_1_n_n 256 rfl rfl).symm l) = ix2 l q := funext fun a => Fin.ext (by
    match a with
    | ⟨0, _⟩ => exact (r2_r0 _ _).trans hk
    | ⟨1, _⟩ => exact r2_r1 _ _)
  rw [el, er]

/-! ## A bias row repeated down the rows, read at one entry -/

/-- On a block: a vector of 256 viewed as one row and repeated down 5000 rows reads its own entry k at (p, k). -/
theorem kbias256 (v : Vec Ideal S256 .f32) (p : Fin 5000) (k : Fin 256) :
    broadcastTo S5000x256 (shapeCast S1x256 v shapeCasts_S256_S1x256) broadcasts_S1x256_S5000x256 (ix2 p k) = v (ix1 k) := by
  rw [broadcastTo_1b_ab_apply, shapeCast_a_1a_apply]

/-- On a block: a vector of 128 viewed as one row and repeated down 5000 rows reads its own entry q at (p, q). -/
theorem kbias128 (v : Vec Ideal S128 .f32) (p : Fin 5000) (q : Fin 128) :
    broadcastTo S5000x128 (shapeCast S1x128 v shapeCasts_S128_S1x128) broadcasts_S1x128_S5000x128 (ix2 p q) = v (ix1 q) := by
  rw [broadcastTo_1b_ab_apply, shapeCast_a_1a_apply]

/-- On the whole array: a vector of 256 placed as one row and repeated down 50000 rows reads its entry k at (r, k). -/
theorem rbias256 (v : (⟨Cert.ReferenceIdeal.S256, .f32⟩ : BufTy).Contents (Elt Ideal)) (r : Fin 50000) (k : Fin 256) :
    broadcastInDim Cert.ReferenceIdeal.S50000x256 ![0, 1] Cert.ReferenceIdeal.Facts₀.bcast_S1x256_S50000x256_0_1
      (broadcastInDim Cert.ReferenceIdeal.S1x256 ![1] Cert.ReferenceIdeal.Facts₀.bcast_S256_S1x256_1 v) (ix2 r k) = v (ix1 k) := by
  rw [broadcastInDim_apply _ _ _ (ix2 r k) (ix2 (0 : Fin 1) k) (fun a => by
    match a with
    | ⟨0, _⟩ => rfl
    | ⟨1, _⟩ => rfl)]
  exact broadcastInDim_apply _ _ _ (ix2 (0 : Fin 1) k) (ix1 k) (fun a => by
    match a with
    | ⟨0, _⟩ => rfl)

/-- On the whole array: a vector of 128 placed as one row and repeated down 50000 rows reads its entry q at (r, q). -/
theorem rbias128 (v : (⟨Cert.ReferenceIdeal.S128, .f32⟩ : BufTy).Contents (Elt Ideal)) (r : Fin 50000) (q : Fin 128) :
    broadcastInDim Cert.ReferenceIdeal.S50000x128 ![0, 1] Cert.ReferenceIdeal.Facts₀.bcast_S1x128_S50000x128_0_1
      (broadcastInDim Cert.ReferenceIdeal.S1x128 ![1] Cert.ReferenceIdeal.Facts₀.bcast_S128_S1x128_1 v) (ix2 r q) = v (ix1 q) := by
  rw [broadcastInDim_apply _ _ _ (ix2 r q) (ix2 (0 : Fin 1) q) (fun a => by
    match a with
    | ⟨0, _⟩ => rfl
    | ⟨1, _⟩ => rfl)]
  exact broadcastInDim_apply _ _ _ (ix2 (0 : Fin 1) q) (ix1 q) (fun a => by
    match a with
    | ⟨0, _⟩ => rfl)

/-- On the whole array: the zero scalar spread over 50000 × 256 reads the zero word's value everywhere. -/
theorem rzero256 (r : Fin 50000) (k : Fin 256) :
    broadcastInDim Cert.ReferenceIdeal.S50000x256 ![] Cert.ReferenceIdeal.Facts₀.bcast_S_S50000x256
      (constant (F := Ideal) Cert.ReferenceIdeal.S_ .f32 0x00000000#32) (ix2 r k) = Ideal.ofBits .f32 0x00000000#32 :=
  broadcastInDim_apply _ _ _ (ix2 r k) ix0 (fun a => a.elim0)

/-! ## One entry of the update from one row of inputs

Entry q of a node's new row depends only on that node's own row x + y of 128 values: the 256 hidden values are
max (∑ l (x l + y l) · W1 l k + b1 k, 0) and the entry is ∑ k hidden k · W2 k q + b2 q. -/

/-- Entry `q` of the dense update of one row. -/
def rowOut (x y : Fin 128 → EReal) (W1 : Fin 128 → Fin 256 → EReal) (b1 : Fin 256 → EReal) (W2 : Fin 256 → Fin 128 → EReal)
    (b2 : Fin 128 → EReal) (q : Fin 128) : EReal :=
  (∑ k : Fin 256, max ((∑ l : Fin 128, (x l + y l) * W1 l k) + b1 k) (Ideal.ofBits .f32 0x00000000#32) * W2 k q) + b2 q

/-- The hidden layer a block's body computes: the rectified first dense layer of the sum of its two input blocks. -/
def hidden (v0 v2 : Vec Ideal S5000x128 .f32) (v6 : Vec Ideal S128x256 .f32) (v9 : Vec Ideal S256 .f32) : FVec Ideal S5000x256 .f32 :=
  maximumf
    (addf
      (matmul dot_S5000x128_S128x256_S5000x256_1_0_0_1_n_n none
        (truncf .bf16 (addf (shapeCast S5000x128 v0 shapeCasts_S5000x128_S5000x128) (shapeCast S5000x128 v2 shapeCasts_S5000x128_S5000x128)) bitsLt_bf16_f32)
        (truncf .bf16 v6 bitsLt_bf16_f32) (constant S5000x256 .f32 0x00000000#32))
      (broadcastTo S5000x256 (shapeCast S1x256 v9 shapeCasts_S256_S1x256) broadcasts_S1x256_S5000x256))
    (broadcast S5000x256 (Scalar.ofBits .f32 0x00000000#32))

/-- What a block's body stores: the second dense layer of the hidden layer. -/
def pay (v0 v2 : Vec Ideal S5000x128 .f32) (v6 : Vec Ideal S128x256 .f32) (v9 : Vec Ideal S256 .f32) (v16 : Vec Ideal S256x128 .f32)
    (v19 : Vec Ideal S128 .f32) : FVec Ideal S5000x128 .f32 :=
  addf
    (matmul dot_S5000x256_S256x128_S5000x128_1_0_0_1_n_n none (truncf .bf16 (hidden v0 v2 v6 v9) bitsLt_bf16_f32) (truncf .bf16 v16 bitsLt_bf16_f32)
      (constant S5000x128 .f32 0x00000000#32))
    (broadcastTo S5000x128 (shapeCast S1x128 v19 shapeCasts_S128_S1x128) broadcasts_S1x128_S5000x128)

theorem hidden_apply (v0 v2 : Vec Ideal S5000x128 .f32) (v6 : Vec Ideal S128x256 .f32) (v9 : Vec Ideal S256 .f32) (p : Fin 5000) (k : Fin 256) :
    hidden v0 v2 v6 v9 (ix2 p k)
      = max ((∑ l : Fin 128, (v0 (ix2 p l) + v2 (ix2 p l)) * v6 (ix2 l k)) + v9 (ix1 k)) (Ideal.ofBits .f32 0x00000000#32) := by
  unfold hidden
  rw [maximumf_apply, addf_apply, k1_apply, kbias256, shapeCast_self, shapeCast_self]
  rfl

/-- The stored block at entry (p, q) is the row update of row p of the two input blocks. -/
theorem pay_apply (v0 v2 : Vec Ideal S5000x128 .f32) (v6 : Vec Ideal S128x256 .f32) (v9 : Vec Ideal S256 .f32) (v16 : Vec Ideal S256x128 .f32)
    (v19 : Vec Ideal S128 .f32) (p : Fin 5000) (q : Fin 128) :
    pay v0 v2 v6 v9 v16 v19 (ix2 p q)
      = rowOut (fun l => v0 (ix2 p l)) (fun l => v2 (ix2 p l)) (fun l k => v6 (ix2 l k)) (fun k => v9 (ix1 k))
          (fun k q => v16 (ix2 k q)) (fun q => v19 (ix1 q)) q := by
  unfold pay rowOut
  rw [addf_apply, k2_apply, kbias128]
  refine congrArg (· + v19 (ix1 q)) (Finset.sum_congr rfl fun k _ => ?_)
  rw [truncf_apply, truncf_apply, hidden_apply]

/-- The whole-array update at entry (r, q) is the row update of row r of the two input arrays. -/
theorem mlp_apply (h a : (⟨Cert.ReferenceIdeal.S50000x128, .f32⟩ : BufTy).Contents (Elt Ideal)) (W1 : (⟨Cert.ReferenceIdeal.S128x256, .f32⟩ : BufTy).Contents (Elt Ideal)) (b1 : (⟨Cert.ReferenceIdeal.S256, .f32⟩ : BufTy).Contents (Elt Ideal)) (W2 : (⟨Cert.ReferenceIdeal.S256x128, .f32⟩ : BufTy).Contents (Elt Ideal)) (b2 : (⟨Cert.ReferenceIdeal.S128, .f32⟩ : BufTy).Contents (Elt Ideal))
    (r : Fin 50000) (q : Fin 128) :
    Cert.GnnSpec.mlp (F := Ideal) h a W1 b1 W2 b2 (ix2 r q)
      = rowOut (fun l => h (ix2 r l)) (fun l => a (ix2 r l)) (fun l k => W1 (ix2 l k)) (fun k => b1 (ix1 k))
          (fun k q => W2 (ix2 k q)) (fun q => b2 (ix1 q)) q := by
  unfold Cert.GnnSpec.mlp rowOut
  rw [addf_apply, r2_apply, rbias128]
  refine congrArg (· + b2 (ix1 q)) (Finset.sum_congr rfl fun k _ => ?_)
  rw [maximumf_apply, addf_apply, r1_apply, rbias256, rzero256]
  rfl

/-- Row p of a block and row r of the arrays holding the same 128 inputs, the stored block's entry (p, q) is the
    whole-array update's entry (r, q). -/
theorem pay_eq_mlp (x0 x1 : Vec Ideal S5000x128 .f32) (h a : (⟨Cert.ReferenceIdeal.S50000x128, .f32⟩ : BufTy).Contents (Elt Ideal)) (W1 : (⟨Cert.ReferenceIdeal.S128x256, .f32⟩ : BufTy).Contents (Elt Ideal)) (b1 : (⟨Cert.ReferenceIdeal.S256, .f32⟩ : BufTy).Contents (Elt Ideal))
    (W2 : (⟨Cert.ReferenceIdeal.S256x128, .f32⟩ : BufTy).Contents (Elt Ideal)) (b2 : (⟨Cert.ReferenceIdeal.S128, .f32⟩ : BufTy).Contents (Elt Ideal)) (p : Fin 5000) (r : Fin 50000) (q : Fin 128)
    (h0 : ∀ l : Fin 128, x0 (ix2 p l) = h (ix2 r l)) (h1 : ∀ l : Fin 128, x1 (ix2 p l) = a (ix2 r l)) :
    pay x0 x1 W1 b1 W2 b2 (ix2 p q) = Cert.GnnSpec.mlp (F := Ideal) h a W1 b1 W2 b2 (ix2 r q) := by
  rw [pay_apply, mlp_apply]
  simp only [h0, h1]

/-- The same with the two entries named by any index equal to (p, q) and (r, q). -/
theorem pay_eq_mlp_at (x0 x1 : Vec Ideal S5000x128 .f32) (h a : (⟨Cert.ReferenceIdeal.S50000x128, .f32⟩ : BufTy).Contents (Elt Ideal)) (W1 : (⟨Cert.ReferenceIdeal.S128x256, .f32⟩ : BufTy).Contents (Elt Ideal)) (b1 : (⟨Cert.ReferenceIdeal.S256, .f32⟩ : BufTy).Contents (Elt Ideal))
    (W2 : (⟨Cert.ReferenceIdeal.S256x128, .f32⟩ : BufTy).Contents (Elt Ideal)) (b2 : (⟨Cert.ReferenceIdeal.S128, .f32⟩ : BufTy).Contents (Elt Ideal)) (j : S5000x128.Idx) (i : Cert.ReferenceIdeal.S50000x128.Idx)
    (p : Fin 5000) (q : Fin 128) (r : Fin 50000) (hj : j = ix2 p q) (hi : i = ix2 r q)
    (h0 : ∀ l : Fin 128, x0 (ix2 p l) = h (ix2 r l)) (h1 : ∀ l : Fin 128, x1 (ix2 p l) = a (ix2 r l)) :
    pay x0 x1 W1 b1 W2 b2 j = Cert.GnnSpec.mlp (F := Ideal) h a W1 b1 W2 b2 i := by
  subst hj hi
  exact pay_eq_mlp x0 x1 h a W1 b1 W2 b2 p r q h0 h1

end Cert.KernelIdeal.MlpCore

end
-- ==== Proof.Mlp0.lean ====
/-
  What round 1's dense update leaves in its result array.

  The update runs over ten blocks of 5000 node rows. At block t it reads rows 5000·t … 5000·t + 4999 of the two node
  arrays (the rows h and the aggregated messages a), the whole weight matrices and bias vectors, and writes the same
  rows of the result. A node's new row depends on its own old row alone, so entry (p, q) of block t is entry
  (5000·t + p, q) of the dense update applied to the whole arrays; the ten blocks are disjoint and together cover
  all 50000 rows (row r lies in block r / 5000), so after the last block the result array is the whole-array update.
-/
import proofs.«178875_j64725157151179_1_alg».proof.Proof.Gen.KernelIdeal.Frame
import proofs.«178875_j64725157151179_1_alg».proof.Proof.Gen.ReferenceIdeal
import proofs.«178875_j64725157151179_1_alg».proof.Proof.MlpCore
import Idealize.ShloMosaic.Lib.Pipeline.Value

noncomputable section

open Idealize.ShloMosaic Idealize.ShloMosaic.TcCoe Idealize.SL.Sem
open Idealize.ShloMosaic.Pipeline (Dat)
open Idealize.ShloMosaic.ValueIdx

namespace Cert.KernelIdeal.MlpBlocks

open Cert.KernelIdeal Cert.KernelIdeal.Gen

theorem zeros2_0 : (![0, 0] : Fin 2 → Nat) = fun _ => 0 := funext fun a => by fin_cases a <;> rfl
theorem zeros1_0 : (![0] : Fin 1 → Nat) = fun _ => 0 := funext fun a => by fin_cases a; rfl

/-- The body's stored value is the dense update of its loaded blocks. -/
theorem stored0 (v0 v2 : Vec Ideal S5000x128 .f32) (v6 : Vec Ideal S128x256 .f32) (v9 : Vec Ideal S256 .f32) (v16 : Vec Ideal S256x128 .f32)
    (v19 : Vec Ideal S128 .f32) : k0_pay1 (F := Ideal) v0 v2 v6 v9 v16 v19 = MlpCore.pay v0 v2 v6 v9 v16 v19 := rfl

/-- Where each window's block sits at grid point t: the two node arrays and the result move down by one block of
    5000 rows per point; the weights and biases stay at block 0. -/
theorem where0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The first weight matrix's block at any point is the whole matrix. -/
theorem whole0_2 (V : (c : Dev nD) → (b : Ref sig .tc) → Buf (Elt Ideal) ((c : Thread nD τ).loc b)) (c : Dev nD) (t : Fin cfg0.N) : iblk0 V c 2 t = (V c (Pipeline.arrRef spec0 2)) := by
  obtain ⟨-, -, -, -, e0, e1, -⟩ := where0 t
  funext y
  show (V c (Pipeline.arrRef spec0 2)) (((cfg0.win 2).blk t).view.emb y) = (V c (Pipeline.arrRef spec0 2)) y
  refine congrArg (V c (Pipeline.arrRef spec0 2)) (funext fun a => Fin.ext ?_)
  match a with
  | ⟨0, _⟩ => show win0_2.index t (0 : Fin 2) * 128 + 1 * (y 0).val = (y 0).val; rw [e0]; omega
  | ⟨1, _⟩ => show win0_2.index t (1 : Fin 2) * 256 + 1 * (y 1).val = (y 1).val; rw [e1]; omega

/-- The first bias's block at any point is the whole vector. -/
theorem whole0_3 (V : (c : Dev nD) → (b : Ref sig .tc) → Buf (Elt Ideal) ((c : Thread nD τ).loc b)) (c : Dev nD) (t : Fin cfg0.N) : iblk0 V c 3 t = (V c (Pipeline.arrRef spec0 3)) := by
  obtain ⟨-, -, -, -, -, -, e0, -⟩ := where0 t
  funext y
  show (V c (Pipeline.arrRef spec0 3)) (((cfg0.win 3).blk t).view.emb y) = (V c (Pipeline.arrRef spec0 3)) y
  refine congrArg (V c (Pipeline.arrRef spec0 3)) (funext fun a => Fin.ext ?_)
  match a with
  | ⟨0, _⟩ => show win0_3.index t (0 : Fin 1) * 256 + 1 * (y 0).val = (y 0).val; rw [e0]; omega

/-- The second weight matrix's block at any point is the whole matrix. -/
theorem whole0_4 (V : (c : Dev nD) → (b : Ref sig .tc) → Buf (Elt Ideal) ((c : Thread nD τ).loc b)) (c : Dev nD) (t : Fin cfg0.N) : iblk0 V c 4 t = (V c (Pipeline.arrRef spec0 4)) := by
  obtain ⟨-, -, -, -, -, -, -, e0, e1, -⟩ := where0 t
  funext y
  show (V c (Pipeline.arrRef spec0 4)) (((cfg0.win 4).blk t).view.emb y) = (V c (Pipeline.arrRef spec0 4)) y
  refine congrArg (V c (Pipeline.arrRef spec0 4)) (funext fun a => Fin.ext ?_)
  match a with
  | ⟨0, _⟩ => show win0_4.index t (0 : Fin 2) * 256 + 1 * (y 0).val = (y 0).val; rw [e0]; omega
  | ⟨1, _⟩ => show win0_4.index t (1 : Fin 2) * 128 + 1 * (y 1).val = (y 1).val; rw [e1]; omega

/-- The second bias's block at any point is the whole vector. -/
theorem whole0_5 (V : (c : Dev nD) → (b : Ref sig .tc) → Buf (Elt Ideal) ((c : Thread nD τ).loc b)) (c : Dev nD) (t : Fin cfg0.N) : iblk0 V c 5 t = (V c (Pipeline.arrRef spec0 5)) := by
  obtain ⟨-, -, -, -, -, -, -, -, -, e0, -⟩ := where0 t
  funext y
  show (V c (Pipeline.arrRef spec0 5)) (((cfg0.win 5).blk t).view.emb y) = (V c (Pipeline.arrRef spec0 5)) y
  refine congrArg (V c (Pipeline.arrRef spec0 5)) (funext fun a => Fin.ext ?_)
  match a with
  | ⟨0, _⟩ => show win0_5.index t (0 : Fin 1) * 128 + 1 * (y 0).val = (y 0).val; rw [e0]; omega

/-- Row p of the first node array's block at point t is row 5000·t + p of the array. -/
theorem inRow0_0 (V : (c : Dev nD) → (b : Ref sig .tc) → Buf (Elt Ideal) ((c : Thread nD τ).loc b)) (c : Dev nD) (t : Fin cfg0.N) (p : Fin 5000) (l : Fin 128) (hr : 5000 * t.val + p.val < 50000) :
    iblk0 V c 0 t (ix2 p l) = (V c (Pipeline.arrRef spec0 0)) (ix2 (⟨5000 * t.val + p.val, hr⟩ : Fin 50000) l) := by
  obtain ⟨e00, e01, e10, e11, -⟩ := where0 t
  show (V c (Pipeline.arrRef spec0 0)) (((cfg0.win 0).blk t).view.emb (ix2 p l)) = (V c (Pipeline.arrRef spec0 0)) _
  refine congrArg (V c (Pipeline.arrRef spec0 0)) (funext fun a => Fin.ext ?_)
  match a with
  | ⟨0, _⟩ => show win0_0.index t (0 : Fin 2) * 5000 + 1 * p.val = 5000 * t.val + p.val; rw [e00]; omega
  | ⟨1, _⟩ => show win0_0.index t (1 : Fin 2) * 128 + 1 * l.val = l.val; rw [e01]; omega

/-- Row p of the second node array's block at point t is row 5000·t + p of the array. -/
theorem inRow0_1 (V : (c : Dev nD) → (b : Ref sig .tc) → Buf (Elt Ideal) ((c : Thread nD τ).loc b)) (c : Dev nD) (t : Fin cfg0.N) (p : Fin 5000) (l : Fin 128) (hr : 5000 * t.val + p.val < 50000) :
    iblk0 V c 1 t (ix2 p l) = (V c (Pipeline.arrRef spec0 1)) (ix2 (⟨5000 * t.val + p.val, hr⟩ : Fin 50000) l) := by
  obtain ⟨e00, e01, e10, e11, -⟩ := where0 t
  show (V c (Pipeline.arrRef spec0 1)) (((cfg0.win 1).blk t).view.emb (ix2 p l)) = (V c (Pipeline.arrRef spec0 1)) _
  refine congrArg (V c (Pipeline.arrRef spec0 1)) (funext fun a => Fin.ext ?_)
  match a with
  | ⟨0, _⟩ => show win0_1.index t (0 : Fin 2) * 5000 + 1 * p.val = 5000 * t.val + p.val; rw [e10]; omega
  | ⟨1, _⟩ => show win0_1.index t (1 : Fin 2) * 128 + 1 * l.val = l.val; rw [e11]; omega

/-- Entry j of the result's block at point t sits in the array at row 5000·t + its row, same column. -/
theorem outAt0 (t : Fin cfg0.N) (j : ((cfg0.win 6).xblock (grid0.coords t)).Idx) (hr : 5000 * t.val + (j 0).val < 50000) :
    ((cfg0.win 6).blk t).view.emb j = ix2 (⟨5000 * t.val + (j 0).val, hr⟩ : Fin 50000) (⟨(j 1).val, (j 1).isLt⟩ : Fin 128) := by
  obtain ⟨-, -, -, -, -, -, -, -, -, -, e60, e61⟩ := where0 t
  refine funext fun a => Fin.ext ?_
  match a with
  | ⟨0, _⟩ => show win0_6.index t (0 : Fin 2) * 5000 + 1 * (j 0).val = 5000 * t.val + (j 0).val; rw [e60]; omega
  | ⟨1, _⟩ => show win0_6.index t (1 : Fin 2) * 128 + 1 * (j 1).val = (j 1).val; rw [e61]; omega

set_option maxHeartbeats 1000000 in
/-- What point t writes back is block t of the whole-array dense update of the arrays the region found. -/
theorem flushed0 (V : (c : Dev nD) → (b : Ref sig .tc) → Buf (Elt Ideal) ((c : Thread nD τ).loc b)) (c : Dev nD) (t : Fin cfg0.N) :
    (dat0 (F := Ideal) V c).flushed 6 t = ((cfg0.win 6).blk t).view.read (Elt Ideal)
      (Cert.GnnSpec.mlp (F := Ideal) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) := by
  show (cfg0.win 6).cut (grid0.coords t) ((dat0 V c).after 6 t) = _
  rw [after0_6]
  unfold out0_6
  rw [View.canon_unit_zero zeros2_0]
  simp only [View.ld_unit_zero (S := S5000x128) zeros2_0, View.ld_unit_zero (S := S128x256) zeros2_0, View.ld_unit_zero (S := S256) zeros1_0,
    View.ld_unit_zero (S := S256x128) zeros2_0, View.ld_unit_zero (S := S128) zeros1_0]
  rw [stored0, whole0_2 V c t, whole0_3 V c t, whole0_4 V c t, whole0_5 V c t]
  have hN : t.val < 10 := Nat.lt_of_lt_of_eq t.isLt N_0
  funext j
  have hj0 : (j 0).val < 5000 := (j 0).isLt
  have hr : 5000 * t.val + (j 0).val < 50000 := by omega
  have ej : (cfg0.win 6).xinj (grid0.coords t) j = ix2 (⟨(j 0).val, hj0⟩ : Fin 5000) (⟨(j 1).val, (j 1).isLt⟩ : Fin 128) := by
    funext a
    match a with
    | ⟨0, _⟩ => rfl
    | ⟨1, _⟩ => rfl
  show MlpCore.pay (iblk0 V c 0 t) (iblk0 V c 1 t) (V c (Pipeline.arrRef spec0 2)) (V c (Pipeline.arrRef spec0 3)) (V c (Pipeline.arrRef spec0 4)) (V c (Pipeline.arrRef spec0 5)) ((cfg0.win 6).xinj (grid0.coords t) j)
    = Cert.GnnSpec.mlp (F := Ideal) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (((cfg0.win 6).blk t).view.emb j)
  exact MlpCore.pay_eq_mlp_at (iblk0 V c 0 t) (iblk0 V c 1 t) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) _ _
    (⟨(j 0).val, hj0⟩ : Fin 5000) (⟨(j 1).val, (j 1).isLt⟩ : Fin 128) (⟨5000 * t.val + (j 0).val, hr⟩ : Fin 50000) ej (outAt0 t j hr)
    (fun l => inRow0_0 V c t ⟨(j 0).val, hj0⟩ l hr) (fun l => inRow0_1 V c t ⟨(j 0).val, hj0⟩ l hr)

/-- An index of the result array lies in point t's block exactly when its coordinates are in the block's ranges. -/
theorem inBlock0 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole (Pipeline.arrRef spec0 6)).slice (win0_6.rect t)).set ↔ _
  rw [View.set_slice_whole, Rect.mem_set_unit]
  exact Iff.rfl

/-- Every index of the result array is in the block of the point numbered by its row divided by 5000. -/
theorem covered0 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, -, -, -, -, e60, e61⟩ := where0 t
  have ht : t.val = (i 0).val / 5000 := rfl
  refine ⟨t, flush0_6 t, ?_⟩
  rw [inBlock0]
  intro a
  match a with
  | ⟨0, _⟩ => show win0_6.index t (0 : Fin 2) * 5000 ≤ (i 0).val ∧ (i 0).val < win0_6.index t (0 : Fin 2) * 5000 + 5000; rw [e60, ht]; omega
  | ⟨1, _⟩ => show win0_6.index t (1 : Fin 2) * 128 ≤ (i 1).val ∧ (i 1).val < win0_6.index t (1 : Fin 2) * 128 + 128; rw [e61]; omega

/-- After the region the result array holds the whole-array dense update of the arrays the region found. -/
theorem value0 (V : (c : Dev nD) → (b : Ref sig .tc) → Buf (Elt Ideal) ((c : Thread nD τ).loc b)) (c : Dev nD) :
    (Gen.dat0 (F := Ideal) V c).arrAt 6 cfg0.N
      = Cert.GnnSpec.mlp (F := Ideal) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) :=
  (dat0 (F := Ideal) V c).arrAt_eq_of_cover 6 _ (fun t _ => flushed0 V c t) covered0

end Cert.KernelIdeal.MlpBlocks

end
-- ==== Proof.Mlp1.lean ====
/-
  What round 2's dense update leaves in its result array.

  The update runs over ten blocks of 5000 node rows. At block t it reads rows 5000·t … 5000·t + 4999 of the two node
  arrays (the rows h and the aggregated messages a), the whole weight matrices and bias vectors, and writes the same
  rows of the result. A node's new row depends on its own old row alone, so entry (p, q) of block t is entry
  (5000·t + p, q) of the dense update applied to the whole arrays; the ten blocks are disjoint and together cover
  all 50000 rows (row r lies in block r / 5000), so after the last block the result array is the whole-array update.
-/
import proofs.«178875_j64725157151179_1_alg».proof.Proof.Gen.KernelIdeal.Frame
import proofs.«178875_j64725157151179_1_alg».proof.Proof.Gen.ReferenceIdeal
import proofs.«178875_j64725157151179_1_alg».proof.Proof.MlpCore
import Idealize.ShloMosaic.Lib.Pipeline.Value

noncomputable section

open Idealize.ShloMosaic Idealize.ShloMosaic.TcCoe Idealize.SL.Sem
open Idealize.ShloMosaic.Pipeline (Dat)
open Idealize.ShloMosaic.ValueIdx

namespace Cert.KernelIdeal.MlpBlocks

open Cert.KernelIdeal Cert.KernelIdeal.Gen

theorem zeros2_1 : (![0, 0] : Fin 2 → Nat) = fun _ => 0 := funext fun a => by fin_cases a <;> rfl
theorem zeros1_1 : (![0] : Fin 1 → Nat) = fun _ => 0 := funext fun a => by fin_cases a; rfl

/-- The body's stored value is the dense update of its loaded blocks. -/
theorem stored1 (v0 v2 : Vec Ideal S5000x128 .f32) (v6 : Vec Ideal S128x256 .f32) (v9 : Vec Ideal S256 .f32) (v16 : Vec Ideal S256x128 .f32)
    (v19 : Vec Ideal S128 .f32) : k1_pay1 (F := Ideal) v0 v2 v6 v9 v16 v19 = MlpCore.pay v0 v2 v6 v9 v16 v19 := rfl

/-- Where each window's block sits at grid point t: the two node arrays and the result move down by one block of
    5000 rows per point; the weights and biases stay at block 0. -/
theorem where1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- The first weight matrix's block at any point is the whole matrix. -/
theorem whole1_2 (V : (c : Dev nD) → (b : Ref sig .tc) → Buf (Elt Ideal) ((c : Thread nD τ).loc b)) (c : Dev nD) (t : Fin cfg1.N) : iblk1 V c 2 t = (V c (Pipeline.arrRef spec1 2)) := by
  obtain ⟨-, -, -, -, e0, e1, -⟩ := where1 t
  funext y
  show (V c (Pipeline.arrRef spec1 2)) (((cfg1.win 2).blk t).view.emb y) = (V c (Pipeline.arrRef spec1 2)) y
  refine congrArg (V c (Pipeline.arrRef spec1 2)) (funext fun a => Fin.ext ?_)
  match a with
  | ⟨0, _⟩ => show win1_2.index t (0 : Fin 2) * 128 + 1 * (y 0).val = (y 0).val; rw [e0]; omega
  | ⟨1, _⟩ => show win1_2.index t (1 : Fin 2) * 256 + 1 * (y 1).val = (y 1).val; rw [e1]; omega

/-- The first bias's block at any point is the whole vector. -/
theorem whole1_3 (V : (c : Dev nD) → (b : Ref sig .tc) → Buf (Elt Ideal) ((c : Thread nD τ).loc b)) (c : Dev nD) (t : Fin cfg1.N) : iblk1 V c 3 t = (V c (Pipeline.arrRef spec1 3)) := by
  obtain ⟨-, -, -, -, -, -, e0, -⟩ := where1 t
  funext y
  show (V c (Pipeline.arrRef spec1 3)) (((cfg1.win 3).blk t).view.emb y) = (V c (Pipeline.arrRef spec1 3)) y
  refine congrArg (V c (Pipeline.arrRef spec1 3)) (funext fun a => Fin.ext ?_)
  match a with
  | ⟨0, _⟩ => show win1_3.index t (0 : Fin 1) * 256 + 1 * (y 0).val = (y 0).val; rw [e0]; omega

/-- The second weight matrix's block at any point is the whole matrix. -/
theorem whole1_4 (V : (c : Dev nD) → (b : Ref sig .tc) → Buf (Elt Ideal) ((c : Thread nD τ).loc b)) (c : Dev nD) (t : Fin cfg1.N) : iblk1 V c 4 t = (V c (Pipeline.arrRef spec1 4)) := by
  obtain ⟨-, -, -, -, -, -, -, e0, e1, -⟩ := where1 t
  funext y
  show (V c (Pipeline.arrRef spec1 4)) (((cfg1.win 4).blk t).view.emb y) = (V c (Pipeline.arrRef spec1 4)) y
  refine congrArg (V c (Pipeline.arrRef spec1 4)) (funext fun a => Fin.ext ?_)
  match a with
  | ⟨0, _⟩ => show win1_4.index t (0 : Fin 2) * 256 + 1 * (y 0).val = (y 0).val; rw [e0]; omega
  | ⟨1, _⟩ => show win1_4.index t (1 : Fin 2) * 128 + 1 * (y 1).val = (y 1).val; rw [e1]; omega

/-- The second bias's block at any point is the whole vector. -/
theorem whole1_5 (V : (c : Dev nD) → (b : Ref sig .tc) → Buf (Elt Ideal) ((c : Thread nD τ).loc b)) (c : Dev nD) (t : Fin cfg1.N) : iblk1 V c 5 t = (V c (Pipeline.arrRef spec1 5)) := by
  obtain ⟨-, -, -, -, -, -, -, -, -, e0, -⟩ := where1 t
  funext y
  show (V c (Pipeline.arrRef spec1 5)) (((cfg1.win 5).blk t).view.emb y) = (V c (Pipeline.arrRef spec1 5)) y
  refine congrArg (V c (Pipeline.arrRef spec1 5)) (funext fun a => Fin.ext ?_)
  match a with
  | ⟨0, _⟩ => show win1_5.index t (0 : Fin 1) * 128 + 1 * (y 0).val = (y 0).val; rw [e0]; omega

/-- Row p of the first node array's block at point t is row 5000·t + p of the array. -/
theorem inRow1_0 (V : (c : Dev nD) → (b : Ref sig .tc) → Buf (Elt Ideal) ((c : Thread nD τ).loc b)) (c : Dev nD) (t : Fin cfg1.N) (p : Fin 5000) (l : Fin 128) (hr : 5000 * t.val + p.val < 50000) :
    iblk1 V c 0 t (ix2 p l) = (V c (Pipeline.arrRef spec1 0)) (ix2 (⟨5000 * t.val + p.val, hr⟩ : Fin 50000) l) := by
  obtain ⟨e00, e01, e10, e11, -⟩ := where1 t
  show (V c (Pipeline.arrRef spec1 0)) (((cfg1.win 0).blk t).view.emb (ix2 p l)) = (V c (Pipeline.arrRef spec1 0)) _
  refine congrArg (V c (Pipeline.arrRef spec1 0)) (funext fun a => Fin.ext ?_)
  match a with
  | ⟨0, _⟩ => show win1_0.index t (0 : Fin 2) * 5000 + 1 * p.val = 5000 * t.val + p.val; rw [e00]; omega
  | ⟨1, _⟩ => show win1_0.index t (1 : Fin 2) * 128 + 1 * l.val = l.val; rw [e01]; omega

/-- Row p of the second node array's block at point t is row 5000·t + p of the array. -/
theorem inRow1_1 (V : (c : Dev nD) → (b : Ref sig .tc) → Buf (Elt Ideal) ((c : Thread nD τ).loc b)) (c : Dev nD) (t : Fin cfg1.N) (p : Fin 5000) (l : Fin 128) (hr : 5000 * t.val + p.val < 50000) :
    iblk1 V c 1 t (ix2 p l) = (V c (Pipeline.arrRef spec1 1)) (ix2 (⟨5000 * t.val + p.val, hr⟩ : Fin 50000) l) := by
  obtain ⟨e00, e01, e10, e11, -⟩ := where1 t
  show (V c (Pipeline.arrRef spec1 1)) (((cfg1.win 1).blk t).view.emb (ix2 p l)) = (V c (Pipeline.arrRef spec1 1)) _
  refine congrArg (V c (Pipeline.arrRef spec1 1)) (funext fun a => Fin.ext ?_)
  match a with
  | ⟨0, _⟩ => show win1_1.index t (0 : Fin 2) * 5000 + 1 * p.val = 5000 * t.val + p.val; rw [e10]; omega
  | ⟨1, _⟩ => show win1_1.index t (1 : Fin 2) * 128 + 1 * l.val = l.val; rw [e11]; omega

/-- Entry j of the result's block at point t sits in the array at row 5000·t + its row, same column. -/
theorem outAt1 (t : Fin cfg1.N) (j : ((cfg1.win 6).xblock (grid1.coords t)).Idx) (hr : 5000 * t.val + (j 0).val < 50000) :
    ((cfg1.win 6).blk t).view.emb j = ix2 (⟨5000 * t.val + (j 0).val, hr⟩ : Fin 50000) (⟨(j 1).val, (j 1).isLt⟩ : Fin 128) := by
  obtain ⟨-, -, -, -, -, -, -, -, -, -, e60, e61⟩ := where1 t
  refine funext fun a => Fin.ext ?_
  match a with
  | ⟨0, _⟩ => show win1_6.index t (0 : Fin 2) * 5000 + 1 * (j 0).val = 5000 * t.val + (j 0).val; rw [e60]; omega
  | ⟨1, _⟩ => show win1_6.index t (1 : Fin 2) * 128 + 1 * (j 1).val = (j 1).val; rw [e61]; omega

set_option maxHeartbeats 1000000 in
/-- What point t writes back is block t of the whole-array dense update of the arrays the region found. -/
theorem flushed1 (V : (c : Dev nD) → (b : Ref sig .tc) → Buf (Elt Ideal) ((c : Thread nD τ).loc b)) (c : Dev nD) (t : Fin cfg1.N) :
    (dat1 (F := Ideal) V c).flushed 6 t = ((cfg1.win 6).blk t).view.read (Elt Ideal)
      (Cert.GnnSpec.mlp (F := Ideal) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero zeros2_1]
  simp only [View.ld_unit_zero (S := S5000x128) zeros2_1, View.ld_unit_zero (S := S128x256) zeros2_1, View.ld_unit_zero (S := S256) zeros1_1,
    View.ld_unit_zero (S := S256x128) zeros2_1, View.ld_unit_zero (S := S128) zeros1_1]
  rw [stored1, whole1_2 V c t, whole1_3 V c t, whole1_4 V c t, whole1_5 V c t]
  have hN : t.val < 10 := Nat.lt_of_lt_of_eq t.isLt N_1
  funext j
  have hj0 : (j 0).val < 5000 := (j 0).isLt
  have hr : 5000 * t.val + (j 0).val < 50000 := by omega
  have ej : (cfg1.win 6).xinj (grid1.coords t) j = ix2 (⟨(j 0).val, hj0⟩ : Fin 5000) (⟨(j 1).val, (j 1).isLt⟩ : Fin 128) := by
    funext a
    match a with
    | ⟨0, _⟩ => rfl
    | ⟨1, _⟩ => rfl
  show MlpCore.pay (iblk1 V c 0 t) (iblk1 V c 1 t) (V c (Pipeline.arrRef spec1 2)) (V c (Pipeline.arrRef spec1 3)) (V c (Pipeline.arrRef spec1 4)) (V c (Pipeline.arrRef spec1 5)) ((cfg1.win 6).xinj (grid1.coords t) j)
    = Cert.GnnSpec.mlp (F := Ideal) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (((cfg1.win 6).blk t).view.emb j)
  exact MlpCore.pay_eq_mlp_at (iblk1 V c 0 t) (iblk1 V c 1 t) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) _ _
    (⟨(j 0).val, hj0⟩ : Fin 5000) (⟨(j 1).val, (j 1).isLt⟩ : Fin 128) (⟨5000 * t.val + (j 0).val, hr⟩ : Fin 50000) ej (outAt1 t j hr)
    (fun l => inRow1_0 V c t ⟨(j 0).val, hj0⟩ l hr) (fun l => inRow1_1 V c t ⟨(j 0).val, hj0⟩ l hr)

/-- An index of the result array lies in point t's block exactly when its coordinates are in the block's ranges. -/
theorem inBlock1 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole (Pipeline.arrRef spec1 6)).slice (win1_6.rect t)).set ↔ _
  rw [View.set_slice_whole, Rect.mem_set_unit]
  exact Iff.rfl

/-- Every index of the result array is in the block of the point numbered by its row divided by 5000. -/
theorem covered1 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, -, -, -, -, e60, e61⟩ := where1 t
  have ht : t.val = (i 0).val / 5000 := rfl
  refine ⟨t, flush1_6 t, ?_⟩
  rw [inBlock1]
  intro a
  match a with
  | ⟨0, _⟩ => show win1_6.index t (0 : Fin 2) * 5000 ≤ (i 0).val ∧ (i 0).val < win1_6.index t (0 : Fin 2) * 5000 + 5000; rw [e60, ht]; omega
  | ⟨1, _⟩ => show win1_6.index t (1 : Fin 2) * 128 ≤ (i 1).val ∧ (i 1).val < win1_6.index t (1 : Fin 2) * 128 + 128; rw [e61]; omega

/-- After the region the result array holds the whole-array dense update of the arrays the region found. -/
theorem value1 (V : (c : Dev nD) → (b : Ref sig .tc) → Buf (Elt Ideal) ((c : Thread nD τ).loc b)) (c : Dev nD) :
    (Gen.dat1 (F := Ideal) V c).arrAt 6 cfg1.N
      = Cert.GnnSpec.mlp (F := Ideal) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (dat1 (F := Ideal) V c).arrAt_eq_of_cover 6 _ (fun t _ => flushed1 V c t) covered1

end Cert.KernelIdeal.MlpBlocks

end
-- ==== Proof.Mlp2.lean ====
/-
  What round 3's dense update leaves in its result array.

  The update runs over ten blocks of 5000 node rows. At block t it reads rows 5000·t … 5000·t + 4999 of the two node
  arrays (the rows h and the aggregated messages a), the whole weight matrices and bias vectors, and writes the same
  rows of the result. A node's new row depends on its own old row alone, so entry (p, q) of block t is entry
  (5000·t + p, q) of the dense update applied to the whole arrays; the ten blocks are disjoint and together cover
  all 50000 rows (row r lies in block r / 5000), so after the last block the result array is the whole-array update.
-/
import proofs.«178875_j64725157151179_1_alg».proof.Proof.Gen.KernelIdeal.Frame
import proofs.«178875_j64725157151179_1_alg».proof.Proof.Gen.ReferenceIdeal
import proofs.«178875_j64725157151179_1_alg».proof.Proof.MlpCore
import Idealize.ShloMosaic.Lib.Pipeline.Value

noncomputable section

open Idealize.ShloMosaic Idealize.ShloMosaic.TcCoe Idealize.SL.Sem
open Idealize.ShloMosaic.Pipeline (Dat)
open Idealize.ShloMosaic.ValueIdx

namespace Cert.KernelIdeal.MlpBlocks

open Cert.KernelIdeal Cert.KernelIdeal.Gen

theorem zeros2_2 : (![0, 0] : Fin 2 → Nat) = fun _ => 0 := funext fun a => by fin_cases a <;> rfl
theorem zeros1_2 : (![0] : Fin 1 → Nat) = fun _ => 0 := funext fun a => by fin_cases a; rfl

/-- The body's stored value is the dense update of its loaded blocks. -/
theorem stored2 (v0 v2 : Vec Ideal S5000x128 .f32) (v6 : Vec Ideal S128x256 .f32) (v9 : Vec Ideal S256 .f32) (v16 : Vec Ideal S256x128 .f32)
    (v19 : Vec Ideal S128 .f32) : k2_pay1 (F := Ideal) v0 v2 v6 v9 v16 v19 = MlpCore.pay v0 v2 v6 v9 v16 v19 := rfl

/-- Where each window's block sits at grid point t: the two node arrays and the result move down by one block of
    5000 rows per point; the weights and biases stay at block 0. -/
theorem where2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- The first weight matrix's block at any point is the whole matrix. -/
theorem whole2_2 (V : (c : Dev nD) → (b : Ref sig .tc) → Buf (Elt Ideal) ((c : Thread nD τ).loc b)) (c : Dev nD) (t : Fin cfg2.N) : iblk2 V c 2 t = (V c (Pipeline.arrRef spec2 2)) := by
  obtain ⟨-, -, -, -, e0, e1, -⟩ := where2 t
  funext y
  show (V c (Pipeline.arrRef spec2 2)) (((cfg2.win 2).blk t).view.emb y) = (V c (Pipeline.arrRef spec2 2)) y
  refine congrArg (V c (Pipeline.arrRef spec2 2)) (funext fun a => Fin.ext ?_)
  match a with
  | ⟨0, _⟩ => show win2_2.index t (0 : Fin 2) * 128 + 1 * (y 0).val = (y 0).val; rw [e0]; omega
  | ⟨1, _⟩ => show win2_2.index t (1 : Fin 2) * 256 + 1 * (y 1).val = (y 1).val; rw [e1]; omega

/-- The first bias's block at any point is the whole vector. -/
theorem whole2_3 (V : (c : Dev nD) → (b : Ref sig .tc) → Buf (Elt Ideal) ((c : Thread nD τ).loc b)) (c : Dev nD) (t : Fin cfg2.N) : iblk2 V c 3 t = (V c (Pipeline.arrRef spec2 3)) := by
  obtain ⟨-, -, -, -, -, -, e0, -⟩ := where2 t
  funext y
  show (V c (Pipeline.arrRef spec2 3)) (((cfg2.win 3).blk t).view.emb y) = (V c (Pipeline.arrRef spec2 3)) y
  refine congrArg (V c (Pipeline.arrRef spec2 3)) (funext fun a => Fin.ext ?_)
  match a with
  | ⟨0, _⟩ => show win2_3.index t (0 : Fin 1) * 256 + 1 * (y 0).val = (y 0).val; rw [e0]; omega

/-- The second weight matrix's block at any point is the whole matrix. -/
theorem whole2_4 (V : (c : Dev nD) → (b : Ref sig .tc) → Buf (Elt Ideal) ((c : Thread nD τ).loc b)) (c : Dev nD) (t : Fin cfg2.N) : iblk2 V c 4 t = (V c (Pipeline.arrRef spec2 4)) := by
  obtain ⟨-, -, -, -, -, -, -, e0, e1, -⟩ := where2 t
  funext y
  show (V c (Pipeline.arrRef spec2 4)) (((cfg2.win 4).blk t).view.emb y) = (V c (Pipeline.arrRef spec2 4)) y
  refine congrArg (V c (Pipeline.arrRef spec2 4)) (funext fun a => Fin.ext ?_)
  match a with
  | ⟨0, _⟩ => show win2_4.index t (0 : Fin 2) * 256 + 1 * (y 0).val = (y 0).val; rw [e0]; omega
  | ⟨1, _⟩ => show win2_4.index t (1 : Fin 2) * 128 + 1 * (y 1).val = (y 1).val; rw [e1]; omega

/-- The second bias's block at any point is the whole vector. -/
theorem whole2_5 (V : (c : Dev nD) → (b : Ref sig .tc) → Buf (Elt Ideal) ((c : Thread nD τ).loc b)) (c : Dev nD) (t : Fin cfg2.N) : iblk2 V c 5 t = (V c (Pipeline.arrRef spec2 5)) := by
  obtain ⟨-, -, -, -, -, -, -, -, -, e0, -⟩ := where2 t
  funext y
  show (V c (Pipeline.arrRef spec2 5)) (((cfg2.win 5).blk t).view.emb y) = (V c (Pipeline.arrRef spec2 5)) y
  refine congrArg (V c (Pipeline.arrRef spec2 5)) (funext fun a => Fin.ext ?_)
  match a with
  | ⟨0, _⟩ => show win2_5.index t (0 : Fin 1) * 128 + 1 * (y 0).val = (y 0).val; rw [e0]; omega

/-- Row p of the first node array's block at point t is row 5000·t + p of the array. -/
theorem inRow2_0 (V : (c : Dev nD) → (b : Ref sig .tc) → Buf (Elt Ideal) ((c : Thread nD τ).loc b)) (c : Dev nD) (t : Fin cfg2.N) (p : Fin 5000) (l : Fin 128) (hr : 5000 * t.val + p.val < 50000) :
    iblk2 V c 0 t (ix2 p l) = (V c (Pipeline.arrRef spec2 0)) (ix2 (⟨5000 * t.val + p.val, hr⟩ : Fin 50000) l) := by
  obtain ⟨e00, e01, e10, e11, -⟩ := where2 t
  show (V c (Pipeline.arrRef spec2 0)) (((cfg2.win 0).blk t).view.emb (ix2 p l)) = (V c (Pipeline.arrRef spec2 0)) _
  refine congrArg (V c (Pipeline.arrRef spec2 0)) (funext fun a => Fin.ext ?_)
  match a with
  | ⟨0, _⟩ => show win2_0.index t (0 : Fin 2) * 5000 + 1 * p.val = 5000 * t.val + p.val; rw [e00]; omega
  | ⟨1, _⟩ => show win2_0.index t (1 : Fin 2) * 128 + 1 * l.val = l.val; rw [e01]; omega

/-- Row p of the second node array's block at point t is row 5000·t + p of the array. -/
theorem inRow2_1 (V : (c : Dev nD) → (b : Ref sig .tc) → Buf (Elt Ideal) ((c : Thread nD τ).loc b)) (c : Dev nD) (t : Fin cfg2.N) (p : Fin 5000) (l : Fin 128) (hr : 5000 * t.val + p.val < 50000) :
    iblk2 V c 1 t (ix2 p l) = (V c (Pipeline.arrRef spec2 1)) (ix2 (⟨5000 * t.val + p.val, hr⟩ : Fin 50000) l) := by
  obtain ⟨e00, e01, e10, e11, -⟩ := where2 t
  show (V c (Pipeline.arrRef spec2 1)) (((cfg2.win 1).blk t).view.emb (ix2 p l)) = (V c (Pipeline.arrRef spec2 1)) _
  refine congrArg (V c (Pipeline.arrRef spec2 1)) (funext fun a => Fin.ext ?_)
  match a with
  | ⟨0, _⟩ => show win2_1.index t (0 : Fin 2) * 5000 + 1 * p.val = 5000 * t.val + p.val; rw [e10]; omega
  | ⟨1, _⟩ => show win2_1.index t (1 : Fin 2) * 128 + 1 * l.val = l.val; rw [e11]; omega

/-- Entry j of the result's block at point t sits in the array at row 5000·t + its row, same column. -/
theorem outAt2 (t : Fin cfg2.N) (j : ((cfg2.win 6).xblock (grid2.coords t)).Idx) (hr : 5000 * t.val + (j 0).val < 50000) :
    ((cfg2.win 6).blk t).view.emb j = ix2 (⟨5000 * t.val + (j 0).val, hr⟩ : Fin 50000) (⟨(j 1).val, (j 1).isLt⟩ : Fin 128) := by
  obtain ⟨-, -, -, -, -, -, -, -, -, -, e60, e61⟩ := where2 t
  refine funext fun a => Fin.ext ?_
  match a with
  | ⟨0, _⟩ => show win2_6.index t (0 : Fin 2) * 5000 + 1 * (j 0).val = 5000 * t.val + (j 0).val; rw [e60]; omega
  | ⟨1, _⟩ => show win2_6.index t (1 : Fin 2) * 128 + 1 * (j 1).val = (j 1).val; rw [e61]; omega

set_option maxHeartbeats 1000000 in
/-- What point t writes back is block t of the whole-array dense update of the arrays the region found. -/
theorem flushed2 (V : (c : Dev nD) → (b : Ref sig .tc) → Buf (Elt Ideal) ((c : Thread nD τ).loc b)) (c : Dev nD) (t : Fin cfg2.N) :
    (dat2 (F := Ideal) V c).flushed 6 t = ((cfg2.win 6).blk t).view.read (Elt Ideal)
      (Cert.GnnSpec.mlp (F := Ideal) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) := by
  show (cfg2.win 6).cut (grid2.coords t) ((dat2 V c).after 6 t) = _
  rw [after2_6]
  unfold out2_6
  rw [View.canon_unit_zero zeros2_2]
  simp only [View.ld_unit_zero (S := S5000x128) zeros2_2, View.ld_unit_zero (S := S128x256) zeros2_2, View.ld_unit_zero (S := S256) zeros1_2,
    View.ld_unit_zero (S := S256x128) zeros2_2, View.ld_unit_zero (S := S128) zeros1_2]
  rw [stored2, whole2_2 V c t, whole2_3 V c t, whole2_4 V c t, whole2_5 V c t]
  have hN : t.val < 10 := Nat.lt_of_lt_of_eq t.isLt N_2
  funext j
  have hj0 : (j 0).val < 5000 := (j 0).isLt
  have hr : 5000 * t.val + (j 0).val < 50000 := by omega
  have ej : (cfg2.win 6).xinj (grid2.coords t) j = ix2 (⟨(j 0).val, hj0⟩ : Fin 5000) (⟨(j 1).val, (j 1).isLt⟩ : Fin 128) := by
    funext a
    match a with
    | ⟨0, _⟩ => rfl
    | ⟨1, _⟩ => rfl
  show MlpCore.pay (iblk2 V c 0 t) (iblk2 V c 1 t) (V c (Pipeline.arrRef spec2 2)) (V c (Pipeline.arrRef spec2 3)) (V c (Pipeline.arrRef spec2 4)) (V c (Pipeline.arrRef spec2 5)) ((cfg2.win 6).xinj (grid2.coords t) j)
    = Cert.GnnSpec.mlp (F := Ideal) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (((cfg2.win 6).blk t).view.emb j)
  exact MlpCore.pay_eq_mlp_at (iblk2 V c 0 t) (iblk2 V c 1 t) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) _ _
    (⟨(j 0).val, hj0⟩ : Fin 5000) (⟨(j 1).val, (j 1).isLt⟩ : Fin 128) (⟨5000 * t.val + (j 0).val, hr⟩ : Fin 50000) ej (outAt2 t j hr)
    (fun l => inRow2_0 V c t ⟨(j 0).val, hj0⟩ l hr) (fun l => inRow2_1 V c t ⟨(j 0).val, hj0⟩ l hr)

/-- An index of the result array lies in point t's block exactly when its coordinates are in the block's ranges. -/
theorem inBlock2 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole (Pipeline.arrRef spec2 6)).slice (win2_6.rect t)).set ↔ _
  rw [View.set_slice_whole, Rect.mem_set_unit]
  exact Iff.rfl

/-- Every index of the result array is in the block of the point numbered by its row divided by 5000. -/
theorem covered2 (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨-, -, -, -, -, -, -, -, -, -, e60, e61⟩ := where2 t
  have ht : t.val = (i 0).val / 5000 := rfl
  refine ⟨t, flush2_6 t, ?_⟩
  rw [inBlock2]
  intro a
  match a with
  | ⟨0, _⟩ => show win2_6.index t (0 : Fin 2) * 5000 ≤ (i 0).val ∧ (i 0).val < win2_6.index t (0 : Fin 2) * 5000 + 5000; rw [e60, ht]; omega
  | ⟨1, _⟩ => show win2_6.index t (1 : Fin 2) * 128 ≤ (i 1).val ∧ (i 1).val < win2_6.index t (1 : Fin 2) * 128 + 128; rw [e61]; omega

/-- After the region the result array holds the whole-array dense update of the arrays the region found. -/
theorem value2 (V : (c : Dev nD) → (b : Ref sig .tc) → Buf (Elt Ideal) ((c : Thread nD τ).loc b)) (c : Dev nD) :
    (Gen.dat2 (F := Ideal) V c).arrAt 6 cfg2.N
      = Cert.GnnSpec.mlp (F := Ideal) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (dat2 (F := Ideal) V c).arrAt_eq_of_cover 6 _ (fun t _ => flushed2 V c t) covered2

end Cert.KernelIdeal.MlpBlocks

end
-- ==== Proof.Mlp3.lean ====
/-
  What round 4's dense update leaves in its result array.

  The update runs over ten blocks of 5000 node rows. At block t it reads rows 5000·t … 5000·t + 4999 of the two node
  arrays (the rows h and the aggregated messages a), the whole weight matrices and bias vectors, and writes the same
  rows of the result. A node's new row depends on its own old row alone, so entry (p, q) of block t is entry
  (5000·t + p, q) of the dense update applied to the whole arrays; the ten blocks are disjoint and together cover
  all 50000 rows (row r lies in block r / 5000), so after the last block the result array is the whole-array update.
-/
import proofs.«178875_j64725157151179_1_alg».proof.Proof.Gen.KernelIdeal.Frame
import proofs.«178875_j64725157151179_1_alg».proof.Proof.Gen.ReferenceIdeal
import proofs.«178875_j64725157151179_1_alg».proof.Proof.MlpCore
import Idealize.ShloMosaic.Lib.Pipeline.Value

noncomputable section

open Idealize.ShloMosaic Idealize.ShloMosaic.TcCoe Idealize.SL.Sem
open Idealize.ShloMosaic.Pipeline (Dat)
open Idealize.ShloMosaic.ValueIdx

namespace Cert.KernelIdeal.MlpBlocks

open Cert.KernelIdeal Cert.KernelIdeal.Gen

theorem zeros2_3 : (![0, 0] : Fin 2 → Nat) = fun _ => 0 := funext fun a => by fin_cases a <;> rfl
theorem zeros1_3 : (![0] : Fin 1 → Nat) = fun _ => 0 := funext fun a => by fin_cases a; rfl

/-- The body's stored value is the dense update of its loaded blocks. -/
theorem stored3 (v0 v2 : Vec Ideal S5000x128 .f32) (v6 : Vec Ideal S128x256 .f32) (v9 : Vec Ideal S256 .f32) (v16 : Vec Ideal S256x128 .f32)
    (v19 : Vec Ideal S128 .f32) : k3_pay1 (F := Ideal) v0 v2 v6 v9 v16 v19 = MlpCore.pay v0 v2 v6 v9 v16 v19 := rfl

/-- Where each window's block sits at grid point t: the two node arrays and the result move down by one block of
    5000 rows per point; the weights and biases stay at block 0. -/
theorem where3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 1) = 0
    ∧ win3_6.index t (0 : Fin 2) = t.val ∧ win3_6.index t (1 : Fin 2) = 0 :=
  (by decide +kernel : ∀ t : Fin grid3.N, _)

/-- The first weight matrix's block at any point is the whole matrix. -/
theorem whole3_2 (V : (c : Dev nD) → (b : Ref sig .tc) → Buf (Elt Ideal) ((c : Thread nD τ).loc b)) (c : Dev nD) (t : Fin cfg3.N) : iblk3 V c 2 t = (V c (Pipeline.arrRef spec3 2)) := by
  obtain ⟨-, -, -, -, e0, e1, -⟩ := where3 t
  funext y
  show (V c (Pipeline.arrRef spec3 2)) (((cfg3.win 2).blk t).view.emb y) = (V c (Pipeline.arrRef spec3 2)) y
  refine congrArg (V c (Pipeline.arrRef spec3 2)) (funext fun a => Fin.ext ?_)
  match a with
  | ⟨0, _⟩ => show win3_2.index t (0 : Fin 2) * 128 + 1 * (y 0).val = (y 0).val; rw [e0]; omega
  | ⟨1, _⟩ => show win3_2.index t (1 : Fin 2) * 256 + 1 * (y 1).val = (y 1).val; rw [e1]; omega

/-- The first bias's block at any point is the whole vector. -/
theorem whole3_3 (V : (c : Dev nD) → (b : Ref sig .tc) → Buf (Elt Ideal) ((c : Thread nD τ).loc b)) (c : Dev nD) (t : Fin cfg3.N) : iblk3 V c 3 t = (V c (Pipeline.arrRef spec3 3)) := by
  obtain ⟨-, -, -, -, -, -, e0, -⟩ := where3 t
  funext y
  show (V c (Pipeline.arrRef spec3 3)) (((cfg3.win 3).blk t).view.emb y) = (V c (Pipeline.arrRef spec3 3)) y
  refine congrArg (V c (Pipeline.arrRef spec3 3)) (funext fun a => Fin.ext ?_)
  match a with
  | ⟨0, _⟩ => show win3_3.index t (0 : Fin 1) * 256 + 1 * (y 0).val = (y 0).val; rw [e0]; omega

/-- The second weight matrix's block at any point is the whole matrix. -/
theorem whole3_4 (V : (c : Dev nD) → (b : Ref sig .tc) → Buf (Elt Ideal) ((c : Thread nD τ).loc b)) (c : Dev nD) (t : Fin cfg3.N) : iblk3 V c 4 t = (V c (Pipeline.arrRef spec3 4)) := by
  obtain ⟨-, -, -, -, -, -, -, e0, e1, -⟩ := where3 t
  funext y
  show (V c (Pipeline.arrRef spec3 4)) (((cfg3.win 4).blk t).view.emb y) = (V c (Pipeline.arrRef spec3 4)) y
  refine congrArg (V c (Pipeline.arrRef spec3 4)) (funext fun a => Fin.ext ?_)
  match a with
  | ⟨0, _⟩ => show win3_4.index t (0 : Fin 2) * 256 + 1 * (y 0).val = (y 0).val; rw [e0]; omega
  | ⟨1, _⟩ => show win3_4.index t (1 : Fin 2) * 128 + 1 * (y 1).val = (y 1).val; rw [e1]; omega

/-- The second bias's block at any point is the whole vector. -/
theorem whole3_5 (V : (c : Dev nD) → (b : Ref sig .tc) → Buf (Elt Ideal) ((c : Thread nD τ).loc b)) (c : Dev nD) (t : Fin cfg3.N) : iblk3 V c 5 t = (V c (Pipeline.arrRef spec3 5)) := by
  obtain ⟨-, -, -, -, -, -, -, -, -, e0, -⟩ := where3 t
  funext y
  show (V c (Pipeline.arrRef spec3 5)) (((cfg3.win 5).blk t).view.emb y) = (V c (Pipeline.arrRef spec3 5)) y
  refine congrArg (V c (Pipeline.arrRef spec3 5)) (funext fun a => Fin.ext ?_)
  match a with
  | ⟨0, _⟩ => show win3_5.index t (0 : Fin 1) * 128 + 1 * (y 0).val = (y 0).val; rw [e0]; omega

/-- Row p of the first node array's block at point t is row 5000·t + p of the array. -/
theorem inRow3_0 (V : (c : Dev nD) → (b : Ref sig .tc) → Buf (Elt Ideal) ((c : Thread nD τ).loc b)) (c : Dev nD) (t : Fin cfg3.N) (p : Fin 5000) (l : Fin 128) (hr : 5000 * t.val + p.val < 50000) :
    iblk3 V c 0 t (ix2 p l) = (V c (Pipeline.arrRef spec3 0)) (ix2 (⟨5000 * t.val + p.val, hr⟩ : Fin 50000) l) := by
  obtain ⟨e00, e01, e10, e11, -⟩ := where3 t
  show (V c (Pipeline.arrRef spec3 0)) (((cfg3.win 0).blk t).view.emb (ix2 p l)) = (V c (Pipeline.arrRef spec3 0)) _
  refine congrArg (V c (Pipeline.arrRef spec3 0)) (funext fun a => Fin.ext ?_)
  match a with
  | ⟨0, _⟩ => show win3_0.index t (0 : Fin 2) * 5000 + 1 * p.val = 5000 * t.val + p.val; rw [e00]; omega
  | ⟨1, _⟩ => show win3_0.index t (1 : Fin 2) * 128 + 1 * l.val = l.val; rw [e01]; omega

/-- Row p of the second node array's block at point t is row 5000·t + p of the array. -/
theorem inRow3_1 (V : (c : Dev nD) → (b : Ref sig .tc) → Buf (Elt Ideal) ((c : Thread nD τ).loc b)) (c : Dev nD) (t : Fin cfg3.N) (p : Fin 5000) (l : Fin 128) (hr : 5000 * t.val + p.val < 50000) :
    iblk3 V c 1 t (ix2 p l) = (V c (Pipeline.arrRef spec3 1)) (ix2 (⟨5000 * t.val + p.val, hr⟩ : Fin 50000) l) := by
  obtain ⟨e00, e01, e10, e11, -⟩ := where3 t
  show (V c (Pipeline.arrRef spec3 1)) (((cfg3.win 1).blk t).view.emb (ix2 p l)) = (V c (Pipeline.arrRef spec3 1)) _
  refine congrArg (V c (Pipeline.arrRef spec3 1)) (funext fun a => Fin.ext ?_)
  match a with
  | ⟨0, _⟩ => show win3_1.index t (0 : Fin 2) * 5000 + 1 * p.val = 5000 * t.val + p.val; rw [e10]; omega
  | ⟨1, _⟩ => show win3_1.index t (1 : Fin 2) * 128 + 1 * l.val = l.val; rw [e11]; omega

/-- Entry j of the result's block at point t sits in the array at row 5000·t + its row, same column. -/
theorem outAt3 (t : Fin cfg3.N) (j : ((cfg3.win 6).xblock (grid3.coords t)).Idx) (hr : 5000 * t.val + (j 0).val < 50000) :
    ((cfg3.win 6).blk t).view.emb j = ix2 (⟨5000 * t.val + (j 0).val, hr⟩ : Fin 50000) (⟨(j 1).val, (j 1).isLt⟩ : Fin 128) := by
  obtain ⟨-, -, -, -, -, -, -, -, -, -, e60, e61⟩ := where3 t
  refine funext fun a => Fin.ext ?_
  match a with
  | ⟨0, _⟩ => show win3_6.index t (0 : Fin 2) * 5000 + 1 * (j 0).val = 5000 * t.val + (j 0).val; rw [e60]; omega
  | ⟨1, _⟩ => show win3_6.index t (1 : Fin 2) * 128 + 1 * (j 1).val = (j 1).val; rw [e61]; omega

set_option maxHeartbeats 1000000 in
/-- What point t writes back is block t of the whole-array dense update of the arrays the region found. -/
theorem flushed3 (V : (c : Dev nD) → (b : Ref sig .tc) → Buf (Elt Ideal) ((c : Thread nD τ).loc b)) (c : Dev nD) (t : Fin cfg3.N) :
    (dat3 (F := Ideal) V c).flushed 6 t = ((cfg3.win 6).blk t).view.read (Elt Ideal)
      (Cert.GnnSpec.mlp (F := Ideal) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  show (cfg3.win 6).cut (grid3.coords t) ((dat3 V c).after 6 t) = _
  rw [after3_6]
  unfold out3_6
  rw [View.canon_unit_zero zeros2_3]
  simp only [View.ld_unit_zero (S := S5000x128) zeros2_3, View.ld_unit_zero (S := S128x256) zeros2_3, View.ld_unit_zero (S := S256) zeros1_3,
    View.ld_unit_zero (S := S256x128) zeros2_3, View.ld_unit_zero (S := S128) zeros1_3]
  rw [stored3, whole3_2 V c t, whole3_3 V c t, whole3_4 V c t, whole3_5 V c t]
  have hN : t.val < 10 := Nat.lt_of_lt_of_eq t.isLt N_3
  funext j
  have hj0 : (j 0).val < 5000 := (j 0).isLt
  have hr : 5000 * t.val + (j 0).val < 50000 := by omega
  have ej : (cfg3.win 6).xinj (grid3.coords t) j = ix2 (⟨(j 0).val, hj0⟩ : Fin 5000) (⟨(j 1).val, (j 1).isLt⟩ : Fin 128) := by
    funext a
    match a with
    | ⟨0, _⟩ => rfl
    | ⟨1, _⟩ => rfl
  show MlpCore.pay (iblk3 V c 0 t) (iblk3 V c 1 t) (V c (Pipeline.arrRef spec3 2)) (V c (Pipeline.arrRef spec3 3)) (V c (Pipeline.arrRef spec3 4)) (V c (Pipeline.arrRef spec3 5)) ((cfg3.win 6).xinj (grid3.coords t) j)
    = Cert.GnnSpec.mlp (F := Ideal) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (((cfg3.win 6).blk t).view.emb j)
  exact MlpCore.pay_eq_mlp_at (iblk3 V c 0 t) (iblk3 V c 1 t) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) _ _
    (⟨(j 0).val, hj0⟩ : Fin 5000) (⟨(j 1).val, (j 1).isLt⟩ : Fin 128) (⟨5000 * t.val + (j 0).val, hr⟩ : Fin 50000) ej (outAt3 t j hr)
    (fun l => inRow3_0 V c t ⟨(j 0).val, hj0⟩ l hr) (fun l => inRow3_1 V c t ⟨(j 0).val, hj0⟩ l hr)

/-- An index of the result array lies in point t's block exactly when its coordinates are in the block's ranges. -/
theorem inBlock3 (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole (Pipeline.arrRef spec3 6)).slice (win3_6.rect t)).set ↔ _
  rw [View.set_slice_whole, Rect.mem_set_unit]
  exact Iff.rfl

/-- Every index of the result array is in the block of the point numbered by its row divided by 5000. -/
theorem covered3 (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨-, -, -, -, -, -, -, -, -, -, e60, e61⟩ := where3 t
  have ht : t.val = (i 0).val / 5000 := rfl
  refine ⟨t, flush3_6 t, ?_⟩
  rw [inBlock3]
  intro a
  match a with
  | ⟨0, _⟩ => show win3_6.index t (0 : Fin 2) * 5000 ≤ (i 0).val ∧ (i 0).val < win3_6.index t (0 : Fin 2) * 5000 + 5000; rw [e60, ht]; omega
  | ⟨1, _⟩ => show win3_6.index t (1 : Fin 2) * 128 ≤ (i 1).val ∧ (i 1).val < win3_6.index t (1 : Fin 2) * 128 + 128; rw [e61]; omega

/-- After the region the result array holds the whole-array dense update of the arrays the region found. -/
theorem value3 (V : (c : Dev nD) → (b : Ref sig .tc) → Buf (Elt Ideal) ((c : Thread nD τ).loc b)) (c : Dev nD) :
    (Gen.dat3 (F := Ideal) V c).arrAt 6 cfg3.N
      = Cert.GnnSpec.mlp (F := Ideal) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (dat3 (F := Ideal) V c).arrAt_eq_of_cover 6 _ (fun t _ => flushed3 V c t) covered3

end Cert.KernelIdeal.MlpBlocks

end
-- ==== Proof.Mlp4.lean ====
/-
  What round 5's dense update leaves in its result array.

  The update runs over ten blocks of 5000 node rows. At block t it reads rows 5000·t … 5000·t + 4999 of the two node
  arrays (the rows h and the aggregated messages a), the whole weight matrices and bias vectors, and writes the same
  rows of the result. A node's new row depends on its own old row alone, so entry (p, q) of block t is entry
  (5000·t + p, q) of the dense update applied to the whole arrays; the ten blocks are disjoint and together cover
  all 50000 rows (row r lies in block r / 5000), so after the last block the result array is the whole-array update.
-/
import proofs.«178875_j64725157151179_1_alg».proof.Proof.Gen.KernelIdeal.Frame
import proofs.«178875_j64725157151179_1_alg».proof.Proof.Gen.ReferenceIdeal
import proofs.«178875_j64725157151179_1_alg».proof.Proof.MlpCore
import Idealize.ShloMosaic.Lib.Pipeline.Value

noncomputable section

open Idealize.ShloMosaic Idealize.ShloMosaic.TcCoe Idealize.SL.Sem
open Idealize.ShloMosaic.Pipeline (Dat)
open Idealize.ShloMosaic.ValueIdx

namespace Cert.KernelIdeal.MlpBlocks

open Cert.KernelIdeal Cert.KernelIdeal.Gen

theorem zeros2_4 : (![0, 0] : Fin 2 → Nat) = fun _ => 0 := funext fun a => by fin_cases a <;> rfl
theorem zeros1_4 : (![0] : Fin 1 → Nat) = fun _ => 0 := funext fun a => by fin_cases a; rfl

/-- The body's stored value is the dense update of its loaded blocks. -/
theorem stored4 (v0 v2 : Vec Ideal S5000x128 .f32) (v6 : Vec Ideal S128x256 .f32) (v9 : Vec Ideal S256 .f32) (v16 : Vec Ideal S256x128 .f32)
    (v19 : Vec Ideal S128 .f32) : k4_pay1 (F := Ideal) v0 v2 v6 v9 v16 v19 = MlpCore.pay v0 v2 v6 v9 v16 v19 := rfl

/-- Where each window's block sits at grid point t: the two node arrays and the result move down by one block of
    5000 rows per point; the weights and biases stay at block 0. -/
theorem where4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = 0 ∧ win4_4.index t (1 : Fin 2) = 0
    ∧ win4_5.index t (0 : Fin 1) = 0
    ∧ win4_6.index t (0 : Fin 2) = t.val ∧ win4_6.index t (1 : Fin 2) = 0 :=
  (by decide +kernel : ∀ t : Fin grid4.N, _)

/-- The first weight matrix's block at any point is the whole matrix. -/
theorem whole4_2 (V : (c : Dev nD) → (b : Ref sig .tc) → Buf (Elt Ideal) ((c : Thread nD τ).loc b)) (c : Dev nD) (t : Fin cfg4.N) : iblk4 V c 2 t = (V c (Pipeline.arrRef spec4 2)) := by
  obtain ⟨-, -, -, -, e0, e1, -⟩ := where4 t
  funext y
  show (V c (Pipeline.arrRef spec4 2)) (((cfg4.win 2).blk t).view.emb y) = (V c (Pipeline.arrRef spec4 2)) y
  refine congrArg (V c (Pipeline.arrRef spec4 2)) (funext fun a => Fin.ext ?_)
  match a with
  | ⟨0, _⟩ => show win4_2.index t (0 : Fin 2) * 128 + 1 * (y 0).val = (y 0).val; rw [e0]; omega
  | ⟨1, _⟩ => show win4_2.index t (1 : Fin 2) * 256 + 1 * (y 1).val = (y 1).val; rw [e1]; omega

/-- The first bias's block at any point is the whole vector. -/
theorem whole4_3 (V : (c : Dev nD) → (b : Ref sig .tc) → Buf (Elt Ideal) ((c : Thread nD τ).loc b)) (c : Dev nD) (t : Fin cfg4.N) : iblk4 V c 3 t = (V c (Pipeline.arrRef spec4 3)) := by
  obtain ⟨-, -, -, -, -, -, e0, -⟩ := where4 t
  funext y
  show (V c (Pipeline.arrRef spec4 3)) (((cfg4.win 3).blk t).view.emb y) = (V c (Pipeline.arrRef spec4 3)) y
  refine congrArg (V c (Pipeline.arrRef spec4 3)) (funext fun a => Fin.ext ?_)
  match a with
  | ⟨0, _⟩ => show win4_3.index t (0 : Fin 1) * 256 + 1 * (y 0).val = (y 0).val; rw [e0]; omega

/-- The second weight matrix's block at any point is the whole matrix. -/
theorem whole4_4 (V : (c : Dev nD) → (b : Ref sig .tc) → Buf (Elt Ideal) ((c : Thread nD τ).loc b)) (c : Dev nD) (t : Fin cfg4.N) : iblk4 V c 4 t = (V c (Pipeline.arrRef spec4 4)) := by
  obtain ⟨-, -, -, -, -, -, -, e0, e1, -⟩ := where4 t
  funext y
  show (V c (Pipeline.arrRef spec4 4)) (((cfg4.win 4).blk t).view.emb y) = (V c (Pipeline.arrRef spec4 4)) y
  refine congrArg (V c (Pipeline.arrRef spec4 4)) (funext fun a => Fin.ext ?_)
  match a with
  | ⟨0, _⟩ => show win4_4.index t (0 : Fin 2) * 256 + 1 * (y 0).val = (y 0).val; rw [e0]; omega
  | ⟨1, _⟩ => show win4_4.index t (1 : Fin 2) * 128 + 1 * (y 1).val = (y 1).val; rw [e1]; omega

/-- The second bias's block at any point is the whole vector. -/
theorem whole4_5 (V : (c : Dev nD) → (b : Ref sig .tc) → Buf (Elt Ideal) ((c : Thread nD τ).loc b)) (c : Dev nD) (t : Fin cfg4.N) : iblk4 V c 5 t = (V c (Pipeline.arrRef spec4 5)) := by
  obtain ⟨-, -, -, -, -, -, -, -, -, e0, -⟩ := where4 t
  funext y
  show (V c (Pipeline.arrRef spec4 5)) (((cfg4.win 5).blk t).view.emb y) = (V c (Pipeline.arrRef spec4 5)) y
  refine congrArg (V c (Pipeline.arrRef spec4 5)) (funext fun a => Fin.ext ?_)
  match a with
  | ⟨0, _⟩ => show win4_5.index t (0 : Fin 1) * 128 + 1 * (y 0).val = (y 0).val; rw [e0]; omega

/-- Row p of the first node array's block at point t is row 5000·t + p of the array. -/
theorem inRow4_0 (V : (c : Dev nD) → (b : Ref sig .tc) → Buf (Elt Ideal) ((c : Thread nD τ).loc b)) (c : Dev nD) (t : Fin cfg4.N) (p : Fin 5000) (l : Fin 128) (hr : 5000 * t.val + p.val < 50000) :
    iblk4 V c 0 t (ix2 p l) = (V c (Pipeline.arrRef spec4 0)) (ix2 (⟨5000 * t.val + p.val, hr⟩ : Fin 50000) l) := by
  obtain ⟨e00, e01, e10, e11, -⟩ := where4 t
  show (V c (Pipeline.arrRef spec4 0)) (((cfg4.win 0).blk t).view.emb (ix2 p l)) = (V c (Pipeline.arrRef spec4 0)) _
  refine congrArg (V c (Pipeline.arrRef spec4 0)) (funext fun a => Fin.ext ?_)
  match a with
  | ⟨0, _⟩ => show win4_0.index t (0 : Fin 2) * 5000 + 1 * p.val = 5000 * t.val + p.val; rw [e00]; omega
  | ⟨1, _⟩ => show win4_0.index t (1 : Fin 2) * 128 + 1 * l.val = l.val; rw [e01]; omega

/-- Row p of the second node array's block at point t is row 5000·t + p of the array. -/
theorem inRow4_1 (V : (c : Dev nD) → (b : Ref sig .tc) → Buf (Elt Ideal) ((c : Thread nD τ).loc b)) (c : Dev nD) (t : Fin cfg4.N) (p : Fin 5000) (l : Fin 128) (hr : 5000 * t.val + p.val < 50000) :
    iblk4 V c 1 t (ix2 p l) = (V c (Pipeline.arrRef spec4 1)) (ix2 (⟨5000 * t.val + p.val, hr⟩ : Fin 50000) l) := by
  obtain ⟨e00, e01, e10, e11, -⟩ := where4 t
  show (V c (Pipeline.arrRef spec4 1)) (((cfg4.win 1).blk t).view.emb (ix2 p l)) = (V c (Pipeline.arrRef spec4 1)) _
  refine congrArg (V c (Pipeline.arrRef spec4 1)) (funext fun a => Fin.ext ?_)
  match a with
  | ⟨0, _⟩ => show win4_1.index t (0 : Fin 2) * 5000 + 1 * p.val = 5000 * t.val + p.val; rw [e10]; omega
  | ⟨1, _⟩ => show win4_1.index t (1 : Fin 2) * 128 + 1 * l.val = l.val; rw [e11]; omega

/-- Entry j of the result's block at point t sits in the array at row 5000·t + its row, same column. -/
theorem outAt4 (t : Fin cfg4.N) (j : ((cfg4.win 6).xblock (grid4.coords t)).Idx) (hr : 5000 * t.val + (j 0).val < 50000) :
    ((cfg4.win 6).blk t).view.emb j = ix2 (⟨5000 * t.val + (j 0).val, hr⟩ : Fin 50000) (⟨(j 1).val, (j 1).isLt⟩ : Fin 128) := by
  obtain ⟨-, -, -, -, -, -, -, -, -, -, e60, e61⟩ := where4 t
  refine funext fun a => Fin.ext ?_
  match a with
  | ⟨0, _⟩ => show win4_6.index t (0 : Fin 2) * 5000 + 1 * (j 0).val = 5000 * t.val + (j 0).val; rw [e60]; omega
  | ⟨1, _⟩ => show win4_6.index t (1 : Fin 2) * 128 + 1 * (j 1).val = (j 1).val; rw [e61]; omega

set_option maxHeartbeats 1000000 in
/-- What point t writes back is block t of the whole-array dense update of the arrays the region found. -/
theorem flushed4 (V : (c : Dev nD) → (b : Ref sig .tc) → Buf (Elt Ideal) ((c : Thread nD τ).loc b)) (c : Dev nD) (t : Fin cfg4.N) :
    (dat4 (F := Ideal) V c).flushed 6 t = ((cfg4.win 6).blk t).view.read (Elt Ideal)
      (Cert.GnnSpec.mlp (F := Ideal) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) := by
  show (cfg4.win 6).cut (grid4.coords t) ((dat4 V c).after 6 t) = _
  rw [after4_6]
  unfold out4_6
  rw [View.canon_unit_zero zeros2_4]
  simp only [View.ld_unit_zero (S := S5000x128) zeros2_4, View.ld_unit_zero (S := S128x256) zeros2_4, View.ld_unit_zero (S := S256) zeros1_4,
    View.ld_unit_zero (S := S256x128) zeros2_4, View.ld_unit_zero (S := S128) zeros1_4]
  rw [stored4, whole4_2 V c t, whole4_3 V c t, whole4_4 V c t, whole4_5 V c t]
  have hN : t.val < 10 := Nat.lt_of_lt_of_eq t.isLt N_4
  funext j
  have hj0 : (j 0).val < 5000 := (j 0).isLt
  have hr : 5000 * t.val + (j 0).val < 50000 := by omega
  have ej : (cfg4.win 6).xinj (grid4.coords t) j = ix2 (⟨(j 0).val, hj0⟩ : Fin 5000) (⟨(j 1).val, (j 1).isLt⟩ : Fin 128) := by
    funext a
    match a with
    | ⟨0, _⟩ => rfl
    | ⟨1, _⟩ => rfl
  show MlpCore.pay (iblk4 V c 0 t) (iblk4 V c 1 t) (V c (Pipeline.arrRef spec4 2)) (V c (Pipeline.arrRef spec4 3)) (V c (Pipeline.arrRef spec4 4)) (V c (Pipeline.arrRef spec4 5)) ((cfg4.win 6).xinj (grid4.coords t) j)
    = Cert.GnnSpec.mlp (F := Ideal) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (((cfg4.win 6).blk t).view.emb j)
  exact MlpCore.pay_eq_mlp_at (iblk4 V c 0 t) (iblk4 V c 1 t) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) _ _
    (⟨(j 0).val, hj0⟩ : Fin 5000) (⟨(j 1).val, (j 1).isLt⟩ : Fin 128) (⟨5000 * t.val + (j 0).val, hr⟩ : Fin 50000) ej (outAt4 t j hr)
    (fun l => inRow4_0 V c t ⟨(j 0).val, hj0⟩ l hr) (fun l => inRow4_1 V c t ⟨(j 0).val, hj0⟩ l hr)

/-- An index of the result array lies in point t's block exactly when its coordinates are in the block's ranges. -/
theorem inBlock4 (t : Fin cfg4.N) (i : S50000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole (Pipeline.arrRef spec4 6)).slice (win4_6.rect t)).set ↔ _
  rw [View.set_slice_whole, Rect.mem_set_unit]
  exact Iff.rfl

/-- Every index of the result array is in the block of the point numbered by its row divided by 5000. -/
theorem covered4 (i : S50000x128.Idx) : ∃ t : Fin cfg4.N, (cfg4.win 6).flush t = true ∧ i ∈ ((cfg4.win 6).blk t).view.set := by
  have hi0 : (i 0).val < 50000 := (i 0).isLt
  have hi1 : (i 1).val < 128 := (i 1).isLt
  have hN : cfg4.N = 10 := N_4
  let t : Fin cfg4.N := ⟨(i 0).val / 5000, by rw [hN]; omega⟩
  obtain ⟨-, -, -, -, -, -, -, -, -, -, e60, e61⟩ := where4 t
  have ht : t.val = (i 0).val / 5000 := rfl
  refine ⟨t, flush4_6 t, ?_⟩
  rw [inBlock4]
  intro a
  match a with
  | ⟨0, _⟩ => show win4_6.index t (0 : Fin 2) * 5000 ≤ (i 0).val ∧ (i 0).val < win4_6.index t (0 : Fin 2) * 5000 + 5000; rw [e60, ht]; omega
  | ⟨1, _⟩ => show win4_6.index t (1 : Fin 2) * 128 ≤ (i 1).val ∧ (i 1).val < win4_6.index t (1 : Fin 2) * 128 + 128; rw [e61]; omega

/-- After the region the result array holds the whole-array dense update of the arrays the region found. -/
theorem value4 (V : (c : Dev nD) → (b : Ref sig .tc) → Buf (Elt Ideal) ((c : Thread nD τ).loc b)) (c : Dev nD) :
    (Gen.dat4 (F := Ideal) V c).arrAt 6 cfg4.N
      = Cert.GnnSpec.mlp (F := Ideal) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) :=
  (dat4 (F := Ideal) V c).arrAt_eq_of_cover 6 _ (fun t _ => flushed4 V c t) covered4

end Cert.KernelIdeal.MlpBlocks

end
-- ==== Proof.RefOps0.lean ====
/- Operations 1 to 50 of the straight line that the reference's entry function runs, as a list: each entry is
   one array operation with the buffers it reads and the buffer it writes. Beside the list: the buffers it writes,
   that every buffer it touches is a device buffer, and that every result is determined by the operands. -/
import proofs.«178875_j64725157151179_1_alg».proof.ReferenceIdeal
import Idealize.ShloMosaic.Lib.StableHlo.Run

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-- The operations, in order (window 0 of the printed entry function). -/
abbrev seg0 : List (HloOp τ sig (Elt F)) :=
  [ StableHlo.unary main_arg0 main_v0 ((extractStridedSlice S50000x1 ![0, 0] · slices_S50000x2_S50000x1_0_0) : (⟨S50000x2, .i32⟩ : BufTy).Contents (Elt F) → (⟨S50000x1, .i32⟩ : BufTy).Contents (Elt F)),
    StableHlo.reshape main_v0 main_v1 rfl shapeCasts_S50000x1_S50000,
    StableHlo.nullary main_c (constantI S_ 32 0#32),
    StableHlo.unary main_c main_v2 (broadcastInDim S50000 ![] bcast_S_S50000 : (⟨S_, .i32⟩ : BufTy).Contents (Elt F) → (⟨S50000, .i32⟩ : BufTy).Contents (Elt F)),
    StableHlo.binary main_v1 main_v2 main_v3 (cmpi .slt : (⟨S50000, .i32⟩ : BufTy).Contents (Elt F) → (⟨S50000, .i32⟩ : BufTy).Contents (Elt F) → (⟨S50000, .i1⟩ : BufTy).Contents (Elt F)),
    StableHlo.nullary main_c_0 (constantI S_ 32 118#32),
    StableHlo.unary main_c_0 main_v4 (broadcastInDim S50000 ![] bcast_S_S50000 : (⟨S_, .i32⟩ : BufTy).Contents (Elt F) → (⟨S50000, .i32⟩ : BufTy).Contents (Elt F)),
    StableHlo.binary main_v1 main_v4 main_v5 (addi : (⟨S50000, .i32⟩ : BufTy).Contents (Elt F) → (⟨S50000, .i32⟩ : BufTy).Contents (Elt F) → (⟨S50000, .i32⟩ : BufTy).Contents (Elt F)),
    StableHlo.ternary main_v3 main_v5 main_v1 main_v6 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v6 main_v7 (broadcastInDim S50000x1 ![0] bcast_S50000_S50000x1_0 : (⟨S50000, .i32⟩ : BufTy).Contents (Elt F) → (⟨S50000x1, .i32⟩ : BufTy).Contents (Elt F)),
    StableHlo.binary main_arg3 main_v7 main_v8 ((fun x i => Host.gather gather_S118x128_S50000x1_S50000x128_1_0_n_n_0_1_1128 x i) : (⟨S118x128, .f32⟩ : BufTy).Contents (Elt F) → (⟨S50000x1, .i32⟩ : BufTy).Contents (Elt F) → (⟨S50000x128, .f32⟩ : BufTy).Contents (Elt F)),
    StableHlo.unary main_arg0 main_v9 ((extractStridedSlice S50000x1 ![0, 1] · slices_S50000x2_S50000x1_0_1) : (⟨S50000x2, .i32⟩ : BufTy).Contents (Elt F) → (⟨S50000x1, .i32⟩ : BufTy).Contents (Elt F)),
    StableHlo.reshape main_v9 main_v10 rfl shapeCasts_S50000x1_S50000,
    StableHlo.nullary main_c_1 (constantI S_ 32 0#32),
    StableHlo.unary main_c_1 main_v11 (broadcastInDim S50000 ![] bcast_S_S50000 : (⟨S_, .i32⟩ : BufTy).Contents (Elt F) → (⟨S50000, .i32⟩ : BufTy).Contents (Elt F)),
    StableHlo.binary main_v10 main_v11 main_v12 (cmpi .slt : (⟨S50000, .i32⟩ : BufTy).Contents (Elt F) → (⟨S50000, .i32⟩ : BufTy).Contents (Elt F) → (⟨S50000, .i1⟩ : BufTy).Contents (Elt F)),
    StableHlo.nullary main_c_2 (constantI S_ 32 4#32),
    StableHlo.unary main_c_2 main_v13 (broadcastInDim S50000 ![] bcast_S_S50000 : (⟨S_, .i32⟩ : BufTy).Contents (Elt F) → (⟨S50000, .i32⟩ : BufTy).Contents (Elt F)),
    StableHlo.binary main_v10 main_v13 main_v14 (addi : (⟨S50000, .i32⟩ : BufTy).Contents (Elt F) → (⟨S50000, .i32⟩ : BufTy).Contents (Elt F) → (⟨S50000, .i32⟩ : BufTy).Contents (Elt F)),
    StableHlo.ternary main_v12 main_v14 main_v10 main_v15 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v15 main_v16 (broadcastInDim S50000x1 ![0] bcast_S50000_S50000x1_0 : (⟨S50000, .i32⟩ : BufTy).Contents (Elt F) → (⟨S50000x1, .i32⟩ : BufTy).Contents (Elt F)),
    StableHlo.binary main_arg4 main_v16 main_v17 ((fun x i => Host.gather gather_S4x128_S50000x1_S50000x128_1_0_n_n_0_1_1128 x i) : (⟨S4x128, .f32⟩ : BufTy).Contents (Elt F) → (⟨S50000x1, .i32⟩ : BufTy).Contents (Elt F) → (⟨S50000x128, .f32⟩ : BufTy).Contents (Elt F)),
    StableHlo.binary main_v8 main_v17 main_v18 (addf : (⟨S50000x128, .f32⟩ : BufTy).Contents (Elt F) → (⟨S50000x128, .f32⟩ : BufTy).Contents (Elt F) → (⟨S50000x128, .f32⟩ : BufTy).Contents (Elt F)),
    StableHlo.unary main_arg2 main_v19 ((extractStridedSlice S600000x1 ![0, 0] · slices_S600000x2_S600000x1_0_0) : (⟨S600000x2, .i32⟩ : BufTy).Contents (Elt F) → (⟨S600000x1, .i32⟩ : BufTy).Contents (Elt F)),
    StableHlo.reshape main_v19 main_v20 rfl shapeCasts_S600000x1_S600000,
    StableHlo.nullary main_c_3 (constantI S_ 32 0#32),
    StableHlo.unary main_c_3 main_v21 (broadcastInDim S600000 ![] bcast_S_S600000 : (⟨S_, .i32⟩ : BufTy).Contents (Elt F) → (⟨S600000, .i32⟩ : BufTy).Contents (Elt F)),
    StableHlo.binary main_v20 main_v21 main_v22 (cmpi .slt : (⟨S600000, .i32⟩ : BufTy).Contents (Elt F) → (⟨S600000, .i32⟩ : BufTy).Contents (Elt F) → (⟨S600000, .i1⟩ : BufTy).Contents (Elt F)),
    StableHlo.nullary main_c_4 (constantI S_ 32 4#32),
    StableHlo.unary main_c_4 main_v23 (broadcastInDim S600000 ![] bcast_S_S600000 : (⟨S_, .i32⟩ : BufTy).Contents (Elt F) → (⟨S600000, .i32⟩ : BufTy).Contents (Elt F)),
    StableHlo.binary main_v20 main_v23 main_v24 (addi : (⟨S600000, .i32⟩ : BufTy).Contents (Elt F) → (⟨S600000, .i32⟩ : BufTy).Contents (Elt F) → (⟨S600000, .i32⟩ : BufTy).Contents (Elt F)),
    StableHlo.ternary main_v22 main_v24 main_v20 main_v25 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v25 main_v26 (broadcastInDim S600000x1 ![0] bcast_S600000_S600000x1_0 : (⟨S600000, .i32⟩ : BufTy).Contents (Elt F) → (⟨S600000x1, .i32⟩ : BufTy).Contents (Elt F)),
    StableHlo.binary main_arg5 main_v26 main_v27 ((fun x i => Host.gather gather_S4x128_S600000x1_S600000x128_1_0_n_n_0_1_1128 x i) : (⟨S4x128, .f32⟩ : BufTy).Contents (Elt F) → (⟨S600000x1, .i32⟩ : BufTy).Contents (Elt F) → (⟨S600000x128, .f32⟩ : BufTy).Contents (Elt F)),
    StableHlo.unary main_arg2 main_v28 ((extractStridedSlice S600000x1 ![0, 1] · slices_S600000x2_S600000x1_0_1) : (⟨S600000x2, .i32⟩ : BufTy).Contents (Elt F) → (⟨S600000x1, .i32⟩ : BufTy).Contents (Elt F)),
    StableHlo.reshape main_v28 main_v29 rfl shapeCasts_S600000x1_S600000,
    StableHlo.nullary main_c_5 (constantI S_ 32 0#32),
    StableHlo.unary main_c_5 main_v30 (broadcastInDim S600000 ![] bcast_S_S600000 : (⟨S_, .i32⟩ : BufTy).Contents (Elt F) → (⟨S600000, .i32⟩ : BufTy).Contents (Elt F)),
    StableHlo.binary main_v29 main_v30 main_v31 (cmpi .slt : (⟨S600000, .i32⟩ : BufTy).Contents (Elt F) → (⟨S600000, .i32⟩ : BufTy).Contents (Elt F) → (⟨S600000, .i1⟩ : BufTy).Contents (Elt F)),
    StableHlo.nullary main_c_6 (constantI S_ 32 3#32),
    StableHlo.unary main_c_6 main_v32 (broadcastInDim S600000 ![] bcast_S_S600000 : (⟨S_, .i32⟩ : BufTy).Contents (Elt F) → (⟨S600000, .i32⟩ : BufTy).Contents (Elt F)),
    StableHlo.binary main_v29 main_v32 main_v33 (addi : (⟨S600000, .i32⟩ : BufTy).Contents (Elt F) → (⟨S600000, .i32⟩ : BufTy).Contents (Elt F) → (⟨S600000, .i32⟩ : BufTy).Contents (Elt F)),
    StableHlo.ternary main_v31 main_v33 main_v29 main_v34 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v34 main_v35 (broadcastInDim S600000x1 ![0] bcast_S600000_S600000x1_0 : (⟨S600000, .i32⟩ : BufTy).Contents (Elt F) → (⟨S600000x1, .i32⟩ : BufTy).Contents (Elt F)),
    StableHlo.binary main_arg6 main_v35 main_v36 ((fun x i => Host.gather gather_S3x128_S600000x1_S600000x128_1_0_n_n_0_1_1128 x i) : (⟨S3x128, .f32⟩ : BufTy).Contents (Elt F) → (⟨S600000x1, .i32⟩ : BufTy).Contents (Elt F) → (⟨S600000x128, .f32⟩ : BufTy).Contents (Elt F)),
    StableHlo.binary main_v27 main_v36 main_v37 (addf : (⟨S600000x128, .f32⟩ : BufTy).Contents (Elt F) → (⟨S600000x128, .f32⟩ : BufTy).Contents (Elt F) → (⟨S600000x128, .f32⟩ : BufTy).Contents (Elt F)),
    StableHlo.unary main_arg1 main_v38 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v38 main_v39 rfl shapeCasts_S1x600000_S600000,
    StableHlo.unary main_arg1 main_v40 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v40 main_v41 rfl shapeCasts_S1x600000_S600000 ]

/-- The buffers these operations write. -/
abbrev seg0_W : List (Ref sig .tc) := [main_v0, main_v1, main_c, main_v2, main_v3, main_c_0, main_v4, main_v5, main_v6, main_v7, main_v8, main_v9, main_v10, main_c_1, main_v11, main_v12, main_c_2, main_v13, main_v14, main_v15, main_v16, main_v17, main_v18, main_v19, main_v20, main_c_3, main_v21, main_v22, main_c_4, main_v23, main_v24, main_v25, main_v26, main_v27, main_v28, main_v29, main_c_5, main_v30, main_v31, main_c_6, main_v32, main_v33, main_v34, main_v35, main_v36, main_v37, main_v38, main_v39, main_v40, main_v41]

theorem seg0_sub : (seg0 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., unary_bufs_sub .., reshape_bufs_sub ..⟩

theorem seg0_writes : (seg0 : List (HloOp τ sig (Elt F))).Forall fun op => op.writes ⊆ (seg0_W.map (Proc.devRef (τ := τ) .tc)).toFinset :=
  ⟨Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide)))⟩

theorem seg0_fresh : (seg0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A buffer these operations do not write keeps its contents through them. -/
theorem seg0_keep (V : Valuation τ sig (Elt F)) (r : Ref sig .tc) (h : r ∉ seg0_W) :
    after seg0 V (Proc.devRef .tc r) = V (Proc.devRef .tc r) :=
  after_of_writes_sub seg0 V seg0_writes h

end Cert.ReferenceIdeal.RefRun

end
-- ==== Proof.RefOps1.lean ====
/- Operations 51 to 60 of the straight line that the reference's entry function runs, as a list: each entry is
   one array operation with the buffers it reads and the buffer it writes. Beside the list: the buffers it writes,
   that every buffer it touches is a device buffer, and that every result is determined by the operands. -/
import proofs.«178875_j64725157151179_1_alg».proof.ReferenceIdeal
import Idealize.ShloMosaic.Lib.StableHlo.Run

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-- The operations, in order (window 0 of the printed entry function). -/
abbrev seg1 : List (HloOp τ sig (Elt F)) :=
  [ StableHlo.nullary main_c_7 (constantI S_ 32 0#32),
    StableHlo.unary main_c_7 main_v42 (broadcastInDim S600000 ![] bcast_S_S600000 : (⟨S_, .i32⟩ : BufTy).Contents (Elt F) → (⟨S600000, .i32⟩ : BufTy).Contents (Elt F)),
    StableHlo.binary main_v39 main_v42 main_v43 (cmpi .slt : (⟨S600000, .i32⟩ : BufTy).Contents (Elt F) → (⟨S600000, .i32⟩ : BufTy).Contents (Elt F) → (⟨S600000, .i1⟩ : BufTy).Contents (Elt F)),
    StableHlo.nullary main_c_8 (constantI S_ 32 50000#32),
    StableHlo.unary main_c_8 main_v44 (broadcastInDim S600000 ![] bcast_S_S600000 : (⟨S_, .i32⟩ : BufTy).Contents (Elt F) → (⟨S600000, .i32⟩ : BufTy).Contents (Elt F)),
    StableHlo.binary main_v39 main_v44 main_v45 (addi : (⟨S600000, .i32⟩ : BufTy).Contents (Elt F) → (⟨S600000, .i32⟩ : BufTy).Contents (Elt F) → (⟨S600000, .i32⟩ : BufTy).Contents (Elt F)),
    StableHlo.ternary main_v43 main_v45 main_v39 main_v46 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v46 main_v47 (broadcastInDim S600000x1 ![0] bcast_S600000_S600000x1_0 : (⟨S600000, .i32⟩ : BufTy).Contents (Elt F) → (⟨S600000x1, .i32⟩ : BufTy).Contents (Elt F)),
    StableHlo.binary main_v18 main_v47 main_v48 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.binary main_v48 main_v37 main_v49 (addf : (⟨S600000x128, .f32⟩ : BufTy).Contents (Elt F) → (⟨S600000x128, .f32⟩ : BufTy).Contents (Elt F) → (⟨S600000x128, .f32⟩ : BufTy).Contents (Elt F)) ]

/-- The buffers these operations write. -/
abbrev seg1_W : List (Ref sig .tc) := [main_c_7, main_v42, main_v43, main_c_8, main_v44, main_v45, main_v46, main_v47, main_v48, main_v49]

theorem seg1_sub : (seg1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub ..⟩

theorem seg1_writes : (seg1 : List (HloOp τ sig (Elt F))).Forall fun op => op.writes ⊆ (seg1_W.map (Proc.devRef (τ := τ) .tc)).toFinset :=
  ⟨Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide)))⟩

theorem seg1_fresh : (seg1 : List (HloOp τ sig (Elt F))).Forall fun op => op.fresh = ∅ :=
  ⟨rfl, rfl, rfl, rfl, rfl, rfl, rfl, rfl, rfl, rfl⟩

/-- A buffer these operations do not write keeps its contents through them. -/
theorem seg1_keep (V : Valuation τ sig (Elt F)) (r : Ref sig .tc) (h : r ∉ seg1_W) :
    after seg1 V (Proc.devRef .tc r) = V (Proc.devRef .tc r) :=
  after_of_writes_sub seg1 V seg1_writes h

end Cert.ReferenceIdeal.RefRun

end
-- ==== Proof.RefOps2.lean ====
/- Operations 61 to 130 of the straight line that the reference's entry function runs, as a list: each entry is
   one array operation with the buffers it reads and the buffer it writes. Beside the list: the buffers it writes,
   that every buffer it touches is a device buffer, and that every result is determined by the operands. -/
import proofs.«178875_j64725157151179_1_alg».proof.ReferenceIdeal
import Idealize.ShloMosaic.Lib.StableHlo.Run

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-- The operations, in order (window 1 of the printed entry function). -/
abbrev seg2 : List (HloOp τ sig (Elt F)) :=
  [ StableHlo.TRef.nullary main_call0.cst (constant S_ .f32 0x00000000#32),
    StableHlo.TRef.unary main_call0.cst main_call0.v0 (broadcastInDim S600000x128 ![] bcast_S_S600000x128),
    StableHlo.TRef.binary (.of main_v49 : StableHlo.TRef sig ⟨S600000x128, .f32⟩) main_call0.v0 main_call0.v1 maximumf,
    StableHlo.nullary main_cst (constant S_ .f32 0x00000000#32),
    StableHlo.unary main_cst main_v51 (broadcastInDim S50000x128 ![] bcast_S_S50000x128 : (⟨S_, .f32⟩ : BufTy).Contents (Elt F) → (⟨S50000x128, .f32⟩ : BufTy).Contents (Elt F)),
    StableHlo.unary main_v41 main_v52 (broadcastInDim S600000x1 ![0] bcast_S600000_S600000x1_0 : (⟨S600000, .i32⟩ : BufTy).Contents (Elt F) → (⟨S600000x1, .i32⟩ : BufTy).Contents (Elt F)),
    StableHlo.ternary main_v51 main_v52 main_v50 main_v53 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v18 main_v53 main_v54 (addf : (⟨S50000x128, .f32⟩ : BufTy).Contents (Elt F) → (⟨S50000x128, .f32⟩ : BufTy).Contents (Elt F) → (⟨S50000x128, .f32⟩ : BufTy).Contents (Elt F)),
    StableHlo.binary main_v54 main_arg7 main_v55 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg8 main_v56 (broadcastInDim S1x256 ![1] bcast_S256_S1x256_1 : (⟨S256, .f32⟩ : BufTy).Contents (Elt F) → (⟨S1x256, .f32⟩ : BufTy).Contents (Elt F)),
    StableHlo.unary main_v56 main_v57 (broadcastInDim S50000x256 ![0, 1] bcast_S1x256_S50000x256_0_1 : (⟨S1x256, .f32⟩ : BufTy).Contents (Elt F) → (⟨S50000x256, .f32⟩ : BufTy).Contents (Elt F)),
    StableHlo.binary main_v55 main_v57 main_v58 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v58 : StableHlo.TRef sig ⟨S50000x256, .f32⟩) main_call1.v0 main_call1.v1 maximumf,
    StableHlo.binary main_v59 main_arg9 main_v60 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg10 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)),
    StableHlo.binary main_v60 main_v62 main_v63 (addf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x00000000#32),
    StableHlo.binary main_v63 main_cst_9 main_v64 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_10 (constant S_ .f32 0x47435000#32),
    StableHlo.unary main_cst_10 main_v65 (broadcastInDim S128 ![] bcast_S_S128 : (⟨S_, .f32⟩ : BufTy).Contents (Elt F) → (⟨S128, .f32⟩ : BufTy).Contents (Elt F)),
    StableHlo.binary main_v64 main_v65 main_v66 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary main_call2.cst (constant S_ .f32 0x00000000#32),
    StableHlo.TRef.binary (.of main_v63 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v63 : StableHlo.TRef sig ⟨S50000x128, .f32⟩) main_call2.v4 main_call2.v5 subf,
    StableHlo.TRef.binary main_call2.v5 main_call2.v5 main_call2.v6 mulf,
    StableHlo.TRef.unary (.of main_c_11 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v66 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S50000x128 ![0, 1] bcast_S1x128_S50000x128_0_1 : (⟨S1x128, .f32⟩ : BufTy).Contents (Elt F) → (⟨S50000x128, .f32⟩ : BufTy).Contents (Elt F)),
    StableHlo.binary main_v63 main_v69 main_v70 (subf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x3727C5AC#32),
    StableHlo.unary main_cst_12 main_v71 (broadcastInDim S128 ![] bcast_S_S128 : (⟨S_, .f32⟩ : BufTy).Contents (Elt F) → (⟨S128, .f32⟩ : BufTy).Contents (Elt F)),
    StableHlo.binary main_v67 main_v71 main_v72 (addf : (⟨S128, .f32⟩ : BufTy).Contents (Elt F) → (⟨S128, .f32⟩ : BufTy).Contents (Elt F) → (⟨S128, .f32⟩ : BufTy).Contents (Elt F)),
    StableHlo.unary main_v72 main_v73 (Host.rsqrt : (⟨S128, .f32⟩ : BufTy).Contents (Elt F) → (⟨S128, .f32⟩ : BufTy).Contents (Elt F)),
    StableHlo.unary main_v73 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S50000x128 ![0, 1] bcast_S1x128_S50000x128_0_1 : (⟨S1x128, .f32⟩ : BufTy).Contents (Elt F) → (⟨S50000x128, .f32⟩ : BufTy).Contents (Elt F)),
    StableHlo.binary main_v70 main_v75 main_v76 (mulf : (⟨S50000x128, .f32⟩ : BufTy).Contents (Elt F) → (⟨S50000x128, .f32⟩ : BufTy).Contents (Elt F) → (⟨S50000x128, .f32⟩ : BufTy).Contents (Elt F)),
    StableHlo.unary main_arg11 main_v77 ((extractStridedSlice S1x128 ![0, 0] · slices_S5x128_S1x128_0_0) : (⟨S5x128, .f32⟩ : BufTy).Contents (Elt F) → (⟨S1x128, .f32⟩ : BufTy).Contents (Elt F)),
    StableHlo.reshape main_v77 main_v78 rfl shapeCasts_S1x128_S128,
    StableHlo.unary main_v78 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S50000x128 ![0, 1] bcast_S1x128_S50000x128_0_1 : (⟨S1x128, .f32⟩ : BufTy).Contents (Elt F) → (⟨S50000x128, .f32⟩ : BufTy).Contents (Elt F)),
    StableHlo.binary main_v76 main_v80 main_v81 (mulf : (⟨S50000x128, .f32⟩ : BufTy).Contents (Elt F) → (⟨S50000x128, .f32⟩ : BufTy).Contents (Elt F) → (⟨S50000x128, .f32⟩ : BufTy).Contents (Elt F)),
    StableHlo.unary main_arg12 main_v82 ((extractStridedSlice S1x128 ![0, 0] · slices_S5x128_S1x128_0_0) : (⟨S5x128, .f32⟩ : BufTy).Contents (Elt F) → (⟨S1x128, .f32⟩ : BufTy).Contents (Elt F)),
    StableHlo.reshape main_v82 main_v83 rfl shapeCasts_S1x128_S128,
    StableHlo.unary main_v83 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S50000x128 ![0, 1] bcast_S1x128_S50000x128_0_1 : (⟨S1x128, .f32⟩ : BufTy).Contents (Elt F) → (⟨S50000x128, .f32⟩ : BufTy).Contents (Elt F)),
    StableHlo.binary main_v81 main_v85 main_v86 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v86 : StableHlo.TRef sig ⟨S50000x128, .f32⟩) main_call3.v0 main_call3.v1 maximumf ]

/-- The buffers these operations write. -/
abbrev seg2_W : List (Ref sig .tc) := [main_call0.cst.ref, main_call0.v0.ref, main_call0.v1.ref, main_cst, main_v51, main_v52, main_v53, main_v54, main_v55, main_v56, main_v57, main_v58, main_call1.cst.ref, main_call1.v0.ref, main_call1.v1.ref, main_v60, main_v61, main_v62, main_v63, main_cst_9, main_v64, main_cst_10, main_v65, main_v66, main_c_11, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v68, main_v69, main_v70, main_cst_12, main_v71, main_v72, main_v73, main_v74, main_v75, main_v76, main_v77, main_v78, main_v79, main_v80, main_v81, main_v82, main_v83, main_v84, main_v85, main_v86, main_call3.cst.ref, main_call3.v0.ref, main_call3.v1.ref]

theorem seg2_sub : (seg2 : List (HloOp τ sig (Elt F))).Forall fun op => op.bufs ⊆ tcRefs τ sig :=
  ⟨nullary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

theorem seg2_writes : (seg2 : List (HloOp τ sig (Elt F))).Forall fun op => op.writes ⊆ (seg2_W.map (Proc.devRef (τ := τ) .tc)).toFinset :=
  ⟨Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide)))⟩

theorem seg2_fresh : (seg2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A buffer these operations do not write keeps its contents through them. -/
theorem seg2_keep (V : Valuation τ sig (Elt F)) (r : Ref sig .tc) (h : r ∉ seg2_W) :
    after seg2 V (Proc.devRef .tc r) = V (Proc.devRef .tc r) :=
  after_of_writes_sub seg2 V seg2_writes h

end Cert.ReferenceIdeal.RefRun

end
-- ==== Proof.RefOps3.lean ====
/- Operations 131 to 149 of the straight line that the reference's entry function runs, as a list: each entry is
   one array operation with the buffers it reads and the buffer it writes. Beside the list: the buffers it writes,
   that every buffer it touches is a device buffer, and that every result is determined by the operands. -/
import proofs.«178875_j64725157151179_1_alg».proof.ReferenceIdeal
import Idealize.ShloMosaic.Lib.StableHlo.Run

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-- The operations, in order (window 1 of the printed entry function). -/
abbrev seg3 : List (HloOp τ sig (Elt F)) :=
  [ StableHlo.nullary main_c_13 (constantI S_ 32 0#32),
    StableHlo.unary main_c_13 main_v88 (broadcastInDim S600000 ![] bcast_S_S600000 : (⟨S_, .i32⟩ : BufTy).Contents (Elt F) → (⟨S600000, .i32⟩ : BufTy).Contents (Elt F)),
    StableHlo.binary main_v39 main_v88 main_v89 (cmpi .slt : (⟨S600000, .i32⟩ : BufTy).Contents (Elt F) → (⟨S600000, .i32⟩ : BufTy).Contents (Elt F) → (⟨S600000, .i1⟩ : BufTy).Contents (Elt F)),
    StableHlo.nullary main_c_14 (constantI S_ 32 50000#32),
    StableHlo.unary main_c_14 main_v90 (broadcastInDim S600000 ![] bcast_S_S600000 : (⟨S_, .i32⟩ : BufTy).Contents (Elt F) → (⟨S600000, .i32⟩ : BufTy).Contents (Elt F)),
    StableHlo.binary main_v39 main_v90 main_v91 (addi : (⟨S600000, .i32⟩ : BufTy).Contents (Elt F) → (⟨S600000, .i32⟩ : BufTy).Contents (Elt F) → (⟨S600000, .i32⟩ : BufTy).Contents (Elt F)),
    StableHlo.ternary main_v89 main_v91 main_v39 main_v92 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v92 main_v93 (broadcastInDim S600000x1 ![0] bcast_S600000_S600000x1_0 : (⟨S600000, .i32⟩ : BufTy).Contents (Elt F) → (⟨S600000x1, .i32⟩ : BufTy).Contents (Elt F)),
    StableHlo.binary main_v87 main_v93 main_v94 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.binary main_v94 main_v37 main_v95 (addf : (⟨S600000x128, .f32⟩ : BufTy).Contents (Elt F) → (⟨S600000x128, .f32⟩ : BufTy).Contents (Elt F) → (⟨S600000x128, .f32⟩ : BufTy).Contents (Elt F)),
    StableHlo.TRef.nullary main_call4.cst (constant S_ .f32 0x00000000#32),
    StableHlo.TRef.unary main_call4.cst main_call4.v0 (broadcastInDim S600000x128 ![] bcast_S_S600000x128),
    StableHlo.TRef.binary (.of main_v95 : StableHlo.TRef sig ⟨S600000x128, .f32⟩) main_call4.v0 main_call4.v1 maximumf,
    StableHlo.nullary main_cst_15 (constant S_ .f32 0x00000000#32),
    StableHlo.unary main_cst_15 main_v97 (broadcastInDim S50000x128 ![] bcast_S_S50000x128 : (⟨S_, .f32⟩ : BufTy).Contents (Elt F) → (⟨S50000x128, .f32⟩ : BufTy).Contents (Elt F)),
    StableHlo.unary main_v41 main_v98 (broadcastInDim S600000x1 ![0] bcast_S600000_S600000x1_0 : (⟨S600000, .i32⟩ : BufTy).Contents (Elt F) → (⟨S600000x1, .i32⟩ : BufTy).Contents (Elt F)),
    StableHlo.ternary main_v97 main_v98 main_v96 main_v99 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v87 main_v99 main_v100 (addf : (⟨S50000x128, .f32⟩ : BufTy).Contents (Elt F) → (⟨S50000x128, .f32⟩ : BufTy).Contents (Elt F) → (⟨S50000x128, .f32⟩ : BufTy).Contents (Elt F)),
    StableHlo.binary main_v100 main_arg7 main_v101 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)) ]

/-- The buffers these operations write. -/
abbrev seg3_W : List (Ref sig .tc) := [main_c_13, main_v88, main_v89, main_c_14, main_v90, main_v91, main_v92, main_v93, main_v94, main_v95, main_call4.cst.ref, main_call4.v0.ref, main_call4.v1.ref, main_cst_15, main_v97, main_v98, main_v99, main_v100, main_v101]

theorem seg3_sub : (seg3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., binary_bufs_sub ..⟩

theorem seg3_writes : (seg3 : List (HloOp τ sig (Elt F))).Forall fun op => op.writes ⊆ (seg3_W.map (Proc.devRef (τ := τ) .tc)).toFinset :=
  ⟨Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide)))⟩

theorem seg3_fresh : (seg3 : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- A buffer these operations do not write keeps its contents through them. -/
theorem seg3_keep (V : Valuation τ sig (Elt F)) (r : Ref sig .tc) (h : r ∉ seg3_W) :
    after seg3 V (Proc.devRef .tc r) = V (Proc.devRef .tc r) :=
  after_of_writes_sub seg3 V seg3_writes h

end Cert.ReferenceIdeal.RefRun

end
-- ==== Proof.RefOps4.lean ====
/- Operations 150 to 210 of the straight line that the reference's entry function runs, as a list: each entry is
   one array operation with the buffers it reads and the buffer it writes. Beside the list: the buffers it writes,
   that every buffer it touches is a device buffer, and that every result is determined by the operands. -/
import proofs.«178875_j64725157151179_1_alg».proof.ReferenceIdeal
import Idealize.ShloMosaic.Lib.StableHlo.Run

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-- The operations, in order (window 2 of the printed entry function). -/
abbrev seg4 : List (HloOp τ sig (Elt F)) :=
  [ StableHlo.unary main_arg8 main_v102 (broadcastInDim S1x256 ![1] bcast_S256_S1x256_1 : (⟨S256, .f32⟩ : BufTy).Contents (Elt F) → (⟨S1x256, .f32⟩ : BufTy).Contents (Elt F)),
    StableHlo.unary main_v102 main_v103 (broadcastInDim S50000x256 ![0, 1] bcast_S1x256_S50000x256_0_1 : (⟨S1x256, .f32⟩ : BufTy).Contents (Elt F) → (⟨S50000x256, .f32⟩ : BufTy).Contents (Elt F)),
    StableHlo.binary main_v101 main_v103 main_v104 (addf : (⟨S50000x256, .f32⟩ : BufTy).Contents (Elt F) → (⟨S50000x256, .f32⟩ : BufTy).Contents (Elt F) → (⟨S50000x256, .f32⟩ : BufTy).Contents (Elt F)),
    StableHlo.TRef.nullary main_call5.cst (constant S_ .f32 0x00000000#32),
    StableHlo.TRef.unary main_call5.cst main_call5.v0 (broadcastInDim S50000x256 ![] bcast_S_S50000x256),
    StableHlo.TRef.binary (.of main_v104 : StableHlo.TRef sig ⟨S50000x256, .f32⟩) main_call5.v0 main_call5.v1 maximumf,
    StableHlo.binary main_v105 main_arg9 main_v106 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg10 main_v107 (broadcastInDim S1x128 ![1] bcast_S128_S1x128_1 : (⟨S128, .f32⟩ : BufTy).Contents (Elt F) → (⟨S1x128, .f32⟩ : BufTy).Contents (Elt F)),
    StableHlo.unary main_v107 main_v108 (broadcastInDim S50000x128 ![0, 1] bcast_S1x128_S50000x128_0_1 : (⟨S1x128, .f32⟩ : BufTy).Contents (Elt F) → (⟨S50000x128, .f32⟩ : BufTy).Contents (Elt F)),
    StableHlo.binary main_v106 main_v108 main_v109 (addf : (⟨S50000x128, .f32⟩ : BufTy).Contents (Elt F) → (⟨S50000x128, .f32⟩ : BufTy).Contents (Elt F) → (⟨S50000x128, .f32⟩ : BufTy).Contents (Elt F)),
    StableHlo.nullary main_cst_16 (constant S_ .f32 0x00000000#32),
    StableHlo.binary main_v109 main_cst_16 main_v110 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_17 (constant S_ .f32 0x47435000#32),
    StableHlo.unary main_cst_17 main_v111 (broadcastInDim S128 ![] bcast_S_S128 : (⟨S_, .f32⟩ : BufTy).Contents (Elt F) → (⟨S128, .f32⟩ : BufTy).Contents (Elt F)),
    StableHlo.binary main_v110 main_v111 main_v112 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary main_call6.cst (constant S_ .f32 0x00000000#32),
    StableHlo.TRef.binary (.of main_v109 : StableHlo.TRef sig ⟨S50000x128, .f32⟩) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (.of main_v109 : StableHlo.TRef sig ⟨S50000x128, .f32⟩) main_call6.v4 main_call6.v5 subf,
    StableHlo.TRef.binary main_call6.v5 main_call6.v5 main_call6.v6 mulf,
    StableHlo.TRef.unary (.of main_c_18 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v112 main_v114 (broadcastInDim S1x128 ![1] bcast_S128_S1x128_1 : (⟨S128, .f32⟩ : BufTy).Contents (Elt F) → (⟨S1x128, .f32⟩ : BufTy).Contents (Elt F)),
    StableHlo.unary main_v114 main_v115 (broadcastInDim S50000x128 ![0, 1] bcast_S1x128_S50000x128_0_1 : (⟨S1x128, .f32⟩ : BufTy).Contents (Elt F) → (⟨S50000x128, .f32⟩ : BufTy).Contents (Elt F)),
    StableHlo.binary main_v109 main_v115 main_v116 (subf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x3727C5AC#32),
    StableHlo.unary main_cst_19 main_v117 (broadcastInDim S128 ![] bcast_S_S128 : (⟨S_, .f32⟩ : BufTy).Contents (Elt F) → (⟨S128, .f32⟩ : BufTy).Contents (Elt F)),
    StableHlo.binary main_v113 main_v117 main_v118 (addf : (⟨S128, .f32⟩ : BufTy).Contents (Elt F) → (⟨S128, .f32⟩ : BufTy).Contents (Elt F) → (⟨S128, .f32⟩ : BufTy).Contents (Elt F)),
    StableHlo.unary main_v118 main_v119 (Host.rsqrt : (⟨S128, .f32⟩ : BufTy).Contents (Elt F) → (⟨S128, .f32⟩ : BufTy).Contents (Elt F)),
    StableHlo.unary main_v119 main_v120 (broadcastInDim S1x128 ![1] bcast_S128_S1x128_1 : (⟨S128, .f32⟩ : BufTy).Contents (Elt F) → (⟨S1x128, .f32⟩ : BufTy).Contents (Elt F)),
    StableHlo.unary main_v120 main_v121 (broadcastInDim S50000x128 ![0, 1] bcast_S1x128_S50000x128_0_1 : (⟨S1x128, .f32⟩ : BufTy).Contents (Elt F) → (⟨S50000x128, .f32⟩ : BufTy).Contents (Elt F)),
    StableHlo.binary main_v116 main_v121 main_v122 (mulf : (⟨S50000x128, .f32⟩ : BufTy).Contents (Elt F) → (⟨S50000x128, .f32⟩ : BufTy).Contents (Elt F) → (⟨S50000x128, .f32⟩ : BufTy).Contents (Elt F)),
    StableHlo.unary main_arg11 main_v123 ((extractStridedSlice S1x128 ![1, 0] · slices_S5x128_S1x128_1_0) : (⟨S5x128, .f32⟩ : BufTy).Contents (Elt F) → (⟨S1x128, .f32⟩ : BufTy).Contents (Elt F)),
    StableHlo.reshape main_v123 main_v124 rfl shapeCasts_S1x128_S128,
    StableHlo.unary main_v124 main_v125 (broadcastInDim S1x128 ![1] bcast_S128_S1x128_1 : (⟨S128, .f32⟩ : BufTy).Contents (Elt F) → (⟨S1x128, .f32⟩ : BufTy).Contents (Elt F)),
    StableHlo.unary main_v125 main_v126 (broadcastInDim S50000x128 ![0, 1] bcast_S1x128_S50000x128_0_1 : (⟨S1x128, .f32⟩ : BufTy).Contents (Elt F) → (⟨S50000x128, .f32⟩ : BufTy).Contents (Elt F)),
    StableHlo.binary main_v122 main_v126 main_v127 (mulf : (⟨S50000x128, .f32⟩ : BufTy).Contents (Elt F) → (⟨S50000x128, .f32⟩ : BufTy).Contents (Elt F) → (⟨S50000x128, .f32⟩ : BufTy).Contents (Elt F)),
    StableHlo.unary main_arg12 main_v128 ((extractStridedSlice S1x128 ![1, 0] · slices_S5x128_S1x128_1_0) : (⟨S5x128, .f32⟩ : BufTy).Contents (Elt F) → (⟨S1x128, .f32⟩ : BufTy).Contents (Elt F)),
    StableHlo.reshape main_v128 main_v129 rfl shapeCasts_S1x128_S128,
    StableHlo.unary main_v129 main_v130 (broadcastInDim S1x128 ![1] bcast_S128_S1x128_1 : (⟨S128, .f32⟩ : BufTy).Contents (Elt F) → (⟨S1x128, .f32⟩ : BufTy).Contents (Elt F)),
    StableHlo.unary main_v130 main_v131 (broadcastInDim S50000x128 ![0, 1] bcast_S1x128_S50000x128_0_1 : (⟨S1x128, .f32⟩ : BufTy).Contents (Elt F) → (⟨S50000x128, .f32⟩ : BufTy).Contents (Elt F)),
    StableHlo.binary main_v127 main_v131 main_v132 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v132 : StableHlo.TRef sig ⟨S50000x128, .f32⟩) main_call7.v0 main_call7.v1 maximumf ]

/-- The buffers these operations write. -/
abbrev seg4_W : List (Ref sig .tc) := [main_v102, main_v103, main_v104, main_call5.cst.ref, main_call5.v0.ref, main_call5.v1.ref, main_v106, main_v107, main_v108, main_v109, main_cst_16, main_v110, main_cst_17, main_v111, main_v112, main_c_18, main_call6.cst.ref, main_call6.v0.ref, main_call6.v1.ref, main_call6.cst_0.ref, main_call6.v2.ref, main_call6.v3.ref, main_call6.v4.ref, main_call6.v5.ref, main_call6.v6.ref, main_call6.v7.ref, main_call6.cst_1.ref, main_call6.v8.ref, main_call6.cst_2.ref, main_call6.v9.ref, main_call6.v10.ref, main_call6.v11.ref, main_call6.cst_3.ref, main_call6.v12.ref, main_call6.cst_4.ref, main_call6.call0.v0.ref, main_call6.call0.v1.ref, main_call6.call0.v2.ref, main_v114, main_v115, main_v116, main_cst_19, main_v117, main_v118, main_v119, main_v120, main_v121, main_v122, main_v123, main_v124, main_v125, main_v126, main_v127, main_v128, main_v129, main_v130, main_v131, main_v132, main_call7.cst.ref, main_call7.v0.ref, main_call7.v1.ref]

theorem seg4_sub : (seg4 : List (HloOp τ sig (Elt F))).Forall fun op => op.bufs ⊆ tcRefs τ sig :=
  ⟨unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

theorem seg4_writes : (seg4 : List (HloOp τ sig (Elt F))).Forall fun op => op.writes ⊆ (seg4_W.map (Proc.devRef (τ := τ) .tc)).toFinset :=
  ⟨Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide)))⟩

theorem seg4_fresh : (seg4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A buffer these operations do not write keeps its contents through them. -/
theorem seg4_keep (V : Valuation τ sig (Elt F)) (r : Ref sig .tc) (h : r ∉ seg4_W) :
    after seg4 V (Proc.devRef .tc r) = V (Proc.devRef .tc r) :=
  after_of_writes_sub seg4 V seg4_writes h

end Cert.ReferenceIdeal.RefRun

end
-- ==== Proof.RefOps5.lean ====
/- Operations 211 to 238 of the straight line that the reference's entry function runs, as a list: each entry is
   one array operation with the buffers it reads and the buffer it writes. Beside the list: the buffers it writes,
   that every buffer it touches is a device buffer, and that every result is determined by the operands. -/
import proofs.«178875_j64725157151179_1_alg».proof.ReferenceIdeal
import Idealize.ShloMosaic.Lib.StableHlo.Run

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-- The operations, in order (window 2 of the printed entry function). -/
abbrev seg5 : List (HloOp τ sig (Elt F)) :=
  [ StableHlo.nullary main_c_20 (constantI S_ 32 0#32),
    StableHlo.unary main_c_20 main_v134 (broadcastInDim S600000 ![] bcast_S_S600000 : (⟨S_, .i32⟩ : BufTy).Contents (Elt F) → (⟨S600000, .i32⟩ : BufTy).Contents (Elt F)),
    StableHlo.binary main_v39 main_v134 main_v135 (cmpi .slt : (⟨S600000, .i32⟩ : BufTy).Contents (Elt F) → (⟨S600000, .i32⟩ : BufTy).Contents (Elt F) → (⟨S600000, .i1⟩ : BufTy).Contents (Elt F)),
    StableHlo.nullary main_c_21 (constantI S_ 32 50000#32),
    StableHlo.unary main_c_21 main_v136 (broadcastInDim S600000 ![] bcast_S_S600000 : (⟨S_, .i32⟩ : BufTy).Contents (Elt F) → (⟨S600000, .i32⟩ : BufTy).Contents (Elt F)),
    StableHlo.binary main_v39 main_v136 main_v137 (addi : (⟨S600000, .i32⟩ : BufTy).Contents (Elt F) → (⟨S600000, .i32⟩ : BufTy).Contents (Elt F) → (⟨S600000, .i32⟩ : BufTy).Contents (Elt F)),
    StableHlo.ternary main_v135 main_v137 main_v39 main_v138 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v138 main_v139 (broadcastInDim S600000x1 ![0] bcast_S600000_S600000x1_0 : (⟨S600000, .i32⟩ : BufTy).Contents (Elt F) → (⟨S600000x1, .i32⟩ : BufTy).Contents (Elt F)),
    StableHlo.binary main_v133 main_v139 main_v140 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.binary main_v140 main_v37 main_v141 (addf : (⟨S600000x128, .f32⟩ : BufTy).Contents (Elt F) → (⟨S600000x128, .f32⟩ : BufTy).Contents (Elt F) → (⟨S600000x128, .f32⟩ : BufTy).Contents (Elt F)),
    StableHlo.TRef.nullary main_call8.cst (constant S_ .f32 0x00000000#32),
    StableHlo.TRef.unary main_call8.cst main_call8.v0 (broadcastInDim S600000x128 ![] bcast_S_S600000x128),
    StableHlo.TRef.binary (.of main_v141 : StableHlo.TRef sig ⟨S600000x128, .f32⟩) main_call8.v0 main_call8.v1 maximumf,
    StableHlo.nullary main_cst_22 (constant S_ .f32 0x00000000#32),
    StableHlo.unary main_cst_22 main_v143 (broadcastInDim S50000x128 ![] bcast_S_S50000x128 : (⟨S_, .f32⟩ : BufTy).Contents (Elt F) → (⟨S50000x128, .f32⟩ : BufTy).Contents (Elt F)),
    StableHlo.unary main_v41 main_v144 (broadcastInDim S600000x1 ![0] bcast_S600000_S600000x1_0 : (⟨S600000, .i32⟩ : BufTy).Contents (Elt F) → (⟨S600000x1, .i32⟩ : BufTy).Contents (Elt F)),
    StableHlo.ternary main_v143 main_v144 main_v142 main_v145 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v133 main_v145 main_v146 (addf : (⟨S50000x128, .f32⟩ : BufTy).Contents (Elt F) → (⟨S50000x128, .f32⟩ : BufTy).Contents (Elt F) → (⟨S50000x128, .f32⟩ : BufTy).Contents (Elt F)),
    StableHlo.binary main_v146 main_arg7 main_v147 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg8 main_v148 (broadcastInDim S1x256 ![1] bcast_S256_S1x256_1 : (⟨S256, .f32⟩ : BufTy).Contents (Elt F) → (⟨S1x256, .f32⟩ : BufTy).Contents (Elt F)),
    StableHlo.unary main_v148 main_v149 (broadcastInDim S50000x256 ![0, 1] bcast_S1x256_S50000x256_0_1 : (⟨S1x256, .f32⟩ : BufTy).Contents (Elt F) → (⟨S50000x256, .f32⟩ : BufTy).Contents (Elt F)),
    StableHlo.binary main_v147 main_v149 main_v150 (addf : (⟨S50000x256, .f32⟩ : BufTy).Contents (Elt F) → (⟨S50000x256, .f32⟩ : BufTy).Contents (Elt F) → (⟨S50000x256, .f32⟩ : BufTy).Contents (Elt F)),
    StableHlo.TRef.nullary main_call9.cst (constant S_ .f32 0x00000000#32),
    StableHlo.TRef.unary main_call9.cst main_call9.v0 (broadcastInDim S50000x256 ![] bcast_S_S50000x256),
    StableHlo.TRef.binary (.of main_v150 : StableHlo.TRef sig ⟨S50000x256, .f32⟩) main_call9.v0 main_call9.v1 maximumf,
    StableHlo.binary main_v151 main_arg9 main_v152 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg10 main_v153 (broadcastInDim S1x128 ![1] bcast_S128_S1x128_1 : (⟨S128, .f32⟩ : BufTy).Contents (Elt F) → (⟨S1x128, .f32⟩ : BufTy).Contents (Elt F)),
    StableHlo.unary main_v153 main_v154 (broadcastInDim S50000x128 ![0, 1] bcast_S1x128_S50000x128_0_1 : (⟨S1x128, .f32⟩ : BufTy).Contents (Elt F) → (⟨S50000x128, .f32⟩ : BufTy).Contents (Elt F)) ]

/-- The buffers these operations write. -/
abbrev seg5_W : List (Ref sig .tc) := [main_c_20, main_v134, main_v135, main_c_21, main_v136, main_v137, main_v138, main_v139, main_v140, main_v141, main_call8.cst.ref, main_call8.v0.ref, main_call8.v1.ref, main_cst_22, main_v143, main_v144, main_v145, main_v146, main_v147, main_v148, main_v149, main_v150, main_call9.cst.ref, main_call9.v0.ref, main_call9.v1.ref, main_v152, main_v153, main_v154]

theorem seg5_sub : (seg5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub ..⟩

theorem seg5_writes : (seg5 : List (HloOp τ sig (Elt F))).Forall fun op => op.writes ⊆ (seg5_W.map (Proc.devRef (τ := τ) .tc)).toFinset :=
  ⟨Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide)))⟩

theorem seg5_fresh : (seg5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

/-- A buffer these operations do not write keeps its contents through them. -/
theorem seg5_keep (V : Valuation τ sig (Elt F)) (r : Ref sig .tc) (h : r ∉ seg5_W) :
    after seg5 V (Proc.devRef .tc r) = V (Proc.devRef .tc r) :=
  after_of_writes_sub seg5 V seg5_writes h

end Cert.ReferenceIdeal.RefRun

end
-- ==== Proof.RefOps6.lean ====
/- Operations 239 to 290 of the straight line that the reference's entry function runs, as a list: each entry is
   one array operation with the buffers it reads and the buffer it writes. Beside the list: the buffers it writes,
   that every buffer it touches is a device buffer, and that every result is determined by the operands. -/
import proofs.«178875_j64725157151179_1_alg».proof.ReferenceIdeal
import Idealize.ShloMosaic.Lib.StableHlo.Run

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-- The operations, in order (window 3 of the printed entry function). -/
abbrev seg6 : List (HloOp τ sig (Elt F)) :=
  [ StableHlo.binary main_v152 main_v154 main_v155 (addf : (⟨S50000x128, .f32⟩ : BufTy).Contents (Elt F) → (⟨S50000x128, .f32⟩ : BufTy).Contents (Elt F) → (⟨S50000x128, .f32⟩ : BufTy).Contents (Elt F)),
    StableHlo.nullary main_cst_23 (constant S_ .f32 0x00000000#32),
    StableHlo.binary main_v155 main_cst_23 main_v156 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_24 (constant S_ .f32 0x47435000#32),
    StableHlo.unary main_cst_24 main_v157 (broadcastInDim S128 ![] bcast_S_S128 : (⟨S_, .f32⟩ : BufTy).Contents (Elt F) → (⟨S128, .f32⟩ : BufTy).Contents (Elt F)),
    StableHlo.binary main_v156 main_v157 main_v158 (Host.divf : (⟨S128, .f32⟩ : BufTy).Contents (Elt F) → (⟨S128, .f32⟩ : BufTy).Contents (Elt F) → (⟨S128, .f32⟩ : BufTy).Contents (Elt F)),
    StableHlo.nullary main_c_25 (constantI S_ 32 0#32),
    StableHlo.TRef.nullary main_call10.cst (constant S_ .f32 0x00000000#32),
    StableHlo.TRef.binary (.of main_v155 : StableHlo.TRef sig ⟨S50000x128, .f32⟩) main_call10.cst main_call10.v0 (fun x v => Host.reduceAdd x v reducesTo_S50000x128_S128_d0 h_S_),
    StableHlo.TRef.unary main_call10.v0 main_call10.v1 (broadcastInDim S1x128 ![1] bcast_S128_S1x128_1),
    StableHlo.TRef.nullary main_call10.cst_0 (constant S_ .f32 0x47435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S50000x128 ![0, 1] bcast_S1x128_S50000x128_0_1),
    StableHlo.TRef.binary (.of main_v155 : StableHlo.TRef sig ⟨S50000x128, .f32⟩) main_call10.v4 main_call10.v5 subf,
    StableHlo.TRef.binary main_call10.v5 main_call10.v5 main_call10.v6 mulf,
    StableHlo.TRef.unary (.of main_c_25 : StableHlo.TRef sig ⟨S_, .i32⟩) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v158 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S50000x128 ![0, 1] bcast_S1x128_S50000x128_0_1 : (⟨S1x128, .f32⟩ : BufTy).Contents (Elt F) → (⟨S50000x128, .f32⟩ : BufTy).Contents (Elt F)),
    StableHlo.binary main_v155 main_v161 main_v162 (subf : (⟨S50000x128, .f32⟩ : BufTy).Contents (Elt F) → (⟨S50000x128, .f32⟩ : BufTy).Contents (Elt F) → (⟨S50000x128, .f32⟩ : BufTy).Contents (Elt F)),
    StableHlo.nullary main_cst_26 (constant S_ .f32 0x3727C5AC#32),
    StableHlo.unary main_cst_26 main_v163 (broadcastInDim S128 ![] bcast_S_S128 : (⟨S_, .f32⟩ : BufTy).Contents (Elt F) → (⟨S128, .f32⟩ : BufTy).Contents (Elt F)),
    StableHlo.binary main_v159 main_v163 main_v164 (addf : (⟨S128, .f32⟩ : BufTy).Contents (Elt F) → (⟨S128, .f32⟩ : BufTy).Contents (Elt F) → (⟨S128, .f32⟩ : BufTy).Contents (Elt F)),
    StableHlo.unary main_v164 main_v165 (Host.rsqrt : (⟨S128, .f32⟩ : BufTy).Contents (Elt F) → (⟨S128, .f32⟩ : BufTy).Contents (Elt F)),
    StableHlo.unary main_v165 main_v166 (broadcastInDim S1x128 ![1] bcast_S128_S1x128_1 : (⟨S128, .f32⟩ : BufTy).Contents (Elt F) → (⟨S1x128, .f32⟩ : BufTy).Contents (Elt F)),
    StableHlo.unary main_v166 main_v167 (broadcastInDim S50000x128 ![0, 1] bcast_S1x128_S50000x128_0_1 : (⟨S1x128, .f32⟩ : BufTy).Contents (Elt F) → (⟨S50000x128, .f32⟩ : BufTy).Contents (Elt F)),
    StableHlo.binary main_v162 main_v167 main_v168 (mulf : (⟨S50000x128, .f32⟩ : BufTy).Contents (Elt F) → (⟨S50000x128, .f32⟩ : BufTy).Contents (Elt F) → (⟨S50000x128, .f32⟩ : BufTy).Contents (Elt F)),
    StableHlo.unary main_arg11 main_v169 ((extractStridedSlice S1x128 ![2, 0] · slices_S5x128_S1x128_2_0) : (⟨S5x128, .f32⟩ : BufTy).Contents (Elt F) → (⟨S1x128, .f32⟩ : BufTy).Contents (Elt F)),
    StableHlo.reshape main_v169 main_v170 rfl shapeCasts_S1x128_S128,
    StableHlo.unary main_v170 main_v171 (broadcastInDim S1x128 ![1] bcast_S128_S1x128_1 : (⟨S128, .f32⟩ : BufTy).Contents (Elt F) → (⟨S1x128, .f32⟩ : BufTy).Contents (Elt F)),
    StableHlo.unary main_v171 main_v172 (broadcastInDim S50000x128 ![0, 1] bcast_S1x128_S50000x128_0_1 : (⟨S1x128, .f32⟩ : BufTy).Contents (Elt F) → (⟨S50000x128, .f32⟩ : BufTy).Contents (Elt F)),
    StableHlo.binary main_v168 main_v172 main_v173 (mulf : (⟨S50000x128, .f32⟩ : BufTy).Contents (Elt F) → (⟨S50000x128, .f32⟩ : BufTy).Contents (Elt F) → (⟨S50000x128, .f32⟩ : BufTy).Contents (Elt F)),
    StableHlo.unary main_arg12 main_v174 ((extractStridedSlice S1x128 ![2, 0] · slices_S5x128_S1x128_2_0) : (⟨S5x128, .f32⟩ : BufTy).Contents (Elt F) → (⟨S1x128, .f32⟩ : BufTy).Contents (Elt F)),
    StableHlo.reshape main_v174 main_v175 rfl shapeCasts_S1x128_S128,
    StableHlo.unary main_v175 main_v176 (broadcastInDim S1x128 ![1] bcast_S128_S1x128_1 : (⟨S128, .f32⟩ : BufTy).Contents (Elt F) → (⟨S1x128, .f32⟩ : BufTy).Contents (Elt F)),
    StableHlo.unary main_v176 main_v177 (broadcastInDim S50000x128 ![0, 1] bcast_S1x128_S50000x128_0_1 : (⟨S1x128, .f32⟩ : BufTy).Contents (Elt F) → (⟨S50000x128, .f32⟩ : BufTy).Contents (Elt F)),
    StableHlo.binary main_v173 main_v177 main_v178 (addf : (⟨S50000x128, .f32⟩ : BufTy).Contents (Elt F) → (⟨S50000x128, .f32⟩ : BufTy).Contents (Elt F) → (⟨S50000x128, .f32⟩ : BufTy).Contents (Elt F)),
    StableHlo.TRef.nullary main_call11.cst (constant S_ .f32 0x00000000#32),
    StableHlo.TRef.unary main_call11.cst main_call11.v0 (broadcastInDim S50000x128 ![] bcast_S_S50000x128),
    StableHlo.TRef.binary (.of main_v178 : StableHlo.TRef sig ⟨S50000x128, .f32⟩) main_call11.v0 main_call11.v1 maximumf ]

/-- The buffers these operations write. -/
abbrev seg6_W : List (Ref sig .tc) := [main_v155, main_cst_23, main_v156, main_cst_24, main_v157, main_v158, main_c_25, main_call10.cst.ref, main_call10.v0.ref, main_call10.v1.ref, main_call10.cst_0.ref, main_call10.v2.ref, main_call10.v3.ref, main_call10.v4.ref, main_call10.v5.ref, main_call10.v6.ref, main_call10.v7.ref, main_call10.cst_1.ref, main_call10.v8.ref, main_call10.cst_2.ref, main_call10.v9.ref, main_call10.v10.ref, main_call10.v11.ref, main_call10.cst_3.ref, main_call10.v12.ref, main_call10.cst_4.ref, main_call10.call0.v0.ref, main_call10.call0.v1.ref, main_call10.call0.v2.ref, main_v160, main_v161, main_v162, main_cst_26, main_v163, main_v164, main_v165, main_v166, main_v167, main_v168, main_v169, main_v170, main_v171, main_v172, main_v173, main_v174, main_v175, main_v176, main_v177, main_v178, main_call11.cst.ref, main_call11.v0.ref, main_call11.v1.ref]

theorem seg6_sub : (seg6 : List (HloOp τ sig (Elt F))).Forall fun op => op.bufs ⊆ tcRefs τ sig :=
  ⟨binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

theorem seg6_writes : (seg6 : List (HloOp τ sig (Elt F))).Forall fun op => op.writes ⊆ (seg6_W.map (Proc.devRef (τ := τ) .tc)).toFinset :=
  ⟨Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide)))⟩

theorem seg6_fresh : (seg6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A buffer these operations do not write keeps its contents through them. -/
theorem seg6_keep (V : Valuation τ sig (Elt F)) (r : Ref sig .tc) (h : r ∉ seg6_W) :
    after seg6 V (Proc.devRef .tc r) = V (Proc.devRef .tc r) :=
  after_of_writes_sub seg6 V seg6_writes h

end Cert.ReferenceIdeal.RefRun

end
-- ==== Proof.RefOps7.lean ====
/- Operations 291 to 325 of the straight line that the reference's entry function runs, as a list: each entry is
   one array operation with the buffers it reads and the buffer it writes. Beside the list: the buffers it writes,
   that every buffer it touches is a device buffer, and that every result is determined by the operands. -/
import proofs.«178875_j64725157151179_1_alg».proof.ReferenceIdeal
import Idealize.ShloMosaic.Lib.StableHlo.Run

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-- The operations, in order (window 3 of the printed entry function). -/
abbrev seg7 : List (HloOp τ sig (Elt F)) :=
  [ StableHlo.nullary main_c_27 (constantI S_ 32 0#32),
    StableHlo.unary main_c_27 main_v180 (broadcastInDim S600000 ![] bcast_S_S600000 : (⟨S_, .i32⟩ : BufTy).Contents (Elt F) → (⟨S600000, .i32⟩ : BufTy).Contents (Elt F)),
    StableHlo.binary main_v39 main_v180 main_v181 (cmpi .slt : (⟨S600000, .i32⟩ : BufTy).Contents (Elt F) → (⟨S600000, .i32⟩ : BufTy).Contents (Elt F) → (⟨S600000, .i1⟩ : BufTy).Contents (Elt F)),
    StableHlo.nullary main_c_28 (constantI S_ 32 50000#32),
    StableHlo.unary main_c_28 main_v182 (broadcastInDim S600000 ![] bcast_S_S600000 : (⟨S_, .i32⟩ : BufTy).Contents (Elt F) → (⟨S600000, .i32⟩ : BufTy).Contents (Elt F)),
    StableHlo.binary main_v39 main_v182 main_v183 (addi : (⟨S600000, .i32⟩ : BufTy).Contents (Elt F) → (⟨S600000, .i32⟩ : BufTy).Contents (Elt F) → (⟨S600000, .i32⟩ : BufTy).Contents (Elt F)),
    StableHlo.ternary main_v181 main_v183 main_v39 main_v184 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v184 main_v185 (broadcastInDim S600000x1 ![0] bcast_S600000_S600000x1_0 : (⟨S600000, .i32⟩ : BufTy).Contents (Elt F) → (⟨S600000x1, .i32⟩ : BufTy).Contents (Elt F)),
    StableHlo.binary main_v179 main_v185 main_v186 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.binary main_v186 main_v37 main_v187 (addf : (⟨S600000x128, .f32⟩ : BufTy).Contents (Elt F) → (⟨S600000x128, .f32⟩ : BufTy).Contents (Elt F) → (⟨S600000x128, .f32⟩ : BufTy).Contents (Elt F)),
    StableHlo.TRef.nullary main_call12.cst (constant S_ .f32 0x00000000#32),
    StableHlo.TRef.unary main_call12.cst main_call12.v0 (broadcastInDim S600000x128 ![] bcast_S_S600000x128),
    StableHlo.TRef.binary (.of main_v187 : StableHlo.TRef sig ⟨S600000x128, .f32⟩) main_call12.v0 main_call12.v1 maximumf,
    StableHlo.nullary main_cst_29 (constant S_ .f32 0x00000000#32),
    StableHlo.unary main_cst_29 main_v189 (broadcastInDim S50000x128 ![] bcast_S_S50000x128 : (⟨S_, .f32⟩ : BufTy).Contents (Elt F) → (⟨S50000x128, .f32⟩ : BufTy).Contents (Elt F)),
    StableHlo.unary main_v41 main_v190 (broadcastInDim S600000x1 ![0] bcast_S600000_S600000x1_0 : (⟨S600000, .i32⟩ : BufTy).Contents (Elt F) → (⟨S600000x1, .i32⟩ : BufTy).Contents (Elt F)),
    StableHlo.ternary main_v189 main_v190 main_v188 main_v191 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v179 main_v191 main_v192 (addf : (⟨S50000x128, .f32⟩ : BufTy).Contents (Elt F) → (⟨S50000x128, .f32⟩ : BufTy).Contents (Elt F) → (⟨S50000x128, .f32⟩ : BufTy).Contents (Elt F)),
    StableHlo.binary main_v192 main_arg7 main_v193 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg8 main_v194 (broadcastInDim S1x256 ![1] bcast_S256_S1x256_1 : (⟨S256, .f32⟩ : BufTy).Contents (Elt F) → (⟨S1x256, .f32⟩ : BufTy).Contents (Elt F)),
    StableHlo.unary main_v194 main_v195 (broadcastInDim S50000x256 ![0, 1] bcast_S1x256_S50000x256_0_1 : (⟨S1x256, .f32⟩ : BufTy).Contents (Elt F) → (⟨S50000x256, .f32⟩ : BufTy).Contents (Elt F)),
    StableHlo.binary main_v193 main_v195 main_v196 (addf : (⟨S50000x256, .f32⟩ : BufTy).Contents (Elt F) → (⟨S50000x256, .f32⟩ : BufTy).Contents (Elt F) → (⟨S50000x256, .f32⟩ : BufTy).Contents (Elt F)),
    StableHlo.TRef.nullary main_call13.cst (constant S_ .f32 0x00000000#32),
    StableHlo.TRef.unary main_call13.cst main_call13.v0 (broadcastInDim S50000x256 ![] bcast_S_S50000x256),
    StableHlo.TRef.binary (.of main_v196 : StableHlo.TRef sig ⟨S50000x256, .f32⟩) main_call13.v0 main_call13.v1 maximumf,
    StableHlo.binary main_v197 main_arg9 main_v198 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg10 main_v199 (broadcastInDim S1x128 ![1] bcast_S128_S1x128_1 : (⟨S128, .f32⟩ : BufTy).Contents (Elt F) → (⟨S1x128, .f32⟩ : BufTy).Contents (Elt F)),
    StableHlo.unary main_v199 main_v200 (broadcastInDim S50000x128 ![0, 1] bcast_S1x128_S50000x128_0_1 : (⟨S1x128, .f32⟩ : BufTy).Contents (Elt F) → (⟨S50000x128, .f32⟩ : BufTy).Contents (Elt F)),
    StableHlo.binary main_v198 main_v200 main_v201 (addf : (⟨S50000x128, .f32⟩ : BufTy).Contents (Elt F) → (⟨S50000x128, .f32⟩ : BufTy).Contents (Elt F) → (⟨S50000x128, .f32⟩ : BufTy).Contents (Elt F)),
    StableHlo.nullary main_cst_30 (constant S_ .f32 0x00000000#32),
    StableHlo.binary main_v201 main_cst_30 main_v202 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_31 (constant S_ .f32 0x47435000#32),
    StableHlo.unary main_cst_31 main_v203 (broadcastInDim S128 ![] bcast_S_S128 : (⟨S_, .f32⟩ : BufTy).Contents (Elt F) → (⟨S128, .f32⟩ : BufTy).Contents (Elt F)),
    StableHlo.binary main_v202 main_v203 main_v204 (Host.divf : (⟨S128, .f32⟩ : BufTy).Contents (Elt F) → (⟨S128, .f32⟩ : BufTy).Contents (Elt F) → (⟨S128, .f32⟩ : BufTy).Contents (Elt F)),
    StableHlo.nullary main_c_32 (constantI S_ 32 0#32) ]

/-- The buffers these operations write. -/
abbrev seg7_W : List (Ref sig .tc) := [main_c_27, main_v180, main_v181, main_c_28, main_v182, main_v183, main_v184, main_v185, main_v186, main_v187, main_call12.cst.ref, main_call12.v0.ref, main_call12.v1.ref, main_cst_29, main_v189, main_v190, main_v191, main_v192, main_v193, main_v194, main_v195, main_v196, main_call13.cst.ref, main_call13.v0.ref, main_call13.v1.ref, main_v198, main_v199, main_v200, main_v201, main_cst_30, main_v202, main_cst_31, main_v203, main_v204, main_c_32]

theorem seg7_sub : (seg7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub ..⟩

theorem seg7_writes : (seg7 : List (HloOp τ sig (Elt F))).Forall fun op => op.writes ⊆ (seg7_W.map (Proc.devRef (τ := τ) .tc)).toFinset :=
  ⟨Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide)))⟩

theorem seg7_fresh : (seg7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A buffer these operations do not write keeps its contents through them. -/
theorem seg7_keep (V : Valuation τ sig (Elt F)) (r : Ref sig .tc) (h : r ∉ seg7_W) :
    after seg7 V (Proc.devRef .tc r) = V (Proc.devRef .tc r) :=
  after_of_writes_sub seg7 V seg7_writes h

end Cert.ReferenceIdeal.RefRun

end
-- ==== Proof.RefOps8.lean ====
/- Operations 326 to 370 of the straight line that the reference's entry function runs, as a list: each entry is
   one array operation with the buffers it reads and the buffer it writes. Beside the list: the buffers it writes,
   that every buffer it touches is a device buffer, and that every result is determined by the operands. -/
import proofs.«178875_j64725157151179_1_alg».proof.ReferenceIdeal
import Idealize.ShloMosaic.Lib.StableHlo.Run

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-- The operations, in order (window 4 of the printed entry function). -/
abbrev seg8 : List (HloOp τ sig (Elt F)) :=
  [ StableHlo.TRef.nullary main_call14.cst (constant S_ .f32 0x00000000#32),
    StableHlo.TRef.binary (.of main_v201 : StableHlo.TRef sig ⟨S50000x128, .f32⟩) main_call14.cst main_call14.v0 (fun x v => Host.reduceAdd x v reducesTo_S50000x128_S128_d0 h_S_),
    StableHlo.TRef.unary main_call14.v0 main_call14.v1 (broadcastInDim S1x128 ![1] bcast_S128_S1x128_1),
    StableHlo.TRef.nullary main_call14.cst_0 (constant S_ .f32 0x47435000#32),
    StableHlo.TRef.unary main_call14.cst_0 main_call14.v2 (broadcastInDim S1x128 ![] bcast_S_S1x128),
    StableHlo.TRef.binary main_call14.v1 main_call14.v2 main_call14.v3 Host.divf,
    StableHlo.TRef.unary main_call14.v3 main_call14.v4 (broadcastInDim S50000x128 ![0, 1] bcast_S1x128_S50000x128_0_1),
    StableHlo.TRef.binary (.of main_v201 : StableHlo.TRef sig ⟨S50000x128, .f32⟩) main_call14.v4 main_call14.v5 subf,
    StableHlo.TRef.binary main_call14.v5 main_call14.v5 main_call14.v6 mulf,
    StableHlo.TRef.unary (.of main_c_32 : StableHlo.TRef sig ⟨S_, .i32⟩) main_call14.v7 (sitofp .f32),
    StableHlo.TRef.nullary main_call14.cst_1 (constant S_ .f32 0x47435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S50000x128_S128_d0 h_S_),
    StableHlo.TRef.unary main_call14.v8 main_call14.v10 (broadcastInDim S128 ![] bcast_S_S128),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S128 ![] bcast_S_S128),
    StableHlo.TRef.ternary main_call14.v12 main_call14.v11 main_call14.call0.v1 main_call14.call0.v2 (fun p a b => select (broadcastInDim S128 ![] bcast_S_S128 p) a b),
    StableHlo.unary main_v204 main_v206 (broadcastInDim S1x128 ![1] bcast_S128_S1x128_1 : (⟨S128, .f32⟩ : BufTy).Contents (Elt F) → (⟨S1x128, .f32⟩ : BufTy).Contents (Elt F)),
    StableHlo.unary main_v206 main_v207 (broadcastInDim S50000x128 ![0, 1] bcast_S1x128_S50000x128_0_1 : (⟨S1x128, .f32⟩ : BufTy).Contents (Elt F) → (⟨S50000x128, .f32⟩ : BufTy).Contents (Elt F)),
    StableHlo.binary main_v201 main_v207 main_v208 (subf : (⟨S50000x128, .f32⟩ : BufTy).Contents (Elt F) → (⟨S50000x128, .f32⟩ : BufTy).Contents (Elt F) → (⟨S50000x128, .f32⟩ : BufTy).Contents (Elt F)),
    StableHlo.nullary main_cst_33 (constant S_ .f32 0x3727C5AC#32),
    StableHlo.unary main_cst_33 main_v209 (broadcastInDim S128 ![] bcast_S_S128 : (⟨S_, .f32⟩ : BufTy).Contents (Elt F) → (⟨S128, .f32⟩ : BufTy).Contents (Elt F)),
    StableHlo.binary main_v205 main_v209 main_v210 (addf : (⟨S128, .f32⟩ : BufTy).Contents (Elt F) → (⟨S128, .f32⟩ : BufTy).Contents (Elt F) → (⟨S128, .f32⟩ : BufTy).Contents (Elt F)),
    StableHlo.unary main_v210 main_v211 (Host.rsqrt : (⟨S128, .f32⟩ : BufTy).Contents (Elt F) → (⟨S128, .f32⟩ : BufTy).Contents (Elt F)),
    StableHlo.unary main_v211 main_v212 (broadcastInDim S1x128 ![1] bcast_S128_S1x128_1 : (⟨S128, .f32⟩ : BufTy).Contents (Elt F) → (⟨S1x128, .f32⟩ : BufTy).Contents (Elt F)),
    StableHlo.unary main_v212 main_v213 (broadcastInDim S50000x128 ![0, 1] bcast_S1x128_S50000x128_0_1 : (⟨S1x128, .f32⟩ : BufTy).Contents (Elt F) → (⟨S50000x128, .f32⟩ : BufTy).Contents (Elt F)),
    StableHlo.binary main_v208 main_v213 main_v214 (mulf : (⟨S50000x128, .f32⟩ : BufTy).Contents (Elt F) → (⟨S50000x128, .f32⟩ : BufTy).Contents (Elt F) → (⟨S50000x128, .f32⟩ : BufTy).Contents (Elt F)),
    StableHlo.unary main_arg11 main_v215 ((extractStridedSlice S1x128 ![3, 0] · slices_S5x128_S1x128_3_0) : (⟨S5x128, .f32⟩ : BufTy).Contents (Elt F) → (⟨S1x128, .f32⟩ : BufTy).Contents (Elt F)),
    StableHlo.reshape main_v215 main_v216 rfl shapeCasts_S1x128_S128,
    StableHlo.unary main_v216 main_v217 (broadcastInDim S1x128 ![1] bcast_S128_S1x128_1 : (⟨S128, .f32⟩ : BufTy).Contents (Elt F) → (⟨S1x128, .f32⟩ : BufTy).Contents (Elt F)),
    StableHlo.unary main_v217 main_v218 (broadcastInDim S50000x128 ![0, 1] bcast_S1x128_S50000x128_0_1 : (⟨S1x128, .f32⟩ : BufTy).Contents (Elt F) → (⟨S50000x128, .f32⟩ : BufTy).Contents (Elt F)),
    StableHlo.binary main_v214 main_v218 main_v219 (mulf : (⟨S50000x128, .f32⟩ : BufTy).Contents (Elt F) → (⟨S50000x128, .f32⟩ : BufTy).Contents (Elt F) → (⟨S50000x128, .f32⟩ : BufTy).Contents (Elt F)),
    StableHlo.unary main_arg12 main_v220 ((extractStridedSlice S1x128 ![3, 0] · slices_S5x128_S1x128_3_0) : (⟨S5x128, .f32⟩ : BufTy).Contents (Elt F) → (⟨S1x128, .f32⟩ : BufTy).Contents (Elt F)),
    StableHlo.reshape main_v220 main_v221 rfl shapeCasts_S1x128_S128,
    StableHlo.unary main_v221 main_v222 (broadcastInDim S1x128 ![1] bcast_S128_S1x128_1 : (⟨S128, .f32⟩ : BufTy).Contents (Elt F) → (⟨S1x128, .f32⟩ : BufTy).Contents (Elt F)),
    StableHlo.unary main_v222 main_v223 (broadcastInDim S50000x128 ![0, 1] bcast_S1x128_S50000x128_0_1 : (⟨S1x128, .f32⟩ : BufTy).Contents (Elt F) → (⟨S50000x128, .f32⟩ : BufTy).Contents (Elt F)),
    StableHlo.binary main_v219 main_v223 main_v224 (addf : (⟨S50000x128, .f32⟩ : BufTy).Contents (Elt F) → (⟨S50000x128, .f32⟩ : BufTy).Contents (Elt F) → (⟨S50000x128, .f32⟩ : BufTy).Contents (Elt F)),
    StableHlo.TRef.nullary main_call15.cst (constant S_ .f32 0x00000000#32),
    StableHlo.TRef.unary main_call15.cst main_call15.v0 (broadcastInDim S50000x128 ![] bcast_S_S50000x128),
    StableHlo.TRef.binary (.of main_v224 : StableHlo.TRef sig ⟨S50000x128, .f32⟩) main_call15.v0 main_call15.v1 maximumf ]

/-- The buffers these operations write. -/
abbrev seg8_W : List (Ref sig .tc) := [main_call14.cst.ref, main_call14.v0.ref, main_call14.v1.ref, main_call14.cst_0.ref, main_call14.v2.ref, main_call14.v3.ref, main_call14.v4.ref, main_call14.v5.ref, main_call14.v6.ref, main_call14.v7.ref, main_call14.cst_1.ref, main_call14.v8.ref, main_call14.cst_2.ref, main_call14.v9.ref, main_call14.v10.ref, main_call14.v11.ref, main_call14.cst_3.ref, main_call14.v12.ref, main_call14.cst_4.ref, main_call14.call0.v0.ref, main_call14.call0.v1.ref, main_call14.call0.v2.ref, main_v206, main_v207, main_v208, main_cst_33, main_v209, main_v210, main_v211, main_v212, main_v213, main_v214, main_v215, main_v216, main_v217, main_v218, main_v219, main_v220, main_v221, main_v222, main_v223, main_v224, main_call15.cst.ref, main_call15.v0.ref, main_call15.v1.ref]

theorem seg8_sub : (seg8 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

theorem seg8_writes : (seg8 : List (HloOp τ sig (Elt F))).Forall fun op => op.writes ⊆ (seg8_W.map (Proc.devRef (τ := τ) .tc)).toFinset :=
  ⟨Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide)))⟩

theorem seg8_fresh : (seg8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A buffer these operations do not write keeps its contents through them. -/
theorem seg8_keep (V : Valuation τ sig (Elt F)) (r : Ref sig .tc) (h : r ∉ seg8_W) :
    after seg8 V (Proc.devRef .tc r) = V (Proc.devRef .tc r) :=
  after_of_writes_sub seg8 V seg8_writes h

end Cert.ReferenceIdeal.RefRun

end
-- ==== Proof.RefOps9.lean ====
/- Operations 371 to 433 of the straight line that the reference's entry function runs, as a list: each entry is
   one array operation with the buffers it reads and the buffer it writes. Beside the list: the buffers it writes,
   that every buffer it touches is a device buffer, and that every result is determined by the operands. -/
import proofs.«178875_j64725157151179_1_alg».proof.ReferenceIdeal
import Idealize.ShloMosaic.Lib.StableHlo.Run

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-- The operations, in order (window 4 of the printed entry function). -/
abbrev seg9 : List (HloOp τ sig (Elt F)) :=
  [ StableHlo.nullary main_c_34 (constantI S_ 32 0#32),
    StableHlo.unary main_c_34 main_v226 (broadcastInDim S600000 ![] bcast_S_S600000 : (⟨S_, .i32⟩ : BufTy).Contents (Elt F) → (⟨S600000, .i32⟩ : BufTy).Contents (Elt F)),
    StableHlo.binary main_v39 main_v226 main_v227 (cmpi .slt : (⟨S600000, .i32⟩ : BufTy).Contents (Elt F) → (⟨S600000, .i32⟩ : BufTy).Contents (Elt F) → (⟨S600000, .i1⟩ : BufTy).Contents (Elt F)),
    StableHlo.nullary main_c_35 (constantI S_ 32 50000#32),
    StableHlo.unary main_c_35 main_v228 (broadcastInDim S600000 ![] bcast_S_S600000 : (⟨S_, .i32⟩ : BufTy).Contents (Elt F) → (⟨S600000, .i32⟩ : BufTy).Contents (Elt F)),
    StableHlo.binary main_v39 main_v228 main_v229 (addi : (⟨S600000, .i32⟩ : BufTy).Contents (Elt F) → (⟨S600000, .i32⟩ : BufTy).Contents (Elt F) → (⟨S600000, .i32⟩ : BufTy).Contents (Elt F)),
    StableHlo.ternary main_v227 main_v229 main_v39 main_v230 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v230 main_v231 (broadcastInDim S600000x1 ![0] bcast_S600000_S600000x1_0 : (⟨S600000, .i32⟩ : BufTy).Contents (Elt F) → (⟨S600000x1, .i32⟩ : BufTy).Contents (Elt F)),
    StableHlo.binary main_v225 main_v231 main_v232 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.binary main_v232 main_v37 main_v233 (addf : (⟨S600000x128, .f32⟩ : BufTy).Contents (Elt F) → (⟨S600000x128, .f32⟩ : BufTy).Contents (Elt F) → (⟨S600000x128, .f32⟩ : BufTy).Contents (Elt F)),
    StableHlo.TRef.nullary main_call16.cst (constant S_ .f32 0x00000000#32),
    StableHlo.TRef.unary main_call16.cst main_call16.v0 (broadcastInDim S600000x128 ![] bcast_S_S600000x128),
    StableHlo.TRef.binary (.of main_v233 : StableHlo.TRef sig ⟨S600000x128, .f32⟩) main_call16.v0 main_call16.v1 maximumf,
    StableHlo.nullary main_cst_36 (constant S_ .f32 0x00000000#32),
    StableHlo.unary main_cst_36 main_v235 (broadcastInDim S50000x128 ![] bcast_S_S50000x128 : (⟨S_, .f32⟩ : BufTy).Contents (Elt F) → (⟨S50000x128, .f32⟩ : BufTy).Contents (Elt F)),
    StableHlo.unary main_v41 main_v236 (broadcastInDim S600000x1 ![0] bcast_S600000_S600000x1_0 : (⟨S600000, .i32⟩ : BufTy).Contents (Elt F) → (⟨S600000x1, .i32⟩ : BufTy).Contents (Elt F)),
    StableHlo.ternary main_v235 main_v236 main_v234 main_v237 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v225 main_v237 main_v238 (addf : (⟨S50000x128, .f32⟩ : BufTy).Contents (Elt F) → (⟨S50000x128, .f32⟩ : BufTy).Contents (Elt F) → (⟨S50000x128, .f32⟩ : BufTy).Contents (Elt F)),
    StableHlo.binary main_v238 main_arg7 main_v239 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg8 main_v240 (broadcastInDim S1x256 ![1] bcast_S256_S1x256_1 : (⟨S256, .f32⟩ : BufTy).Contents (Elt F) → (⟨S1x256, .f32⟩ : BufTy).Contents (Elt F)),
    StableHlo.unary main_v240 main_v241 (broadcastInDim S50000x256 ![0, 1] bcast_S1x256_S50000x256_0_1 : (⟨S1x256, .f32⟩ : BufTy).Contents (Elt F) → (⟨S50000x256, .f32⟩ : BufTy).Contents (Elt F)),
    StableHlo.binary main_v239 main_v241 main_v242 (addf : (⟨S50000x256, .f32⟩ : BufTy).Contents (Elt F) → (⟨S50000x256, .f32⟩ : BufTy).Contents (Elt F) → (⟨S50000x256, .f32⟩ : BufTy).Contents (Elt F)),
    StableHlo.TRef.nullary main_call17.cst (constant S_ .f32 0x00000000#32),
    StableHlo.TRef.unary main_call17.cst main_call17.v0 (broadcastInDim S50000x256 ![] bcast_S_S50000x256),
    StableHlo.TRef.binary (.of main_v242 : StableHlo.TRef sig ⟨S50000x256, .f32⟩) main_call17.v0 main_call17.v1 maximumf,
    StableHlo.binary main_v243 main_arg9 main_v244 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg10 main_v245 (broadcastInDim S1x128 ![1] bcast_S128_S1x128_1 : (⟨S128, .f32⟩ : BufTy).Contents (Elt F) → (⟨S1x128, .f32⟩ : BufTy).Contents (Elt F)),
    StableHlo.unary main_v245 main_v246 (broadcastInDim S50000x128 ![0, 1] bcast_S1x128_S50000x128_0_1 : (⟨S1x128, .f32⟩ : BufTy).Contents (Elt F) → (⟨S50000x128, .f32⟩ : BufTy).Contents (Elt F)),
    StableHlo.binary main_v244 main_v246 main_v247 (addf : (⟨S50000x128, .f32⟩ : BufTy).Contents (Elt F) → (⟨S50000x128, .f32⟩ : BufTy).Contents (Elt F) → (⟨S50000x128, .f32⟩ : BufTy).Contents (Elt F)),
    StableHlo.nullary main_cst_37 (constant S_ .f32 0x00000000#32),
    StableHlo.binary main_v247 main_cst_37 main_v248 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_38 (constant S_ .f32 0x47435000#32),
    StableHlo.unary main_cst_38 main_v249 (broadcastInDim S128 ![] bcast_S_S128 : (⟨S_, .f32⟩ : BufTy).Contents (Elt F) → (⟨S128, .f32⟩ : BufTy).Contents (Elt F)),
    StableHlo.binary main_v248 main_v249 main_v250 (Host.divf : (⟨S128, .f32⟩ : BufTy).Contents (Elt F) → (⟨S128, .f32⟩ : BufTy).Contents (Elt F) → (⟨S128, .f32⟩ : BufTy).Contents (Elt F)),
    StableHlo.nullary main_c_39 (constantI S_ 32 0#32),
    StableHlo.TRef.nullary main_call18.cst (constant S_ .f32 0x00000000#32),
    StableHlo.TRef.binary (.of main_v247 : StableHlo.TRef sig ⟨S50000x128, .f32⟩) main_call18.cst main_call18.v0 (fun x v => Host.reduceAdd x v reducesTo_S50000x128_S128_d0 h_S_),
    StableHlo.TRef.unary main_call18.v0 main_call18.v1 (broadcastInDim S1x128 ![1] bcast_S128_S1x128_1),
    StableHlo.TRef.nullary main_call18.cst_0 (constant S_ .f32 0x47435000#32),
    StableHlo.TRef.unary main_call18.cst_0 main_call18.v2 (broadcastInDim S1x128 ![] bcast_S_S1x128),
    StableHlo.TRef.binary main_call18.v1 main_call18.v2 main_call18.v3 Host.divf,
    StableHlo.TRef.unary main_call18.v3 main_call18.v4 (broadcastInDim S50000x128 ![0, 1] bcast_S1x128_S50000x128_0_1),
    StableHlo.TRef.binary (.of main_v247 : StableHlo.TRef sig ⟨S50000x128, .f32⟩) main_call18.v4 main_call18.v5 subf,
    StableHlo.TRef.binary main_call18.v5 main_call18.v5 main_call18.v6 mulf,
    StableHlo.TRef.unary (.of main_c_39 : StableHlo.TRef sig ⟨S_, .i32⟩) main_call18.v7 (sitofp .f32),
    StableHlo.TRef.nullary main_call18.cst_1 (constant S_ .f32 0x47435000#32),
    StableHlo.TRef.binary main_call18.cst_1 main_call18.v7 main_call18.v8 subf,
    StableHlo.TRef.nullary main_call18.cst_2 (constant S_ .f32 0x00000000#32),
    StableHlo.TRef.binary main_call18.v6 main_call18.cst_2 main_call18.v9 (fun x v => Host.reduceAdd x v reducesTo_S50000x128_S128_d0 h_S_),
    StableHlo.TRef.unary main_call18.v8 main_call18.v10 (broadcastInDim S128 ![] bcast_S_S128),
    StableHlo.TRef.binary main_call18.v9 main_call18.v10 main_call18.v11 Host.divf,
    StableHlo.TRef.nullary main_call18.cst_3 (constant S_ .f32 0x00000000#32),
    StableHlo.TRef.binary main_call18.v8 main_call18.cst_3 main_call18.v12 (cmpf .ogt),
    StableHlo.TRef.nullary main_call18.cst_4 (constant S_ .f32 0x7FC00000#32),
    StableHlo.TRef.unary main_call18.cst_4 main_call18.call0.v0 id,
    StableHlo.TRef.unary main_call18.call0.v0 main_call18.call0.v1 (broadcastInDim S128 ![] bcast_S_S128),
    StableHlo.TRef.ternary main_call18.v12 main_call18.v11 main_call18.call0.v1 main_call18.call0.v2 (fun p a b => select (broadcastInDim S128 ![] bcast_S_S128 p) a b),
    StableHlo.unary main_v250 main_v252 (broadcastInDim S1x128 ![1] bcast_S128_S1x128_1 : (⟨S128, .f32⟩ : BufTy).Contents (Elt F) → (⟨S1x128, .f32⟩ : BufTy).Contents (Elt F)),
    StableHlo.unary main_v252 main_v253 (broadcastInDim S50000x128 ![0, 1] bcast_S1x128_S50000x128_0_1 : (⟨S1x128, .f32⟩ : BufTy).Contents (Elt F) → (⟨S50000x128, .f32⟩ : BufTy).Contents (Elt F)),
    StableHlo.binary main_v247 main_v253 main_v254 (subf : (⟨S50000x128, .f32⟩ : BufTy).Contents (Elt F) → (⟨S50000x128, .f32⟩ : BufTy).Contents (Elt F) → (⟨S50000x128, .f32⟩ : BufTy).Contents (Elt F)),
    StableHlo.nullary main_cst_40 (constant S_ .f32 0x3727C5AC#32),
    StableHlo.unary main_cst_40 main_v255 (broadcastInDim S128 ![] bcast_S_S128 : (⟨S_, .f32⟩ : BufTy).Contents (Elt F) → (⟨S128, .f32⟩ : BufTy).Contents (Elt F)),
    StableHlo.binary main_v251 main_v255 main_v256 (addf : (⟨S128, .f32⟩ : BufTy).Contents (Elt F) → (⟨S128, .f32⟩ : BufTy).Contents (Elt F) → (⟨S128, .f32⟩ : BufTy).Contents (Elt F)) ]

/-- The buffers these operations write. -/
abbrev seg9_W : List (Ref sig .tc) := [main_c_34, main_v226, main_v227, main_c_35, main_v228, main_v229, main_v230, main_v231, main_v232, main_v233, main_call16.cst.ref, main_call16.v0.ref, main_call16.v1.ref, main_cst_36, main_v235, main_v236, main_v237, main_v238, main_v239, main_v240, main_v241, main_v242, main_call17.cst.ref, main_call17.v0.ref, main_call17.v1.ref, main_v244, main_v245, main_v246, main_v247, main_cst_37, main_v248, main_cst_38, main_v249, main_v250, main_c_39, main_call18.cst.ref, main_call18.v0.ref, main_call18.v1.ref, main_call18.cst_0.ref, main_call18.v2.ref, main_call18.v3.ref, main_call18.v4.ref, main_call18.v5.ref, main_call18.v6.ref, main_call18.v7.ref, main_call18.cst_1.ref, main_call18.v8.ref, main_call18.cst_2.ref, main_call18.v9.ref, main_call18.v10.ref, main_call18.v11.ref, main_call18.cst_3.ref, main_call18.v12.ref, main_call18.cst_4.ref, main_call18.call0.v0.ref, main_call18.call0.v1.ref, main_call18.call0.v2.ref, main_v252, main_v253, main_v254, main_cst_40, main_v255, main_v256]

theorem seg9_sub : (seg9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩

theorem seg9_writes : (seg9 : List (HloOp τ sig (Elt F))).Forall fun op => op.writes ⊆ (seg9_W.map (Proc.devRef (τ := τ) .tc)).toFinset :=
  ⟨Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide)))⟩

theorem seg9_fresh : (seg9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A buffer these operations do not write keeps its contents through them. -/
theorem seg9_keep (V : Valuation τ sig (Elt F)) (r : Ref sig .tc) (h : r ∉ seg9_W) :
    after seg9 V (Proc.devRef .tc r) = V (Proc.devRef .tc r) :=
  after_of_writes_sub seg9 V seg9_writes h

end Cert.ReferenceIdeal.RefRun

end
-- ==== Proof.RefOps10.lean ====
/- Operations 434 to 447 of the straight line that the reference's entry function runs, as a list: each entry is
   one array operation with the buffers it reads and the buffer it writes. Beside the list: the buffers it writes,
   that every buffer it touches is a device buffer, and that every result is determined by the operands. -/
import proofs.«178875_j64725157151179_1_alg».proof.ReferenceIdeal
import Idealize.ShloMosaic.Lib.StableHlo.Run

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-- The operations, in order (window 5 of the printed entry function). -/
abbrev seg10 : List (HloOp τ sig (Elt F)) :=
  [ StableHlo.unary main_v256 main_v257 (Host.rsqrt : (⟨S128, .f32⟩ : BufTy).Contents (Elt F) → (⟨S128, .f32⟩ : BufTy).Contents (Elt F)),
    StableHlo.unary main_v257 main_v258 (broadcastInDim S1x128 ![1] bcast_S128_S1x128_1 : (⟨S128, .f32⟩ : BufTy).Contents (Elt F) → (⟨S1x128, .f32⟩ : BufTy).Contents (Elt F)),
    StableHlo.unary main_v258 main_v259 (broadcastInDim S50000x128 ![0, 1] bcast_S1x128_S50000x128_0_1 : (⟨S1x128, .f32⟩ : BufTy).Contents (Elt F) → (⟨S50000x128, .f32⟩ : BufTy).Contents (Elt F)),
    StableHlo.binary main_v254 main_v259 main_v260 (mulf : (⟨S50000x128, .f32⟩ : BufTy).Contents (Elt F) → (⟨S50000x128, .f32⟩ : BufTy).Contents (Elt F) → (⟨S50000x128, .f32⟩ : BufTy).Contents (Elt F)),
    StableHlo.unary main_arg11 main_v261 ((extractStridedSlice S1x128 ![4, 0] · slices_S5x128_S1x128_4_0) : (⟨S5x128, .f32⟩ : BufTy).Contents (Elt F) → (⟨S1x128, .f32⟩ : BufTy).Contents (Elt F)),
    StableHlo.reshape main_v261 main_v262 rfl shapeCasts_S1x128_S128,
    StableHlo.unary main_v262 main_v263 (broadcastInDim S1x128 ![1] bcast_S128_S1x128_1 : (⟨S128, .f32⟩ : BufTy).Contents (Elt F) → (⟨S1x128, .f32⟩ : BufTy).Contents (Elt F)),
    StableHlo.unary main_v263 main_v264 (broadcastInDim S50000x128 ![0, 1] bcast_S1x128_S50000x128_0_1 : (⟨S1x128, .f32⟩ : BufTy).Contents (Elt F) → (⟨S50000x128, .f32⟩ : BufTy).Contents (Elt F)),
    StableHlo.binary main_v260 main_v264 main_v265 (mulf : (⟨S50000x128, .f32⟩ : BufTy).Contents (Elt F) → (⟨S50000x128, .f32⟩ : BufTy).Contents (Elt F) → (⟨S50000x128, .f32⟩ : BufTy).Contents (Elt F)),
    StableHlo.unary main_arg12 main_v266 ((extractStridedSlice S1x128 ![4, 0] · slices_S5x128_S1x128_4_0) : (⟨S5x128, .f32⟩ : BufTy).Contents (Elt F) → (⟨S1x128, .f32⟩ : BufTy).Contents (Elt F)),
    StableHlo.reshape main_v266 main_v267 rfl shapeCasts_S1x128_S128,
    StableHlo.unary main_v267 main_v268 (broadcastInDim S1x128 ![1] bcast_S128_S1x128_1 : (⟨S128, .f32⟩ : BufTy).Contents (Elt F) → (⟨S1x128, .f32⟩ : BufTy).Contents (Elt F)),
    StableHlo.unary main_v268 main_v269 (broadcastInDim S50000x128 ![0, 1] bcast_S1x128_S50000x128_0_1 : (⟨S1x128, .f32⟩ : BufTy).Contents (Elt F) → (⟨S50000x128, .f32⟩ : BufTy).Contents (Elt F)),
    StableHlo.binary main_v265 main_v269 main_v270 (addf : (⟨S50000x128, .f32⟩ : BufTy).Contents (Elt F) → (⟨S50000x128, .f32⟩ : BufTy).Contents (Elt F) → (⟨S50000x128, .f32⟩ : BufTy).Contents (Elt F)) ]

/-- The buffers these operations write. -/
abbrev seg10_W : List (Ref sig .tc) := [main_v257, main_v258, main_v259, main_v260, main_v261, main_v262, main_v263, main_v264, main_v265, main_v266, main_v267, main_v268, main_v269, main_v270]

theorem seg10_sub : (seg10 : List (HloOp τ sig (Elt F))).Forall fun op => op.bufs ⊆ tcRefs τ sig :=
  ⟨unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩

theorem seg10_writes : (seg10 : List (HloOp τ sig (Elt F))).Forall fun op => op.writes ⊆ (seg10_W.map (Proc.devRef (τ := τ) .tc)).toFinset :=
  ⟨Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide)))⟩

theorem seg10_fresh : (seg10 : List (HloOp τ sig (Elt F))).Forall fun op => op.fresh = ∅ :=
  ⟨rfl, rfl, rfl, rfl, rfl, rfl, rfl, rfl, rfl, rfl, rfl, rfl, rfl, rfl⟩

/-- A buffer these operations do not write keeps its contents through them. -/
theorem seg10_keep (V : Valuation τ sig (Elt F)) (r : Ref sig .tc) (h : r ∉ seg10_W) :
    after seg10 V (Proc.devRef .tc r) = V (Proc.devRef .tc r) :=
  after_of_writes_sub seg10 V seg10_writes h

end Cert.ReferenceIdeal.RefRun

end
-- ==== Proof.RefRunAll.lean ====
/-
  The reference's entry function is one straight line of array operations. The eleven lists of the sibling
  modules, joined in order, are that line: each printed window of the function is two consecutive lists (the
  last window one), a call of an outlined function standing for the callee's own operations. Hence every
  weakly fair execution terminates and leaves in each buffer the fold of the operations' results over the
  contents the buffers had at the start.
-/
import proofs.«178875_j64725157151179_1_alg».proof.Proof.RefOps0
import proofs.«178875_j64725157151179_1_alg».proof.Proof.RefOps1
import proofs.«178875_j64725157151179_1_alg».proof.Proof.RefOps2
import proofs.«178875_j64725157151179_1_alg».proof.Proof.RefOps3
import proofs.«178875_j64725157151179_1_alg».proof.Proof.RefOps4
import proofs.«178875_j64725157151179_1_alg».proof.Proof.RefOps5
import proofs.«178875_j64725157151179_1_alg».proof.Proof.RefOps6
import proofs.«178875_j64725157151179_1_alg».proof.Proof.RefOps7
import proofs.«178875_j64725157151179_1_alg».proof.Proof.RefOps8
import proofs.«178875_j64725157151179_1_alg».proof.Proof.RefOps9
import proofs.«178875_j64725157151179_1_alg».proof.Proof.RefOps10
import Idealize.ShloMosaic.Lib.Pipeline.Frame

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-- The whole line: the eleven lists in order. -/
abbrev ops : List (HloOp τ sig (Elt F)) :=
  seg0 ++ seg1 ++ seg2 ++ seg3 ++ seg4 ++ seg5 ++ seg6 ++ seg7 ++ seg8 ++ seg9 ++ seg10

set_option maxRecDepth 4096 in
theorem part0_eq (c : Dev nD) : main_part0 (F := F) c = seq (seg0 ++ seg1) := rfl

set_option maxRecDepth 4096 in
/-- A window that calls outlined functions: the callees' bodies unfolded at the calls, the binds reassociated. -/
theorem part1_eq (c : Dev nD) : main_part1 (F := F) c = seq (seg2 ++ seg3) := by
  simp only [main_part1, fn_relu.body, fn_relu_0.body, fn_relu_1.body, fn_var.body, fn_where.body, seq, List.cons_append, List.nil_append, bind_assoc, pure_bind]
  rfl

set_option maxRecDepth 4096 in
theorem part2_eq (c : Dev nD) : main_part2 (F := F) c = seq (seg4 ++ seg5) := by
  simp only [main_part2, fn_relu.body, fn_relu_0.body, fn_relu_1.body, fn_var.body, fn_where.body, seq, List.cons_append, List.nil_append, bind_assoc, pure_bind]
  rfl

set_option maxRecDepth 4096 in
theorem part3_eq (c : Dev nD) : main_part3 (F := F) c = seq (seg6 ++ seg7) := by
  simp only [main_part3, fn_relu.body, fn_relu_0.body, fn_relu_1.body, fn_var.body, fn_where.body, seq, List.cons_append, List.nil_append, bind_assoc, pure_bind]
  rfl

set_option maxRecDepth 4096 in
theorem part4_eq (c : Dev nD) : main_part4 (F := F) c = seq (seg8 ++ seg9) := by
  simp only [main_part4, fn_relu.body, fn_relu_0.body, fn_relu_1.body, fn_var.body, fn_where.body, seq, List.cons_append, List.nil_append, bind_assoc, pure_bind]
  rfl

set_option maxRecDepth 4096 in
theorem part5_eq (c : Dev nD) : main_part5 (F := F) c = seq seg10 := rfl

/-- The entry function runs its windows in order; joined lists run one after the other. -/
theorem main_eq (c : Dev nD) : main (F := F) c = seq ops := by
  have e : (ops : List (HloOp τ sig (Elt F))) = (seg0 ++ seg1) ++ ((seg2 ++ seg3) ++ ((seg4 ++ seg5) ++ ((seg6 ++ seg7) ++ ((seg8 ++ seg9) ++ seg10)))) := by
    simp only [ops, List.append_assoc]
  rw [e, seq_append (seg0 ++ seg1), seq_append (seg2 ++ seg3), seq_append (seg4 ++ seg5), seq_append (seg6 ++ seg7), seq_append (seg8 ++ seg9), ← part0_eq c, ← part1_eq c, ← part2_eq c, ← part3_eq c, ← part4_eq c, ← part5_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨⟨⟨⟨⟨⟨⟨⟨⟨⟨seg0_sub, seg1_sub⟩, seg2_sub⟩, seg3_sub⟩, seg4_sub⟩, seg5_sub⟩, seg6_sub⟩, seg7_sub⟩, seg8_sub⟩, seg9_sub⟩, seg10_sub⟩

theorem ops_fresh : ∀ op ∈ (ops : List (HloOp τ sig (Elt F))), op.fresh = ∅ := by
  have h : (ops : List (HloOp τ sig (Elt F))).Forall fun op => op.fresh = ∅ := by
    simp only [ops, List.forall_append]
    exact ⟨⟨⟨⟨⟨⟨⟨⟨⟨⟨seg0_fresh, seg1_fresh⟩, seg2_fresh⟩, seg3_fresh⟩, seg4_fresh⟩, seg5_fresh⟩, seg6_fresh⟩, seg7_fresh⟩, seg8_fresh⟩, seg9_fresh⟩, seg10_fresh⟩
  exact List.forall_iff_forall_mem.mp h

/-- Every weakly fair execution of the entry function terminates with every buffer at the fold of the line's
    operations over the contents at the start. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The fold over the whole line is the folds over the eleven lists, one after the other. -/
theorem after_ops (V : Valuation τ sig (Elt F)) :
    after ops V = after seg10 (after seg9 (after seg8 (after seg7 (after seg6 (after seg5 (after seg4 (after seg3 (after seg2 (after seg1 (after seg0 V)))))))))) := by
  simp only [ops, after_append]

end Cert.ReferenceIdeal.RefRun

end
-- ==== Proof.RefRunPre.lean ====
/-
  The first fifty operations of the reference's line compute, from the argument arrays, the nodes' first rows
  (two table look-ups added), the edges' rows (two table look-ups added), and the two rows of the edge list as
  vectors of source and destination nodes. Each is read back as the specification's function of the contents
  the arguments' buffers hold.
-/
import proofs.«178875_j64725157151179_1_alg».proof.Proof.RefOps0
import proofs.«178875_j64725157151179_1_alg».proof.Proof.Spec

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

attribute [local irreducible] Host.gather in
/-- The nodes' first rows. -/
theorem pre_nodes (V : Valuation τ sig (Elt F)) :
    after seg0 V (Proc.devRef .tc main_v18)
      = GnnSpec.nodeEmb (V (Proc.devRef .tc main_arg0)) (V (Proc.devRef .tc main_arg3)) (V (Proc.devRef .tc main_arg4)) := by
  after_results_simp
  rfl

attribute [local irreducible] Host.gather in
/-- The edges' rows. -/
theorem pre_edges (V : Valuation τ sig (Elt F)) :
    after seg0 V (Proc.devRef .tc main_v37)
      = GnnSpec.edgeEmb (V (Proc.devRef .tc main_arg2)) (V (Proc.devRef .tc main_arg5)) (V (Proc.devRef .tc main_arg6)) := by
  after_results_simp
  rfl

/-- Every edge's source node. -/
theorem pre_src (V : Valuation τ sig (Elt F)) :
    after seg0 V (Proc.devRef .tc main_v39) = GnnSpec.srcOf (V (Proc.devRef .tc main_arg1)) := by
  after_results_simp
  rfl

/-- Every edge's destination node. -/
theorem pre_dst (V : Valuation τ sig (Elt F)) :
    after seg0 V (Proc.devRef .tc main_v41) = GnnSpec.dstOf (V (Proc.devRef .tc main_arg1)) := by
  after_results_simp
  rfl

end Cert.ReferenceIdeal.RefRun

end
-- ==== Proof.RefRunRound0.lean ====
/-
  Round 0 of the reference's line, two consecutive lists of operations: from the nodes' rows at the round's start,
  the edges' rows and the edge list, the operations gather each edge's source row, add the edge's row, rectify, sum
  the messages per destination node, push node row plus sum through the two dense layers, and normalise per channel
  with row 0 of the two affine tables, then rectify. Read back, the round's result buffer holds the specification's
  round function of the contents before the round; the buffers the round only reads keep their contents.
-/
import proofs.«178875_j64725157151179_1_alg».proof.Proof.RefOps1
import proofs.«178875_j64725157151179_1_alg».proof.Proof.RefOps2
import proofs.«178875_j64725157151179_1_alg».proof.Proof.Spec

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

attribute [local irreducible] Host.gather Host.scatterAdd Host.reduceAdd Host.divf Host.rsqrt in
set_option maxRecDepth 8192 in
set_option maxHeartbeats 4000000 in
/-- The round's result. -/
theorem round0 (V : Valuation τ sig (Elt F)) :
    after seg2 (after seg1 V) (Proc.devRef .tc main_v87)
      = GnnSpec.relu (GnnSpec.bn (GnnSpec.mlp (V (Proc.devRef .tc main_v18)) (GnnSpec.agg (V (Proc.devRef .tc main_v18)) (V (Proc.devRef .tc main_v37)) (V (Proc.devRef .tc main_v39)) (V (Proc.devRef .tc main_v41))) (V (Proc.devRef .tc main_arg7)) (V (Proc.devRef .tc main_arg8)) (V (Proc.devRef .tc main_arg9)) (V (Proc.devRef .tc main_arg10))) (GnnSpec.row0 (V (Proc.devRef .tc main_arg11))) (GnnSpec.row0 (V (Proc.devRef .tc main_arg12)))) := by
  after_results_simp
  rfl

/-- What the round does not write it keeps. -/
theorem round0_keep (V : Valuation τ sig (Elt F)) (r : Ref sig .tc) (ha : r ∉ seg1_W) (hb : r ∉ seg2_W) :
    after seg2 (after seg1 V) (Proc.devRef .tc r) = V (Proc.devRef .tc r) :=
  (seg2_keep _ r hb).trans (seg1_keep V r ha)

end Cert.ReferenceIdeal.RefRun

end
-- ==== Proof.RefRunRound1.lean ====
/-
  Round 1 of the reference's line, two consecutive lists of operations: from the nodes' rows at the round's start,
  the edges' rows and the edge list, the operations gather each edge's source row, add the edge's row, rectify, sum
  the messages per destination node, push node row plus sum through the two dense layers, and normalise per channel
  with row 1 of the two affine tables, then rectify. Read back, the round's result buffer holds the specification's
  round function of the contents before the round; the buffers the round only reads keep their contents.
-/
import proofs.«178875_j64725157151179_1_alg».proof.Proof.RefOps3
import proofs.«178875_j64725157151179_1_alg».proof.Proof.RefOps4
import proofs.«178875_j64725157151179_1_alg».proof.Proof.Spec

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

attribute [local irreducible] Host.gather Host.scatterAdd Host.reduceAdd Host.divf Host.rsqrt in
set_option maxRecDepth 8192 in
set_option maxHeartbeats 4000000 in
/-- The round's result. -/
theorem round1 (V : Valuation τ sig (Elt F)) :
    after seg4 (after seg3 V) (Proc.devRef .tc main_v133)
      = GnnSpec.relu (GnnSpec.bn (GnnSpec.mlp (V (Proc.devRef .tc main_v87)) (GnnSpec.agg (V (Proc.devRef .tc main_v87)) (V (Proc.devRef .tc main_v37)) (V (Proc.devRef .tc main_v39)) (V (Proc.devRef .tc main_v41))) (V (Proc.devRef .tc main_arg7)) (V (Proc.devRef .tc main_arg8)) (V (Proc.devRef .tc main_arg9)) (V (Proc.devRef .tc main_arg10))) (GnnSpec.row1 (V (Proc.devRef .tc main_arg11))) (GnnSpec.row1 (V (Proc.devRef .tc main_arg12)))) := by
  after_results_simp
  rfl

/-- What the round does not write it keeps. -/
theorem round1_keep (V : Valuation τ sig (Elt F)) (r : Ref sig .tc) (ha : r ∉ seg3_W) (hb : r ∉ seg4_W) :
    after seg4 (after seg3 V) (Proc.devRef .tc r) = V (Proc.devRef .tc r) :=
  (seg4_keep _ r hb).trans (seg3_keep V r ha)

end Cert.ReferenceIdeal.RefRun

end
-- ==== Proof.RefRunRound2.lean ====
/-
  Round 2 of the reference's line, two consecutive lists of operations: from the nodes' rows at the round's start,
  the edges' rows and the edge list, the operations gather each edge's source row, add the edge's row, rectify, sum
  the messages per destination node, push node row plus sum through the two dense layers, and normalise per channel
  with row 2 of the two affine tables, then rectify. Read back, the round's result buffer holds the specification's
  round function of the contents before the round; the buffers the round only reads keep their contents.
-/
import proofs.«178875_j64725157151179_1_alg».proof.Proof.RefOps5
import proofs.«178875_j64725157151179_1_alg».proof.Proof.RefOps6
import proofs.«178875_j64725157151179_1_alg».proof.Proof.Spec

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

attribute [local irreducible] Host.gather Host.scatterAdd Host.reduceAdd Host.divf Host.rsqrt in
set_option maxRecDepth 8192 in
set_option maxHeartbeats 4000000 in
/-- The round's result. -/
theorem round2 (V : Valuation τ sig (Elt F)) :
    after seg6 (after seg5 V) (Proc.devRef .tc main_v179)
      = GnnSpec.relu (GnnSpec.bn (GnnSpec.mlp (V (Proc.devRef .tc main_v133)) (GnnSpec.agg (V (Proc.devRef .tc main_v133)) (V (Proc.devRef .tc main_v37)) (V (Proc.devRef .tc main_v39)) (V (Proc.devRef .tc main_v41))) (V (Proc.devRef .tc main_arg7)) (V (Proc.devRef .tc main_arg8)) (V (Proc.devRef .tc main_arg9)) (V (Proc.devRef .tc main_arg10))) (GnnSpec.row2 (V (Proc.devRef .tc main_arg11))) (GnnSpec.row2 (V (Proc.devRef .tc main_arg12)))) := by
  after_results_simp
  rfl

/-- What the round does not write it keeps. -/
theorem round2_keep (V : Valuation τ sig (Elt F)) (r : Ref sig .tc) (ha : r ∉ seg5_W) (hb : r ∉ seg6_W) :
    after seg6 (after seg5 V) (Proc.devRef .tc r) = V (Proc.devRef .tc r) :=
  (seg6_keep _ r hb).trans (seg5_keep V r ha)

end Cert.ReferenceIdeal.RefRun

end
-- ==== Proof.RefRunRound3.lean ====
/-
  Round 3 of the reference's line, two consecutive lists of operations: from the nodes' rows at the round's start,
  the edges' rows and the edge list, the operations gather each edge's source row, add the edge's row, rectify, sum
  the messages per destination node, push node row plus sum through the two dense layers, and normalise per channel
  with row 3 of the two affine tables, then rectify. Read back, the round's result buffer holds the specification's
  round function of the contents before the round; the buffers the round only reads keep their contents.
-/
import proofs.«178875_j64725157151179_1_alg».proof.Proof.RefOps7
import proofs.«178875_j64725157151179_1_alg».proof.Proof.RefOps8
import proofs.«178875_j64725157151179_1_alg».proof.Proof.Spec

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

attribute [local irreducible] Host.gather Host.scatterAdd Host.reduceAdd Host.divf Host.rsqrt in
set_option maxRecDepth 8192 in
set_option maxHeartbeats 4000000 in
/-- The round's result. -/
theorem round3 (V : Valuation τ sig (Elt F)) :
    after seg8 (after seg7 V) (Proc.devRef .tc main_v225)
      = GnnSpec.relu (GnnSpec.bn (GnnSpec.mlp (V (Proc.devRef .tc main_v179)) (GnnSpec.agg (V (Proc.devRef .tc main_v179)) (V (Proc.devRef .tc main_v37)) (V (Proc.devRef .tc main_v39)) (V (Proc.devRef .tc main_v41))) (V (Proc.devRef .tc main_arg7)) (V (Proc.devRef .tc main_arg8)) (V (Proc.devRef .tc main_arg9)) (V (Proc.devRef .tc main_arg10))) (GnnSpec.row3 (V (Proc.devRef .tc main_arg11))) (GnnSpec.row3 (V (Proc.devRef .tc main_arg12)))) := by
  after_results_simp
  rfl

/-- What the round does not write it keeps. -/
theorem round3_keep (V : Valuation τ sig (Elt F)) (r : Ref sig .tc) (ha : r ∉ seg7_W) (hb : r ∉ seg8_W) :
    after seg8 (after seg7 V) (Proc.devRef .tc r) = V (Proc.devRef .tc r) :=
  (seg8_keep _ r hb).trans (seg7_keep V r ha)

end Cert.ReferenceIdeal.RefRun

end
-- ==== Proof.RefRunRound4.lean ====
/-
  Round 4 of the reference's line, two consecutive lists of operations: from the nodes' rows at the round's start,
  the edges' rows and the edge list, the operations gather each edge's source row, add the edge's row, rectify, sum
  the messages per destination node, push node row plus sum through the two dense layers, and normalise per channel
  with row 4 of the two affine tables. Read back, the round's result buffer holds the specification's
  round function of the contents before the round; the buffers the round only reads keep their contents.
-/
import proofs.«178875_j64725157151179_1_alg».proof.Proof.RefOps9
import proofs.«178875_j64725157151179_1_alg».proof.Proof.RefOps10
import proofs.«178875_j64725157151179_1_alg».proof.Proof.Spec

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

attribute [local irreducible] Host.gather Host.scatterAdd Host.reduceAdd Host.divf Host.rsqrt in
set_option maxRecDepth 8192 in
set_option maxHeartbeats 4000000 in
/-- The round's result. -/
theorem round4 (V : Valuation τ sig (Elt F)) :
    after seg10 (after seg9 V) (Proc.devRef .tc main_v270)
      = GnnSpec.bn (GnnSpec.mlp (V (Proc.devRef .tc main_v225)) (GnnSpec.agg (V (Proc.devRef .tc main_v225)) (V (Proc.devRef .tc main_v37)) (V (Proc.devRef .tc main_v39)) (V (Proc.devRef .tc main_v41))) (V (Proc.devRef .tc main_arg7)) (V (Proc.devRef .tc main_arg8)) (V (Proc.devRef .tc main_arg9)) (V (Proc.devRef .tc main_arg10))) (GnnSpec.row4 (V (Proc.devRef .tc main_arg11))) (GnnSpec.row4 (V (Proc.devRef .tc main_arg12))) := by
  after_results_simp
  rfl

/-- What the round does not write it keeps. -/
theorem round4_keep (V : Valuation τ sig (Elt F)) (r : Ref sig .tc) (ha : r ∉ seg9_W) (hb : r ∉ seg10_W) :
    after seg10 (after seg9 V) (Proc.devRef .tc r) = V (Proc.devRef .tc r) :=
  (seg10_keep _ r hb).trans (seg9_keep V r ha)

end Cert.ReferenceIdeal.RefRun

end
-- ==== Proof.RefRunNet.lean ====
/-
  The rounds joined. Through the whole line the edges' rows, the two vectors of the edge list and the weight
  arguments stay where the first fifty operations (or the start) put them, because no later operation writes
  their buffers; so each round finds them unchanged, and finds the nodes' rows the round before left. Feeding
  each round's function the result of the one before gives the network of the specification; and since no
  operation writes an argument's buffer, every argument ends as it started.
-/
import proofs.«178875_j64725157151179_1_alg».proof.Proof.RefRunAll
import proofs.«178875_j64725157151179_1_alg».proof.Proof.RefRunPre
import proofs.«178875_j64725157151179_1_alg».proof.Proof.RefRunRound0
import proofs.«178875_j64725157151179_1_alg».proof.Proof.RefRunRound1
import proofs.«178875_j64725157151179_1_alg».proof.Proof.RefRunRound2
import proofs.«178875_j64725157151179_1_alg».proof.Proof.RefRunRound3
import proofs.«178875_j64725157151179_1_alg».proof.Proof.RefRunRound4
import proofs.«178875_j64725157151179_1_alg».proof.Proof.Spec

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-- What every round finds unchanged, relative to the contents `V0` at the start: the edges' rows, the source and
    destination vectors, and the six weight arguments. -/
structure Kept (V0 V : Valuation τ sig (Elt F)) : Prop where
  e : V (Proc.devRef .tc main_v37) = (GnnSpec.edgeEmb (V0 (Proc.devRef .tc main_arg2)) (V0 (Proc.devRef .tc main_arg5)) (V0 (Proc.devRef .tc main_arg6)))
  s : V (Proc.devRef .tc main_v39) = (GnnSpec.srcOf (V0 (Proc.devRef .tc main_arg1)))
  d : V (Proc.devRef .tc main_v41) = (GnnSpec.dstOf (V0 (Proc.devRef .tc main_arg1)))
  a7 : V (Proc.devRef .tc main_arg7) = (V0 (Proc.devRef .tc main_arg7))
  a8 : V (Proc.devRef .tc main_arg8) = (V0 (Proc.devRef .tc main_arg8))
  a9 : V (Proc.devRef .tc main_arg9) = (V0 (Proc.devRef .tc main_arg9))
  a10 : V (Proc.devRef .tc main_arg10) = (V0 (Proc.devRef .tc main_arg10))
  a11 : V (Proc.devRef .tc main_arg11) = (V0 (Proc.devRef .tc main_arg11))
  a12 : V (Proc.devRef .tc main_arg12) = (V0 (Proc.devRef .tc main_arg12))

/-- After the first fifty operations. -/
theorem kept_pre (V0 : Valuation τ sig (Elt F)) : Kept V0 (after seg0 V0) :=
  ⟨pre_edges V0, pre_src V0, pre_dst V0,
   seg0_keep V0 main_arg7 (by decide),
   seg0_keep V0 main_arg8 (by decide),
   seg0_keep V0 main_arg9 (by decide),
   seg0_keep V0 main_arg10 (by decide),
   seg0_keep V0 main_arg11 (by decide),
   seg0_keep V0 main_arg12 (by decide)⟩

/-- Round 0 writes none of them. -/
theorem kept_round0 {V0 V : Valuation τ sig (Elt F)} (k : Kept V0 V) : Kept V0 (after seg2 (after seg1 V)) :=
  ⟨(round0_keep V main_v37 (by decide) (by decide)).trans k.e,
   (round0_keep V main_v39 (by decide) (by decide)).trans k.s,
   (round0_keep V main_v41 (by decide) (by decide)).trans k.d,
   (round0_keep V main_arg7 (by decide) (by decide)).trans k.a7,
   (round0_keep V main_arg8 (by decide) (by decide)).trans k.a8,
   (round0_keep V main_arg9 (by decide) (by decide)).trans k.a9,
   (round0_keep V main_arg10 (by decide) (by decide)).trans k.a10,
   (round0_keep V main_arg11 (by decide) (by decide)).trans k.a11,
   (round0_keep V main_arg12 (by decide) (by decide)).trans k.a12⟩

/-- Round 1 writes none of them. -/
theorem kept_round1 {V0 V : Valuation τ sig (Elt F)} (k : Kept V0 V) : Kept V0 (after seg4 (after seg3 V)) :=
  ⟨(round1_keep V main_v37 (by decide) (by decide)).trans k.e,
   (round1_keep V main_v39 (by decide) (by decide)).trans k.s,
   (round1_keep V main_v41 (by decide) (by decide)).trans k.d,
   (round1_keep V main_arg7 (by decide) (by decide)).trans k.a7,
   (round1_keep V main_arg8 (by decide) (by decide)).trans k.a8,
   (round1_keep V main_arg9 (by decide) (by decide)).trans k.a9,
   (round1_keep V main_arg10 (by decide) (by decide)).trans k.a10,
   (round1_keep V main_arg11 (by decide) (by decide)).trans k.a11,
   (round1_keep V main_arg12 (by decide) (by decide)).trans k.a12⟩

/-- Round 2 writes none of them. -/
theorem kept_round2 {V0 V : Valuation τ sig (Elt F)} (k : Kept V0 V) : Kept V0 (after seg6 (after seg5 V)) :=
  ⟨(round2_keep V main_v37 (by decide) (by decide)).trans k.e,
   (round2_keep V main_v39 (by decide) (by decide)).trans k.s,
   (round2_keep V main_v41 (by decide) (by decide)).trans k.d,
   (round2_keep V main_arg7 (by decide) (by decide)).trans k.a7,
   (round2_keep V main_arg8 (by decide) (by decide)).trans k.a8,
   (round2_keep V main_arg9 (by decide) (by decide)).trans k.a9,
   (round2_keep V main_arg10 (by decide) (by decide)).trans k.a10,
   (round2_keep V main_arg11 (by decide) (by decide)).trans k.a11,
   (round2_keep V main_arg12 (by decide) (by decide)).trans k.a12⟩

/-- Round 3 writes none of them. -/
theorem kept_round3 {V0 V : Valuation τ sig (Elt F)} (k : Kept V0 V) : Kept V0 (after seg8 (after seg7 V)) :=
  ⟨(round3_keep V main_v37 (by decide) (by decide)).trans k.e,
   (round3_keep V main_v39 (by decide) (by decide)).trans k.s,
   (round3_keep V main_v41 (by decide) (by decide)).trans k.d,
   (round3_keep V main_arg7 (by decide) (by decide)).trans k.a7,
   (round3_keep V main_arg8 (by decide) (by decide)).trans k.a8,
   (round3_keep V main_arg9 (by decide) (by decide)).trans k.a9,
   (round3_keep V main_arg10 (by decide) (by decide)).trans k.a10,
   (round3_keep V main_arg11 (by decide) (by decide)).trans k.a11,
   (round3_keep V main_arg12 (by decide) (by decide)).trans k.a12⟩

/-- Round 0 from nodes' rows `H`, in terms of the contents at the start. -/
theorem round0_spec {V0 V : Valuation τ sig (Elt F)} (k : Kept V0 V) {H : (⟨S50000x128, .f32⟩ : BufTy).Contents (Elt F)}
    (hh : V (Proc.devRef .tc main_v18) = H) :
    after seg2 (after seg1 V) (Proc.devRef .tc main_v87)
      = GnnSpec.relu (GnnSpec.bn (GnnSpec.mlp H (GnnSpec.agg H (GnnSpec.edgeEmb (V0 (Proc.devRef .tc main_arg2)) (V0 (Proc.devRef .tc main_arg5)) (V0 (Proc.devRef .tc main_arg6))) (GnnSpec.srcOf (V0 (Proc.devRef .tc main_arg1))) (GnnSpec.dstOf (V0 (Proc.devRef .tc main_arg1)))) (V0 (Proc.devRef .tc main_arg7)) (V0 (Proc.devRef .tc main_arg8)) (V0 (Proc.devRef .tc main_arg9)) (V0 (Proc.devRef .tc main_arg10))) (GnnSpec.row0 (V0 (Proc.devRef .tc main_arg11))) (GnnSpec.row0 (V0 (Proc.devRef .tc main_arg12)))) := by
  rw [round0, hh, k.e, k.s, k.d, k.a7, k.a8, k.a9, k.a10, k.a11, k.a12]

/-- Round 1 from nodes' rows `H`, in terms of the contents at the start. -/
theorem round1_spec {V0 V : Valuation τ sig (Elt F)} (k : Kept V0 V) {H : (⟨S50000x128, .f32⟩ : BufTy).Contents (Elt F)}
    (hh : V (Proc.devRef .tc main_v87) = H) :
    after seg4 (after seg3 V) (Proc.devRef .tc main_v133)
      = GnnSpec.relu (GnnSpec.bn (GnnSpec.mlp H (GnnSpec.agg H (GnnSpec.edgeEmb (V0 (Proc.devRef .tc main_arg2)) (V0 (Proc.devRef .tc main_arg5)) (V0 (Proc.devRef .tc main_arg6))) (GnnSpec.srcOf (V0 (Proc.devRef .tc main_arg1))) (GnnSpec.dstOf (V0 (Proc.devRef .tc main_arg1)))) (V0 (Proc.devRef .tc main_arg7)) (V0 (Proc.devRef .tc main_arg8)) (V0 (Proc.devRef .tc main_arg9)) (V0 (Proc.devRef .tc main_arg10))) (GnnSpec.row1 (V0 (Proc.devRef .tc main_arg11))) (GnnSpec.row1 (V0 (Proc.devRef .tc main_arg12)))) := by
  rw [round1, hh, k.e, k.s, k.d, k.a7, k.a8, k.a9, k.a10, k.a11, k.a12]

/-- Round 2 from nodes' rows `H`, in terms of the contents at the start. -/
theorem round2_spec {V0 V : Valuation τ sig (Elt F)} (k : Kept V0 V) {H : (⟨S50000x128, .f32⟩ : BufTy).Contents (Elt F)}
    (hh : V (Proc.devRef .tc main_v133) = H) :
    after seg6 (after seg5 V) (Proc.devRef .tc main_v179)
      = GnnSpec.relu (GnnSpec.bn (GnnSpec.mlp H (GnnSpec.agg H (GnnSpec.edgeEmb (V0 (Proc.devRef .tc main_arg2)) (V0 (Proc.devRef .tc main_arg5)) (V0 (Proc.devRef .tc main_arg6))) (GnnSpec.srcOf (V0 (Proc.devRef .tc main_arg1))) (GnnSpec.dstOf (V0 (Proc.devRef .tc main_arg1)))) (V0 (Proc.devRef .tc main_arg7)) (V0 (Proc.devRef .tc main_arg8)) (V0 (Proc.devRef .tc main_arg9)) (V0 (Proc.devRef .tc main_arg10))) (GnnSpec.row2 (V0 (Proc.devRef .tc main_arg11))) (GnnSpec.row2 (V0 (Proc.devRef .tc main_arg12)))) := by
  rw [round2, hh, k.e, k.s, k.d, k.a7, k.a8, k.a9, k.a10, k.a11, k.a12]

/-- Round 3 from nodes' rows `H`, in terms of the contents at the start. -/
theorem round3_spec {V0 V : Valuation τ sig (Elt F)} (k : Kept V0 V) {H : (⟨S50000x128, .f32⟩ : BufTy).Contents (Elt F)}
    (hh : V (Proc.devRef .tc main_v179) = H) :
    after seg8 (after seg7 V) (Proc.devRef .tc main_v225)
      = GnnSpec.relu (GnnSpec.bn (GnnSpec.mlp H (GnnSpec.agg H (GnnSpec.edgeEmb (V0 (Proc.devRef .tc main_arg2)) (V0 (Proc.devRef .tc main_arg5)) (V0 (Proc.devRef .tc main_arg6))) (GnnSpec.srcOf (V0 (Proc.devRef .tc main_arg1))) (GnnSpec.dstOf (V0 (Proc.devRef .tc main_arg1)))) (V0 (Proc.devRef .tc main_arg7)) (V0 (Proc.devRef .tc main_arg8)) (V0 (Proc.devRef .tc main_arg9)) (V0 (Proc.devRef .tc main_arg10))) (GnnSpec.row3 (V0 (Proc.devRef .tc main_arg11))) (GnnSpec.row3 (V0 (Proc.devRef .tc main_arg12)))) := by
  rw [round3, hh, k.e, k.s, k.d, k.a7, k.a8, k.a9, k.a10, k.a11, k.a12]

/-- Round 4 from nodes' rows `H`, in terms of the contents at the start. -/
theorem round4_spec {V0 V : Valuation τ sig (Elt F)} (k : Kept V0 V) {H : (⟨S50000x128, .f32⟩ : BufTy).Contents (Elt F)}
    (hh : V (Proc.devRef .tc main_v225) = H) :
    after seg10 (after seg9 V) (Proc.devRef .tc main_v270)
      = GnnSpec.bn (GnnSpec.mlp H (GnnSpec.agg H (GnnSpec.edgeEmb (V0 (Proc.devRef .tc main_arg2)) (V0 (Proc.devRef .tc main_arg5)) (V0 (Proc.devRef .tc main_arg6))) (GnnSpec.srcOf (V0 (Proc.devRef .tc main_arg1))) (GnnSpec.dstOf (V0 (Proc.devRef .tc main_arg1)))) (V0 (Proc.devRef .tc main_arg7)) (V0 (Proc.devRef .tc main_arg8)) (V0 (Proc.devRef .tc main_arg9)) (V0 (Proc.devRef .tc main_arg10))) (GnnSpec.row4 (V0 (Proc.devRef .tc main_arg11))) (GnnSpec.row4 (V0 (Proc.devRef .tc main_arg12))) := by
  rw [round4, hh, k.e, k.s, k.d, k.a7, k.a8, k.a9, k.a10, k.a11, k.a12]

/-- The result buffer after the whole line holds the network of the contents at the start. -/
theorem net_eq (V0 : Valuation τ sig (Elt F)) :
    after ops V0 (Proc.devRef .tc main_v270)
      = GnnSpec.net (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  have k0 := kept_pre V0
  have k1 := kept_round0 k0
  have k2 := kept_round1 k1
  have k3 := kept_round2 k2
  have k4 := kept_round3 k3
  rw [after_ops]
  exact round4_spec k4 (round3_spec k3 (round2_spec k2 (round1_spec k1 (round0_spec k0 (pre_nodes V0)))))

/-- A buffer none of the eleven lists writes keeps its contents through the whole line. -/
theorem ops_keep (V : Valuation τ sig (Elt F)) (r : Ref sig .tc)
    (h0 : r ∉ seg0_W) (h1 : r ∉ seg1_W) (h2 : r ∉ seg2_W) (h3 : r ∉ seg3_W) (h4 : r ∉ seg4_W) (h5 : r ∉ seg5_W) (h6 : r ∉ seg6_W) (h7 : r ∉ seg7_W) (h8 : r ∉ seg8_W) (h9 : r ∉ seg9_W) (h10 : r ∉ seg10_W) :
    after ops V (Proc.devRef .tc r) = V (Proc.devRef .tc r) := by
  rw [after_ops, seg10_keep _ r h10, seg9_keep _ r h9, seg8_keep _ r h8, seg7_keep _ r h7, seg6_keep _ r h6, seg5_keep _ r h5, seg4_keep _ r h4, seg3_keep _ r h3, seg2_keep _ r h2, seg1_keep _ r h1, seg0_keep _ r h0]

end Cert.ReferenceIdeal.RefRun

end
-- ==== Proof.RefRun.lean ====
/-
  The reference's run: every weakly fair execution of its entry function terminates; the result buffer then holds
  the network of the specification applied to the thirteen argument arrays as they were at the start, and every
  argument array is unchanged. This is the run of the straight line read at the result and at the arguments.
-/
import proofs.«178875_j64725157151179_1_alg».proof.Proof.RefRunAll
import proofs.«178875_j64725157151179_1_alg».proof.Proof.RefRunNet
import proofs.«178875_j64725157151179_1_alg».proof.Proof.Spec

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v270)
        = Cert.GnnSpec.net (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v270).trans (net_eq (launchContents m c)),
      (h c main_arg0).trans (ops_keep (launchContents m c) main_arg0 (by decide) (by decide) (by decide) (by decide) (by decide) (by decide) (by decide) (by decide) (by decide) (by decide) (by decide)),
      (h c main_arg1).trans (ops_keep (launchContents m c) main_arg1 (by decide) (by decide) (by decide) (by decide) (by decide) (by decide) (by decide) (by decide) (by decide) (by decide) (by decide)),
      (h c main_arg2).trans (ops_keep (launchContents m c) main_arg2 (by decide) (by decide) (by decide) (by decide) (by decide) (by decide) (by decide) (by decide) (by decide) (by decide) (by decide)),
      (h c main_arg3).trans (ops_keep (launchContents m c) main_arg3 (by decide) (by decide) (by decide) (by decide) (by decide) (by decide) (by decide) (by decide) (by decide) (by decide) (by decide)),
      (h c main_arg4).trans (ops_keep (launchContents m c) main_arg4 (by decide) (by decide) (by decide) (by decide) (by decide) (by decide) (by decide) (by decide) (by decide) (by decide) (by decide)),
      (h c main_arg5).trans (ops_keep (launchContents m c) main_arg5 (by decide) (by decide) (by decide) (by decide) (by decide) (by decide) (by decide) (by decide) (by decide) (by decide) (by decide)),
      (h c main_arg6).trans (ops_keep (launchContents m c) main_arg6 (by decide) (by decide) (by decide) (by decide) (by decide) (by decide) (by decide) (by decide) (by decide) (by decide) (by decide)),
      (h c main_arg7).trans (ops_keep (launchContents m c) main_arg7 (by decide) (by decide) (by decide) (by decide) (by decide) (by decide) (by decide) (by decide) (by decide) (by decide) (by decide)),
      (h c main_arg8).trans (ops_keep (launchContents m c) main_arg8 (by decide) (by decide) (by decide) (by decide) (by decide) (by decide) (by decide) (by decide) (by decide) (by decide) (by decide)),
      (h c main_arg9).trans (ops_keep (launchContents m c) main_arg9 (by decide) (by decide) (by decide) (by decide) (by decide) (by decide) (by decide) (by decide) (by decide) (by decide) (by decide)),
      (h c main_arg10).trans (ops_keep (launchContents m c) main_arg10 (by decide) (by decide) (by decide) (by decide) (by decide) (by decide) (by decide) (by decide) (by decide) (by decide) (by decide)),
      (h c main_arg11).trans (ops_keep (launchContents m c) main_arg11 (by decide) (by decide) (by decide) (by decide) (by decide) (by decide) (by decide) (by decide) (by decide) (by decide) (by decide)),
      (h c main_arg12).trans (ops_keep (launchContents m c) main_arg12 (by decide) (by decide) (by decide) (by decide) (by decide) (by decide) (by decide) (by decide) (by decide) (by decide) (by decide))⟩)
    (run_all m ρ)

end Cert.ReferenceIdeal.RefRun

end
-- ==== Proof.lean ====
/-
  The two programs compute one function.

  Both are five rounds of message passing over 50000 nodes and 600000 edges followed by a dense update and a
  per-channel normalisation (Proof/Spec.lean states the network once, as a function of the thirteen argument
  arrays). The reference applies the dense update (h + agg)·W1 + b1, rectified, ·W2 + b2 to the whole node array;
  the kernel program applies it to ten blocks of 5000 rows in a launch per round, rounding the factors to a shorter
  float format on the way into each product. On the extended reals a change of float format is the identity and a
  product accumulated from zero is the plain sum over the contracted axis, so a block's rows are exactly the
  corresponding rows of the whole product: no reassociation, and no finiteness of the inputs, is needed. Every other
  operation is the same in both programs, in the same order.

  The frames of the two kernel programs are the generated ones; the reference's frame is its run with the result
  dropped; no rewrite was applied when the idealized kernel program was printed, so that conjunct is trivial; and
  the algebraic conjunct puts the two runs side by side at the network's value of the (agreeing) arguments.
-/
import proofs.«178875_j64725157151179_1_alg».proof.Defs
import proofs.«178875_j64725157151179_1_alg».proof.Proof.Gen.Kernel
import proofs.«178875_j64725157151179_1_alg».proof.Proof.Gen.Kernel.Frame
import proofs.«178875_j64725157151179_1_alg».proof.Proof.Gen.KernelIdeal
import proofs.«178875_j64725157151179_1_alg».proof.Proof.Gen.KernelIdeal.Frame
import proofs.«178875_j64725157151179_1_alg».proof.Proof.Gen.ReferenceIdeal
import proofs.«178875_j64725157151179_1_alg».proof.Proof.Gen.Pre_finite_inputs
import proofs.«178875_j64725157151179_1_alg».proof.Proof.Spec
import proofs.«178875_j64725157151179_1_alg».proof.Proof.KernelRun
import proofs.«178875_j64725157151179_1_alg».proof.Proof.Chain
import proofs.«178875_j64725157151179_1_alg».proof.Proof.Mlp0
import proofs.«178875_j64725157151179_1_alg».proof.Proof.Mlp1
import proofs.«178875_j64725157151179_1_alg».proof.Proof.Mlp2
import proofs.«178875_j64725157151179_1_alg».proof.Proof.Mlp3
import proofs.«178875_j64725157151179_1_alg».proof.Proof.Mlp4
import proofs.«178875_j64725157151179_1_alg».proof.Proof.RefRun

noncomputable section

namespace Cert.Proof

open Idealize.ShloMosaic Idealize.ShloMosaic.TcCoe Idealize.SL.Sem

/-- The word-level kernel program terminates without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.RefRun.run m ρ)

/-- From memories agreeing on the thirteen arguments both programs end with the network's value of them. -/
theorem algebraic : Cert.algebraic_KernelIdeal_ReferenceIdeal := by
  intro m ρ m' ρ' _ hagree
  refine ⟨fun c => Cert.GnnSpec.net (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · refine (θ_run Cert.KernelIdeal.defs _ _).mono (fun _ h c => ⟨(h c).1.trans ?_, (h c).2⟩)
      (Cert.KernelIdeal.KernelRun.run (F := Ideal) m ρ)
    exact Cert.KernelIdeal.Chain.result m ρ c Cert.KernelIdeal.MlpBlocks.value0 Cert.KernelIdeal.MlpBlocks.value1
      Cert.KernelIdeal.MlpBlocks.value2 Cert.KernelIdeal.MlpBlocks.value3 Cert.KernelIdeal.MlpBlocks.value4
  · refine (θ_run Cert.ReferenceIdeal.defs _ _).mono (fun _ h c => ⟨(h c).1.trans ?_, (h c).2⟩)
      (Cert.ReferenceIdeal.RefRun.run m' ρ')
    obtain ⟨e0, e1, e2, e3, e4, e5, e6, e7, e8, e9, e10, e11, e12⟩ := hagree c
    rw [e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
